-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1024 : Shape := ⟨2, ![50000, 1024]⟩
abbrev S50000x3x3 : Shape := ⟨3, ![50000, 3, 3]⟩
abbrev S50000x16x16 : Shape := ⟨3, ![50000, 16, 16]⟩
abbrev S256x256 : Shape := ⟨2, ![256, 256]⟩
abbrev S256 : Shape := ⟨1, ![256]⟩
abbrev S192x192 : Shape := ⟨2, ![192, 192]⟩
abbrev S128x128 : Shape := ⟨2, ![128, 128]⟩
abbrev S64x64 : Shape := ⟨2, ![64, 64]⟩
abbrev S_ : Shape := ⟨0, ![]⟩

class Facts : Prop where
  bcast_S_S50000x1024 : S_.BroadcastsInDim S50000x1024 (![] : Fin 0 → Fin S50000x1024.rank)
  reducesTo_S50000x1024_S_d0_1 : S50000x1024.ReducesTo [0, 1] S_
  h_S_ : 0 < S_.numel
  bcast_S_S50000x3x3 : S_.BroadcastsInDim S50000x3x3 (![] : Fin 0 → Fin S50000x3x3.rank)
  reducesTo_S50000x3x3_S_d0_1_2 : S50000x3x3.ReducesTo [0, 1, 2] S_
  bcast_S_S50000x16x16 : S_.BroadcastsInDim S50000x16x16 (![] : Fin 0 → Fin S50000x16x16.rank)
  reducesTo_S50000x16x16_S_d0_1_2 : S50000x16x16.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S192x192 : S_.BroadcastsInDim S192x192 (![] : Fin 0 → Fin S192x192.rank)
  reducesTo_S192x192_S_d0_1 : S192x192.ReducesTo [0, 1] S_
  bcast_S_S128x128 : S_.BroadcastsInDim S128x128 (![] : Fin 0 → Fin S128x128.rank)
  reducesTo_S128x128_S_d0_1 : S128x128.ReducesTo [0, 1] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64x64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  main_v38

def fn_part1 {F : FTy → Type} [FloatOps F] (main_arg4 : FVec F S256 .f32) (main_arg5 : FVec F S192x192 .f32) (main_arg6 : FVec F S128x128 .f32) (main_arg7 : FVec F S64x64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S192x192 .f32 := Host.absf main_arg5
  let main_cst_8 : FVec F S_ .f32 := constant S_ .f32 0x7F800000#32
  let main_v25 : FVec F S192x192 .f32 := broadcastInDim S192x192 ![] bcast_S_S192x192 main_cst_8
  let main_v26 : IVec S192x192 1 := cmpf .olt main_v24 main_v25
  let main_c_9 : IVec S_ 1 := constantI S_ 1 1#1
  let main_v27 : IVec S_ 1 := (fun x v => Host.reduce IntOp.andi x v reducesTo_S192x192_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S50000x1024 .f32) (main_arg1 : FVec F S50000x3x3 .f32) (main_arg2 : FVec F S50000x16x16 .f32) (main_arg3 : FVec F S256x256 .f32) (main_arg4 : FVec F S256 .f32) (main_arg5 : FVec F S192x192 .f32) (main_arg6 : FVec F S128x128 .f32) (main_arg7 : FVec F S64x64 .f32) : IVec S_ 1 :=
  let main_v0 : FVec F S50000x1024 .f32 := Host.absf main_arg0
  let main_cst : FVec F S_ .f32 := constant S_ .f32 0x7F800000#32
  let main_v1 : FVec F S50000x1024 .f32 := broadcastInDim S50000x1024 ![] bcast_S_S50000x1024 main_cst
  let main_v2 : IVec S50000x1024 1 := cmpf .olt main_v0 main_v1
  let main_c : IVec S_ 1 := constantI S_ 1 1#1
  let main_v3 : IVec S_ 1 := (fun x v => Host.reduce IntOp.andi x v reducesTo_S50000x1024_S_d0_1 h_S_) main_v2 main_c
  let main_v4 : FVec F S50000x3x3 .f32 := Host.absf main_arg1
  let main_cst_0 : FVec F S_ .f32 := constant S_ .f32 0x7F800000#32
  let main_v5 : FVec F S50000x3x3 .f32 := broadcastInDim S50000x3x3 ![] bcast_S_S50000x3x3 main_cst_0
  let main_v6 : IVec S50000x3x3 1 := cmpf .olt main_v4 main_v5
  let main_c_1 : IVec S_ 1 := constantI S_ 1 1#1
  let main_v7 : IVec S_ 1 := (fun x v => Host.reduce IntOp.andi x v reducesTo_S50000x3x3_S_d0_1_2 h_S_) main_v6 main_c_1
  let main_v8 : IVec S_ 1 := andi main_v3 main_v7
  let main_v9 : FVec F S50000x16x16 .f32 := Host.absf main_arg2
  let main_cst_2 : FVec F S_ .f32 := constant S_ .f32 0x7F800000#32
  let main_v10 : FVec F S50000x16x16 .f32 := broadcastInDim S50000x16x16 ![] bcast_S_S50000x16x16 main_cst_2
  let main_v11 : IVec S50000x16x16 1 := cmpf .olt main_v9 main_v10
  let main_c_3 : IVec S_ 1 := constantI S_ 1 1#1
  let main_v12 : IVec S_ 1 := (fun x v => Host.reduce IntOp.andi x v reducesTo_S50000x16x16_S_d0_1_2 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_v13 main_v16
-- ==== Kernel.lean ====
abbrev S50000x1024 : Shape := ⟨2, ![50000, 1024]⟩
abbrev S50000x3x3 : Shape := ⟨3, ![50000, 3, 3]⟩
abbrev S50000x16x16 : Shape := ⟨3, ![50000, 16, 16]⟩
abbrev S256x256 : Shape := ⟨2, ![256, 256]⟩
abbrev S256 : Shape := ⟨1, ![256]⟩
abbrev S192x192 : Shape := ⟨2, ![192, 192]⟩
abbrev S128x128 : Shape := ⟨2, ![128, 128]⟩
abbrev S64x64 : Shape := ⟨2, ![64, 64]⟩
abbrev S50000x64 : Shape := ⟨2, ![50000, 64]⟩
abbrev S50000x64x1 : Shape := ⟨3, ![50000, 64, 1]⟩
abbrev S50000x1x64 : Shape := ⟨3, ![50000, 1, 64]⟩
abbrev S50000x192 : Shape := ⟨2, ![50000, 192]⟩
abbrev S50000x64x3 : Shape := ⟨3, ![50000, 64, 3]⟩
abbrev S50000x3x64 : Shape := ⟨3, ![50000, 3, 64]⟩
abbrev S50000x320 : Shape := ⟨2, ![50000, 320]⟩
abbrev S50000x64x5 : Shape := ⟨3, ![50000, 64, 5]⟩
abbrev S50000x5x64 : Shape := ⟨3, ![50000, 5, 64]⟩
abbrev S50000x448 : Shape := ⟨2, ![50000, 448]⟩
abbrev S50000x64x7 : Shape := ⟨3, ![50000, 64, 7]⟩
abbrev S50000x7x64 : Shape := ⟨3, ![50000, 7, 64]⟩
abbrev S50000x256 : Shape := ⟨2, ![50000, 256]⟩
abbrev S400x64 : Shape := ⟨2, ![400, 64]⟩
abbrev S400x192 : Shape := ⟨2, ![400, 192]⟩
abbrev S400x320 : Shape := ⟨2, ![400, 320]⟩
abbrev S400x448 : Shape := ⟨2, ![400, 448]⟩
abbrev S400x256 : Shape := ⟨2, ![400, 256]⟩
abbrev S400x1 : Shape := ⟨2, ![400, 1]⟩
abbrev S1x256 : Shape := ⟨2, ![1, 256]⟩
abbrev S400x128 : Shape := ⟨2, ![400, 128]⟩

abbrev nBuf : Space → Nat
  | .hbm => 42
  | .vmem => 23
  | .smem => 0
  | _ => 0

abbrev bufTy : (tb : Table) → Fin (tcTables nBuf tb) → BufTy
  | .hbm, ⟨0, _⟩ => ⟨S50000x1024, .f32⟩
  | .hbm, ⟨1, _⟩ => ⟨S50000x3x3, .f32⟩
  | .hbm, ⟨2, _⟩ => ⟨S50000x16x16, .f32⟩
  | .hbm, ⟨3, _⟩ => ⟨S256x256, .f32⟩
  | .hbm, ⟨4, _⟩ => ⟨S256, .f32⟩
  | .hbm, ⟨5, _⟩ => ⟨S192x192, .f32⟩
  | .hbm, ⟨6, _⟩ => ⟨S128x128, .f32⟩
  | .hbm, ⟨7, _⟩ => ⟨S64x64, .f32⟩
  | .hbm, ⟨8, _⟩ => ⟨S50000x64, .f32⟩
  | .hbm, ⟨9, _⟩ => ⟨S50000x64x1, .f32⟩
  | .hbm, ⟨10, _⟩ => ⟨S50000x1x64, .f32⟩
  | .hbm, ⟨11, _⟩ => ⟨S50000x64, .f32⟩
  | .hbm, ⟨12, _⟩ => ⟨S50000x192, .f32⟩
  | .hbm, ⟨13, _⟩ => ⟨S50000x64x3, .f32⟩
  | .hbm, ⟨14, _⟩ => ⟨S50000x3x64, .f32⟩
  | .hbm, ⟨15, _⟩ => ⟨S50000x192, .f32⟩
  | .hbm, ⟨16, _⟩ => ⟨S50000x320, .f32⟩
  | .hbm, ⟨17, _⟩ => ⟨S50000x64x5, .f32⟩
  | .hbm, ⟨18, _⟩ => ⟨S50000x5x64, .f32⟩
  | .hbm, ⟨19, _⟩ => ⟨S50000x320, .f32⟩
  | .hbm, ⟨20, _⟩ => ⟨S50000x448, .f32⟩
  | .hbm, ⟨21, _⟩ => ⟨S50000x64x7, .f32⟩
  | .hbm, ⟨22, _⟩ => ⟨S50000x7x64, .f32⟩
  | .hbm, ⟨23, _⟩ => ⟨S50000x448, .f32⟩
  | .hbm, ⟨24, _⟩ => ⟨S50000x256, .f32⟩
  | .hbm, ⟨25, _⟩ => ⟨S50000x64, .f32⟩
  | .hbm, ⟨26, _⟩ => ⟨S50000x192, .f32⟩
  | .hbm, ⟨27, _⟩ => ⟨S50000x320, .f32⟩
  | .hbm, ⟨28, _⟩ => ⟨S50000x448, .f32⟩
  | .hbm, ⟨29, _⟩ => ⟨S50000x1x64, .f32⟩
  | .hbm, ⟨30, _⟩ => ⟨S50000x64x1, .f32⟩
  | .hbm, ⟨31, _⟩ => ⟨S50000x64, .f32⟩
  | .hbm, ⟨32, _⟩ => ⟨S50000x3x64, .f32⟩
  | .hbm, ⟨33, _⟩ => ⟨S50000x64x3, .f32⟩
  | .hbm, ⟨34, _⟩ => ⟨S50000x192, .f32⟩
  | .hbm, ⟨35, _⟩ => ⟨S50000x5x64, .f32⟩
  | .hbm, ⟨36, _⟩ => ⟨S50000x64x5, .f32⟩
  | .hbm, ⟨37, _⟩ => ⟨S50000x320, .f32⟩
  | .hbm, ⟨38, _⟩ => ⟨S50000x7x64, .f32⟩
  | .hbm, ⟨39, _⟩ => ⟨S50000x64x7, .f32⟩
  | .hbm, ⟨40, _⟩ => ⟨S50000x448, .f32⟩
  | .hbm, ⟨41, _⟩ => ⟨S50000x1024, .f32⟩
  | .local _ .vmem, ⟨0, _⟩ => ⟨S400x64, .f32⟩
  | .local _ .vmem, ⟨1, _⟩ => ⟨S400x64, .f32⟩
  | .local _ .vmem, ⟨2, _⟩ => ⟨S400x192, .f32⟩
  | .local _ .vmem, ⟨3, _⟩ => ⟨S400x192, .f32⟩
  | .local _ .vmem, ⟨4, _⟩ => ⟨S400x320, .f32⟩
  | .local _ .vmem, ⟨5, _⟩ => ⟨S400x320, .f32⟩
  | .local _ .vmem, ⟨6, _⟩ => ⟨S400x448, .f32⟩
  | .local _ .vmem, ⟨7, _⟩ => ⟨S400x448, .f32⟩
  | .local _ .vmem, ⟨8, _⟩ => ⟨S400x256, .f32⟩
  | .local _ .vmem, ⟨9, _⟩ => ⟨S400x256, .f32⟩
  | .local _ .vmem, ⟨10, _⟩ => ⟨S256x256, .f32⟩
  | .local _ .vmem, ⟨11, _⟩ => ⟨S256, .f32⟩
  | .local _ .vmem, ⟨12, _⟩ => ⟨S192x192, .f32⟩
  | .local _ .vmem, ⟨13, _⟩ => ⟨S128x128, .f32⟩
  | .local _ .vmem, ⟨14, _⟩ => ⟨S64x64, .f32⟩
  | .local _ .vmem, ⟨15, _⟩ => ⟨S400x64, .f32⟩
  | .local _ .vmem, ⟨16, _⟩ => ⟨S400x64, .f32⟩
  | .local _ .vmem, ⟨17, _⟩ => ⟨S400x192, .f32⟩
  | .local _ .vmem, ⟨18, _⟩ => ⟨S400x192, .f32⟩
  | .local _ .vmem, ⟨19, _⟩ => ⟨S400x320, .f32⟩
  | .local _ .vmem, ⟨20, _⟩ => ⟨S400x320, .f32⟩
  | .local _ .vmem, ⟨21, _⟩ => ⟨S400x448, .f32⟩
  | .local _ .vmem, ⟨22, _⟩ => ⟨S400x448, .f32⟩
  | _, _ => ⟨S50000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev main_v17_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S400x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S400x192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S400x320 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S400x448 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S50000x1024_S50000x64_0_0 : S50000x1024.Slices ![0, 0] S50000x64
  shapeCasts_S50000x64_S50000x64x1 : S50000x64.ShapeCasts S50000x64x1
  transposes_S50000x64x1_S50000x1x64_0_2_1 : S50000x64x1.Transposes [0, 2, 1] S50000x1x64
  shapeCasts_S50000x1x64_S50000x64 : S50000x1x64.ShapeCasts S50000x64
  slices_S50000x1024_S50000x192_0_64 : S50000x1024.Slices ![0, 64] S50000x192
  shapeCasts_S50000x192_S50000x64x3 : S50000x192.ShapeCasts S50000x64x3
  transposes_S50000x64x3_S50000x3x64_0_2_1 : S50000x64x3.Transposes [0, 2, 1] S50000x3x64
  shapeCasts_S50000x3x64_S50000x192 : S50000x3x64.ShapeCasts S50000x192
  slices_S50000x1024_S50000x320_0_256 : S50000x1024.Slices ![0, 256] S50000x320
  shapeCasts_S50000x320_S50000x64x5 : S50000x320.ShapeCasts S50000x64x5
  transposes_S50000x64x5_S50000x5x64_0_2_1 : S50000x64x5.Transposes [0, 2, 1] S50000x5x64
  shapeCasts_S50000x5x64_S50000x320 : S50000x5x64.ShapeCasts S50000x320
  slices_S50000x1024_S50000x448_0_576 : S50000x1024.Slices ![0, 576] S50000x448
  shapeCasts_S50000x448_S50000x64x7 : S50000x448.ShapeCasts S50000x64x7
  transposes_S50000x64x7_S50000x7x64_0_2_1 : S50000x64x7.Transposes [0, 2, 1] S50000x7x64
  shapeCasts_S50000x7x64_S50000x448 : S50000x7x64.ShapeCasts S50000x448
  shapeCasts_S50000x16x16_S50000x256 : S50000x16x16.ShapeCasts S50000x256
  inb_S400x256_S400x256_0_0 : ∀ a, (![0, 0] : Fin 2 → Nat) a + S400x256.size a ≤ S400x256.size a
  h_S400x256 : 0 < S400x256.numel
  shapeCasts_S400x256_S400x256 : S400x256.ShapeCasts S400x256
  inb_S400x64_S400x64_0_0 : ∀ a, (![0, 0] : Fin 2 → Nat) a + S400x64.size a ≤ S400x64.size a
  h_S400x64 : 0 < S400x64.numel
  shapeCasts_S400x64_S400x64 : S400x64.ShapeCasts S400x64
  inb_S400x192_S400x192_0_0 : ∀ a, (![0, 0] : Fin 2 → Nat) a + S400x192.size a ≤ S400x192.size a
  h_S400x192 : 0 < S400x192.numel
  shapeCasts_S400x192_S400x192 : S400x192.ShapeCasts S400x192
  slices_S400x192_o0_0_S400x64 : S400x192.Slices ![0, 0] S400x64
  slices_S400x192_o0_64_S400x64 : S400x192.Slices ![0, 64] S400x64
  slices_S400x192_o0_128_S400x64 : S400x192.Slices ![0, 128] S400x64
  slices_S400x256_o0_17_S400x1 : S400x256.Slices ![0, 17] S400x1
  broadcasts_S400x1_S400x64 : S400x1.Broadcasts S400x64
  slices_S400x256_o0_33_S400x1 : S400x256.Slices ![0, 33] S400x1
  slices_S400x256_o0_49_S400x1 : S400x256.Slices ![0, 49] S400x1
  slices_S400x256_o0_18_S400x1 : S400x256.Slices ![0, 18] S400x1
  slices_S400x256_o0_34_S400x1 : S400x256.Slices ![0, 34] S400x1
  slices_S400x256_o0_50_S400x1 : S400x256.Slices ![0, 50] S400x1
  slices_S400x256_o0_19_S400x1 : S400x256.Slices ![0, 19] S400x1
  slices_S400x256_o0_35_S400x1 : S400x256.Slices ![0, 35] S400x1
  slices_S400x256_o0_51_S400x1 : S400x256.Slices ![0, 51] S400x1
  inb_S400x320_S400x320_0_0 : ∀ a, (![0, 0] : Fin 2 → Nat) a + S400x320.size a ≤ S400x320.size a
  h_S400x320 : 0 < S400x320.numel
  shapeCasts_S400x320_S400x320 : S400x320.ShapeCasts S400x320
  slices_S400x320_o0_0_S400x64 : S400x320.Slices ![0, 0] S400x64
  slices_S400x320_o0_64_S400x64 : S400x320.Slices ![0, 64] S400x64
  slices_S400x320_o0_128_S400x64 : S400x320.Slices ![0, 128] S400x64
  slices_S400x320_o0_192_S400x64 : S400x320.Slices ![0, 192] S400x64
  slices_S400x320_o0_256_S400x64 : S400x320.Slices ![0, 256] S400x64
  slices_S400x256_o0_68_S400x1 : S400x256.Slices ![0, 68] S400x1
  slices_S400x256_o0_84_S400x1 : S400x256.Slices ![0, 84] S400x1
  slices_S400x256_o0_100_S400x1 : S400x256.Slices ![0, 100] S400x1
  slices_S400x256_o0_116_S400x1 : S400x256.Slices ![0, 116] S400x1
  slices_S400x256_o0_132_S400x1 : S400x256.Slices ![0, 132] S400x1
  slices_S400x256_o0_69_S400x1 : S400x256.Slices ![0, 69] S400x1
  slices_S400x256_o0_85_S400x1 : S400x256.Slices ![0, 85] S400x1
  slices_S400x256_o0_101_S400x1 : S400x256.Slices ![0, 101] S400x1
  slices_S400x256_o0_117_S400x1 : S400x256.Slices ![0, 117] S400x1
  slices_S400x256_o0_133_S400x1 : S400x256.Slices ![0, 133] S400x1
  slices_S400x256_o0_70_S400x1 : S400x256.Slices ![0, 70] S400x1
  slices_S400x256_o0_86_S400x1 : S400x256.Slices ![0, 86] S400x1
  slices_S400x256_o0_102_S400x1 : S400x256.Slices ![0, 102] S400x1
  slices_S400x256_o0_118_S400x1 : S400x256.Slices ![0, 118] S400x1
  slices_S400x256_o0_134_S400x1 : S400x256.Slices ![0, 134] S400x1
  slices_S400x256_o0_71_S400x1 : S400x256.Slices ![0, 71] S400x1
  slices_S400x256_o0_87_S400x1 : S400x256.Slices ![0, 87] S400x1
  slices_S400x256_o0_103_S400x1 : S400x256.Slices ![0, 103] S400x1
  slices_S400x256_o0_119_S400x1 : S400x256.Slices ![0, 119] S400x1
  slices_S400x256_o0_135_S400x1 : S400x256.Slices ![0, 135] S400x1
  slices_S400x256_o0_72_S400x1 : S400x256.Slices ![0, 72] S400x1
  slices_S400x256_o0_88_S400x1 : S400x256.Slices ![0, 88] S400x1
  slices_S400x256_o0_104_S400x1 : S400x256.Slices ![0, 104] S400x1
  slices_S400x256_o0_120_S400x1 : S400x256.Slices ![0, 120] S400x1
  slices_S400x256_o0_136_S400x1 : S400x256.Slices ![0, 136] S400x1
  inb_S400x448_S400x448_0_0 : ∀ a, (![0, 0] : Fin 2 → Nat) a + S400x448.size a ≤ S400x448.size a
  h_S400x448 : 0 < S400x448.numel
  shapeCasts_S400x448_S400x448 : S400x448.ShapeCasts S400x448
  slices_S400x448_o0_0_S400x64 : S400x448.Slices ![0, 0] S400x64
  slices_S400x448_o0_64_S400x64 : S400x448.Slices ![0, 64] S400x64
  slices_S400x448_o0_128_S400x64 : S400x448.Slices ![0, 128] S400x64
  slices_S400x448_o0_192_S400x64 : S400x448.Slices ![0, 192] S400x64
  slices_S400x448_o0_256_S400x64 : S400x448.Slices ![0, 256] S400x64
  slices_S400x448_o0_320_S400x64 : S400x448.Slices ![0, 320] S400x64
  slices_S400x448_o0_384_S400x64 : S400x448.Slices ![0, 384] S400x64
  slices_S400x256_o0_153_S400x1 : S400x256.Slices ![0, 153] S400x1
  slices_S400x256_o0_169_S400x1 : S400x256.Slices ![0, 169] S400x1
  slices_S400x256_o0_185_S400x1 : S400x256.Slices ![0, 185] S400x1
  slices_S400x256_o0_201_S400x1 : S400x256.Slices ![0, 201] S400x1
  slices_S400x256_o0_217_S400x1 : S400x256.Slices ![0, 217] S400x1
  slices_S400x256_o0_233_S400x1 : S400x256.Slices ![0, 233] S400x1
  slices_S400x256_o0_249_S400x1 : S400x256.Slices ![0, 249] S400x1
  slices_S400x256_o0_154_S400x1 : S400x256.Slices ![0, 154] S400x1
  slices_S400x256_o0_170_S400x1 : S400x256.Slices ![0, 170] S400x1
  slices_S400x256_o0_186_S400x1 : S400x256.Slices ![0, 186] S400x1
  slices_S400x256_o0_202_S400x1 : S400x256.Slices ![0, 202] S400x1
  slices_S400x256_o0_218_S400x1 : S400x256.Slices ![0, 218] S400x1
  slices_S400x256_o0_234_S400x1 : S400x256.Slices ![0, 234] S400x1
  slices_S400x256_o0_250_S400x1 : S400x256.Slices ![0, 250] S400x1
  slices_S400x256_o0_155_S400x1 : S400x256.Slices ![0, 155] S400x1
  slices_S400x256_o0_171_S400x1 : S400x256.Slices ![0, 171] S400x1
  slices_S400x256_o0_187_S400x1 : S400x256.Slices ![0, 187] S400x1
  slices_S400x256_o0_203_S400x1 : S400x256.Slices ![0, 203] S400x1
  slices_S400x256_o0_219_S400x1 : S400x256.Slices ![0, 219] S400x1
  slices_S400x256_o0_235_S400x1 : S400x256.Slices ![0, 235] S400x1
  slices_S400x256_o0_251_S400x1 : S400x256.Slices ![0, 251] S400x1
  slices_S400x256_o0_156_S400x1 : S400x256.Slices ![0, 156] S400x1
  slices_S400x256_o0_172_S400x1 : S400x256.Slices ![0, 172] S400x1
  slices_S400x256_o0_188_S400x1 : S400x256.Slices ![0, 188] S400x1
  slices_S400x256_o0_204_S400x1 : S400x256.Slices ![0, 204] S400x1
  slices_S400x256_o0_220_S400x1 : S400x256.Slices ![0, 220] S400x1
  slices_S400x256_o0_236_S400x1 : S400x256.Slices ![0, 236] S400x1
  slices_S400x256_o0_252_S400x1 : S400x256.Slices ![0, 252] S400x1
  slices_S400x256_o0_157_S400x1 : S400x256.Slices ![0, 157] S400x1
  slices_S400x256_o0_173_S400x1 : S400x256.Slices ![0, 173] S400x1
  slices_S400x256_o0_189_S400x1 : S400x256.Slices ![0, 189] S400x1
  slices_S400x256_o0_205_S400x1 : S400x256.Slices ![0, 205] S400x1
  slices_S400x256_o0_221_S400x1 : S400x256.Slices ![0, 221] S400x1
  slices_S400x256_o0_237_S400x1 : S400x256.Slices ![0, 237] S400x1
  slices_S400x256_o0_253_S400x1 : S400x256.Slices ![0, 253] S400x1
  slices_S400x256_o0_158_S400x1 : S400x256.Slices ![0, 158] S400x1
  slices_S400x256_o0_174_S400x1 : S400x256.Slices ![0, 174] S400x1
  slices_S400x256_o0_190_S400x1 : S400x256.Slices ![0, 190] S400x1
  slices_S400x256_o0_206_S400x1 : S400x256.Slices ![0, 206] S400x1
  slices_S400x256_o0_222_S400x1 : S400x256.Slices ![0, 222] S400x1
  slices_S400x256_o0_238_S400x1 : S400x256.Slices ![0, 238] S400x1
  slices_S400x256_o0_254_S400x1 : S400x256.Slices ![0, 254] S400x1
  slices_S400x256_o0_159_S400x1 : S400x256.Slices ![0, 159] S400x1
  slices_S400x256_o0_175_S400x1 : S400x256.Slices ![0, 175] S400x1
  slices_S400x256_o0_191_S400x1 : S400x256.Slices ![0, 191] S400x1
  slices_S400x256_o0_207_S400x1 : S400x256.Slices ![0, 207] S400x1
  slices_S400x256_o0_223_S400x1 : S400x256.Slices ![0, 223] S400x1
  slices_S400x256_o0_239_S400x1 : S400x256.Slices ![0, 239] S400x1
  slices_S400x256_o0_255_S400x1 : S400x256.Slices ![0, 255] S400x1
  concatenates_S400x64_S400x64_S400x64_S400x64_S400x256_d1 : Shape.Concatenates [S400x64, S400x64, S400x64, S400x64] S400x256 1
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  transposes_S256x256_p1_0_S256x256 : S256x256.Transposes [1, 0] S256x256
  inb_S256_S256_0 : ∀ a, (![0] : Fin 1 → Nat) a + S256.size a ≤ S256.size a
  h_S256 : 0 < S256.numel
  shapeCasts_S256_S1x256 : S256.ShapeCasts S1x256
  broadcasts_S1x256_S400x256 : S1x256.Broadcasts S400x256
  concatenates_S400x64_S400x64_S400x64_S400x192_d1 : Shape.Concatenates [S400x64, S400x64, S400x64] S400x192 1
  inb_S192x192_S192x192_0_0 : ∀ a, (![0, 0] : Fin 2 → Nat) a + S192x192.size a ≤ S192x192.size a
  h_S192x192 : 0 < S192x192.numel
  transposes_S192x192_p1_0_S192x192 : S192x192.Transposes [1, 0] S192x192
  concatenates_S400x64_S400x64_S400x128_d1 : Shape.Concatenates [S400x64, S400x64] S400x128 1
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  slices_S400x256_o0_0_S400x64 : S400x256.Slices ![0, 0] S400x64
  slices_S400x256_o0_64_S400x64 : S400x256.Slices ![0, 64] S400x64
  slices_S400x256_o0_128_S400x64 : S400x256.Slices ![0, 128] S400x64
  slices_S400x128_o0_0_S400x64 : S400x128.Slices ![0, 0] S400x64
  concatenates_S400x64_S400x64_S400x64_S400x64_S400x64_S400x320_d1 : Shape.Concatenates [S400x64, S400x64, S400x64, S400x64, S400x64] S400x320 1
  slices_S400x256_o0_192_S400x64 : S400x256.Slices ![0, 192] S400x64
  slices_S400x128_o0_64_S400x64 : S400x128.Slices ![0, 64] S400x64
  concatenates_S400x64_S400x64_S400x64_S400x64_S400x64_S400x64_S400x64_S400x448_d1 : Shape.Concatenates [S400x64, S400x64, S400x64, S400x64, S400x64, S400x64, S400x64] S400x448 1
  shapeCasts_S50000x64_S50000x1x64 : S50000x64.ShapeCasts S50000x1x64
  transposes_S50000x1x64_S50000x64x1_0_2_1 : S50000x1x64.Transposes [0, 2, 1] S50000x64x1
  shapeCasts_S50000x64x1_S50000x64 : S50000x64x1.ShapeCasts S50000x64
  shapeCasts_S50000x192_S50000x3x64 : S50000x192.ShapeCasts S50000x3x64
  transposes_S50000x3x64_S50000x64x3_0_2_1 : S50000x3x64.Transposes [0, 2, 1] S50000x64x3
  shapeCasts_S50000x64x3_S50000x192 : S50000x64x3.ShapeCasts S50000x192
  shapeCasts_S50000x320_S50000x5x64 : S50000x320.ShapeCasts S50000x5x64
  transposes_S50000x5x64_S50000x64x5_0_2_1 : S50000x5x64.Transposes [0, 2, 1] S50000x64x5
  shapeCasts_S50000x64x5_S50000x320 : S50000x64x5.ShapeCasts S50000x320
  shapeCasts_S50000x448_S50000x7x64 : S50000x448.ShapeCasts S50000x7x64
  transposes_S50000x7x64_S50000x64x7_0_2_1 : S50000x7x64.Transposes [0, 2, 1] S50000x64x7
  shapeCasts_S50000x64x7_S50000x448 : S50000x64x7.ShapeCasts S50000x448
  concatenates_S50000x64_S50000x192_S50000x320_S50000x448_S50000x1024_d1 : Shape.Concatenates [S50000x64, S50000x192, S50000x320, S50000x448] S50000x1024 1
  dot_S400x256_S256x256_S400x256_1_0_0_1_n_n_wf : DotDims.WF S400x256 S256x256 S400x256 [1] [0] [0] [1] [] []
  dot_S400x192_S192x192_S400x192_1_0_0_1_n_n_wf : DotDims.WF S400x192 S192x192 S400x192 [1] [0] [0] [1] [] []
  dot_S400x128_S128x128_S400x128_1_0_0_1_n_n_wf : DotDims.WF S400x128 S128x128 S400x128 [1] [0] [0] [1] [] []
  dot_S400x64_S64x64_S400x64_1_0_0_1_n_n_wf : DotDims.WF S400x64 S64x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x64.size a ≤ S50000x64.size a
  hwx0_0 : ∀ i : grid0.Coords, EltTy.bits .f32 = 32 ∨ (Rect.block (s := S50000x64) S400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x192.size a ≤ S50000x192.size a
  hwx0_1 : ∀ i : grid0.Coords, EltTy.bits .f32 = 32 ∨ (Rect.block (s := S50000x192) S400x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x320.size a ≤ S50000x320.size a
  hwx0_2 : ∀ i : grid0.Coords, EltTy.bits .f32 = 32 ∨ (Rect.block (s := S50000x320) S400x320.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x448.size a ≤ S50000x448.size a
  hwx0_3 : ∀ i : grid0.Coords, EltTy.bits .f32 = 32 ∨ (Rect.block (s := S50000x448) S400x448.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x256.size a ≤ S50000x256.size a
  hwx0_4 : ∀ i : grid0.Coords, EltTy.bits .f32 = 32 ∨ (Rect.block (s := S50000x256) S400x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S192x192.size a ≤ S192x192.size a
  hwx0_7 : ∀ i : grid0.Coords, EltTy.bits .f32 = 32 ∨ (Rect.block (s := S192x192) S192x192.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S400x64.size a ≤ S50000x64.size a
  hwx0_10 : ∀ i : grid0.Coords, EltTy.bits .f32 = 32 ∨ (Rect.block (s := S50000x64) S400x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S400x192.size a ≤ S50000x192.size a
  hwx0_11 : ∀ i : grid0.Coords, EltTy.bits .f32 = 32 ∨ (Rect.block (s := S50000x192) S400x192.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S400x320.size a ≤ S50000x320.size a
  hwx0_12 : ∀ i : grid0.Coords, EltTy.bits .f32 = 32 ∨ (Rect.block (s := S50000x320) S400x320.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S400x448.size a ≤ S50000x448.size a
  hwx0_13 : ∀ i : grid0.Coords, EltTy.bits .f32 = 32 ∨ (Rect.block (s := S50000x448) S400x448.size (cc0_transform_13 i) (hinb0_13 i)).WholeWords (EltTy.packing .f32)

variable [Facts₀]

def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def dot_S400x192_S192x192_S400x192_1_0_0_1_n_n : DotDims S400x192 S192x192 S400x192 where
  lhsContracting := [1]
  rhsContracting := [0]
  lhsNonContracting := [0]
  rhsNonContracting := [1]
  lhsBatch := []
  rhsBatch := []
  wf := dot_S400x192_S192x192_S400x192_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf

abbrev win0_0 : Pipeline.Window sig grid0 :=
  Pipeline.Window.ofSpec (Memref.whole main_v3) S400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S400x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S400x320.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S400x448.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S400x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S192x192.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17_0) S400x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v17_1) S400x192.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v17_2) S400x320.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v17_3) S400x448.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S50000x1024 : Shape := ⟨2, ![50000, 1024]⟩
abbrev S50000x3x3 : Shape := ⟨3, ![50000, 3, 3]⟩
abbrev S50000x16x16 : Shape := ⟨3, ![50000, 16, 16]⟩
abbrev S256x256 : Shape := ⟨2, ![256, 256]⟩
abbrev S256 : Shape := ⟨1, ![256]⟩
abbrev S192x192 : Shape := ⟨2, ![192, 192]⟩
abbrev S128x128 : Shape := ⟨2, ![128, 128]⟩
abbrev S64x64 : Shape := ⟨2, ![64, 64]⟩
abbrev S50000x64 : Shape := ⟨2, ![50000, 64]⟩
abbrev S50000x64x1 : Shape := ⟨3, ![50000, 64, 1]⟩
abbrev S50000x192 : Shape := ⟨2, ![50000, 192]⟩
abbrev S50000x64x3 : Shape := ⟨3, ![50000, 64, 3]⟩
abbrev S50000x320 : Shape := ⟨2, ![50000, 320]⟩
abbrev S50000x64x5 : Shape := ⟨3, ![50000, 64, 5]⟩
abbrev S50000x5x5 : Shape := ⟨3, ![50000, 5, 5]⟩
abbrev S50000x448 : Shape := ⟨2, ![50000, 448]⟩
abbrev S50000x64x7 : Shape := ⟨3, ![50000, 64, 7]⟩
abbrev S50000x7x7 : Shape := ⟨3, ![50000, 7, 7]⟩
abbrev S50000x256 : Shape := ⟨2, ![50000, 256]⟩
abbrev S1x256 : Shape := ⟨2, ![1, 256]⟩
abbrev S50000x1x192 : Shape := ⟨3, ![50000, 1, 192]⟩
abbrev S50000x2x192 : Shape := ⟨3, ![50000, 2, 192]⟩
abbrev S50000x128 : Shape := ⟨2, ![50000, 128]⟩
abbrev S50000x1x128 : Shape := ⟨3, ![50000, 1, 128]⟩
abbrev S50000x2x128 : Shape := ⟨3, ![50000, 2, 128]⟩
abbrev S50000x1x64 : Shape := ⟨3, ![50000, 1, 64]⟩
abbrev S50000x2x64 : Shape := ⟨3, ![50000, 2, 64]⟩

abbrev nBuf : Space → Nat
  | .hbm => 133
  | .vmem => 0
  | .smem => 0
  | _ => 0

abbrev hbmTy0_0 (i : Nat) : BufTy := match i % 128 with
  | 0 => ⟨S50000x1024, .f32⟩
  | 1 => ⟨S50000x3x3, .f32⟩
  | 2 => ⟨S50000x16x16, .f32⟩
  | 3 => ⟨S256x256, .f32⟩
  | 4 => ⟨S256, .f32⟩
  | 5 => ⟨S192x192, .f32⟩
  | 6 => ⟨S128x128, .f32⟩
  | 7 => ⟨S64x64, .f32⟩
  | 8 => ⟨S50000x64, .f32⟩
  | 9 => ⟨S50000x64x1, .f32⟩
  | 10 => ⟨S50000x192, .f32⟩
  | 11 => ⟨S50000x64x3, .f32⟩
  | 12 => ⟨S50000x3x3, .f32⟩
  | 13 => ⟨S50000x64x3, .f32⟩
  | 14 => ⟨S50000x320, .f32⟩
  | 15 => ⟨S50000x64x5, .f32⟩
  | 16 => ⟨S50000x5x5, .f32⟩
  | 17 => ⟨S50000x64x5, .f32⟩
  | 18 => ⟨S50000x448, .f32⟩
  | 19 => ⟨S50000x64x7, .f32⟩
  | 20 => ⟨S50000x7x7, .f32⟩
  | 21 => ⟨S50000x64x7, .f32⟩
  | 22 => ⟨S50000x64, .f32⟩
  | 23 => ⟨S50000x64x1, .f32⟩
  | 24 => ⟨S50000x64, .f32⟩
  | 25 => ⟨S50000x64x1, .f32⟩
  | 26 => ⟨S50000x64, .f32⟩
  | 27 => ⟨S50000x64x1, .f32⟩
  | 28 => ⟨S50000x64, .f32⟩
  | 29 => ⟨S50000x256, .f32⟩
  | 30 => ⟨S256x256, .f32⟩
  | 31 => ⟨S50000x256, .f32⟩
  | 32 => ⟨S1x256, .f32⟩
  | 33 => ⟨S50000x256, .f32⟩
  | 34 => ⟨S50000x256, .f32⟩
  | 35 => ⟨S50000x64x1, .f32⟩
  | 36 => ⟨S50000x64, .f32⟩
  | 37 => ⟨S50000x64x1, .f32⟩
  | 38 => ⟨S50000x64, .f32⟩
  | 39 => ⟨S50000x64x1, .f32⟩
  | 40 => ⟨S50000x64, .f32⟩
  | 41 => ⟨S50000x192, .f32⟩
  | 42 => ⟨S50000x64x1, .f32⟩
  | 43 => ⟨S50000x64, .f32⟩
  | 44 => ⟨S50000x64x1, .f32⟩
  | 45 => ⟨S50000x64, .f32⟩
  | 46 => ⟨S50000x64x1, .f32⟩
  | 47 => ⟨S50000x64, .f32⟩
  | 48 => ⟨S50000x192, .f32⟩
  | 49 => ⟨S50000x1x192, .f32⟩
  | 50 => ⟨S50000x1x192, .f32⟩
  | 51 => ⟨S50000x2x192, .f32⟩
  | 52 => ⟨S50000x2x192, .f32⟩
  | 53 => ⟨S50000x64x1, .f32⟩
  | 54 => ⟨S50000x64, .f32⟩
  | 55 => ⟨S50000x64x1, .f32⟩
  | 56 => ⟨S50000x64, .f32⟩
  | 57 => ⟨S50000x128, .f32⟩
  | 58 => ⟨S50000x64x1, .f32⟩
  | 59 => ⟨S50000x64, .f32⟩
  | 60 => ⟨S50000x64x1, .f32⟩
  | 61 => ⟨S50000x64, .f32⟩
  | 62 => ⟨S50000x128, .f32⟩
  | 63 => ⟨S50000x1x128, .f32⟩
  | 64 => ⟨S50000x1x128, .f32⟩
  | 65 => ⟨S50000x2x128, .f32⟩
  | 66 => ⟨S50000x2x128, .f32⟩
  | 67 => ⟨S50000x64x1, .f32⟩
  | 68 => ⟨S50000x64, .f32⟩
  | 69 => ⟨S50000x64x1, .f32⟩
  | 70 => ⟨S50000x64, .f32⟩
  | 71 => ⟨S50000x1x64, .f32⟩
  | 72 => ⟨S50000x1x64, .f32⟩
  | 73 => ⟨S50000x2x64, .f32⟩
  | 74 => ⟨S50000x2x64, .f32⟩
  | 75 => ⟨S50000x64, .f32⟩
  | 76 => ⟨S50000x64x1, .f32⟩
  | 77 => ⟨S50000x64, .f32⟩
  | 78 => ⟨S50000x64, .f32⟩
  | 79 => ⟨S50000x1x64, .f32⟩
  | 80 => ⟨S50000x64, .f32⟩
  | 81 => ⟨S50000x1x64, .f32⟩
  | 82 => ⟨S50000x64, .f32⟩
  | 83 => ⟨S50000x64x1, .f32⟩
  | 84 => ⟨S50000x64x1, .f32⟩
  | 85 => ⟨S50000x64x1, .f32⟩
  | 86 => ⟨S50000x64x3, .f32⟩
  | 87 => ⟨S50000x3x3, .f32⟩
  | 88 => ⟨S50000x64x3, .f32⟩
  | 89 => ⟨S50000x192, .f32⟩
  | 90 => ⟨S50000x64, .f32⟩
  | 91 => ⟨S50000x1x64, .f32⟩
  | 92 => ⟨S50000x64, .f32⟩
  | 93 => ⟨S50000x1x64, .f32⟩
  | 94 => ⟨S50000x64, .f32⟩
  | 95 => ⟨S50000x1x64, .f32⟩
  | 96 => ⟨S50000x64, .f32⟩
  | 97 => ⟨S50000x1x64, .f32⟩
  | 98 => ⟨S50000x64, .f32⟩
  | 99 => ⟨S50000x64x1, .f32⟩
  | 100 => ⟨S50000x64x1, .f32⟩
  | 101 => ⟨S50000x64x1, .f32⟩
  | 102 => ⟨S50000x64x1, .f32⟩
  | 103 => ⟨S50000x64x1, .f32⟩
  | 104 => ⟨S50000x64x5, .f32⟩
  | 105 => ⟨S50000x5x5, .f32⟩
  | 106 => ⟨S50000x64x5, .f32⟩
  | 107 => ⟨S50000x320, .f32⟩
  | 108 => ⟨S50000x64, .f32⟩
  | 109 => ⟨S50000x1x64, .f32⟩
  | 110 => ⟨S50000x64, .f32⟩
  | 111 => ⟨S50000x1x64, .f32⟩
  | 112 => ⟨S50000x64, .f32⟩
  | 113 => ⟨S50000x1x64, .f32⟩
  | 114 => ⟨S50000x64, .f32⟩
  | 115 => ⟨S50000x1x64, .f32⟩
  | 116 => ⟨S50000x64, .f32⟩
  | 117 => ⟨S50000x1x64, .f32⟩
  | 118 => ⟨S50000x64, .f32⟩
  | 119 => ⟨S50000x1x64, .f32⟩
  | 120 => ⟨S50000x64, .f32⟩
  | 121 => ⟨S50000x64x1, .f32⟩
  | 122 => ⟨S50000x64x1, .f32⟩
  | 123 => ⟨S50000x64x1, .f32⟩
  | 124 => ⟨S50000x64x1, .f32⟩
  | 125 => ⟨S50000x64x1, .f32⟩
  | 126 => ⟨S50000x64x1, .f32⟩
  | 127 => ⟨S50000x64x1, .f32⟩
  | _ => ⟨S50000x1024, .f32⟩

abbrev hbmTy0_1 (i : Nat) : BufTy := match i % 128 with
  | 0 => ⟨S50000x64x7, .f32⟩
  | 1 => ⟨S50000x7x7, .f32⟩
  | 2 => ⟨S50000x64x7, .f32⟩
  | 3 => ⟨S50000x448, .f32⟩
  | 4 => ⟨S50000x1024, .f32⟩
  | _ => ⟨S50000x1024, .f32⟩

abbrev hbmTy (i : Nat) : BufTy := match i / 128 with
  | 0 => hbmTy0_0 i
  | 1 => hbmTy0_1 i
  | _ => ⟨S50000x1024, .f32⟩

abbrev bufTy : (tb : Table) → Fin (tcTables nBuf tb) → BufTy
  | .hbm, ⟨i, _⟩ => hbmTy i
  | _, _ => ⟨S50000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩

abbrev nD : Nat := 1
abbrev τ : Topo := Topo.v7x

variable {F : FTy → Type} [FloatOps F]

class Facts₀ : Prop where
  slices_S50000x1024_S50000x64_0_0 : S50000x1024.Slices ![0, 0] S50000x64
  shapeCasts_S50000x64_S50000x64x1 : S50000x64.ShapeCasts S50000x64x1
  slices_S50000x1024_S50000x192_0_64 : S50000x1024.Slices ![0, 64] S50000x192
  shapeCasts_S50000x192_S50000x64x3 : S50000x192.ShapeCasts S50000x64x3
  slices_S50000x16x16_S50000x3x3_0_1_1 : S50000x16x16.Slices ![0, 1, 1] S50000x3x3
  slices_S50000x1024_S50000x320_0_256 : S50000x1024.Slices ![0, 256] S50000x320
  shapeCasts_S50000x320_S50000x64x5 : S50000x320.ShapeCasts S50000x64x5
  slices_S50000x16x16_S50000x5x5_0_4_4 : S50000x16x16.Slices ![0, 4, 4] S50000x5x5
  slices_S50000x1024_S50000x448_0_576 : S50000x1024.Slices ![0, 576] S50000x448
  shapeCasts_S50000x448_S50000x64x7 : S50000x448.ShapeCasts S50000x64x7
  slices_S50000x16x16_S50000x7x7_0_9_9 : S50000x16x16.Slices ![0, 9, 9] S50000x7x7
  shapeCasts_S50000x64x1_S50000x64 : S50000x64x1.ShapeCasts S50000x64
  slices_S50000x64x3_S50000x64x1_0_0_1 : S50000x64x3.Slices ![0, 0, 1] S50000x64x1
  slices_S50000x64x5_S50000x64x1_0_0_2 : S50000x64x5.Slices ![0, 0, 2] S50000x64x1
  slices_S50000x64x7_S50000x64x1_0_0_3 : S50000x64x7.Slices ![0, 0, 3] S50000x64x1
  concatenates_S50000x64_S50000x64_S50000x64_S50000x64_S50000x256_d1 : Shape.Concatenates [S50000x64, S50000x64, S50000x64, S50000x64] S50000x256 1
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S50000x64x3_S50000x64x1_0_0_0 : S50000x64x3.Slices ![0, 0, 0] S50000x64x1
  slices_S50000x64x5_S50000x64x1_0_0_1 : S50000x64x5.Slices ![0, 0, 1] S50000x64x1
  slices_S50000x64x7_S50000x64x1_0_0_2 : S50000x64x7.Slices ![0, 0, 2] S50000x64x1
  concatenates_S50000x64_S50000x64_S50000x64_S50000x192_d1 : Shape.Concatenates [S50000x64, S50000x64, S50000x64] S50000x192 1
  slices_S50000x64x3_S50000x64x1_0_0_2 : S50000x64x3.Slices ![0, 0, 2] S50000x64x1
  slices_S50000x64x5_S50000x64x1_0_0_3 : S50000x64x5.Slices ![0, 0, 3] S50000x64x1
  slices_S50000x64x7_S50000x64x1_0_0_4 : S50000x64x7.Slices ![0, 0, 4] S50000x64x1
  bcast_S50000x192_S50000x1x192_0_2 : S50000x192.BroadcastsInDim S50000x1x192 (![0, 2] : Fin 2 → Fin S50000x1x192.rank)
  concatenates_S50000x1x192_S50000x1x192_S50000x2x192_d1 : Shape.Concatenates [S50000x1x192, S50000x1x192] S50000x2x192 1
  slices_S50000x64x5_S50000x64x1_0_0_0 : S50000x64x5.Slices ![0, 0, 0] S50000x64x1
  slices_S50000x64x7_S50000x64x1_0_0_1 : S50000x64x7.Slices ![0, 0, 1] S50000x64x1
  concatenates_S50000x64_S50000x64_S50000x128_d1 : Shape.Concatenates [S50000x64, S50000x64] S50000x128 1
  slices_S50000x64x5_S50000x64x1_0_0_4 : S50000x64x5.Slices ![0, 0, 4] S50000x64x1
  slices_S50000x64x7_S50000x64x1_0_0_5 : S50000x64x7.Slices ![0, 0, 5] S50000x64x1
  bcast_S50000x128_S50000x1x128_0_2 : S50000x128.BroadcastsInDim S50000x1x128 (![0, 2] : Fin 2 → Fin S50000x1x128.rank)
  concatenates_S50000x1x128_S50000x1x128_S50000x2x128_d1 : Shape.Concatenates [S50000x1x128, S50000x1x128] S50000x2x128 1
  slices_S50000x64x7_S50000x64x1_0_0_0 : S50000x64x7.Slices ![0, 0, 0] S50000x64x1
  slices_S50000x64x7_S50000x64x1_0_0_6 : S50000x64x7.Slices ![0, 0, 6] S50000x64x1
  bcast_S50000x64_S50000x1x64_0_2 : S50000x64.BroadcastsInDim S50000x1x64 (![0, 2] : Fin 2 → Fin S50000x1x64.rank)
  concatenates_S50000x1x64_S50000x1x64_S50000x2x64_d1 : Shape.Concatenates [S50000x1x64, S50000x1x64] S50000x2x64 1
  slices_S50000x256_S50000x64_0_0 : S50000x256.Slices ![0, 0] S50000x64
  bcast_S50000x64_S50000x64x1_0_1 : S50000x64.BroadcastsInDim S50000x64x1 (![0, 1] : Fin 2 → Fin S50000x64x1.rank)
  slices_S50000x256_S50000x64_0_64 : S50000x256.Slices ![0, 64] S50000x64
  slices_S50000x2x192_S50000x1x64_0_0_0 : S50000x2x192.Slices ![0, 0, 0] S50000x1x64
  shapeCasts_S50000x1x64_S50000x64 : S50000x1x64.ShapeCasts S50000x64
  slices_S50000x2x192_S50000x1x64_0_1_0 : S50000x2x192.Slices ![0, 1, 0] S50000x1x64
  concatenates_S50000x64x1_S50000x64x1_S50000x64x1_S50000x64x3_d2 : Shape.Concatenates [S50000x64x1, S50000x64x1, S50000x64x1] S50000x64x3 2
  shapeCasts_S50000x64x3_S50000x192 : S50000x64x3.ShapeCasts S50000x192
  slices_S50000x256_S50000x64_0_128 : S50000x256.Slices ![0, 128] S50000x64
  slices_S50000x2x192_S50000x1x64_0_0_64 : S50000x2x192.Slices ![0, 0, 64] S50000x1x64
  slices_S50000x2x192_S50000x1x64_0_1_64 : S50000x2x192.Slices ![0, 1, 64] S50000x1x64
  slices_S50000x2x128_S50000x1x64_0_0_0 : S50000x2x128.Slices ![0, 0, 0] S50000x1x64
  slices_S50000x2x128_S50000x1x64_0_1_0 : S50000x2x128.Slices ![0, 1, 0] S50000x1x64
  concatenates_S50000x64x1_S50000x64x1_S50000x64x1_S50000x64x1_S50000x64x1_S50000x64x5_d2 : Shape.Concatenates [S50000x64x1, S50000x64x1, S50000x64x1, S50000x64x1, S50000x64x1] S50000x64x5 2
  shapeCasts_S50000x64x5_S50000x320 : S50000x64x5.ShapeCasts S50000x320
  slices_S50000x256_S50000x64_0_192 : S50000x256.Slices ![0, 192] S50000x64
  slices_S50000x2x192_S50000x1x64_0_0_128 : S50000x2x192.Slices ![0, 0, 128] S50000x1x64
  slices_S50000x2x192_S50000x1x64_0_1_128 : S50000x2x192.Slices ![0, 1, 128] S50000x1x64
  slices_S50000x2x128_S50000x1x64_0_0_64 : S50000x2x128.Slices ![0, 0, 64] S50000x1x64
  slices_S50000x2x128_S50000x1x64_0_1_64 : S50000x2x128.Slices ![0, 1, 64] S50000x1x64
  slices_S50000x2x64_S50000x1x64_0_0_0 : S50000x2x64.Slices ![0, 0, 0] S50000x1x64
  slices_S50000x2x64_S50000x1x64_0_1_0 : S50000x2x64.Slices ![0, 1, 0] S50000x1x64
  concatenates_S50000x64x1_S50000x64x1_S50000x64x1_S50000x64x1_S50000x64x1_S50000x64x1_S50000x64x1_S50000x64x7_d2 : Shape.Concatenates [S50000x64x1, S50000x64x1, S50000x64x1, S50000x64x1, S50000x64x1, S50000x64x1, S50000x64x1] S50000x64x7 2
  shapeCasts_S50000x64x7_S50000x448 : S50000x64x7.ShapeCasts S50000x448
  concatenates_S50000x64_S50000x192_S50000x320_S50000x448_S50000x1024_d1 : Shape.Concatenates [S50000x64, S50000x192, S50000x320, S50000x448] S50000x1024 1
  dot_S50000x64x3_S50000x3x3_S50000x64x3_2_1_1_2_0_0_wf : DotDims.WF S50000x64x3 S50000x3x3 S50000x64x3 [2] [1] [1] [2] [0] [0]
  dot_S50000x64x5_S50000x5x5_S50000x64x5_2_1_1_2_0_0_wf : DotDims.WF S50000x64x5 S50000x5x5 S50000x64x5 [2] [1] [1] [2] [0] [0]
  dot_S50000x64x7_S50000x7x7_S50000x64x7_2_1_1_2_0_0_wf : DotDims.WF S50000x64x7 S50000x7x7 S50000x64x7 [2] [1] [1] [2] [0] [0]
  dot_S50000x256_S256x256_S50000x256_1_0_0_1_n_n_wf : DotDims.WF S50000x256 S256x256 S50000x256 [1] [0] [0] [1] [] []
  dot_S50000x2x192_S192x192_S50000x2x192_2_1_01_0_n_n_wf : DotDims.WF S50000x2x192 S192x192 S50000x2x192 [2] [1] [0, 1] [0] [] []
  dot_S50000x2x128_S128x128_S50000x2x128_2_1_01_0_n_n_wf : DotDims.WF S50000x2x128 S128x128 S50000x2x128 [2] [1] [0, 1] [0] [] []
  dot_S50000x2x64_S64x64_S50000x2x64_2_1_01_0_n_n_wf : DotDims.WF S50000x2x64 S64x64 S50000x2x64 [2] [1] [0, 1] [0] [] []
  dot_S50000x64x3_S50000x3x3_S50000x64x3_2_2_1_1_0_0_wf : DotDims.WF S50000x64x3 S50000x3x3 S50000x64x3 [2] [2] [1] [1] [0] [0]
  dot_S50000x64x5_S50000x5x5_S50000x64x5_2_2_1_1_0_0_wf : DotDims.WF S50000x64x5 S50000x5x5 S50000x64x5 [2] [2] [1] [1] [0] [0]
  dot_S50000x64x7_S50000x7x7_S50000x64x7_2_2_1_1_0_0_wf : DotDims.WF S50000x64x7 S50000x7x7 S50000x64x7 [2] [2] [1] [1] [0] [0]

variable [Facts₀]

def dot_S50000x64x3_S50000x3x3_S50000x64x3_2_1_1_2_0_0 : DotDims S50000x64x3 S50000x3x3 S50000x64x3 where
  lhsContracting := [2]
  rhsContracting := [1]
  lhsNonContracting := [1]
  rhsNonContracting := [2]
  lhsBatch := [0]
  rhsBatch := [0]
  wf := dot_S50000x64x3_S50000x3x3_S50000x64x3_2_1_1_2_0_0_wf
def dot_S50000x64x5_S50000x5x5_S50000x64x5_2_1_1_2_0_0 : DotDims S50000x64x5 S50000x5x5 S50000x64x5 where
  lhsContracting := [2]
  rhsContracting := [1]
  lhsNonContracting := [1]
  rhsNonContracting := [2]
  lhsBatch := [0]
  rhsBatch := [0]
  wf := dot_S50000x64x5_S50000x5x5_S50000x64x5_2_1_1_2_0_0_wf
def dot_S50000x64x7_S50000x7x7_S50000x64x7_2_1_1_2_0_0 : DotDims S50000x64x7 S50000x7x7 S50000x64x7 where
  lhsContracting := [2]
  rhsContracting := [1]
  lhsNonContracting := [1]
  rhsNonContracting := [2]
  lhsBatch := [0]
  rhsBatch := [0]
  wf := dot_S50000x64x7_S50000x7x7_S50000x64x7_2_1_1_2_0_0_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x2x192_S192x192_S50000x2x192_2_1_01_0_n_n : DotDims S50000x2x192 S192x192 S50000x2x192 where
  lhsContracting := [2]
  rhsContracting := [1]
  lhsNonContracting := [0, 1]
  rhsNonContracting := [0]
  lhsBatch := []
  rhsBatch := []
  wf := dot_S50000x2x192_S192x192_S50000x2x192_2_1_01_0_n_n_wf
def dot_S50000x2x128_S128x128_S50000x2x128_2_1_01_0_n_n : DotDims S50000x2x128 S128x128 S50000x2x128 where
  lhsContracting := [2]
  rhsContracting := [1]
  lhsNonContracting := [0, 1]
  rhsNonContracting := [0]
  lhsBatch := []
  rhsBatch := []
  wf := dot_S50000x2x128_S128x128_S50000x2x128_2_1_01_0_n_n_wf
def dot_S50000x2x64_S64x64_S50000x2x64_2_1_01_0_n_n : DotDims S50000x2x64 S64x64 S50000x2x64 where
  lhsContracting := [2]
  rhsContracting := [1]
  lhsNonContracting := [0, 1]
  rhsNonContracting := [0]
  lhsBatch := []
  rhsBatch := []
  wf := dot_S50000x2x64_S64x64_S50000x2x64_2_1_01_0_n_n_wf
def dot_S50000x64x3_S50000x3x3_S50000x64x3_2_2_1_1_0_0 : DotDims S50000x64x3 S50000x3x3 S50000x64x3 where
  lhsContracting := [2]
  rhsContracting := [2]
  lhsNonContracting := [1]
  rhsNonContracting := [1]
  lhsBatch := [0]
  rhsBatch := [0]
  wf := dot_S50000x64x3_S50000x3x3_S50000x64x3_2_2_1_1_0_0_wf
def dot_S50000x64x5_S50000x5x5_S50000x64x5_2_2_1_1_0_0 : DotDims S50000x64x5 S50000x5x5 S50000x64x5 where
  lhsContracting := [2]
  rhsContracting := [2]
  lhsNonContracting := [1]
  rhsNonContracting := [1]
  lhsBatch := [0]
  rhsBatch := [0]
  wf := dot_S50000x64x5_S50000x5x5_S50000x64x5_2_2_1_1_0_0_wf
def dot_S50000x64x7_S50000x7x7_S50000x64x7_2_2_1_1_0_0 : DotDims S50000x64x7 S50000x7x7 S50000x64x7 where
  lhsContracting := [2]
  rhsContracting := [2]
  lhsNonContracting := [1]
  rhsNonContracting := [1]
  lhsBatch := [0]
  rhsBatch := [0]
  wf := dot_S50000x64x7_S50000x7x7_S50000x64x7_2_2_1_1_0_0_wf

class Facts : Prop extends Facts₀ where

variable [Facts]
-- ==== Proof.FrameBitsA.lean ====
/-
  The frame of the program, first half: the program's entry function around its one region.

  The entry function is seventeen host operations (four column slabs of the first argument, each regrouped from
  channel-major to component-major, and the third argument flattened to rows of 256), the region, and thirteen host
  operations (each result slab regrouped back, then the four concatenated). This module states what the region finds in
  every buffer (the valuation after the first seventeen operations), that no host operation writes an argument, that the
  thirteen later operations touch only unscoped buffers, allocate nothing and write no array of the region, what block
  of its array each of the fourteen windows holds at a grid point, that an input window's buffer holds that block at
  every point whether or not it was fetched there, and how the claim "the run ends with the eight arguments
  unchanged" follows from the library's statement of what a run of the region leaves.
-/
import proofs.«104001_j24927990186029_2_alg».proof.Proof.Gen.Kernel.Launch
import proofs.«104001_j24927990186029_2_alg».proof.Proof.Gen.Kernel.Skeleton
import proofs.«104001_j24927990186029_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of the blocks' extents: the elaborator's structural look recurses once per coordinate
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The entry function around the region -/

/-- What every buffer of core `c` holds when the region is entered: the launch contents after the seventeen host
    operations before it. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The entry function is the host operations before the region, the region, and the host operations after it: run
    from the launch contents it reduces to the region entered at `V` and continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch the region's arrays and the buffers that bypass it, nothing else: each
    touches unscoped references of the core only, and with no prefetched table those are exactly these. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none writes an array of the region: each writes its own result buffer only, and no result of theirs is one of
    the fourteen arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## No host operation writes an argument -/

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Argument 0 is no array of the region and no host operation after the region writes it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Argument 1 is no array of the region and no host operation after the region writes it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Argument 2 is no array of the region and no host operation after the region writes it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not (a point that does not
    fetch it has the block index of the point before), for any proof data whose array is the region-entry contents and
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, fetched there or not (a point that does not
    fetch it has the block index of the point before), for any proof data whose array is the region-entry contents and
    whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, fetched there or not (a point that does not
    fetch it has the block index of the point before), for any proof data whose array is the region-entry contents and
    whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current buffer holds its block at every point, fetched there or not (a point that does not
    fetch it has the block index of the point before), for any proof data whose array is the region-entry contents and
    whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current buffer holds its block at every point, fetched there or not (a point that does not
    fetch it has the block index of the point before), for any proof data whose array is the region-entry contents and
    whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current buffer holds its block at every point, fetched there or not (a point that does not
    fetch it has the block index of the point before), for any proof data whose array is the region-entry contents and
    whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current buffer holds its block at every point, fetched there or not (a point that does not
    fetch it has the block index of the point before), for any proof data whose array is the region-entry contents and
    whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current buffer holds its block at every point, fetched there or not (a point that does not
    fetch it has the block index of the point before), for any proof data whose array is the region-entry contents and
    whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current buffer holds its block at every point, fetched there or not (a point that does not
    fetch it has the block index of the point before), for any proof data whose array is the region-entry contents and
    whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current buffer holds its block at every point, fetched there or not (a point that does not
    fetch it has the block index of the point before), for any proof data whose array is the region-entry contents and
    whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged, from what a run of the region leaves -/

/-- For any proof data whose arrays are the region-entry contents, a run ending in the library's statement — every
    array of the region at what the proof data compute, every other unscoped buffer as the later operations leave
    it — ends with the eight arguments unchanged: arguments 0, 1, 2 are no array of the region (the second clause,
    then `W_main_argK`), arguments 3 … 7 are the arrays of the input windows 5 … 9 (an input array ends at its entry
    contents, then `V_main_argK`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).1 5).trans (((dats 0 c).arrAt_in 5 rfl _).trans ((hA c 5).trans (V_main_arg3 m c))),
    ((h c).1 6).trans (((dats 0 c).arrAt_in 6 rfl _).trans ((hA c 6).trans (V_main_arg4 m c))),
    ((h c).1 7).trans (((dats 0 c).arrAt_in 7 rfl _).trans ((hA c 7).trans (V_main_arg5 m c))),
    ((h c).1 8).trans (((dats 0 c).arrAt_in 8 rfl _).trans ((hA c 8).trans (V_main_arg6 m c))),
    ((h c).1 9).trans (((dats 0 c).arrAt_in 9 rfl _).trans ((hA c 9).trans (V_main_arg7 m c)))⟩) h

end Cert.Kernel.Frame

end
-- ==== Proof.BodyValsBits.lean ====
/-
  The kernel body as ONE pure function of its ten input blocks.

  At a grid point the body loads the ten input blocks whole — the four component-major slabs of the
  point's 400 rows (widths 64, 192, 320, 448: component `c` of degree `l` in columns `64 c … 64 c + 63`), the rows'
  flattened 16 × 16 rotation matrices, and the four mixing matrices and the bias — and stores four whole
  blocks. Every value it computes on the way is one of the generated payload terms applied to earlier values; this
  module names each of them over the record `Blocks` of the ten loaded blocks, in the order the body computes them, so
  that the four stored blocks `o10 … o13` are plain compositions with no memory operation in them.
-/
import proofs.«104001_j24927990186029_2_alg».proof.Proof.Gen.Kernel.Skeleton

noncomputable section

namespace Cert.Kernel.Body

open Idealize.ShloMosaic Cert.Kernel Cert.Kernel.Gen

variable {F : FTy → Type} [FloatOps F]

/-- The ten blocks the body loads at a grid point: the four slabs, the rotation rows, the weights and the bias. -/
structure Blocks (F : FTy → Type) where
  x0 : Vec F S400x64 .f32
  x1 : Vec F S400x192 .f32
  x2 : Vec F S400x320 .f32
  x3 : Vec F S400x448 .f32
  x4 : Vec F S400x256 .f32
  x5 : Vec F S256x256 .f32
  x6 : Vec F S256 .f32
  x7 : Vec F S192x192 .f32
  x8 : Vec F S128x128 .f32
  x9 : Vec F S64x64 .f32

variable (b : Blocks F)

/-! ## The forward rotation's values (degrees 1, 2, 3) and the rows they are gathered into -/

def v1 := k0_pay2 b.x4
def v3 := k0_pay3 b.x0
def v19 := k0_pay8 b.x4 b.x1
def v30 := k0_pay9 b.x4 b.x1
def v41 := k0_pay10 b.x4 b.x1
def v44 := k0_pay12 b.x2
def v45 := k0_pay13 b.x2
def v46 := k0_pay14 b.x2
def v47 := k0_pay15 b.x2
def v48 := k0_pay16 b.x2
def v50 := k0_pay17 b.x4
def v67 := k0_pay18 (v1 b) (v44 b) (v45 b) (v46 b) (v47 b) (v48 b) (v50 b)
def v86 := k0_pay19 (v1 b) (v44 b) (v45 b) (v46 b) (v47 b) (v48 b)
def v105 := k0_pay20 (v1 b) (v44 b) (v45 b) (v46 b) (v47 b) (v48 b)
def v108 := k0_pay21 (v1 b) (v44 b)
def v110 := k0_pay22 (v1 b)
def v124 := k0_pay23 (v1 b) (v45 b) (v46 b) (v47 b) (v48 b) (v108 b) (v110 b)
def v143 := k0_pay24 (v1 b) (v44 b) (v45 b) (v46 b) (v47 b) (v48 b)
def v146 := k0_pay26 b.x3
def v147 := k0_pay27 b.x3
def v148 := k0_pay28 b.x3
def v149 := k0_pay29 b.x3
def v150 := k0_pay30 b.x3
def v151 := k0_pay31 b.x3
def v152 := k0_pay32 b.x3
def v167 := k0_pay33 (v1 b) b.x3
def v168 := k0_pay34 (v1 b)
def v179 := k0_pay35 (v1 b) (v150 b) (v151 b) (v152 b) (v167 b) (v168 b)
def v206 := k0_pay36 (v1 b) (v146 b) (v147 b) (v148 b) (v149 b) (v150 b) (v151 b) (v152 b)
def v225 := k0_pay37 (v1 b) (v146 b) (v147 b) (v148 b) (v149 b) (v150 b)
def v228 := k0_pay38 (v1 b) (v151 b)
def v233 := k0_pay39 (v1 b) (v152 b) (v225 b) (v228 b)
def v260 := k0_pay40 (v1 b) (v146 b) (v147 b) (v148 b) (v149 b) (v150 b) (v151 b) (v152 b)
def v287 := k0_pay41 (v1 b) (v146 b) (v147 b) (v148 b) (v149 b) (v150 b) (v151 b) (v152 b)
def v288 := k0_pay42 (v1 b)
def v314 := k0_pay43 (v1 b) (v146 b) (v147 b) (v148 b) (v149 b) (v150 b) (v151 b) (v152 b) (v288 b)
def v341 := k0_pay44 (v1 b) (v146 b) (v147 b) (v148 b) (v149 b) (v150 b) (v151 b) (v152 b)

/-! ## The channel mixes: the order-0 row against `W_m0` plus the bias, the ±m rows against `W_m1`, `W_m2`, `W_m3` -/

def v345 := k0_pay45 (v3 b) (v30 b) (v105 b) (v260 b)
def v346 := k0_pay46 b.x5
def v351 := k0_pay47 (v345 b) (v346 b) b.x6
def v358 := k0_pay49 (v19 b) (v86 b) (v233 b) b.x7
def v361 := k0_pay50 (v41 b) (v124 b) (v287 b) b.x7
def v368 := k0_pay52 (v67 b) (v206 b) b.x8
def v371 := k0_pay53 (v143 b) (v314 b) b.x8
def v376 := k0_pay55 (v179 b) b.x9
def v379 := k0_pay56 (v341 b) b.x9
def v382 := k0_pay58 (v345 b) (v346 b) b.x6
def v383 := k0_pay59 (v19 b) (v86 b) (v233 b) b.x7
def v384 := k0_pay60 (v41 b) (v124 b) (v287 b) b.x7
def v387 := k0_pay61 (v1 b) (v19 b) (v86 b) (v233 b) b.x7
def v389 := k0_pay62 (v1 b)

/-! ## The inverse rotation's values -/

def v420 := k0_pay64 (v351 b)
def v421 := k0_pay65 (v358 b)
def v422 := k0_pay66 (v361 b)
def v423 := k0_pay67 (v368 b)
def v424 := k0_pay68 (v371 b)
def v443 := k0_pay69 (v1 b) (v351 b) (v358 b) (v361 b) (v368 b) (v371 b)
def v446 := k0_pay70 (v1 b) (v368 b)
def v462 := k0_pay71 (v1 b) (v420 b) (v421 b) (v422 b) (v424 b) (v446 b)
def v481 := k0_pay72 (v1 b) (v420 b) (v421 b) (v422 b) (v423 b) (v424 b)
def v500 := k0_pay73 (v1 b) (v420 b) (v421 b) (v422 b) (v423 b) (v424 b)
def v503 := k0_pay74 (v1 b) (v423 b)
def v506 := k0_pay75 (v1 b) (v421 b)
def v522 := k0_pay77 (v351 b)
def v523 := k0_pay78 (v358 b)
def v524 := k0_pay79 (v361 b)
def v525 := k0_pay80 (v368 b)
def v526 := k0_pay81 (v371 b)
def v553 := k0_pay82 (v1 b) (v351 b) (v358 b) (v361 b) (v368 b) (v371 b) (v376 b) (v379 b)
def v560 := k0_pay83 (v1 b) (v368 b) (v376 b)
def v563 := k0_pay84 (v1 b) (v358 b)
def v580 := k0_pay85 (v1 b) (v379 b) (v522 b) (v524 b) (v526 b) (v560 b) (v563 b)
def v607 := k0_pay86 (v1 b) (v376 b) (v379 b) (v522 b) (v523 b) (v524 b) (v525 b) (v526 b)
def v622 := k0_pay87 (v1 b) (v376 b) (v522 b) (v523 b) (v525 b)
def v623 := k0_pay88 (v1 b)
def v634 := k0_pay89 (v1 b) (v379 b) (v524 b) (v526 b) (v622 b) (v623 b)
def v661 := k0_pay90 (v1 b) (v376 b) (v379 b) (v522 b) (v523 b) (v524 b) (v525 b) (v526 b)
def v680 := k0_pay91 (v1 b) (v376 b) (v522 b) (v523 b) (v524 b) (v525 b)
def v683 := k0_pay92 (v1 b) (v526 b)

/-! ## The four stored blocks -/

/-- The degree-0 block (400 × 64). -/
def o10 := k0_pay57 (v345 b) (v346 b) b.x6
/-- The degree-1 block (400 × 192), component-major. -/
def o11 := k0_pay63 (v1 b) (v382 b) (v383 b) (v384 b) (v387 b) (v389 b)
/-- The degree-2 block (400 × 320), component-major. -/
def o12 := k0_pay76 (v1 b) (v420 b) (v422 b) (v424 b) (v443 b) (v462 b) (v481 b) (v500 b) (v503 b) (v506 b)
/-- The degree-3 block (400 × 448), component-major. -/
def o13 := k0_pay1 (v1 b) (v376 b) (v379 b) (v522 b) (v523 b) (v524 b) (v525 b) (v526 b) (v553 b) (v580 b) (v607 b) (v634 b) (v661 b) (v680 b) (v683 b)

end Cert.Kernel.Body

end
-- ==== Proof.FrameBitsB.lean ====
/-
  The frame of the program, second half, part one: the kernel body as a triple over its fourteen buffers.

  At a grid point the body loads its ten input buffers whole, computes, and stores each of its four output buffers
  whole, once, through the rectangle that is the whole buffer (it also loads each output buffer just before storing it
  and never uses what it read). So it leaves every input buffer as it found it, and output buffer `k` holding the one
  stored block: the payload composition `Body.o1k` of the ten loaded blocks. A load through the whole-buffer rectangle
  reads the buffer's contents, and a single store through it leaves exactly its payload.
-/
import proofs.«104001_j24927990186029_2_alg».proof.Proof.FrameBitsA
import proofs.«104001_j24927990186029_2_alg».proof.Proof.BodyValsBits
import Idealize.ShloMosaic.Lib.Pipeline.Value

-- membership in a rectangle of the blocks' extents: the elaborator's structural look recurses once per coordinate
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The whole-buffer rectangles -/

theorem hz2 : (![0, 0] : Fin 2 → Nat) = fun _ => 0 := funext fun a => by fin_cases a <;> rfl
theorem hz1 : (![0] : Fin 1 → Nat) = fun _ => 0 := funext fun a => by fin_cases a <;> rfl
/-- The whole of a buffer of window 0's block shape (also output window 10's). -/
abbrev r0 : Rect S400x64 := Rect.unit (s := S400x64) ![0, 0] S400x64.size inb_S400x64_S400x64_0_0
/-- The whole of a buffer of window 1's block shape (also output window 11's). -/
abbrev r1 : Rect S400x192 := Rect.unit (s := S400x192) ![0, 0] S400x192.size inb_S400x192_S400x192_0_0
/-- The whole of a buffer of window 2's block shape (also output window 12's). -/
abbrev r2 : Rect S400x320 := Rect.unit (s := S400x320) ![0, 0] S400x320.size inb_S400x320_S400x320_0_0
/-- The whole of a buffer of window 3's block shape (also output window 13's). -/
abbrev r3 : Rect S400x448 := Rect.unit (s := S400x448) ![0, 0] S400x448.size inb_S400x448_S400x448_0_0
/-- The whole of a buffer of window 4's block shape. -/
abbrev r4 : Rect S400x256 := Rect.unit (s := S400x256) ![0, 0] S400x256.size inb_S400x256_S400x256_0_0
/-- The whole of a buffer of window 5's block shape. -/
abbrev r5 : Rect S256x256 := Rect.unit (s := S256x256) ![0, 0] S256x256.size inb_S256x256_S256x256_0_0
/-- The whole of a buffer of window 6's block shape. -/
abbrev r6 : Rect S256 := Rect.unit (s := S256) ![0] S256.size inb_S256_S256_0
/-- The whole of a buffer of window 7's block shape. -/
abbrev r7 : Rect S192x192 := Rect.unit (s := S192x192) ![0, 0] S192x192.size inb_S192x192_S192x192_0_0
/-- The whole of a buffer of window 8's block shape. -/
abbrev r8 : Rect S128x128 := Rect.unit (s := S128x128) ![0, 0] S128x128.size inb_S128x128_S128x128_0_0
/-- The whole of a buffer of window 9's block shape. -/
abbrev r9 : Rect S64x64 := Rect.unit (s := S64x64) ![0, 0] S64x64.size inb_S64x64_S64x64_0_0

/-- A load through the whole-buffer rectangle reads the contents. -/
theorem ld_r0 (x : Vec F S400x64 .f32) : View.ld x r0 = x := View.ld_unit_zero (S := S400x64) hz2 inb_S400x64_S400x64_0_0 x
theorem ld_r1 (x : Vec F S400x192 .f32) : View.ld x r1 = x := View.ld_unit_zero (S := S400x192) hz2 inb_S400x192_S400x192_0_0 x
theorem ld_r2 (x : Vec F S400x320 .f32) : View.ld x r2 = x := View.ld_unit_zero (S := S400x320) hz2 inb_S400x320_S400x320_0_0 x
theorem ld_r3 (x : Vec F S400x448 .f32) : View.ld x r3 = x := View.ld_unit_zero (S := S400x448) hz2 inb_S400x448_S400x448_0_0 x
theorem ld_r4 (x : Vec F S400x256 .f32) : View.ld x r4 = x := View.ld_unit_zero (S := S400x256) hz2 inb_S400x256_S400x256_0_0 x
theorem ld_r5 (x : Vec F S256x256 .f32) : View.ld x r5 = x := View.ld_unit_zero (S := S256x256) hz2 inb_S256x256_S256x256_0_0 x
theorem ld_r6 (x : Vec F S256 .f32) : View.ld x r6 = x := View.ld_unit_zero (S := S256) hz1 inb_S256_S256_0 x
theorem ld_r7 (x : Vec F S192x192 .f32) : View.ld x r7 = x := View.ld_unit_zero (S := S192x192) hz2 inb_S192x192_S192x192_0_0 x
theorem ld_r8 (x : Vec F S128x128 .f32) : View.ld x r8 = x := View.ld_unit_zero (S := S128x128) hz2 inb_S128x128_S128x128_0_0 x
theorem ld_r9 (x : Vec F S64x64 .f32) : View.ld x r9 = x := View.ld_unit_zero (S := S64x64) hz2 inb_S64x64_S64x64_0_0 x

/-- The ten blocks as the body's ten loads read them: each through the whole-buffer rectangle. -/
def ldB (b : Body.Blocks F) : Body.Blocks F :=
  ⟨View.ld b.x0 r0, View.ld b.x1 r1, View.ld b.x2 r2, View.ld b.x3 r3, View.ld b.x4 r4, View.ld b.x5 r5, View.ld b.x6 r6, View.ld b.x7 r7, View.ld b.x8 r8, View.ld b.x9 r9⟩

/-- They are the blocks. -/
theorem ldB_eq (b : Body.Blocks F) : ldB b = b := by
  cases b with
  | mk x0 x1 x2 x3 x4 x5 x6 x7 x8 x9 =>
    simp only [ldB, ld_r0, ld_r1, ld_r2, ld_r3, ld_r4, ld_r5, ld_r6, ld_r7, ld_r8, ld_r9]

/-! ## What the body leaves in each output buffer -/

/-- Output window 10's buffer after the body: its one store, through the whole-buffer rectangle. -/
def out0_10 (b : Body.Blocks F) : Vec F S400x64 .f32 :=
  View.canon [⟨r0, Body.o10 b⟩]

/-- It is the stored block. -/
theorem out0_10_eq (b : Body.Blocks F) : out0_10 b = Body.o10 b :=
  View.canon_unit_zero (Val := Elt F) (e := .f32) (S := S400x64) hz2 inb_S400x64_S400x64_0_0 (Body.o10 b)

/-- The one store covers the buffer. -/
theorem cover0_10 (p0 : Vec F S400x64 .f32) (y : S400x64.Idx) :
    ∃ pc ∈ ([⟨r0, p0⟩] : List (View.Piece (Elt F) S400x64 .f32)), y ∈ pc.1.set :=
  ⟨_, List.mem_singleton_self _, View.mem_set_unit_zero (S := S400x64) hz2 inb_S400x64_S400x64_0_0 y⟩

/-- Output window 11's buffer after the body: its one store, through the whole-buffer rectangle. -/
def out0_11 (b : Body.Blocks F) : Vec F S400x192 .f32 :=
  View.canon [⟨r1, Body.o11 b⟩]

/-- It is the stored block. -/
theorem out0_11_eq (b : Body.Blocks F) : out0_11 b = Body.o11 b :=
  View.canon_unit_zero (Val := Elt F) (e := .f32) (S := S400x192) hz2 inb_S400x192_S400x192_0_0 (Body.o11 b)

/-- The one store covers the buffer. -/
theorem cover0_11 (p0 : Vec F S400x192 .f32) (y : S400x192.Idx) :
    ∃ pc ∈ ([⟨r1, p0⟩] : List (View.Piece (Elt F) S400x192 .f32)), y ∈ pc.1.set :=
  ⟨_, List.mem_singleton_self _, View.mem_set_unit_zero (S := S400x192) hz2 inb_S400x192_S400x192_0_0 y⟩

/-- Output window 12's buffer after the body: its one store, through the whole-buffer rectangle. -/
def out0_12 (b : Body.Blocks F) : Vec F S400x320 .f32 :=
  View.canon [⟨r2, Body.o12 b⟩]

/-- It is the stored block. -/
theorem out0_12_eq (b : Body.Blocks F) : out0_12 b = Body.o12 b :=
  View.canon_unit_zero (Val := Elt F) (e := .f32) (S := S400x320) hz2 inb_S400x320_S400x320_0_0 (Body.o12 b)

/-- The one store covers the buffer. -/
theorem cover0_12 (p0 : Vec F S400x320 .f32) (y : S400x320.Idx) :
    ∃ pc ∈ ([⟨r2, p0⟩] : List (View.Piece (Elt F) S400x320 .f32)), y ∈ pc.1.set :=
  ⟨_, List.mem_singleton_self _, View.mem_set_unit_zero (S := S400x320) hz2 inb_S400x320_S400x320_0_0 y⟩

/-- Output window 13's buffer after the body: its one store, through the whole-buffer rectangle. -/
def out0_13 (b : Body.Blocks F) : Vec F S400x448 .f32 :=
  View.canon [⟨r3, Body.o13 b⟩]

/-- It is the stored block. -/
theorem out0_13_eq (b : Body.Blocks F) : out0_13 b = Body.o13 b :=
  View.canon_unit_zero (Val := Elt F) (e := .f32) (S := S400x448) hz2 inb_S400x448_S400x448_0_0 (Body.o13 b)

/-- The one store covers the buffer. -/
theorem cover0_13 (p0 : Vec F S400x448 .f32) (y : S400x448.Idx) :
    ∃ pc ∈ ([⟨r3, p0⟩] : List (View.Piece (Elt F) S400x448 .f32)), y ∈ pc.1.set :=
  ⟨_, List.mem_singleton_self _, View.mem_set_unit_zero (S := S400x448) hz2 inb_S400x448_S400x448_0_0 y⟩

/-! ## The body's triple -/

set_option maxHeartbeats 1000000 in
/-- The kernel body on whole buffers, the ten inputs' at read contents `x0 … x9` and the four outputs' at anything, runs
    to a continuation holding the inputs' as they were and output `k`'s at `out0_k` of the inputs': the printed body is
    its skeleton over the payload names, part by part, which the symbolic run executes; each output buffer then holds the
    writes of its one store over what it held, which is the canon of that store, whose payload, its named intermediate values opened, is `Body.o1k` of the
    blocks (a load through the whole-buffer rectangle reads the contents). -/
theorem sound_kernel (c : Dev nD) (E : Set ℕ) (i : grid0.Coords) (arg1 : Memref sig .tc .vmem S400x64 .f32) (harg1 : arg1.IsWhole) (arg2 : Memref sig .tc .vmem S400x192 .f32) (harg2 : arg2.IsWhole) (arg3 : Memref sig .tc .vmem S400x320 .f32) (harg3 : arg3.IsWhole) (arg4 : Memref sig .tc .vmem S400x448 .f32) (harg4 : arg4.IsWhole) (arg5 : Memref sig .tc .vmem S400x256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S192x192 .f32) (harg8 : arg8.IsWhole) (arg9 : Memref sig .tc .vmem S128x128 .f32) (harg9 : arg9.IsWhole) (arg10 : Memref sig .tc .vmem S64x64 .f32) (harg10 : arg10.IsWhole) (arg11 : Memref sig .tc .vmem S400x64 .f32) (harg11 : arg11.IsWhole) (arg12 : Memref sig .tc .vmem S400x192 .f32) (harg12 : arg12.IsWhole) (arg13 : Memref sig .tc .vmem S400x320 .f32) (harg13 : arg13.IsWhole) (arg14 : Memref sig .tc .vmem S400x448 .f32) (harg14 : arg14.IsWhole)
    (x0 : Vec F S400x64 .f32) (x1 : Vec F S400x192 .f32) (x2 : Vec F S400x320 .f32) (x3 : Vec F S400x448 .f32) (x4 : Vec F S400x256 .f32) (x5 : Vec F S256x256 .f32) (x6 : Vec F S256 .f32) (x7 : Vec F S192x192 .f32) (x8 : Vec F S128x128 .f32) (x9 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out0_10 ⟨x0, x1, x2, x3, x4, x5, x6, x7, x8, x9⟩) ∗ owns (c : Thread nD τ) arg12 fullShare (out0_11 ⟨x0, x1, x2, x3, x4, x5, x6, x7, x8, x9⟩) ∗ owns (c : Thread nD τ) arg13 fullShare (out0_12 ⟨x0, x1, x2, x3, x4, x5, x6, x7, x8, x9⟩) ∗ owns (c : Thread nD τ) arg14 fullShare (out0_13 ⟨x0, x1, x2, x3, x4, x5, x6, x7, x8, x9⟩)) -∗ K ⟨⟩))
      ⊢ wp frame (wpE (defs₀ (F := F)) Variants.none c none) E (cc0__so2_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__so2_kernel_eq_skeleton]; unfold cc0__so2_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7 hf8 hf9
  have e0 : arg1.view.readAt (Elt F) r0.toLoadRect f0 = arg1.view.read (Elt F) f0 := ld_r0 (arg1.view.read (Elt F) f0)
  have e1 : arg2.view.readAt (Elt F) r1.toLoadRect f1 = arg2.view.read (Elt F) f1 := ld_r1 (arg2.view.read (Elt F) f1)
  have e2 : arg3.view.readAt (Elt F) r2.toLoadRect f2 = arg3.view.read (Elt F) f2 := ld_r2 (arg3.view.read (Elt F) f2)
  have e3 : arg4.view.readAt (Elt F) r3.toLoadRect f3 = arg4.view.read (Elt F) f3 := ld_r3 (arg4.view.read (Elt F) f3)
  have e4 : arg5.view.readAt (Elt F) r4.toLoadRect f4 = arg5.view.read (Elt F) f4 := ld_r4 (arg5.view.read (Elt F) f4)
  have e5 : arg6.view.readAt (Elt F) r5.toLoadRect f5 = arg6.view.read (Elt F) f5 := ld_r5 (arg6.view.read (Elt F) f5)
  have e6 : arg7.view.readAt (Elt F) r6.toLoadRect f6 = arg7.view.read (Elt F) f6 := ld_r6 (arg7.view.read (Elt F) f6)
  have e7 : arg8.view.readAt (Elt F) r7.toLoadRect f7 = arg8.view.read (Elt F) f7 := ld_r7 (arg8.view.read (Elt F) f7)
  have e8 : arg9.view.readAt (Elt F) r8.toLoadRect f8 = arg9.view.read (Elt F) f8 := ld_r8 (arg9.view.read (Elt F) f8)
  have e9 : arg10.view.readAt (Elt F) r9.toLoadRect f9 = arg10.view.read (Elt F) f9 := ld_r9 (arg10.view.read (Elt F) f9)
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    rw [View.read_writes_eq_canon _ _ _ (cover0_10 _), out0_10_eq,
      View.canon_unit_zero (Val := Elt F) (e := .f32) (S := S400x64) hz2 inb_S400x64_S400x64_0_0]
    sl_unfold_run_names
    sl_unfold_run_names
    simp only [Body.v1, Body.v3, Body.v19, Body.v30, Body.v41, Body.v44, Body.v45, Body.v46, Body.v47, Body.v48, Body.v50, Body.v67, Body.v86, Body.v105, Body.v108, Body.v110, Body.v124, Body.v143, Body.v146, Body.v147, Body.v148, Body.v149, Body.v150, Body.v151, Body.v152, Body.v167, Body.v168, Body.v179, Body.v206, Body.v225, Body.v228, Body.v233, Body.v260, Body.v287, Body.v288, Body.v314, Body.v341, Body.v345, Body.v346, Body.v351, Body.v358, Body.v361, Body.v368, Body.v371, Body.v376, Body.v379, Body.v382, Body.v383, Body.v384, Body.v387, Body.v389, Body.v420, Body.v421, Body.v422, Body.v423, Body.v424, Body.v443, Body.v446, Body.v462, Body.v481, Body.v500, Body.v503, Body.v506, Body.v522, Body.v523, Body.v524, Body.v525, Body.v526, Body.v553, Body.v560, Body.v563, Body.v580, Body.v607, Body.v622, Body.v623, Body.v634, Body.v661, Body.v680, Body.v683, Body.o10, Body.o11, Body.o12, Body.o13, e0, e1, e2, e3, e4, e5, e6, e7, e8, e9]
  isplitl [H11]
  · iexists _; isplitr
    swap; · iexact H11
    ipureintro
    rw [View.read_writes_eq_canon _ _ _ (cover0_11 _), out0_11_eq,
      View.canon_unit_zero (Val := Elt F) (e := .f32) (S := S400x192) hz2 inb_S400x192_S400x192_0_0]
    sl_unfold_run_names
    sl_unfold_run_names
    simp only [Body.v1, Body.v3, Body.v19, Body.v30, Body.v41, Body.v44, Body.v45, Body.v46, Body.v47, Body.v48, Body.v50, Body.v67, Body.v86, Body.v105, Body.v108, Body.v110, Body.v124, Body.v143, Body.v146, Body.v147, Body.v148, Body.v149, Body.v150, Body.v151, Body.v152, Body.v167, Body.v168, Body.v179, Body.v206, Body.v225, Body.v228, Body.v233, Body.v260, Body.v287, Body.v288, Body.v314, Body.v341, Body.v345, Body.v346, Body.v351, Body.v358, Body.v361, Body.v368, Body.v371, Body.v376, Body.v379, Body.v382, Body.v383, Body.v384, Body.v387, Body.v389, Body.v420, Body.v421, Body.v422, Body.v423, Body.v424, Body.v443, Body.v446, Body.v462, Body.v481, Body.v500, Body.v503, Body.v506, Body.v522, Body.v523, Body.v524, Body.v525, Body.v526, Body.v553, Body.v560, Body.v563, Body.v580, Body.v607, Body.v622, Body.v623, Body.v634, Body.v661, Body.v680, Body.v683, Body.o10, Body.o11, Body.o12, Body.o13, e0, e1, e2, e3, e4, e5, e6, e7, e8, e9]
  isplitl [H12]
  · iexists _; isplitr
    swap; · iexact H12
    ipureintro
    rw [View.read_writes_eq_canon _ _ _ (cover0_12 _), out0_12_eq,
      View.canon_unit_zero (Val := Elt F) (e := .f32) (S := S400x320) hz2 inb_S400x320_S400x320_0_0]
    sl_unfold_run_names
    sl_unfold_run_names
    simp only [Body.v1, Body.v3, Body.v19, Body.v30, Body.v41, Body.v44, Body.v45, Body.v46, Body.v47, Body.v48, Body.v50, Body.v67, Body.v86, Body.v105, Body.v108, Body.v110, Body.v124, Body.v143, Body.v146, Body.v147, Body.v148, Body.v149, Body.v150, Body.v151, Body.v152, Body.v167, Body.v168, Body.v179, Body.v206, Body.v225, Body.v228, Body.v233, Body.v260, Body.v287, Body.v288, Body.v314, Body.v341, Body.v345, Body.v346, Body.v351, Body.v358, Body.v361, Body.v368, Body.v371, Body.v376, Body.v379, Body.v382, Body.v383, Body.v384, Body.v387, Body.v389, Body.v420, Body.v421, Body.v422, Body.v423, Body.v424, Body.v443, Body.v446, Body.v462, Body.v481, Body.v500, Body.v503, Body.v506, Body.v522, Body.v523, Body.v524, Body.v525, Body.v526, Body.v553, Body.v560, Body.v563, Body.v580, Body.v607, Body.v622, Body.v623, Body.v634, Body.v661, Body.v680, Body.v683, Body.o10, Body.o11, Body.o12, Body.o13, e0, e1, e2, e3, e4, e5, e6, e7, e8, e9]
  iexists _; isplitr
  swap; · iexact H13
  ipureintro
  rw [View.read_writes_eq_canon _ _ _ (cover0_13 _), out0_13_eq,
    View.canon_unit_zero (Val := Elt F) (e := .f32) (S := S400x448) hz2 inb_S400x448_S400x448_0_0]
  sl_unfold_run_names
  sl_unfold_run_names
  simp only [Body.v1, Body.v3, Body.v19, Body.v30, Body.v41, Body.v44, Body.v45, Body.v46, Body.v47, Body.v48, Body.v50, Body.v67, Body.v86, Body.v105, Body.v108, Body.v110, Body.v124, Body.v143, Body.v146, Body.v147, Body.v148, Body.v149, Body.v150, Body.v151, Body.v152, Body.v167, Body.v168, Body.v179, Body.v206, Body.v225, Body.v228, Body.v233, Body.v260, Body.v287, Body.v288, Body.v314, Body.v341, Body.v345, Body.v346, Body.v351, Body.v358, Body.v361, Body.v368, Body.v371, Body.v376, Body.v379, Body.v382, Body.v383, Body.v384, Body.v387, Body.v389, Body.v420, Body.v421, Body.v422, Body.v423, Body.v424, Body.v443, Body.v446, Body.v462, Body.v481, Body.v500, Body.v503, Body.v506, Body.v522, Body.v523, Body.v524, Body.v525, Body.v526, Body.v553, Body.v560, Body.v563, Body.v580, Body.v607, Body.v622, Body.v623, Body.v634, Body.v661, Body.v680, Body.v683, Body.o10, Body.o11, Body.o12, Body.o13, e0, e1, e2, e3, e4, e5, e6, e7, e8, e9]

end Cert.Kernel.Frame

end
-- ==== Proof.FrameBits.lean ====
/-
  The frame of the program, second half, part two: the run of the region and the frame.

  The proof data of the one region on a core: each array as the region finds it; after the body at a grid point each
  input buffer at its block and output buffer `k` at the one block the body stores there, `Body.o1k` of the ten input
  blocks at the point; nothing kept from point to point, nothing owed, full shares. The body meets its obligation at
  every point by its triple, so the library's run theorem applies around the host operations, and the eight
  arguments end unchanged.
-/
import proofs.«104001_j24927990186029_2_alg».proof.Proof.FrameBitsB

-- membership in a rectangle of the blocks' extents: the elaborator's structural look recurses once per coordinate
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The proof data -/

/-- The ten input blocks at point `t`, as the region finds the arrays. -/
def blocksAt (c : Dev nD) (t : Fin cfg0.N) : Body.Blocks F :=
  ⟨iblk m c 0 t, iblk m c 1 t, iblk m c 2 t, iblk m c 3 t, iblk m c 4 t, iblk m c 5 t, iblk m c 6 t, iblk m c 7 t, iblk m c 8 t, iblk m c 9 t⟩

/-- The proof data of the region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (blocksAt m c t)
    | ⟨11, _⟩ => out0_11 (blocksAt m c t)
    | ⟨12, _⟩ => out0_12 (blocksAt m c t)
    | ⟨13, _⟩ => out0_13 (blocksAt m c t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out0_10 (blocksAt m c t) := by dsimp only [dats]
theorem after0_11 (c : Dev nD) (t : Fin cfg0.N) : (dats m 0 c).after 11 t = out0_11 (blocksAt m c t) := by dsimp only [dats]
theorem after0_12 (c : Dev nD) (t : Fin cfg0.N) : (dats m 0 c).after 12 t = out0_12 (blocksAt m c t) := by dsimp only [dats]
theorem after0_13 (c : Dev nD) (t : Fin cfg0.N) : (dats m 0 c).after 13 t = out0_13 (blocksAt m c t) := by dsimp only [dats]

/-- Each input's current buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 1000000 in
/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of the entry
    function on the cores terminates, and every final state has every array of the region at what the library computes
    from the proof data and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and its eight arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Frame

end
-- ==== Proof.FrameIdealA.lean ====
/-
  The frame of the program, first half: the program's entry function around its one region.

  The entry function is seventeen host operations (four column slabs of the first argument, each regrouped from
  channel-major to component-major, and the third argument flattened to rows of 256), the region, and thirteen host
  operations (each result slab regrouped back, then the four concatenated). This module states what the region finds in
  every buffer (the valuation after the first seventeen operations), that no host operation writes an argument, that the
  thirteen later operations touch only unscoped buffers, allocate nothing and write no array of the region, what block
  of its array each of the fourteen windows holds at a grid point, that an input window's buffer holds that block at
  every point whether or not it was fetched there, and how the claim "the run ends with the eight arguments
  unchanged" follows from the library's statement of what a run of the region leaves.
-/
import proofs.«104001_j24927990186029_2_alg».proof.Proof.Gen.KernelIdeal.Launch
import proofs.«104001_j24927990186029_2_alg».proof.Proof.Gen.KernelIdeal.Skeleton
import proofs.«104001_j24927990186029_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of the blocks' extents: the elaborator's structural look recurses once per coordinate
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The entry function around the region -/

/-- What every buffer of core `c` holds when the region is entered: the launch contents after the seventeen host
    operations before it. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The entry function is the host operations before the region, the region, and the host operations after it: run
    from the launch contents it reduces to the region entered at `V` and continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch the region's arrays and the buffers that bypass it, nothing else: each
    touches unscoped references of the core only, and with no prefetched table those are exactly these. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none writes an array of the region: each writes its own result buffer only, and no result of theirs is one of
    the fourteen arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## No host operation writes an argument -/

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Argument 0 is no array of the region and no host operation after the region writes it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Argument 1 is no array of the region and no host operation after the region writes it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Argument 2 is no array of the region and no host operation after the region writes it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not (a point that does not
    fetch it has the block index of the point before), for any proof data whose array is the region-entry contents and
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, fetched there or not (a point that does not
    fetch it has the block index of the point before), for any proof data whose array is the region-entry contents and
    whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, fetched there or not (a point that does not
    fetch it has the block index of the point before), for any proof data whose array is the region-entry contents and
    whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current buffer holds its block at every point, fetched there or not (a point that does not
    fetch it has the block index of the point before), for any proof data whose array is the region-entry contents and
    whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current buffer holds its block at every point, fetched there or not (a point that does not
    fetch it has the block index of the point before), for any proof data whose array is the region-entry contents and
    whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current buffer holds its block at every point, fetched there or not (a point that does not
    fetch it has the block index of the point before), for any proof data whose array is the region-entry contents and
    whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current buffer holds its block at every point, fetched there or not (a point that does not
    fetch it has the block index of the point before), for any proof data whose array is the region-entry contents and
    whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current buffer holds its block at every point, fetched there or not (a point that does not
    fetch it has the block index of the point before), for any proof data whose array is the region-entry contents and
    whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current buffer holds its block at every point, fetched there or not (a point that does not
    fetch it has the block index of the point before), for any proof data whose array is the region-entry contents and
    whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current buffer holds its block at every point, fetched there or not (a point that does not
    fetch it has the block index of the point before), for any proof data whose array is the region-entry contents and
    whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged, from what a run of the region leaves -/

/-- For any proof data whose arrays are the region-entry contents, a run ending in the library's statement — every
    array of the region at what the proof data compute, every other unscoped buffer as the later operations leave
    it — ends with the eight arguments unchanged: arguments 0, 1, 2 are no array of the region (the second clause,
    then `W_main_argK`), arguments 3 … 7 are the arrays of the input windows 5 … 9 (an input array ends at its entry
    contents, then `V_main_argK`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).1 5).trans (((dats 0 c).arrAt_in 5 rfl _).trans ((hA c 5).trans (V_main_arg3 m c))),
    ((h c).1 6).trans (((dats 0 c).arrAt_in 6 rfl _).trans ((hA c 6).trans (V_main_arg4 m c))),
    ((h c).1 7).trans (((dats 0 c).arrAt_in 7 rfl _).trans ((hA c 7).trans (V_main_arg5 m c))),
    ((h c).1 8).trans (((dats 0 c).arrAt_in 8 rfl _).trans ((hA c 8).trans (V_main_arg6 m c))),
    ((h c).1 9).trans (((dats 0 c).arrAt_in 9 rfl _).trans ((hA c 9).trans (V_main_arg7 m c)))⟩) h

end Cert.KernelIdeal.Frame

end
-- ==== Proof.BodyVals.lean ====
/-
  The kernel body as ONE pure function of its ten input blocks.

  At a grid point the body loads the ten input blocks whole — the four component-major slabs of the
  point's 400 rows (widths 64, 192, 320, 448: component `c` of degree `l` in columns `64 c … 64 c + 63`), the rows'
  flattened 16 × 16 rotation matrices, and the four mixing matrices and the bias — and stores four whole
  blocks. Every value it computes on the way is one of the generated payload terms applied to earlier values; this
  module names each of them over the record `Blocks` of the ten loaded blocks, in the order the body computes them, so
  that the four stored blocks `o10 … o13` are plain compositions with no memory operation in them.
-/
import proofs.«104001_j24927990186029_2_alg».proof.Proof.Gen.KernelIdeal.Skeleton

noncomputable section

namespace Cert.KernelIdeal.Body

open Idealize.ShloMosaic Cert.KernelIdeal Cert.KernelIdeal.Gen

variable {F : FTy → Type} [FloatOps F]

/-- The ten blocks the body loads at a grid point: the four slabs, the rotation rows, the weights and the bias. -/
structure Blocks (F : FTy → Type) where
  x0 : Vec F S400x64 .f32
  x1 : Vec F S400x192 .f32
  x2 : Vec F S400x320 .f32
  x3 : Vec F S400x448 .f32
  x4 : Vec F S400x256 .f32
  x5 : Vec F S256x256 .f32
  x6 : Vec F S256 .f32
  x7 : Vec F S192x192 .f32
  x8 : Vec F S128x128 .f32
  x9 : Vec F S64x64 .f32

variable (b : Blocks F)

/-! ## The forward rotation's values (degrees 1, 2, 3) and the rows they are gathered into -/

def v1 := k0_pay2 b.x4
def v3 := k0_pay3 b.x0
def v19 := k0_pay8 b.x4 b.x1
def v30 := k0_pay9 b.x4 b.x1
def v41 := k0_pay10 b.x4 b.x1
def v44 := k0_pay12 b.x2
def v45 := k0_pay13 b.x2
def v46 := k0_pay14 b.x2
def v47 := k0_pay15 b.x2
def v48 := k0_pay16 b.x2
def v50 := k0_pay17 b.x4
def v67 := k0_pay18 (v1 b) (v44 b) (v45 b) (v46 b) (v47 b) (v48 b) (v50 b)
def v86 := k0_pay19 (v1 b) (v44 b) (v45 b) (v46 b) (v47 b) (v48 b)
def v105 := k0_pay20 (v1 b) (v44 b) (v45 b) (v46 b) (v47 b) (v48 b)
def v108 := k0_pay21 (v1 b) (v44 b)
def v110 := k0_pay22 (v1 b)
def v124 := k0_pay23 (v1 b) (v45 b) (v46 b) (v47 b) (v48 b) (v108 b) (v110 b)
def v143 := k0_pay24 (v1 b) (v44 b) (v45 b) (v46 b) (v47 b) (v48 b)
def v146 := k0_pay26 b.x3
def v147 := k0_pay27 b.x3
def v148 := k0_pay28 b.x3
def v149 := k0_pay29 b.x3
def v150 := k0_pay30 b.x3
def v151 := k0_pay31 b.x3
def v152 := k0_pay32 b.x3
def v167 := k0_pay33 (v1 b) b.x3
def v168 := k0_pay34 (v1 b)
def v179 := k0_pay35 (v1 b) (v150 b) (v151 b) (v152 b) (v167 b) (v168 b)
def v206 := k0_pay36 (v1 b) (v146 b) (v147 b) (v148 b) (v149 b) (v150 b) (v151 b) (v152 b)
def v225 := k0_pay37 (v1 b) (v146 b) (v147 b) (v148 b) (v149 b) (v150 b)
def v228 := k0_pay38 (v1 b) (v151 b)
def v233 := k0_pay39 (v1 b) (v152 b) (v225 b) (v228 b)
def v260 := k0_pay40 (v1 b) (v146 b) (v147 b) (v148 b) (v149 b) (v150 b) (v151 b) (v152 b)
def v287 := k0_pay41 (v1 b) (v146 b) (v147 b) (v148 b) (v149 b) (v150 b) (v151 b) (v152 b)
def v288 := k0_pay42 (v1 b)
def v314 := k0_pay43 (v1 b) (v146 b) (v147 b) (v148 b) (v149 b) (v150 b) (v151 b) (v152 b) (v288 b)
def v341 := k0_pay44 (v1 b) (v146 b) (v147 b) (v148 b) (v149 b) (v150 b) (v151 b) (v152 b)

/-! ## The channel mixes: the order-0 row against `W_m0` plus the bias, the ±m rows against `W_m1`, `W_m2`, `W_m3` -/

def v345 := k0_pay45 (v3 b) (v30 b) (v105 b) (v260 b)
def v346 := k0_pay46 b.x5
def v351 := k0_pay47 (v345 b) (v346 b) b.x6
def v358 := k0_pay49 (v19 b) (v86 b) (v233 b) b.x7
def v361 := k0_pay50 (v41 b) (v124 b) (v287 b) b.x7
def v368 := k0_pay52 (v67 b) (v206 b) b.x8
def v371 := k0_pay53 (v143 b) (v314 b) b.x8
def v376 := k0_pay55 (v179 b) b.x9
def v379 := k0_pay56 (v341 b) b.x9
def v382 := k0_pay58 (v345 b) (v346 b) b.x6
def v383 := k0_pay59 (v19 b) (v86 b) (v233 b) b.x7
def v384 := k0_pay60 (v41 b) (v124 b) (v287 b) b.x7
def v387 := k0_pay61 (v1 b) (v19 b) (v86 b) (v233 b) b.x7
def v389 := k0_pay62 (v1 b)

/-! ## The inverse rotation's values -/

def v420 := k0_pay64 (v351 b)
def v421 := k0_pay65 (v358 b)
def v422 := k0_pay66 (v361 b)
def v423 := k0_pay67 (v368 b)
def v424 := k0_pay68 (v371 b)
def v443 := k0_pay69 (v1 b) (v351 b) (v358 b) (v361 b) (v368 b) (v371 b)
def v446 := k0_pay70 (v1 b) (v368 b)
def v462 := k0_pay71 (v1 b) (v420 b) (v421 b) (v422 b) (v424 b) (v446 b)
def v481 := k0_pay72 (v1 b) (v420 b) (v421 b) (v422 b) (v423 b) (v424 b)
def v500 := k0_pay73 (v1 b) (v420 b) (v421 b) (v422 b) (v423 b) (v424 b)
def v503 := k0_pay74 (v1 b) (v423 b)
def v506 := k0_pay75 (v1 b) (v421 b)
def v522 := k0_pay77 (v351 b)
def v523 := k0_pay78 (v358 b)
def v524 := k0_pay79 (v361 b)
def v525 := k0_pay80 (v368 b)
def v526 := k0_pay81 (v371 b)
def v553 := k0_pay82 (v1 b) (v351 b) (v358 b) (v361 b) (v368 b) (v371 b) (v376 b) (v379 b)
def v560 := k0_pay83 (v1 b) (v368 b) (v376 b)
def v563 := k0_pay84 (v1 b) (v358 b)
def v580 := k0_pay85 (v1 b) (v379 b) (v522 b) (v524 b) (v526 b) (v560 b) (v563 b)
def v607 := k0_pay86 (v1 b) (v376 b) (v379 b) (v522 b) (v523 b) (v524 b) (v525 b) (v526 b)
def v622 := k0_pay87 (v1 b) (v376 b) (v522 b) (v523 b) (v525 b)
def v623 := k0_pay88 (v1 b)
def v634 := k0_pay89 (v1 b) (v379 b) (v524 b) (v526 b) (v622 b) (v623 b)
def v661 := k0_pay90 (v1 b) (v376 b) (v379 b) (v522 b) (v523 b) (v524 b) (v525 b) (v526 b)
def v680 := k0_pay91 (v1 b) (v376 b) (v522 b) (v523 b) (v524 b) (v525 b)
def v683 := k0_pay92 (v1 b) (v526 b)

/-! ## The four stored blocks -/

/-- The degree-0 block (400 × 64). -/
def o10 := k0_pay57 (v345 b) (v346 b) b.x6
/-- The degree-1 block (400 × 192), component-major. -/
def o11 := k0_pay63 (v1 b) (v382 b) (v383 b) (v384 b) (v387 b) (v389 b)
/-- The degree-2 block (400 × 320), component-major. -/
def o12 := k0_pay76 (v1 b) (v420 b) (v422 b) (v424 b) (v443 b) (v462 b) (v481 b) (v500 b) (v503 b) (v506 b)
/-- The degree-3 block (400 × 448), component-major. -/
def o13 := k0_pay1 (v1 b) (v376 b) (v379 b) (v522 b) (v523 b) (v524 b) (v525 b) (v526 b) (v553 b) (v580 b) (v607 b) (v634 b) (v661 b) (v680 b) (v683 b)

end Cert.KernelIdeal.Body

end
-- ==== Proof.FrameIdealB.lean ====
/-
  The frame of the program, second half, part one: the kernel body as a triple over its fourteen buffers.

  At a grid point the body loads its ten input buffers whole, computes, and stores each of its four output buffers
  whole, once, through the rectangle that is the whole buffer (it also loads each output buffer just before storing it
  and never uses what it read). So it leaves every input buffer as it found it, and output buffer `k` holding the one
  stored block: the payload composition `Body.o1k` of the ten loaded blocks. A load through the whole-buffer rectangle
  reads the buffer's contents, and a single store through it leaves exactly its payload.
-/
import proofs.«104001_j24927990186029_2_alg».proof.Proof.FrameIdealA
import proofs.«104001_j24927990186029_2_alg».proof.Proof.BodyVals
import Idealize.ShloMosaic.Lib.Pipeline.Value

-- membership in a rectangle of the blocks' extents: the elaborator's structural look recurses once per coordinate
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The whole-buffer rectangles -/

theorem hz2 : (![0, 0] : Fin 2 → Nat) = fun _ => 0 := funext fun a => by fin_cases a <;> rfl
theorem hz1 : (![0] : Fin 1 → Nat) = fun _ => 0 := funext fun a => by fin_cases a <;> rfl
/-- The whole of a buffer of window 0's block shape (also output window 10's). -/
abbrev r0 : Rect S400x64 := Rect.unit (s := S400x64) ![0, 0] S400x64.size inb_S400x64_S400x64_0_0
/-- The whole of a buffer of window 1's block shape (also output window 11's). -/
abbrev r1 : Rect S400x192 := Rect.unit (s := S400x192) ![0, 0] S400x192.size inb_S400x192_S400x192_0_0
/-- The whole of a buffer of window 2's block shape (also output window 12's). -/
abbrev r2 : Rect S400x320 := Rect.unit (s := S400x320) ![0, 0] S400x320.size inb_S400x320_S400x320_0_0
/-- The whole of a buffer of window 3's block shape (also output window 13's). -/
abbrev r3 : Rect S400x448 := Rect.unit (s := S400x448) ![0, 0] S400x448.size inb_S400x448_S400x448_0_0
/-- The whole of a buffer of window 4's block shape. -/
abbrev r4 : Rect S400x256 := Rect.unit (s := S400x256) ![0, 0] S400x256.size inb_S400x256_S400x256_0_0
/-- The whole of a buffer of window 5's block shape. -/
abbrev r5 : Rect S256x256 := Rect.unit (s := S256x256) ![0, 0] S256x256.size inb_S256x256_S256x256_0_0
/-- The whole of a buffer of window 6's block shape. -/
abbrev r6 : Rect S256 := Rect.unit (s := S256) ![0] S256.size inb_S256_S256_0
/-- The whole of a buffer of window 7's block shape. -/
abbrev r7 : Rect S192x192 := Rect.unit (s := S192x192) ![0, 0] S192x192.size inb_S192x192_S192x192_0_0
/-- The whole of a buffer of window 8's block shape. -/
abbrev r8 : Rect S128x128 := Rect.unit (s := S128x128) ![0, 0] S128x128.size inb_S128x128_S128x128_0_0
/-- The whole of a buffer of window 9's block shape. -/
abbrev r9 : Rect S64x64 := Rect.unit (s := S64x64) ![0, 0] S64x64.size inb_S64x64_S64x64_0_0

/-- A load through the whole-buffer rectangle reads the contents. -/
theorem ld_r0 (x : Vec F S400x64 .f32) : View.ld x r0 = x := View.ld_unit_zero (S := S400x64) hz2 inb_S400x64_S400x64_0_0 x
theorem ld_r1 (x : Vec F S400x192 .f32) : View.ld x r1 = x := View.ld_unit_zero (S := S400x192) hz2 inb_S400x192_S400x192_0_0 x
theorem ld_r2 (x : Vec F S400x320 .f32) : View.ld x r2 = x := View.ld_unit_zero (S := S400x320) hz2 inb_S400x320_S400x320_0_0 x
theorem ld_r3 (x : Vec F S400x448 .f32) : View.ld x r3 = x := View.ld_unit_zero (S := S400x448) hz2 inb_S400x448_S400x448_0_0 x
theorem ld_r4 (x : Vec F S400x256 .f32) : View.ld x r4 = x := View.ld_unit_zero (S := S400x256) hz2 inb_S400x256_S400x256_0_0 x
theorem ld_r5 (x : Vec F S256x256 .f32) : View.ld x r5 = x := View.ld_unit_zero (S := S256x256) hz2 inb_S256x256_S256x256_0_0 x
theorem ld_r6 (x : Vec F S256 .f32) : View.ld x r6 = x := View.ld_unit_zero (S := S256) hz1 inb_S256_S256_0 x
theorem ld_r7 (x : Vec F S192x192 .f32) : View.ld x r7 = x := View.ld_unit_zero (S := S192x192) hz2 inb_S192x192_S192x192_0_0 x
theorem ld_r8 (x : Vec F S128x128 .f32) : View.ld x r8 = x := View.ld_unit_zero (S := S128x128) hz2 inb_S128x128_S128x128_0_0 x
theorem ld_r9 (x : Vec F S64x64 .f32) : View.ld x r9 = x := View.ld_unit_zero (S := S64x64) hz2 inb_S64x64_S64x64_0_0 x

/-- The ten blocks as the body's ten loads read them: each through the whole-buffer rectangle. -/
def ldB (b : Body.Blocks F) : Body.Blocks F :=
  ⟨View.ld b.x0 r0, View.ld b.x1 r1, View.ld b.x2 r2, View.ld b.x3 r3, View.ld b.x4 r4, View.ld b.x5 r5, View.ld b.x6 r6, View.ld b.x7 r7, View.ld b.x8 r8, View.ld b.x9 r9⟩

/-- They are the blocks. -/
theorem ldB_eq (b : Body.Blocks F) : ldB b = b := by
  cases b with
  | mk x0 x1 x2 x3 x4 x5 x6 x7 x8 x9 =>
    simp only [ldB, ld_r0, ld_r1, ld_r2, ld_r3, ld_r4, ld_r5, ld_r6, ld_r7, ld_r8, ld_r9]

/-! ## What the body leaves in each output buffer -/

/-- Output window 10's buffer after the body: its one store, through the whole-buffer rectangle. -/
def out0_10 (b : Body.Blocks F) : Vec F S400x64 .f32 :=
  View.canon [⟨r0, Body.o10 b⟩]

/-- It is the stored block. -/
theorem out0_10_eq (b : Body.Blocks F) : out0_10 b = Body.o10 b :=
  View.canon_unit_zero (Val := Elt F) (e := .f32) (S := S400x64) hz2 inb_S400x64_S400x64_0_0 (Body.o10 b)

/-- The one store covers the buffer. -/
theorem cover0_10 (p0 : Vec F S400x64 .f32) (y : S400x64.Idx) :
    ∃ pc ∈ ([⟨r0, p0⟩] : List (View.Piece (Elt F) S400x64 .f32)), y ∈ pc.1.set :=
  ⟨_, List.mem_singleton_self _, View.mem_set_unit_zero (S := S400x64) hz2 inb_S400x64_S400x64_0_0 y⟩

/-- Output window 11's buffer after the body: its one store, through the whole-buffer rectangle. -/
def out0_11 (b : Body.Blocks F) : Vec F S400x192 .f32 :=
  View.canon [⟨r1, Body.o11 b⟩]

/-- It is the stored block. -/
theorem out0_11_eq (b : Body.Blocks F) : out0_11 b = Body.o11 b :=
  View.canon_unit_zero (Val := Elt F) (e := .f32) (S := S400x192) hz2 inb_S400x192_S400x192_0_0 (Body.o11 b)

/-- The one store covers the buffer. -/
theorem cover0_11 (p0 : Vec F S400x192 .f32) (y : S400x192.Idx) :
    ∃ pc ∈ ([⟨r1, p0⟩] : List (View.Piece (Elt F) S400x192 .f32)), y ∈ pc.1.set :=
  ⟨_, List.mem_singleton_self _, View.mem_set_unit_zero (S := S400x192) hz2 inb_S400x192_S400x192_0_0 y⟩

/-- Output window 12's buffer after the body: its one store, through the whole-buffer rectangle. -/
def out0_12 (b : Body.Blocks F) : Vec F S400x320 .f32 :=
  View.canon [⟨r2, Body.o12 b⟩]

/-- It is the stored block. -/
theorem out0_12_eq (b : Body.Blocks F) : out0_12 b = Body.o12 b :=
  View.canon_unit_zero (Val := Elt F) (e := .f32) (S := S400x320) hz2 inb_S400x320_S400x320_0_0 (Body.o12 b)

/-- The one store covers the buffer. -/
theorem cover0_12 (p0 : Vec F S400x320 .f32) (y : S400x320.Idx) :
    ∃ pc ∈ ([⟨r2, p0⟩] : List (View.Piece (Elt F) S400x320 .f32)), y ∈ pc.1.set :=
  ⟨_, List.mem_singleton_self _, View.mem_set_unit_zero (S := S400x320) hz2 inb_S400x320_S400x320_0_0 y⟩

/-- Output window 13's buffer after the body: its one store, through the whole-buffer rectangle. -/
def out0_13 (b : Body.Blocks F) : Vec F S400x448 .f32 :=
  View.canon [⟨r3, Body.o13 b⟩]

/-- It is the stored block. -/
theorem out0_13_eq (b : Body.Blocks F) : out0_13 b = Body.o13 b :=
  View.canon_unit_zero (Val := Elt F) (e := .f32) (S := S400x448) hz2 inb_S400x448_S400x448_0_0 (Body.o13 b)

/-- The one store covers the buffer. -/
theorem cover0_13 (p0 : Vec F S400x448 .f32) (y : S400x448.Idx) :
    ∃ pc ∈ ([⟨r3, p0⟩] : List (View.Piece (Elt F) S400x448 .f32)), y ∈ pc.1.set :=
  ⟨_, List.mem_singleton_self _, View.mem_set_unit_zero (S := S400x448) hz2 inb_S400x448_S400x448_0_0 y⟩

/-! ## The body's triple -/

set_option maxHeartbeats 1000000 in
/-- The kernel body on whole buffers, the ten inputs' at read contents `x0 … x9` and the four outputs' at anything, runs
    to a continuation holding the inputs' as they were and output `k`'s at `out0_k` of the inputs': the printed body is
    its skeleton over the payload names, part by part, which the symbolic run executes; each output buffer then holds the
    writes of its one store over what it held, which is the canon of that store, whose payload, its named intermediate values opened, is `Body.o1k` of the
    blocks (a load through the whole-buffer rectangle reads the contents). -/
theorem sound_kernel (c : Dev nD) (E : Set ℕ) (i : grid0.Coords) (arg1 : Memref sig .tc .vmem S400x64 .f32) (harg1 : arg1.IsWhole) (arg2 : Memref sig .tc .vmem S400x192 .f32) (harg2 : arg2.IsWhole) (arg3 : Memref sig .tc .vmem S400x320 .f32) (harg3 : arg3.IsWhole) (arg4 : Memref sig .tc .vmem S400x448 .f32) (harg4 : arg4.IsWhole) (arg5 : Memref sig .tc .vmem S400x256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S192x192 .f32) (harg8 : arg8.IsWhole) (arg9 : Memref sig .tc .vmem S128x128 .f32) (harg9 : arg9.IsWhole) (arg10 : Memref sig .tc .vmem S64x64 .f32) (harg10 : arg10.IsWhole) (arg11 : Memref sig .tc .vmem S400x64 .f32) (harg11 : arg11.IsWhole) (arg12 : Memref sig .tc .vmem S400x192 .f32) (harg12 : arg12.IsWhole) (arg13 : Memref sig .tc .vmem S400x320 .f32) (harg13 : arg13.IsWhole) (arg14 : Memref sig .tc .vmem S400x448 .f32) (harg14 : arg14.IsWhole)
    (x0 : Vec F S400x64 .f32) (x1 : Vec F S400x192 .f32) (x2 : Vec F S400x320 .f32) (x3 : Vec F S400x448 .f32) (x4 : Vec F S400x256 .f32) (x5 : Vec F S256x256 .f32) (x6 : Vec F S256 .f32) (x7 : Vec F S192x192 .f32) (x8 : Vec F S128x128 .f32) (x9 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out0_10 ⟨x0, x1, x2, x3, x4, x5, x6, x7, x8, x9⟩) ∗ owns (c : Thread nD τ) arg12 fullShare (out0_11 ⟨x0, x1, x2, x3, x4, x5, x6, x7, x8, x9⟩) ∗ owns (c : Thread nD τ) arg13 fullShare (out0_12 ⟨x0, x1, x2, x3, x4, x5, x6, x7, x8, x9⟩) ∗ owns (c : Thread nD τ) arg14 fullShare (out0_13 ⟨x0, x1, x2, x3, x4, x5, x6, x7, x8, x9⟩)) -∗ K ⟨⟩))
      ⊢ wp frame (wpE (defs₀ (F := F)) Variants.none c none) E (cc0__so2_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__so2_kernel_eq_skeleton]; unfold cc0__so2_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7 hf8 hf9
  have e0 : arg1.view.readAt (Elt F) r0.toLoadRect f0 = arg1.view.read (Elt F) f0 := ld_r0 (arg1.view.read (Elt F) f0)
  have e1 : arg2.view.readAt (Elt F) r1.toLoadRect f1 = arg2.view.read (Elt F) f1 := ld_r1 (arg2.view.read (Elt F) f1)
  have e2 : arg3.view.readAt (Elt F) r2.toLoadRect f2 = arg3.view.read (Elt F) f2 := ld_r2 (arg3.view.read (Elt F) f2)
  have e3 : arg4.view.readAt (Elt F) r3.toLoadRect f3 = arg4.view.read (Elt F) f3 := ld_r3 (arg4.view.read (Elt F) f3)
  have e4 : arg5.view.readAt (Elt F) r4.toLoadRect f4 = arg5.view.read (Elt F) f4 := ld_r4 (arg5.view.read (Elt F) f4)
  have e5 : arg6.view.readAt (Elt F) r5.toLoadRect f5 = arg6.view.read (Elt F) f5 := ld_r5 (arg6.view.read (Elt F) f5)
  have e6 : arg7.view.readAt (Elt F) r6.toLoadRect f6 = arg7.view.read (Elt F) f6 := ld_r6 (arg7.view.read (Elt F) f6)
  have e7 : arg8.view.readAt (Elt F) r7.toLoadRect f7 = arg8.view.read (Elt F) f7 := ld_r7 (arg8.view.read (Elt F) f7)
  have e8 : arg9.view.readAt (Elt F) r8.toLoadRect f8 = arg9.view.read (Elt F) f8 := ld_r8 (arg9.view.read (Elt F) f8)
  have e9 : arg10.view.readAt (Elt F) r9.toLoadRect f9 = arg10.view.read (Elt F) f9 := ld_r9 (arg10.view.read (Elt F) f9)
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    rw [View.read_writes_eq_canon _ _ _ (cover0_10 _), out0_10_eq,
      View.canon_unit_zero (Val := Elt F) (e := .f32) (S := S400x64) hz2 inb_S400x64_S400x64_0_0]
    sl_unfold_run_names
    sl_unfold_run_names
    simp only [Body.v1, Body.v3, Body.v19, Body.v30, Body.v41, Body.v44, Body.v45, Body.v46, Body.v47, Body.v48, Body.v50, Body.v67, Body.v86, Body.v105, Body.v108, Body.v110, Body.v124, Body.v143, Body.v146, Body.v147, Body.v148, Body.v149, Body.v150, Body.v151, Body.v152, Body.v167, Body.v168, Body.v179, Body.v206, Body.v225, Body.v228, Body.v233, Body.v260, Body.v287, Body.v288, Body.v314, Body.v341, Body.v345, Body.v346, Body.v351, Body.v358, Body.v361, Body.v368, Body.v371, Body.v376, Body.v379, Body.v382, Body.v383, Body.v384, Body.v387, Body.v389, Body.v420, Body.v421, Body.v422, Body.v423, Body.v424, Body.v443, Body.v446, Body.v462, Body.v481, Body.v500, Body.v503, Body.v506, Body.v522, Body.v523, Body.v524, Body.v525, Body.v526, Body.v553, Body.v560, Body.v563, Body.v580, Body.v607, Body.v622, Body.v623, Body.v634, Body.v661, Body.v680, Body.v683, Body.o10, Body.o11, Body.o12, Body.o13, e0, e1, e2, e3, e4, e5, e6, e7, e8, e9]
  isplitl [H11]
  · iexists _; isplitr
    swap; · iexact H11
    ipureintro
    rw [View.read_writes_eq_canon _ _ _ (cover0_11 _), out0_11_eq,
      View.canon_unit_zero (Val := Elt F) (e := .f32) (S := S400x192) hz2 inb_S400x192_S400x192_0_0]
    sl_unfold_run_names
    sl_unfold_run_names
    simp only [Body.v1, Body.v3, Body.v19, Body.v30, Body.v41, Body.v44, Body.v45, Body.v46, Body.v47, Body.v48, Body.v50, Body.v67, Body.v86, Body.v105, Body.v108, Body.v110, Body.v124, Body.v143, Body.v146, Body.v147, Body.v148, Body.v149, Body.v150, Body.v151, Body.v152, Body.v167, Body.v168, Body.v179, Body.v206, Body.v225, Body.v228, Body.v233, Body.v260, Body.v287, Body.v288, Body.v314, Body.v341, Body.v345, Body.v346, Body.v351, Body.v358, Body.v361, Body.v368, Body.v371, Body.v376, Body.v379, Body.v382, Body.v383, Body.v384, Body.v387, Body.v389, Body.v420, Body.v421, Body.v422, Body.v423, Body.v424, Body.v443, Body.v446, Body.v462, Body.v481, Body.v500, Body.v503, Body.v506, Body.v522, Body.v523, Body.v524, Body.v525, Body.v526, Body.v553, Body.v560, Body.v563, Body.v580, Body.v607, Body.v622, Body.v623, Body.v634, Body.v661, Body.v680, Body.v683, Body.o10, Body.o11, Body.o12, Body.o13, e0, e1, e2, e3, e4, e5, e6, e7, e8, e9]
  isplitl [H12]
  · iexists _; isplitr
    swap; · iexact H12
    ipureintro
    rw [View.read_writes_eq_canon _ _ _ (cover0_12 _), out0_12_eq,
      View.canon_unit_zero (Val := Elt F) (e := .f32) (S := S400x320) hz2 inb_S400x320_S400x320_0_0]
    sl_unfold_run_names
    sl_unfold_run_names
    simp only [Body.v1, Body.v3, Body.v19, Body.v30, Body.v41, Body.v44, Body.v45, Body.v46, Body.v47, Body.v48, Body.v50, Body.v67, Body.v86, Body.v105, Body.v108, Body.v110, Body.v124, Body.v143, Body.v146, Body.v147, Body.v148, Body.v149, Body.v150, Body.v151, Body.v152, Body.v167, Body.v168, Body.v179, Body.v206, Body.v225, Body.v228, Body.v233, Body.v260, Body.v287, Body.v288, Body.v314, Body.v341, Body.v345, Body.v346, Body.v351, Body.v358, Body.v361, Body.v368, Body.v371, Body.v376, Body.v379, Body.v382, Body.v383, Body.v384, Body.v387, Body.v389, Body.v420, Body.v421, Body.v422, Body.v423, Body.v424, Body.v443, Body.v446, Body.v462, Body.v481, Body.v500, Body.v503, Body.v506, Body.v522, Body.v523, Body.v524, Body.v525, Body.v526, Body.v553, Body.v560, Body.v563, Body.v580, Body.v607, Body.v622, Body.v623, Body.v634, Body.v661, Body.v680, Body.v683, Body.o10, Body.o11, Body.o12, Body.o13, e0, e1, e2, e3, e4, e5, e6, e7, e8, e9]
  iexists _; isplitr
  swap; · iexact H13
  ipureintro
  rw [View.read_writes_eq_canon _ _ _ (cover0_13 _), out0_13_eq,
    View.canon_unit_zero (Val := Elt F) (e := .f32) (S := S400x448) hz2 inb_S400x448_S400x448_0_0]
  sl_unfold_run_names
  sl_unfold_run_names
  simp only [Body.v1, Body.v3, Body.v19, Body.v30, Body.v41, Body.v44, Body.v45, Body.v46, Body.v47, Body.v48, Body.v50, Body.v67, Body.v86, Body.v105, Body.v108, Body.v110, Body.v124, Body.v143, Body.v146, Body.v147, Body.v148, Body.v149, Body.v150, Body.v151, Body.v152, Body.v167, Body.v168, Body.v179, Body.v206, Body.v225, Body.v228, Body.v233, Body.v260, Body.v287, Body.v288, Body.v314, Body.v341, Body.v345, Body.v346, Body.v351, Body.v358, Body.v361, Body.v368, Body.v371, Body.v376, Body.v379, Body.v382, Body.v383, Body.v384, Body.v387, Body.v389, Body.v420, Body.v421, Body.v422, Body.v423, Body.v424, Body.v443, Body.v446, Body.v462, Body.v481, Body.v500, Body.v503, Body.v506, Body.v522, Body.v523, Body.v524, Body.v525, Body.v526, Body.v553, Body.v560, Body.v563, Body.v580, Body.v607, Body.v622, Body.v623, Body.v634, Body.v661, Body.v680, Body.v683, Body.o10, Body.o11, Body.o12, Body.o13, e0, e1, e2, e3, e4, e5, e6, e7, e8, e9]

end Cert.KernelIdeal.Frame

end
-- ==== Proof.FrameIdeal.lean ====
/-
  The frame of the program, second half, part two: the run of the region and the frame.

  The proof data of the one region on a core: each array as the region finds it; after the body at a grid point each
  input buffer at its block and output buffer `k` at the one block the body stores there, `Body.o1k` of the ten input
  blocks at the point; nothing kept from point to point, nothing owed, full shares. The body meets its obligation at
  every point by its triple, so the library's run theorem applies around the host operations, and the eight
  arguments end unchanged.
-/
import proofs.«104001_j24927990186029_2_alg».proof.Proof.FrameIdealB

-- membership in a rectangle of the blocks' extents: the elaborator's structural look recurses once per coordinate
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The proof data -/

/-- The ten input blocks at point `t`, as the region finds the arrays. -/
def blocksAt (c : Dev nD) (t : Fin cfg0.N) : Body.Blocks F :=
  ⟨iblk m c 0 t, iblk m c 1 t, iblk m c 2 t, iblk m c 3 t, iblk m c 4 t, iblk m c 5 t, iblk m c 6 t, iblk m c 7 t, iblk m c 8 t, iblk m c 9 t⟩

/-- The proof data of the region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (blocksAt m c t)
    | ⟨11, _⟩ => out0_11 (blocksAt m c t)
    | ⟨12, _⟩ => out0_12 (blocksAt m c t)
    | ⟨13, _⟩ => out0_13 (blocksAt m c t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out0_10 (blocksAt m c t) := by dsimp only [dats]
theorem after0_11 (c : Dev nD) (t : Fin cfg0.N) : (dats m 0 c).after 11 t = out0_11 (blocksAt m c t) := by dsimp only [dats]
theorem after0_12 (c : Dev nD) (t : Fin cfg0.N) : (dats m 0 c).after 12 t = out0_12 (blocksAt m c t) := by dsimp only [dats]
theorem after0_13 (c : Dev nD) (t : Fin cfg0.N) : (dats m 0 c).after 13 t = out0_13 (blocksAt m c t) := by dsimp only [dats]

/-- Each input's current buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 1000000 in
/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of the entry
    function on the cores terminates, and every final state has every array of the region at what the library computes
    from the proof data and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and its eight arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Frame

end
-- ==== Proof.HostLayout.lean ====
/-
  The host's re-layouts around the kernel call, read at an index.

  Before the call, for each degree `l` (`d = 2 l + 1`): the row's `64 d` entries of that degree, stored channel-major
  (entry `(μ, c)` at `μ d + c`), are re-laid component-major (entry `(μ, c)` at `64 c + μ`): a slice, a reshape to
  `[N, 64, d]`, a transpose of the last two axes, a reshape back. After the call the same in reverse. The row's 16 × 16
  matrix is flattened row-major: entry `(a, a')` at `16 a + a'`.
-/
import proofs.«104001_j24927990186029_2_alg».proof.Proof.Gen.KernelIdeal
import Idealize.ShloMosaic.Lib.Pipeline.Value
import Idealize.ShloMosaic.Lib.ValueIdx

noncomputable section

namespace Cert.KernelIdeal.Layout

open Idealize.ShloMosaic Idealize.ShloMosaic.ValueIdx Cert.KernelIdeal Cert.KernelIdeal.Facts₀

variable {α : Type}

/-! ## Before the call -/

/-- Degree 0: column `q = 64 c + μ` of the slab is column `0 + 1 μ + c` of the row. -/
theorem slab0_apply (a : S50000x1024.Idx → α) (n : Fin 50000) (q : Fin 64) :
    shapeCast S50000x64 (transpose S50000x1x64 [0, 2, 1] (shapeCast S50000x64x1
        (extractStridedSlice S50000x64 ![0, 0] a slices_S50000x1024_S50000x64_0_0) shapeCasts_S50000x64_S50000x64x1)
        transposes_S50000x64x1_S50000x1x64_0_2_1) shapeCasts_S50000x1x64_S50000x64 (ix2 n q)
      = a (ix2 n ⟨0 + (q.val % 64) * 1 + q.val / 64, by have := q.isLt; omega⟩) := by
  have hq := q.isLt
  refine (shapeCast_apply _ _ (ix2 n q) (ix3 n ⟨q.val / 64, by omega⟩ ⟨q.val % 64, by omega⟩) ?_).trans ?_
  · rw [Shape.rowMajor_val_three, Shape.rowMajor_val_two]
    show (n.val * 1 + q.val / 64) * 64 + q.val % 64 = n.val * 64 + q.val
    omega
  refine (transpose_apply _ _ _ _ (ix3 n ⟨q.val % 64, by omega⟩ ⟨q.val / 64, by omega⟩) ?_).trans ?_
  · intro b
    match b with
    | ⟨0, _⟩ => rfl
    | ⟨1, _⟩ => rfl
    | ⟨2, _⟩ => rfl
  refine (shapeCast_apply _ _ _ (ix2 n ⟨(q.val % 64) * 1 + q.val / 64, by omega⟩) ?_).trans ?_
  · rw [Shape.rowMajor_val_two, Shape.rowMajor_val_three]
    show n.val * 64 + ((q.val % 64) * 1 + q.val / 64) = (n.val * 64 + q.val % 64) * 1 + q.val / 64
    omega
  exact extractStridedSlice_apply _ _ _ _ _ (fun b => match b with
    | ⟨0, _⟩ => by show n.val = 0 + n.val; omega
    | ⟨1, _⟩ => by show 0 + (q.val % 64) * 1 + q.val / 64 = 0 + ((q.val % 64) * 1 + q.val / 64); omega)

/-- Degree 1: column `q = 64 c + μ` of the slab is column `64 + 3 μ + c` of the row. -/
theorem slab1_apply (a : S50000x1024.Idx → α) (n : Fin 50000) (q : Fin 192) :
    shapeCast S50000x192 (transpose S50000x3x64 [0, 2, 1] (shapeCast S50000x64x3
        (extractStridedSlice S50000x192 ![0, 64] a slices_S50000x1024_S50000x192_0_64) shapeCasts_S50000x192_S50000x64x3)
        transposes_S50000x64x3_S50000x3x64_0_2_1) shapeCasts_S50000x3x64_S50000x192 (ix2 n q)
      = a (ix2 n ⟨64 + (q.val % 64) * 3 + q.val / 64, by have := q.isLt; omega⟩) := by
  have hq := q.isLt
  refine (shapeCast_apply _ _ (ix2 n q) (ix3 n ⟨q.val / 64, by omega⟩ ⟨q.val % 64, by omega⟩) ?_).trans ?_
  · rw [Shape.rowMajor_val_three, Shape.rowMajor_val_two]
    show (n.val * 3 + q.val / 64) * 64 + q.val % 64 = n.val * 192 + q.val
    omega
  refine (transpose_apply _ _ _ _ (ix3 n ⟨q.val % 64, by omega⟩ ⟨q.val / 64, by omega⟩) ?_).trans ?_
  · intro b
    match b with
    | ⟨0, _⟩ => rfl
    | ⟨1, _⟩ => rfl
    | ⟨2, _⟩ => rfl
  refine (shapeCast_apply _ _ _ (ix2 n ⟨(q.val % 64) * 3 + q.val / 64, by omega⟩) ?_).trans ?_
  · rw [Shape.rowMajor_val_two, Shape.rowMajor_val_three]
    show n.val * 192 + ((q.val % 64) * 3 + q.val / 64) = (n.val * 64 + q.val % 64) * 3 + q.val / 64
    omega
  exact extractStridedSlice_apply _ _ _ _ _ (fun b => match b with
    | ⟨0, _⟩ => by show n.val = 0 + n.val; omega
    | ⟨1, _⟩ => by show 64 + (q.val % 64) * 3 + q.val / 64 = 64 + ((q.val % 64) * 3 + q.val / 64); omega)

/-- Degree 2: column `q = 64 c + μ` of the slab is column `256 + 5 μ + c` of the row. -/
theorem slab2_apply (a : S50000x1024.Idx → α) (n : Fin 50000) (q : Fin 320) :
    shapeCast S50000x320 (transpose S50000x5x64 [0, 2, 1] (shapeCast S50000x64x5
        (extractStridedSlice S50000x320 ![0, 256] a slices_S50000x1024_S50000x320_0_256) shapeCasts_S50000x320_S50000x64x5)
        transposes_S50000x64x5_S50000x5x64_0_2_1) shapeCasts_S50000x5x64_S50000x320 (ix2 n q)
      = a (ix2 n ⟨256 + (q.val % 64) * 5 + q.val / 64, by have := q.isLt; omega⟩) := by
  have hq := q.isLt
  refine (shapeCast_apply _ _ (ix2 n q) (ix3 n ⟨q.val / 64, by omega⟩ ⟨q.val % 64, by omega⟩) ?_).trans ?_
  · rw [Shape.rowMajor_val_three, Shape.rowMajor_val_two]
    show (n.val * 5 + q.val / 64) * 64 + q.val % 64 = n.val * 320 + q.val
    omega
  refine (transpose_apply _ _ _ _ (ix3 n ⟨q.val % 64, by omega⟩ ⟨q.val / 64, by omega⟩) ?_).trans ?_
  · intro b
    match b with
    | ⟨0, _⟩ => rfl
    | ⟨1, _⟩ => rfl
    | ⟨2, _⟩ => rfl
  refine (shapeCast_apply _ _ _ (ix2 n ⟨(q.val % 64) * 5 + q.val / 64, by omega⟩) ?_).trans ?_
  · rw [Shape.rowMajor_val_two, Shape.rowMajor_val_three]
    show n.val * 320 + ((q.val % 64) * 5 + q.val / 64) = (n.val * 64 + q.val % 64) * 5 + q.val / 64
    omega
  exact extractStridedSlice_apply _ _ _ _ _ (fun b => match b with
    | ⟨0, _⟩ => by show n.val = 0 + n.val; omega
    | ⟨1, _⟩ => by show 256 + (q.val % 64) * 5 + q.val / 64 = 256 + ((q.val % 64) * 5 + q.val / 64); omega)

/-- Degree 3: column `q = 64 c + μ` of the slab is column `576 + 7 μ + c` of the row. -/
theorem slab3_apply (a : S50000x1024.Idx → α) (n : Fin 50000) (q : Fin 448) :
    shapeCast S50000x448 (transpose S50000x7x64 [0, 2, 1] (shapeCast S50000x64x7
        (extractStridedSlice S50000x448 ![0, 576] a slices_S50000x1024_S50000x448_0_576) shapeCasts_S50000x448_S50000x64x7)
        transposes_S50000x64x7_S50000x7x64_0_2_1) shapeCasts_S50000x7x64_S50000x448 (ix2 n q)
      = a (ix2 n ⟨576 + (q.val % 64) * 7 + q.val / 64, by have := q.isLt; omega⟩) := by
  have hq := q.isLt
  refine (shapeCast_apply _ _ (ix2 n q) (ix3 n ⟨q.val / 64, by omega⟩ ⟨q.val % 64, by omega⟩) ?_).trans ?_
  · rw [Shape.rowMajor_val_three, Shape.rowMajor_val_two]
    show (n.val * 7 + q.val / 64) * 64 + q.val % 64 = n.val * 448 + q.val
    omega
  refine (transpose_apply _ _ _ _ (ix3 n ⟨q.val % 64, by omega⟩ ⟨q.val / 64, by omega⟩) ?_).trans ?_
  · intro b
    match b with
    | ⟨0, _⟩ => rfl
    | ⟨1, _⟩ => rfl
    | ⟨2, _⟩ => rfl
  refine (shapeCast_apply _ _ _ (ix2 n ⟨(q.val % 64) * 7 + q.val / 64, by omega⟩) ?_).trans ?_
  · rw [Shape.rowMajor_val_two, Shape.rowMajor_val_three]
    show n.val * 448 + ((q.val % 64) * 7 + q.val / 64) = (n.val * 64 + q.val % 64) * 7 + q.val / 64
    omega
  exact extractStridedSlice_apply _ _ _ _ _ (fun b => match b with
    | ⟨0, _⟩ => by show n.val = 0 + n.val; omega
    | ⟨1, _⟩ => by show 576 + (q.val % 64) * 7 + q.val / 64 = 576 + ((q.val % 64) * 7 + q.val / 64); omega)

/-- The matrices: column `q = 16 a + a'` of the flattened row is entry `(a, a')`. -/
theorem mats_apply (w : S50000x16x16.Idx → α) (n : Fin 50000) (q : Fin 256) :
    shapeCast S50000x256 w shapeCasts_S50000x16x16_S50000x256 (ix2 n q)
      = w (ix3 n ⟨q.val / 16, by have := q.isLt; omega⟩ ⟨q.val % 16, by omega⟩) := by
  have hq := q.isLt
  refine shapeCast_apply _ _ _ _ ?_
  rw [Shape.rowMajor_val_three, Shape.rowMajor_val_two]
  show (n.val * 16 + q.val / 16) * 16 + q.val % 16 = n.val * 256 + q.val
  omega

/-! ## After the call -/

/-- Degree 0: column `p = 1 μ + j` of the re-interleaved block is column `64 j + μ` of the kernel's. -/
theorem back0_apply (a : S50000x64.Idx → α) (n : Fin 50000) (p : Fin 64) :
    shapeCast S50000x64 (transpose S50000x64x1 [0, 2, 1] (shapeCast S50000x1x64 a shapeCasts_S50000x64_S50000x1x64)
        transposes_S50000x1x64_S50000x64x1_0_2_1) shapeCasts_S50000x64x1_S50000x64 (ix2 n p)
      = a (ix2 n ⟨(p.val % 1) * 64 + p.val / 1, by have := p.isLt; omega⟩) := by
  have hp := p.isLt
  refine (shapeCast_apply _ _ (ix2 n p) (ix3 n ⟨p.val / 1, by omega⟩ ⟨p.val % 1, by omega⟩) ?_).trans ?_
  · rw [Shape.rowMajor_val_three, Shape.rowMajor_val_two]
    show (n.val * 64 + p.val / 1) * 1 + p.val % 1 = n.val * 64 + p.val
    omega
  refine (transpose_apply _ _ _ _ (ix3 n ⟨p.val % 1, by omega⟩ ⟨p.val / 1, by omega⟩) ?_).trans ?_
  · intro b
    match b with
    | ⟨0, _⟩ => rfl
    | ⟨1, _⟩ => rfl
    | ⟨2, _⟩ => rfl
  refine shapeCast_apply _ _ _ _ ?_
  rw [Shape.rowMajor_val_two, Shape.rowMajor_val_three]
  show n.val * 64 + ((p.val % 1) * 64 + p.val / 1) = (n.val * 1 + p.val % 1) * 64 + p.val / 1
  omega

/-- Degree 1: column `p = 3 μ + j` of the re-interleaved block is column `64 j + μ` of the kernel's. -/
theorem back1_apply (a : S50000x192.Idx → α) (n : Fin 50000) (p : Fin 192) :
    shapeCast S50000x192 (transpose S50000x64x3 [0, 2, 1] (shapeCast S50000x3x64 a shapeCasts_S50000x192_S50000x3x64)
        transposes_S50000x3x64_S50000x64x3_0_2_1) shapeCasts_S50000x64x3_S50000x192 (ix2 n p)
      = a (ix2 n ⟨(p.val % 3) * 64 + p.val / 3, by have := p.isLt; omega⟩) := by
  have hp := p.isLt
  refine (shapeCast_apply _ _ (ix2 n p) (ix3 n ⟨p.val / 3, by omega⟩ ⟨p.val % 3, by omega⟩) ?_).trans ?_
  · rw [Shape.rowMajor_val_three, Shape.rowMajor_val_two]
    show (n.val * 64 + p.val / 3) * 3 + p.val % 3 = n.val * 192 + p.val
    omega
  refine (transpose_apply _ _ _ _ (ix3 n ⟨p.val % 3, by omega⟩ ⟨p.val / 3, by omega⟩) ?_).trans ?_
  · intro b
    match b with
    | ⟨0, _⟩ => rfl
    | ⟨1, _⟩ => rfl
    | ⟨2, _⟩ => rfl
  refine shapeCast_apply _ _ _ _ ?_
  rw [Shape.rowMajor_val_two, Shape.rowMajor_val_three]
  show n.val * 192 + ((p.val % 3) * 64 + p.val / 3) = (n.val * 3 + p.val % 3) * 64 + p.val / 3
  omega

/-- Degree 2: column `p = 5 μ + j` of the re-interleaved block is column `64 j + μ` of the kernel's. -/
theorem back2_apply (a : S50000x320.Idx → α) (n : Fin 50000) (p : Fin 320) :
    shapeCast S50000x320 (transpose S50000x64x5 [0, 2, 1] (shapeCast S50000x5x64 a shapeCasts_S50000x320_S50000x5x64)
        transposes_S50000x5x64_S50000x64x5_0_2_1) shapeCasts_S50000x64x5_S50000x320 (ix2 n p)
      = a (ix2 n ⟨(p.val % 5) * 64 + p.val / 5, by have := p.isLt; omega⟩) := by
  have hp := p.isLt
  refine (shapeCast_apply _ _ (ix2 n p) (ix3 n ⟨p.val / 5, by omega⟩ ⟨p.val % 5, by omega⟩) ?_).trans ?_
  · rw [Shape.rowMajor_val_three, Shape.rowMajor_val_two]
    show (n.val * 64 + p.val / 5) * 5 + p.val % 5 = n.val * 320 + p.val
    omega
  refine (transpose_apply _ _ _ _ (ix3 n ⟨p.val % 5, by omega⟩ ⟨p.val / 5, by omega⟩) ?_).trans ?_
  · intro b
    match b with
    | ⟨0, _⟩ => rfl
    | ⟨1, _⟩ => rfl
    | ⟨2, _⟩ => rfl
  refine shapeCast_apply _ _ _ _ ?_
  rw [Shape.rowMajor_val_two, Shape.rowMajor_val_three]
  show n.val * 320 + ((p.val % 5) * 64 + p.val / 5) = (n.val * 5 + p.val % 5) * 64 + p.val / 5
  omega

/-- Degree 3: column `p = 7 μ + j` of the re-interleaved block is column `64 j + μ` of the kernel's. -/
theorem back3_apply (a : S50000x448.Idx → α) (n : Fin 50000) (p : Fin 448) :
    shapeCast S50000x448 (transpose S50000x64x7 [0, 2, 1] (shapeCast S50000x7x64 a shapeCasts_S50000x448_S50000x7x64)
        transposes_S50000x7x64_S50000x64x7_0_2_1) shapeCasts_S50000x64x7_S50000x448 (ix2 n p)
      = a (ix2 n ⟨(p.val % 7) * 64 + p.val / 7, by have := p.isLt; omega⟩) := by
  have hp := p.isLt
  refine (shapeCast_apply _ _ (ix2 n p) (ix3 n ⟨p.val / 7, by omega⟩ ⟨p.val % 7, by omega⟩) ?_).trans ?_
  · rw [Shape.rowMajor_val_three, Shape.rowMajor_val_two]
    show (n.val * 64 + p.val / 7) * 7 + p.val % 7 = n.val * 448 + p.val
    omega
  refine (transpose_apply _ _ _ _ (ix3 n ⟨p.val % 7, by omega⟩ ⟨p.val / 7, by omega⟩) ?_).trans ?_
  · intro b
    match b with
    | ⟨0, _⟩ => rfl
    | ⟨1, _⟩ => rfl
    | ⟨2, _⟩ => rfl
  refine shapeCast_apply _ _ _ _ ?_
  rw [Shape.rowMajor_val_two, Shape.rowMajor_val_three]
  show n.val * 448 + ((p.val % 7) * 64 + p.val / 7) = (n.val * 7 + p.val % 7) * 64 + p.val / 7
  omega

/-! ## The four blocks joined -/

/-- Columns 0 … 63 of the joined row are piece 0's, 0 less. -/
theorem cat0_apply (a0 : S50000x64.Idx → α) (a1 : S50000x192.Idx → α) (a2 : S50000x320.Idx → α) (a3 : S50000x448.Idx → α)
    (n : Fin 50000) (col : Fin 1024) (hlo : 0 ≤ col.val) (hhi : col.val < 64) :
    concatenate S50000x1024 1 [⟨S50000x64, a0⟩, ⟨S50000x192, a1⟩, ⟨S50000x320, a2⟩, ⟨S50000x448, a3⟩] concatenates_S50000x64_S50000x192_S50000x320_S50000x448_S50000x1024_d1 (ix2 n col)
      = a0 (ix2 n ⟨col.val - 0, by omega⟩) :=
  concatenate_apply_piece 1 [⟨S50000x64, a0⟩, ⟨S50000x192, a1⟩, ⟨S50000x320, a2⟩, ⟨S50000x448, a3⟩] concatenates_S50000x64_S50000x192_S50000x320_S50000x448_S50000x1024_d1 (ix2 n col) 0 (by simp) S50000x64 a0 rfl rfl 0 (by rfl)
    (ix2 n ⟨col.val - 0, by omega⟩)
    (fun b hb => by
      match b with
      | ⟨0, _⟩ => rfl
      | ⟨1, _⟩ => exact absurd rfl hb)
    (by show 0 + (col.val - 0) = col.val; omega)

/-- Columns 64 … 255 of the joined row are piece 1's, 64 less. -/
theorem cat1_apply (a0 : S50000x64.Idx → α) (a1 : S50000x192.Idx → α) (a2 : S50000x320.Idx → α) (a3 : S50000x448.Idx → α)
    (n : Fin 50000) (col : Fin 1024) (hlo : 64 ≤ col.val) (hhi : col.val < 256) :
    concatenate S50000x1024 1 [⟨S50000x64, a0⟩, ⟨S50000x192, a1⟩, ⟨S50000x320, a2⟩, ⟨S50000x448, a3⟩] concatenates_S50000x64_S50000x192_S50000x320_S50000x448_S50000x1024_d1 (ix2 n col)
      = a1 (ix2 n ⟨col.val - 64, by omega⟩) :=
  concatenate_apply_piece 1 [⟨S50000x64, a0⟩, ⟨S50000x192, a1⟩, ⟨S50000x320, a2⟩, ⟨S50000x448, a3⟩] concatenates_S50000x64_S50000x192_S50000x320_S50000x448_S50000x1024_d1 (ix2 n col) 1 (by simp) S50000x192 a1 rfl rfl 64 (by rfl)
    (ix2 n ⟨col.val - 64, by omega⟩)
    (fun b hb => by
      match b with
      | ⟨0, _⟩ => rfl
      | ⟨1, _⟩ => exact absurd rfl hb)
    (by show 64 + (col.val - 64) = col.val; omega)

/-- Columns 256 … 575 of the joined row are piece 2's, 256 less. -/
theorem cat2_apply (a0 : S50000x64.Idx → α) (a1 : S50000x192.Idx → α) (a2 : S50000x320.Idx → α) (a3 : S50000x448.Idx → α)
    (n : Fin 50000) (col : Fin 1024) (hlo : 256 ≤ col.val) (hhi : col.val < 576) :
    concatenate S50000x1024 1 [⟨S50000x64, a0⟩, ⟨S50000x192, a1⟩, ⟨S50000x320, a2⟩, ⟨S50000x448, a3⟩] concatenates_S50000x64_S50000x192_S50000x320_S50000x448_S50000x1024_d1 (ix2 n col)
      = a2 (ix2 n ⟨col.val - 256, by omega⟩) :=
  concatenate_apply_piece 1 [⟨S50000x64, a0⟩, ⟨S50000x192, a1⟩, ⟨S50000x320, a2⟩, ⟨S50000x448, a3⟩] concatenates_S50000x64_S50000x192_S50000x320_S50000x448_S50000x1024_d1 (ix2 n col) 2 (by simp) S50000x320 a2 rfl rfl 256 (by rfl)
    (ix2 n ⟨col.val - 256, by omega⟩)
    (fun b hb => by
      match b with
      | ⟨0, _⟩ => rfl
      | ⟨1, _⟩ => exact absurd rfl hb)
    (by show 256 + (col.val - 256) = col.val; omega)

/-- Columns 576 … 1023 of the joined row are piece 3's, 576 less. -/
theorem cat3_apply (a0 : S50000x64.Idx → α) (a1 : S50000x192.Idx → α) (a2 : S50000x320.Idx → α) (a3 : S50000x448.Idx → α)
    (n : Fin 50000) (col : Fin 1024) (hlo : 576 ≤ col.val) (hhi : col.val < 1024) :
    concatenate S50000x1024 1 [⟨S50000x64, a0⟩, ⟨S50000x192, a1⟩, ⟨S50000x320, a2⟩, ⟨S50000x448, a3⟩] concatenates_S50000x64_S50000x192_S50000x320_S50000x448_S50000x1024_d1 (ix2 n col)
      = a3 (ix2 n ⟨col.val - 576, by omega⟩) :=
  concatenate_apply_piece 1 [⟨S50000x64, a0⟩, ⟨S50000x192, a1⟩, ⟨S50000x320, a2⟩, ⟨S50000x448, a3⟩] concatenates_S50000x64_S50000x192_S50000x320_S50000x448_S50000x1024_d1 (ix2 n col) 3 (by simp) S50000x448 a3 rfl rfl 576 (by rfl)
    (ix2 n ⟨col.val - 576, by omega⟩)
    (fun b hb => by
      match b with
      | ⟨0, _⟩ => rfl
      | ⟨1, _⟩ => exact absurd rfl hb)
    (by show 576 + (col.val - 576) = col.val; omega)

end Cert.KernelIdeal.Layout

end
-- ==== Proof.Spec.lean ====
/-
  The specification both programs are compared against: ONE row of the SO(2)-equivariant channel mixing, written over
  the extended reals with natural-number coordinates.

  A row holds 1024 entries: 64 channels of each degree `l = 0, 1, 2, 3`, degree `l` with `d = 2 l + 1` components, stored
  channel-major from column `64 l²` (entry `(μ, c)` of degree `l` at column `64 l² + μ d + c`); and a 16 × 16 matrix `D` whose
  diagonal block of degree `l` starts at row and column `l²`.
    1. rotate: component `j` of channel `μ` becomes `Σ_c x(μ, c) · D(l² + c, l² + j)`;
    2. mix: the order-0 components (`j = l`) of all four degrees, 256 numbers, go through `W_m0` and get the bias; for
       `m = 1, 2, 3` the order `-m` components (`j = l - m`) of the degrees `l ≥ m`, and likewise the order `+m` components
       (`j = l + m`), go through `W_m`;
    3. regroup by degree and rotate back: `Σ_c y(μ, c) · D(l² + j, l² + c)`.
  Sums are over `Finset.range`, in increasing order of the index.
-/
import Idealize.ShloMosaic.PureOps.Ideal
import Idealize.ShloMosaic.Lib.ValueIdx

noncomputable section

namespace Cert.Spec

open Finset Idealize.ShloMosaic Idealize.ShloMosaic.ValueIdx

/-! ## Arrays read at natural-number coordinates (zero outside the array) -/

/-- A vector read at a natural number. -/
def at1 {n0 : ℕ} (x : (⟨1, ![n0]⟩ : Shape).Idx → EReal) (a : ℕ) : EReal :=
  if h : a < n0 then x (ix1 ⟨a, h⟩) else 0
/-- A matrix read at two natural numbers. -/
def at2 {n0 n1 : ℕ} (x : (⟨2, ![n0, n1]⟩ : Shape).Idx → EReal) (a b : ℕ) : EReal :=
  if h : a < n0 ∧ b < n1 then x (ix2 ⟨a, h.1⟩ ⟨b, h.2⟩) else 0
/-- A rank-3 array read at three natural numbers. -/
def at3 {n0 n1 n2 : ℕ} (x : (⟨3, ![n0, n1, n2]⟩ : Shape).Idx → EReal) (a b c : ℕ) : EReal :=
  if h : a < n0 ∧ b < n1 ∧ c < n2 then x (ix3 ⟨a, h.1⟩ ⟨b, h.2.1⟩ ⟨c, h.2.2⟩) else 0

theorem at1_ix {n0 : ℕ} (x : (⟨1, ![n0]⟩ : Shape).Idx → EReal) (a : Fin n0) : x (ix1 a) = at1 x a.val := by
  unfold at1; rw [dif_pos a.isLt]
theorem at2_ix {n0 n1 : ℕ} (x : (⟨2, ![n0, n1]⟩ : Shape).Idx → EReal) (a : Fin n0) (b : Fin n1) :
    x (ix2 a b) = at2 x a.val b.val := by
  unfold at2; rw [dif_pos ⟨a.isLt, b.isLt⟩]
theorem at3_ix {n0 n1 n2 : ℕ} (x : (⟨3, ![n0, n1, n2]⟩ : Shape).Idx → EReal) (a : Fin n0) (b : Fin n1) (c : Fin n2) :
    x (ix3 a b c) = at3 x a.val b.val c.val := by
  unfold at3; rw [dif_pos ⟨a.isLt, b.isLt, c.isLt⟩]
theorem at1_idx {n0 : ℕ} (x : (⟨1, ![n0]⟩ : Shape).Idx → EReal) (j : (⟨1, ![n0]⟩ : Shape).Idx) :
    x j = at1 x (j 0).val := by
  conv_lhs => rw [eq_ix1 j]
  exact at1_ix x (j 0)
theorem at2_idx {n0 n1 : ℕ} (x : (⟨2, ![n0, n1]⟩ : Shape).Idx → EReal) (j : (⟨2, ![n0, n1]⟩ : Shape).Idx) :
    x j = at2 x (j 0).val (j 1).val := by
  conv_lhs => rw [eq_ix2 j]
  exact at2_ix x (j 0) (j 1)
theorem at3_idx {n0 n1 n2 : ℕ} (x : (⟨3, ![n0, n1, n2]⟩ : Shape).Idx → EReal) (j : (⟨3, ![n0, n1, n2]⟩ : Shape).Idx) :
    x j = at3 x (j 0).val (j 1).val (j 2).val := by
  conv_lhs => rw [eq_ix3 j]
  exact at3_ix x (j 0) (j 1) (j 2)

/-! ## One row -/

section Row

variable (X : ℕ → EReal) (D : ℕ → ℕ → EReal)
variable (W0 : ℕ → ℕ → EReal) (B0 : ℕ → EReal) (W1 W2 W3 : ℕ → ℕ → EReal)

/-- The rotation of one degree: `d` components from column `off`, the matrix block from `doff`. -/
def rot (d off doff μ j : ℕ) : EReal :=
  ∑ c ∈ range d, X (off + μ * d + c) * D (doff + c) (doff + j)

/-- Component `j` of channel `μ` of degree `l` after the rotation (degree 0 is not rotated). -/
def R (l μ j : ℕ) : EReal :=
  if l = 0 then X μ
  else if l = 1 then rot X D 3 64 1 μ j
  else if l = 2 then rot X D 5 256 4 μ j
  else rot X D 7 576 9 μ j

/-- The order-0 mix: output channel `o` of 256. -/
def ym0 (o : ℕ) : EReal :=
  (∑ k ∈ range 256, R X D (k / 64) (k % 64) (k / 64) * W0 o k) + B0 o

/-- The mixing matrix of order `m = 1, 2, 3`. -/
def Wm (m : ℕ) : ℕ → ℕ → EReal :=
  if m = 1 then W1 else if m = 2 then W2 else W3

/-- The order `-m` mix: input `k` is channel `k % 64` of degree `m + k / 64`, its component `k / 64`. -/
def ymm (m o : ℕ) : EReal :=
  ∑ k ∈ range (64 * (4 - m)), R X D (m + k / 64) (k % 64) (k / 64) * Wm W1 W2 W3 m o k

/-- The order `+m` mix: the component is `k / 64 + 2 m`. -/
def ypm (m o : ℕ) : EReal :=
  ∑ k ∈ range (64 * (4 - m)), R X D (m + k / 64) (k % 64) (k / 64 + 2 * m) * Wm W1 W2 W3 m o k

/-- Component `c` of channel `μ` of degree `l` after the mixes: order `c - l`. -/
def C (l c μ : ℕ) : EReal :=
  if c = l then ym0 X D W0 B0 (64 * l + μ)
  else if c < l then ymm X D W1 W2 W3 (l - c) (64 * c + μ)
  else ypm X D W1 W2 W3 (c - l) (64 * (2 * l - c) + μ)

/-- The rotation back, of one degree. -/
def rotBack (l d doff μ j : ℕ) : EReal :=
  ∑ c ∈ range d, C X D W0 B0 W1 W2 W3 l c μ * D (doff + j) (doff + c)

/-- Component `j` of channel `μ` of degree `l` of the result. -/
def out (l μ j : ℕ) : EReal :=
  if l = 0 then ym0 X D W0 B0 μ
  else if l = 1 then rotBack X D W0 B0 W1 W2 W3 1 3 1 μ j
  else if l = 2 then rotBack X D W0 B0 W1 W2 W3 2 5 4 μ j
  else rotBack X D W0 B0 W1 W2 W3 3 7 9 μ j

/-- The result row at column `col` of 1024. -/
def G (col : ℕ) : EReal :=
  if col < 64 then out X D W0 B0 W1 W2 W3 0 col 0
  else if col < 256 then out X D W0 B0 W1 W2 W3 1 ((col - 64) / 3) ((col - 64) % 3)
  else if col < 576 then out X D W0 B0 W1 W2 W3 2 ((col - 256) / 5) ((col - 256) % 5)
  else out X D W0 B0 W1 W2 W3 3 ((col - 576) / 7) ((col - 576) % 7)

end Row

/-! ## The whole result -/

/-- Entry `(n, col)` of the result, from the argument arrays. -/
def Gfull (x : (⟨2, ![50000, 1024]⟩ : Shape).Idx → EReal) (wg : (⟨3, ![50000, 16, 16]⟩ : Shape).Idx → EReal)
    (w0 : (⟨2, ![256, 256]⟩ : Shape).Idx → EReal) (b0 : (⟨1, ![256]⟩ : Shape).Idx → EReal)
    (w1 : (⟨2, ![192, 192]⟩ : Shape).Idx → EReal) (w2 : (⟨2, ![128, 128]⟩ : Shape).Idx → EReal)
    (w3 : (⟨2, ![64, 64]⟩ : Shape).Idx → EReal) (n col : ℕ) : EReal :=
  G (fun k => at2 x n k) (fun a b => at3 wg n a b) (at2 w0) (at1 b0) (at2 w1) (at2 w2) (at2 w3) col

end Cert.Spec

end
-- ==== Proof.KernelEntry.lean ====
/-
  What the kernel call finds in the arrays its windows stage, in natural-number coordinates.

  The four slabs are the features re-laid component-major per degree (column `64 c + μ` of degree `l`'s slab is entry
  `(μ, c)` of that degree, which sits at column `64 l² + μ d + c` of the features' row), the fifth array the rotation
  matrices flattened row-major, and the last five the weight arguments themselves.
-/
import proofs.«104001_j24927990186029_2_alg».proof.Proof.FrameIdealA
import proofs.«104001_j24927990186029_2_alg».proof.Proof.HostLayout
import proofs.«104001_j24927990186029_2_alg».proof.Proof.Spec
import Idealize.ShloMosaic.PureOps.Ideal

noncomputable section

namespace Cert.KernelIdeal.Entry

open Cert.KernelIdeal Cert.KernelIdeal.Facts₀ Cert.KernelIdeal.Frame Cert.Spec
open Idealize.ShloMosaic Idealize.ShloMosaic.TcCoe Idealize.SL.Sem

variable (m : (ℓ : Loc nD τ sig) → Buf (Elt Ideal) ℓ) (c : Dev nD)

/-- Degree 0's slab as the call finds it: column `q` of row `n` is column `0 + 1 (q % 64) + q / 64` of the features' row. -/
theorem entry0 (n q : ℕ) (hn : n < 50000) (hq : q < 64) :
    at2 (V m c main_v3 : S50000x64.Idx → EReal) n q = at2 (m ((c : Thread nD τ).loc main_arg0) : S50000x1024.Idx → EReal) n (0 + (q % 64) * 1 + q / 64) := by
  have e : (V m c main_v3 : S50000x64.Idx → EReal) = shapeCast S50000x64 (transpose S50000x1x64 [0, 2, 1] (shapeCast S50000x64x1
        (extractStridedSlice S50000x64 ![0, 0] (m ((c : Thread nD τ).loc main_arg0)) slices_S50000x1024_S50000x64_0_0) shapeCasts_S50000x64_S50000x64x1)
        transposes_S50000x64x1_S50000x1x64_0_2_1) shapeCasts_S50000x1x64_S50000x64 := by
    dsimp only [V, V0]
    simp only [Gen.hostOps0, List.flatten_cons, List.flatten_nil, List.append_nil]
    after_results
    rfl
  rw [e]
  have hb : 0 + (q % 64) * 1 + q / 64 < 1024 := by omega
  unfold at2
  rw [dif_pos ⟨hn, hq⟩, dif_pos ⟨hn, hb⟩]
  exact Layout.slab0_apply _ ⟨n, hn⟩ ⟨q, hq⟩

/-- Degree 1's slab as the call finds it: column `q` of row `n` is column `64 + 3 (q % 64) + q / 64` of the features' row. -/
theorem entry1 (n q : ℕ) (hn : n < 50000) (hq : q < 192) :
    at2 (V m c main_v7 : S50000x192.Idx → EReal) n q = at2 (m ((c : Thread nD τ).loc main_arg0) : S50000x1024.Idx → EReal) n (64 + (q % 64) * 3 + q / 64) := by
  have e : (V m c main_v7 : S50000x192.Idx → EReal) = shapeCast S50000x192 (transpose S50000x3x64 [0, 2, 1] (shapeCast S50000x64x3
        (extractStridedSlice S50000x192 ![0, 64] (m ((c : Thread nD τ).loc main_arg0)) slices_S50000x1024_S50000x192_0_64) shapeCasts_S50000x192_S50000x64x3)
        transposes_S50000x64x3_S50000x3x64_0_2_1) shapeCasts_S50000x3x64_S50000x192 := by
    dsimp only [V, V0]
    simp only [Gen.hostOps0, List.flatten_cons, List.flatten_nil, List.append_nil]
    after_results
    rfl
  rw [e]
  have hb : 64 + (q % 64) * 3 + q / 64 < 1024 := by omega
  unfold at2
  rw [dif_pos ⟨hn, hq⟩, dif_pos ⟨hn, hb⟩]
  exact Layout.slab1_apply _ ⟨n, hn⟩ ⟨q, hq⟩

/-- Degree 2's slab as the call finds it: column `q` of row `n` is column `256 + 5 (q % 64) + q / 64` of the features' row. -/
theorem entry2 (n q : ℕ) (hn : n < 50000) (hq : q < 320) :
    at2 (V m c main_v11 : S50000x320.Idx → EReal) n q = at2 (m ((c : Thread nD τ).loc main_arg0) : S50000x1024.Idx → EReal) n (256 + (q % 64) * 5 + q / 64) := by
  have e : (V m c main_v11 : S50000x320.Idx → EReal) = shapeCast S50000x320 (transpose S50000x5x64 [0, 2, 1] (shapeCast S50000x64x5
        (extractStridedSlice S50000x320 ![0, 256] (m ((c : Thread nD τ).loc main_arg0)) slices_S50000x1024_S50000x320_0_256) shapeCasts_S50000x320_S50000x64x5)
        transposes_S50000x64x5_S50000x5x64_0_2_1) shapeCasts_S50000x5x64_S50000x320 := by
    dsimp only [V, V0]
    simp only [Gen.hostOps0, List.flatten_cons, List.flatten_nil, List.append_nil]
    after_results
    rfl
  rw [e]
  have hb : 256 + (q % 64) * 5 + q / 64 < 1024 := by omega
  unfold at2
  rw [dif_pos ⟨hn, hq⟩, dif_pos ⟨hn, hb⟩]
  exact Layout.slab2_apply _ ⟨n, hn⟩ ⟨q, hq⟩

/-- Degree 3's slab as the call finds it: column `q` of row `n` is column `576 + 7 (q % 64) + q / 64` of the features' row. -/
theorem entry3 (n q : ℕ) (hn : n < 50000) (hq : q < 448) :
    at2 (V m c main_v15 : S50000x448.Idx → EReal) n q = at2 (m ((c : Thread nD τ).loc main_arg0) : S50000x1024.Idx → EReal) n (576 + (q % 64) * 7 + q / 64) := by
  have e : (V m c main_v15 : S50000x448.Idx → EReal) = shapeCast S50000x448 (transpose S50000x7x64 [0, 2, 1] (shapeCast S50000x64x7
        (extractStridedSlice S50000x448 ![0, 576] (m ((c : Thread nD τ).loc main_arg0)) slices_S50000x1024_S50000x448_0_576) shapeCasts_S50000x448_S50000x64x7)
        transposes_S50000x64x7_S50000x7x64_0_2_1) shapeCasts_S50000x7x64_S50000x448 := by
    dsimp only [V, V0]
    simp only [Gen.hostOps0, List.flatten_cons, List.flatten_nil, List.append_nil]
    after_results
    rfl
  rw [e]
  have hb : 576 + (q % 64) * 7 + q / 64 < 1024 := by omega
  unfold at2
  rw [dif_pos ⟨hn, hq⟩, dif_pos ⟨hn, hb⟩]
  exact Layout.slab3_apply _ ⟨n, hn⟩ ⟨q, hq⟩

/-- The rotation matrices as the call finds them: column `q` of row `n` is entry `(q / 16, q % 16)` of row `n`'s matrix. -/
theorem entry4 (n q : ℕ) (hn : n < 50000) (hq : q < 256) :
    at2 (V m c main_v16 : S50000x256.Idx → EReal) n q = at3 (m ((c : Thread nD τ).loc main_arg2) : S50000x16x16.Idx → EReal) n (q / 16) (q % 16) := by
  have e : (V m c main_v16 : S50000x256.Idx → EReal) = shapeCast S50000x256 (m ((c : Thread nD τ).loc main_arg2)) shapeCasts_S50000x16x16_S50000x256 := by
    dsimp only [V, V0]
    simp only [Gen.hostOps0, List.flatten_cons, List.flatten_nil, List.append_nil]
    after_results
    rfl
  rw [e]
  have h1 : q / 16 < 16 := by omega
  have h2 : q % 16 < 16 := by omega
  unfold at2 at3
  rw [dif_pos ⟨hn, hq⟩, dif_pos ⟨hn, h1, h2⟩]
  exact Layout.mats_apply _ ⟨n, hn⟩ ⟨q, hq⟩

end Cert.KernelIdeal.Entry

end
-- ==== Proof.KernelBlocks.lean ====
/-
  The input windows' blocks at a grid point, in natural-number coordinates.

  The grid has 125 points; point `t` works on rows `400 t … 400 t + 399`. Each of the five row-wise windows (the four
  slabs and the rotation matrices) hands the body block `(t, 0)` of its array: row `r` of the block is row `400 t + r`
  of the array. Each weight window hands the body its whole array at every point.
-/
import proofs.«104001_j24927990186029_2_alg».proof.Proof.FrameIdealA
import proofs.«104001_j24927990186029_2_alg».proof.Proof.Spec
import Idealize.ShloMosaic.PureOps.Ideal

noncomputable section

namespace Cert.KernelIdeal.Blocks

open Cert.KernelIdeal Cert.KernelIdeal.Gen Cert.KernelIdeal.Frame Cert.Spec
open Idealize.ShloMosaic Idealize.ShloMosaic.TcCoe Idealize.ShloMosaic.ValueIdx Idealize.SL.Sem

/-- The printed index maps, decided over the grid: the row-wise windows (and the four outputs) take block `(t, 0)`, the
    weight windows block `0`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_10.index t (0 : Fin 2) = t.val ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0
    ∧ win0_13.index t (0 : Fin 2) = t.val ∧ win0_13.index t (1 : Fin 2) = 0
    ∧ win0_5.index t (0 : Fin 2) = 0 ∧ win0_5.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_6.index t (0 : Fin 1) = 0 :=
  (by decide +kernel : ∀ t : Fin grid0.N, _)

variable (m : (ℓ : Loc nD τ sig) → Buf (Elt Ideal) ℓ) (c : Dev nD)

/-- Window 0's block at point `t`, row `r`: row `400 t + r` of its array. -/
theorem blk0_row (t : Fin cfg0.N) (r q : ℕ) (hr : r < 400) (hq : q < 64) :
    at2 (iblk m c 0 t : S400x64.Idx → EReal) r q = at2 (V m c main_v3 : S50000x64.Idx → EReal) (400 * t.val + r) q := by
  have ht : t.val < 125 := Nat.lt_of_lt_of_eq t.isLt N_0
  have hn : 400 * t.val + r < 50000 := by omega
  unfold at2
  rw [dif_pos ⟨hr, hq⟩, dif_pos ⟨hn, hq⟩]
  show V m c main_v3 (((cfg0.win 0).blk t).view.emb (ix2 ⟨r, hr⟩ ⟨q, hq⟩)) = V m c main_v3 (ix2 ⟨400 * t.val + r, hn⟩ ⟨q, hq⟩)
  refine congrArg _ (funext fun a => Fin.ext ?_)
  have hf := idx_facts t
  match a with
  | ⟨0, _⟩ => show win0_0.index t (0 : Fin 2) * 400 + 1 * r = 400 * t.val + r; omega
  | ⟨1, _⟩ => show win0_0.index t (1 : Fin 2) * 64 + 1 * q = q; omega

/-- Window 1's block at point `t`, row `r`: row `400 t + r` of its array. -/
theorem blk1_row (t : Fin cfg0.N) (r q : ℕ) (hr : r < 400) (hq : q < 192) :
    at2 (iblk m c 1 t : S400x192.Idx → EReal) r q = at2 (V m c main_v7 : S50000x192.Idx → EReal) (400 * t.val + r) q := by
  have ht : t.val < 125 := Nat.lt_of_lt_of_eq t.isLt N_0
  have hn : 400 * t.val + r < 50000 := by omega
  unfold at2
  rw [dif_pos ⟨hr, hq⟩, dif_pos ⟨hn, hq⟩]
  show V m c main_v7 (((cfg0.win 1).blk t).view.emb (ix2 ⟨r, hr⟩ ⟨q, hq⟩)) = V m c main_v7 (ix2 ⟨400 * t.val + r, hn⟩ ⟨q, hq⟩)
  refine congrArg _ (funext fun a => Fin.ext ?_)
  have hf := idx_facts t
  match a with
  | ⟨0, _⟩ => show win0_1.index t (0 : Fin 2) * 400 + 1 * r = 400 * t.val + r; omega
  | ⟨1, _⟩ => show win0_1.index t (1 : Fin 2) * 192 + 1 * q = q; omega

/-- Window 2's block at point `t`, row `r`: row `400 t + r` of its array. -/
theorem blk2_row (t : Fin cfg0.N) (r q : ℕ) (hr : r < 400) (hq : q < 320) :
    at2 (iblk m c 2 t : S400x320.Idx → EReal) r q = at2 (V m c main_v11 : S50000x320.Idx → EReal) (400 * t.val + r) q := by
  have ht : t.val < 125 := Nat.lt_of_lt_of_eq t.isLt N_0
  have hn : 400 * t.val + r < 50000 := by omega
  unfold at2
  rw [dif_pos ⟨hr, hq⟩, dif_pos ⟨hn, hq⟩]
  show V m c main_v11 (((cfg0.win 2).blk t).view.emb (ix2 ⟨r, hr⟩ ⟨q, hq⟩)) = V m c main_v11 (ix2 ⟨400 * t.val + r, hn⟩ ⟨q, hq⟩)
  refine congrArg _ (funext fun a => Fin.ext ?_)
  have hf := idx_facts t
  match a with
  | ⟨0, _⟩ => show win0_2.index t (0 : Fin 2) * 400 + 1 * r = 400 * t.val + r; omega
  | ⟨1, _⟩ => show win0_2.index t (1 : Fin 2) * 320 + 1 * q = q; omega

/-- Window 3's block at point `t`, row `r`: row `400 t + r` of its array. -/
theorem blk3_row (t : Fin cfg0.N) (r q : ℕ) (hr : r < 400) (hq : q < 448) :
    at2 (iblk m c 3 t : S400x448.Idx → EReal) r q = at2 (V m c main_v15 : S50000x448.Idx → EReal) (400 * t.val + r) q := by
  have ht : t.val < 125 := Nat.lt_of_lt_of_eq t.isLt N_0
  have hn : 400 * t.val + r < 50000 := by omega
  unfold at2
  rw [dif_pos ⟨hr, hq⟩, dif_pos ⟨hn, hq⟩]
  show V m c main_v15 (((cfg0.win 3).blk t).view.emb (ix2 ⟨r, hr⟩ ⟨q, hq⟩)) = V m c main_v15 (ix2 ⟨400 * t.val + r, hn⟩ ⟨q, hq⟩)
  refine congrArg _ (funext fun a => Fin.ext ?_)
  have hf := idx_facts t
  match a with
  | ⟨0, _⟩ => show win0_3.index t (0 : Fin 2) * 400 + 1 * r = 400 * t.val + r; omega
  | ⟨1, _⟩ => show win0_3.index t (1 : Fin 2) * 448 + 1 * q = q; omega

/-- Window 4's block at point `t`, row `r`: row `400 t + r` of its array. -/
theorem blk4_row (t : Fin cfg0.N) (r q : ℕ) (hr : r < 400) (hq : q < 256) :
    at2 (iblk m c 4 t : S400x256.Idx → EReal) r q = at2 (V m c main_v16 : S50000x256.Idx → EReal) (400 * t.val + r) q := by
  have ht : t.val < 125 := Nat.lt_of_lt_of_eq t.isLt N_0
  have hn : 400 * t.val + r < 50000 := by omega
  unfold at2
  rw [dif_pos ⟨hr, hq⟩, dif_pos ⟨hn, hq⟩]
  show V m c main_v16 (((cfg0.win 4).blk t).view.emb (ix2 ⟨r, hr⟩ ⟨q, hq⟩)) = V m c main_v16 (ix2 ⟨400 * t.val + r, hn⟩ ⟨q, hq⟩)
  refine congrArg _ (funext fun a => Fin.ext ?_)
  have hf := idx_facts t
  match a with
  | ⟨0, _⟩ => show win0_4.index t (0 : Fin 2) * 400 + 1 * r = 400 * t.val + r; omega
  | ⟨1, _⟩ => show win0_4.index t (1 : Fin 2) * 256 + 1 * q = q; omega

/-- Window 5's block at any point is its whole array. -/
theorem blk5_whole (t : Fin cfg0.N) (o k : ℕ) :
    at2 (iblk m c 5 t : S256x256.Idx → EReal) o k = at2 (V m c main_arg3 : S256x256.Idx → EReal) o k := by
  unfold at2
  by_cases h : o < 256 ∧ k < 256
  · rw [dif_pos h, dif_pos h]
    show V m c main_arg3 (((cfg0.win 5).blk t).view.emb (ix2 ⟨o, h.1⟩ ⟨k, h.2⟩)) = V m c main_arg3 (ix2 ⟨o, h.1⟩ ⟨k, h.2⟩)
    refine congrArg _ (funext fun a => Fin.ext ?_)
    have hf := idx_facts t
    match a with
    | ⟨0, _⟩ => show win0_5.index t (0 : Fin 2) * 256 + 1 * o = o; omega
    | ⟨1, _⟩ => show win0_5.index t (1 : Fin 2) * 256 + 1 * k = k; omega
  · rw [dif_neg h, dif_neg h]

/-- Window 7's block at any point is its whole array. -/
theorem blk7_whole (t : Fin cfg0.N) (o k : ℕ) :
    at2 (iblk m c 7 t : S192x192.Idx → EReal) o k = at2 (V m c main_arg5 : S192x192.Idx → EReal) o k := by
  unfold at2
  by_cases h : o < 192 ∧ k < 192
  · rw [dif_pos h, dif_pos h]
    show V m c main_arg5 (((cfg0.win 7).blk t).view.emb (ix2 ⟨o, h.1⟩ ⟨k, h.2⟩)) = V m c main_arg5 (ix2 ⟨o, h.1⟩ ⟨k, h.2⟩)
    refine congrArg _ (funext fun a => Fin.ext ?_)
    have hf := idx_facts t
    match a with
    | ⟨0, _⟩ => show win0_7.index t (0 : Fin 2) * 192 + 1 * o = o; omega
    | ⟨1, _⟩ => show win0_7.index t (1 : Fin 2) * 192 + 1 * k = k; omega
  · rw [dif_neg h, dif_neg h]

/-- Window 8's block at any point is its whole array. -/
theorem blk8_whole (t : Fin cfg0.N) (o k : ℕ) :
    at2 (iblk m c 8 t : S128x128.Idx → EReal) o k = at2 (V m c main_arg6 : S128x128.Idx → EReal) o k := by
  unfold at2
  by_cases h : o < 128 ∧ k < 128
  · rw [dif_pos h, dif_pos h]
    show V m c main_arg6 (((cfg0.win 8).blk t).view.emb (ix2 ⟨o, h.1⟩ ⟨k, h.2⟩)) = V m c main_arg6 (ix2 ⟨o, h.1⟩ ⟨k, h.2⟩)
    refine congrArg _ (funext fun a => Fin.ext ?_)
    have hf := idx_facts t
    match a with
    | ⟨0, _⟩ => show win0_8.index t (0 : Fin 2) * 128 + 1 * o = o; omega
    | ⟨1, _⟩ => show win0_8.index t (1 : Fin 2) * 128 + 1 * k = k; omega
  · rw [dif_neg h, dif_neg h]

/-- Window 9's block at any point is its whole array. -/
theorem blk9_whole (t : Fin cfg0.N) (o k : ℕ) :
    at2 (iblk m c 9 t : S64x64.Idx → EReal) o k = at2 (V m c main_arg7 : S64x64.Idx → EReal) o k := by
  unfold at2
  by_cases h : o < 64 ∧ k < 64
  · rw [dif_pos h, dif_pos h]
    show V m c main_arg7 (((cfg0.win 9).blk t).view.emb (ix2 ⟨o, h.1⟩ ⟨k, h.2⟩)) = V m c main_arg7 (ix2 ⟨o, h.1⟩ ⟨k, h.2⟩)
    refine congrArg _ (funext fun a => Fin.ext ?_)
    have hf := idx_facts t
    match a with
    | ⟨0, _⟩ => show win0_9.index t (0 : Fin 2) * 64 + 1 * o = o; omega
    | ⟨1, _⟩ => show win0_9.index t (1 : Fin 2) * 64 + 1 * k = k; omega
  · rw [dif_neg h, dif_neg h]

/-- The bias window's block at any point is the whole bias. -/
theorem blk6_whole (t : Fin cfg0.N) (o : ℕ) :
    at1 (iblk m c 6 t : S256.Idx → EReal) o = at1 (V m c main_arg4 : S256.Idx → EReal) o := by
  unfold at1
  by_cases h : o < 256
  · rw [dif_pos h, dif_pos h]
    show V m c main_arg4 (((cfg0.win 6).blk t).view.emb (ix1 ⟨o, h⟩)) = V m c main_arg4 (ix1 ⟨o, h⟩)
    refine congrArg _ (funext fun a => Fin.ext ?_)
    have hf := idx_facts t
    match a with
    | ⟨0, _⟩ => show win0_6.index t (0 : Fin 1) * 256 + 1 * o = o; omega
  · rw [dif_neg h, dif_neg h]

end Cert.KernelIdeal.Blocks

end
-- ==== Proof.KernelRotLib.lean ====
/-
  The forward rotation of the kernel body, read at one row: the vocabulary.

  A rotated component is a sum of products "64-column slab of a degree's block, times one column of the row's flattened
  16 × 16 matrix, broadcast along the 64 channels". This module reads each of those operations at natural-number
  coordinates (`Spec.at2`): a column broadcast, a slab, and the blocks themselves in terms of the row `X` and the
  matrix `D`.
-/
import proofs.«104001_j24927990186029_2_alg».proof.Proof.BodyVals
import proofs.«104001_j24927990186029_2_alg».proof.Proof.Spec
import Idealize.ShloMosaic.Lib.Pipeline.Value
import Idealize.ShloMosaic.Lib.ValueIdx
import Idealize.ShloMosaic.PureOps.Ideal.Laws

noncomputable section

namespace Cert.KernelIdeal.Mix

open Finset Idealize.ShloMosaic Idealize.ShloMosaic.ValueIdx Cert.KernelIdeal Cert.KernelIdeal.Gen Cert.Spec

/-! ## Arrays at natural-number coordinates -/

/-- Inside the array, `at2` is the entry. -/
theorem at2_mk {n0 n1 : ℕ} (x : (⟨2, ![n0, n1]⟩ : Shape).Idx → EReal) (a c : ℕ) (ha : a < n0) (hc : c < n1) :
    at2 x a c = x (ix2 ⟨a, ha⟩ ⟨c, hc⟩) := by
  unfold at2; rw [dif_pos ⟨ha, hc⟩]

/-- One column of the 256-wide rotation rows, broadcast along the 64 channels: every channel reads that column. -/
theorem bcol_apply (n : ℕ) (v : FVec Ideal S400x256 .f32) (hs : S400x256.Slices ![0, n] S400x1)
    (hb : S400x1.Broadcasts S400x64) (p : Fin 400) (q : Fin 64) :
    broadcastTo S400x64 (extractStridedSlice S400x1 ![0, n] v hs) hb (ix2 p q) = at2 v p.val n := by
  have h12 : (1 : ℕ) < 2 := by decide
  have hn : n + 1 ≤ 256 := by have h := hs.2 ⟨1, h12⟩; exact h
  have hn' : n < 256 := by omega
  refine (broadcastTo_apply _ hb (ix2 p q) (ix2 p (⟨0, by decide⟩ : Fin 1)) (fun a => ?_)).trans ?_
  · match a with
    | ⟨0, _⟩ => show p.val = if (400 : ℕ) = 1 then 0 else p.val; rw [if_neg (by decide)]
    | ⟨1, _⟩ => show 0 = if (1 : ℕ) = 1 then 0 else q.val; rw [if_pos rfl]
  · refine (extractStridedSlice_apply _ v hs _ (ix2 p ⟨n, hn'⟩) (fun a => ?_)).trans (at2_ix v p ⟨n, hn'⟩)
    match a with
    | ⟨0, _⟩ => show p.val = 0 + p.val; omega
    | ⟨1, _⟩ => show n = n + 0; omega

/-- A 64-column slab of a block of width `W`, from column `o`: channel `q` reads column `o + q`. -/
theorem slab_apply {W : ℕ} (o : ℕ) (x : (⟨2, ![400, W]⟩ : Shape).Idx → EReal)
    (hs : (⟨2, ![400, W]⟩ : Shape).Slices ![0, o] S400x64) (p : Fin 400) (q : Fin 64) :
    extractStridedSlice S400x64 ![0, o] x hs (ix2 p q) = at2 x p.val (o + q.val) := by
  have h12 : (1 : ℕ) < 2 := by decide
  have ho : o + 64 ≤ W := by have h := hs.2 ⟨1, h12⟩; exact h
  have ho' : o + q.val < W := by have := q.isLt; omega
  refine (extractStridedSlice_apply _ x hs _ (ix2 p ⟨o + q.val, ho'⟩) (fun a => ?_)).trans (at2_ix x p ⟨o + q.val, ho'⟩)
  match a with
  | ⟨0, _⟩ => show p.val = 0 + p.val; omega
  | ⟨1, _⟩ => show o + q.val = o + q.val; rfl

/-! ## The specification's rotation, degree by degree -/

theorem R_zero (X : ℕ → EReal) (D : ℕ → ℕ → EReal) (μ j : ℕ) : R X D 0 μ j = X μ := rfl
theorem R_one (X : ℕ → EReal) (D : ℕ → ℕ → EReal) (μ j : ℕ) :
    R X D 1 μ j = X (64 + μ * 3 + 0) * D (1 + 0) (1 + j) + X (64 + μ * 3 + 1) * D (1 + 1) (1 + j)
      + X (64 + μ * 3 + 2) * D (1 + 2) (1 + j) := by
  show rot X D 3 64 1 μ j = _
  simp only [rot, Finset.sum_range_succ, Finset.sum_range_zero, zero_add]
theorem R_two (X : ℕ → EReal) (D : ℕ → ℕ → EReal) (μ j : ℕ) :
    R X D 2 μ j = X (256 + μ * 5 + 0) * D (4 + 0) (4 + j) + X (256 + μ * 5 + 1) * D (4 + 1) (4 + j)
      + X (256 + μ * 5 + 2) * D (4 + 2) (4 + j) + X (256 + μ * 5 + 3) * D (4 + 3) (4 + j)
      + X (256 + μ * 5 + 4) * D (4 + 4) (4 + j) := by
  show rot X D 5 256 4 μ j = _
  simp only [rot, Finset.sum_range_succ, Finset.sum_range_zero, zero_add]
theorem R_three (X : ℕ → EReal) (D : ℕ → ℕ → EReal) (μ j : ℕ) :
    R X D 3 μ j = X (576 + μ * 7 + 0) * D (9 + 0) (9 + j) + X (576 + μ * 7 + 1) * D (9 + 1) (9 + j)
      + X (576 + μ * 7 + 2) * D (9 + 2) (9 + j) + X (576 + μ * 7 + 3) * D (9 + 3) (9 + j)
      + X (576 + μ * 7 + 4) * D (9 + 4) (9 + j) + X (576 + μ * 7 + 5) * D (9 + 5) (9 + j)
      + X (576 + μ * 7 + 6) * D (9 + 6) (9 + j) := by
  show rot X D 7 576 9 μ j = _
  simp only [rot, Finset.sum_range_succ, Finset.sum_range_zero, zero_add]

/-! ## The loaded blocks at a row, in terms of the row `X` and the matrix `D` -/

section Blocks

variable (b : Cert.KernelIdeal.Body.Blocks Ideal) (r : ℕ) (X : ℕ → EReal) (D : ℕ → ℕ → EReal)

/-- Column `(l² + c) · 16 + (l² + j)` of the rotation rows is the matrix entry. -/
theorem colD (hD : ∀ a a', a < 16 → a' < 16 → at2 b.x4 r (a * 16 + a') = D a a') (off c j : ℕ) (n : ℕ)
    (hn : n = (off + c) * 16 + (off + j)) (h1 : off + c < 16) (h2 : off + j < 16) :
    at2 b.x4 r n = D (off + c) (off + j) := by
  rw [hn]; exact hD _ _ h1 h2

/-- Column `o + μ` of a degree's block, `o = 64 c`: component `c` of channel `μ`. -/
theorem colX {W : ℕ} (x : (⟨2, ![400, W]⟩ : Shape).Idx → EReal) (d base : ℕ)
    (hx : ∀ c μ, c < d → μ < 64 → at2 x r (c * 64 + μ) = X (base + μ * d + c)) (o c μ : ℕ) (ho : o = c * 64)
    (hc : c < d) (hμ : μ < 64) : at2 x r (o + μ) = X (base + μ * d + c) := by
  rw [ho]; exact hx c μ hc hμ

end Blocks

end Cert.KernelIdeal.Mix

end
-- ==== Proof.KernelRot1.lean ====
/-
  The forward rotation of the kernel body at one row: degree 1 (and the unrotated degree 0).

  Each rotated component is the sum, over the degree's components `c`, of the slab `c` of the degree's block times the
  column `(l² + c) · 16 + (l² + j)` of the rotation rows, added left to right: the specification's `R`.
-/
import proofs.«104001_j24927990186029_2_alg».proof.Proof.KernelRotLib

noncomputable section

namespace Cert.KernelIdeal.Mix

open Finset Idealize.ShloMosaic Idealize.ShloMosaic.ValueIdx Cert.KernelIdeal Cert.KernelIdeal.Gen Cert.Spec

section

variable (b : Cert.KernelIdeal.Body.Blocks Ideal) (r : ℕ) (hr : r < 400) (X : ℕ → EReal) (D : ℕ → ℕ → EReal)
  (hx0 : ∀ μ, μ < 64 → at2 b.x0 r μ = X μ)
  (hx1 : ∀ c μ, c < 3 → μ < 64 → at2 b.x1 r (c * 64 + μ) = X (64 + μ * 3 + c))
  (hx2 : ∀ c μ, c < 5 → μ < 64 → at2 b.x2 r (c * 64 + μ) = X (256 + μ * 5 + c))
  (hx3 : ∀ c μ, c < 7 → μ < 64 → at2 b.x3 r (c * 64 + μ) = X (576 + μ * 7 + c))
  (hD : ∀ a a', a < 16 → a' < 16 → at2 b.x4 r (a * 16 + a') = D a a')
include hr hx0 hx1 hx2 hx3 hD

/-- The degree-0 slab is the row's first 64 entries. -/
theorem v3_row (μ : ℕ) (hμ : μ < 64) : at2 (Body.v3 b) r μ = R X D 0 μ 0 := by
  rw [R_zero, ← hx0 μ hμ, at2_mk _ r μ hr hμ, at2_mk _ r μ hr hμ]
  simp only [Body.v3, k0_pay3, shapeCast_self]

/-- Component 0 of degree 1 after the rotation. -/
theorem v19_row (μ : ℕ) (hμ : μ < 64) : at2 (Body.v19 b) r μ = R X D 1 μ 0 := by
  rw [at2_mk _ r μ hr hμ, R_one]
  simp only [Body.v19, k0_pay8, k0_pay2, k0_pay5, k0_pay4, k0_pay6, k0_pay7, addf_apply, mulf_apply, bcol_apply, slab_apply, shapeCast_self, Fin.val_mk]
  rw [colX r X b.x1 3 64 hx1 0 0 μ rfl (by omega) hμ,
    colX r X b.x1 3 64 hx1 64 1 μ rfl (by omega) hμ,
    colX r X b.x1 3 64 hx1 128 2 μ rfl (by omega) hμ,
    colD b r D hD 1 0 0 17 rfl (by omega) (by omega),
    colD b r D hD 1 1 0 33 rfl (by omega) (by omega),
    colD b r D hD 1 2 0 49 rfl (by omega) (by omega)]

/-- Component 1 of degree 1 after the rotation. -/
theorem v30_row (μ : ℕ) (hμ : μ < 64) : at2 (Body.v30 b) r μ = R X D 1 μ 1 := by
  rw [at2_mk _ r μ hr hμ, R_one]
  simp only [Body.v30, k0_pay9, k0_pay2, k0_pay5, k0_pay4, k0_pay6, k0_pay7, addf_apply, mulf_apply, bcol_apply, slab_apply, shapeCast_self, Fin.val_mk]
  rw [colX r X b.x1 3 64 hx1 0 0 μ rfl (by omega) hμ,
    colX r X b.x1 3 64 hx1 64 1 μ rfl (by omega) hμ,
    colX r X b.x1 3 64 hx1 128 2 μ rfl (by omega) hμ,
    colD b r D hD 1 0 1 18 rfl (by omega) (by omega),
    colD b r D hD 1 1 1 34 rfl (by omega) (by omega),
    colD b r D hD 1 2 1 50 rfl (by omega) (by omega)]

/-- Component 2 of degree 1 after the rotation. -/
theorem v41_row (μ : ℕ) (hμ : μ < 64) : at2 (Body.v41 b) r μ = R X D 1 μ 2 := by
  rw [at2_mk _ r μ hr hμ, R_one]
  simp only [Body.v41, k0_pay10, k0_pay2, k0_pay5, k0_pay4, k0_pay6, k0_pay7, addf_apply, mulf_apply, bcol_apply, slab_apply, shapeCast_self, Fin.val_mk]
  rw [colX r X b.x1 3 64 hx1 0 0 μ rfl (by omega) hμ,
    colX r X b.x1 3 64 hx1 64 1 μ rfl (by omega) hμ,
    colX r X b.x1 3 64 hx1 128 2 μ rfl (by omega) hμ,
    colD b r D hD 1 0 2 19 rfl (by omega) (by omega),
    colD b r D hD 1 1 2 35 rfl (by omega) (by omega),
    colD b r D hD 1 2 2 51 rfl (by omega) (by omega)]

end

end Cert.KernelIdeal.Mix

end
-- ==== Proof.KernelRot2.lean ====
/-
  The forward rotation of the kernel body at one row: degree 2.

  Each rotated component is the sum, over the degree's components `c`, of the slab `c` of the degree's block times the
  column `(l² + c) · 16 + (l² + j)` of the rotation rows, added left to right: the specification's `R`.
-/
import proofs.«104001_j24927990186029_2_alg».proof.Proof.KernelRotLib

noncomputable section

namespace Cert.KernelIdeal.Mix

open Finset Idealize.ShloMosaic Idealize.ShloMosaic.ValueIdx Cert.KernelIdeal Cert.KernelIdeal.Gen Cert.Spec

section

variable (b : Cert.KernelIdeal.Body.Blocks Ideal) (r : ℕ) (hr : r < 400) (X : ℕ → EReal) (D : ℕ → ℕ → EReal)
  (hx0 : ∀ μ, μ < 64 → at2 b.x0 r μ = X μ)
  (hx1 : ∀ c μ, c < 3 → μ < 64 → at2 b.x1 r (c * 64 + μ) = X (64 + μ * 3 + c))
  (hx2 : ∀ c μ, c < 5 → μ < 64 → at2 b.x2 r (c * 64 + μ) = X (256 + μ * 5 + c))
  (hx3 : ∀ c μ, c < 7 → μ < 64 → at2 b.x3 r (c * 64 + μ) = X (576 + μ * 7 + c))
  (hD : ∀ a a', a < 16 → a' < 16 → at2 b.x4 r (a * 16 + a') = D a a')
include hr hx0 hx1 hx2 hx3 hD

/-- Component 0 of degree 2 after the rotation. -/
theorem v67_row (μ : ℕ) (hμ : μ < 64) : at2 (Body.v67 b) r μ = R X D 2 μ 0 := by
  rw [at2_mk _ r μ hr hμ, R_two]
  simp only [Body.v67, Body.v1, Body.v44, Body.v45, Body.v46, Body.v47, Body.v48, Body.v50, k0_pay18, k0_pay2, k0_pay12, k0_pay11, k0_pay13, k0_pay14, k0_pay15, k0_pay16, k0_pay17, addf_apply, mulf_apply, bcol_apply, slab_apply, shapeCast_self, Fin.val_mk]
  rw [colX r X b.x2 5 256 hx2 0 0 μ rfl (by omega) hμ,
    colX r X b.x2 5 256 hx2 64 1 μ rfl (by omega) hμ,
    colX r X b.x2 5 256 hx2 128 2 μ rfl (by omega) hμ,
    colX r X b.x2 5 256 hx2 192 3 μ rfl (by omega) hμ,
    colX r X b.x2 5 256 hx2 256 4 μ rfl (by omega) hμ,
    colD b r D hD 4 0 0 68 rfl (by omega) (by omega),
    colD b r D hD 4 1 0 84 rfl (by omega) (by omega),
    colD b r D hD 4 2 0 100 rfl (by omega) (by omega),
    colD b r D hD 4 3 0 116 rfl (by omega) (by omega),
    colD b r D hD 4 4 0 132 rfl (by omega) (by omega)]

/-- Component 1 of degree 2 after the rotation. -/
theorem v86_row (μ : ℕ) (hμ : μ < 64) : at2 (Body.v86 b) r μ = R X D 2 μ 1 := by
  rw [at2_mk _ r μ hr hμ, R_two]
  simp only [Body.v86, Body.v1, Body.v44, Body.v45, Body.v46, Body.v47, Body.v48, k0_pay19, k0_pay2, k0_pay12, k0_pay11, k0_pay13, k0_pay14, k0_pay15, k0_pay16, addf_apply, mulf_apply, bcol_apply, slab_apply, shapeCast_self, Fin.val_mk]
  rw [colX r X b.x2 5 256 hx2 0 0 μ rfl (by omega) hμ,
    colX r X b.x2 5 256 hx2 64 1 μ rfl (by omega) hμ,
    colX r X b.x2 5 256 hx2 128 2 μ rfl (by omega) hμ,
    colX r X b.x2 5 256 hx2 192 3 μ rfl (by omega) hμ,
    colX r X b.x2 5 256 hx2 256 4 μ rfl (by omega) hμ,
    colD b r D hD 4 0 1 69 rfl (by omega) (by omega),
    colD b r D hD 4 1 1 85 rfl (by omega) (by omega),
    colD b r D hD 4 2 1 101 rfl (by omega) (by omega),
    colD b r D hD 4 3 1 117 rfl (by omega) (by omega),
    colD b r D hD 4 4 1 133 rfl (by omega) (by omega)]

/-- Component 2 of degree 2 after the rotation. -/
theorem v105_row (μ : ℕ) (hμ : μ < 64) : at2 (Body.v105 b) r μ = R X D 2 μ 2 := by
  rw [at2_mk _ r μ hr hμ, R_two]
  simp only [Body.v105, Body.v1, Body.v44, Body.v45, Body.v46, Body.v47, Body.v48, k0_pay20, k0_pay2, k0_pay12, k0_pay11, k0_pay13, k0_pay14, k0_pay15, k0_pay16, addf_apply, mulf_apply, bcol_apply, slab_apply, shapeCast_self, Fin.val_mk]
  rw [colX r X b.x2 5 256 hx2 0 0 μ rfl (by omega) hμ,
    colX r X b.x2 5 256 hx2 64 1 μ rfl (by omega) hμ,
    colX r X b.x2 5 256 hx2 128 2 μ rfl (by omega) hμ,
    colX r X b.x2 5 256 hx2 192 3 μ rfl (by omega) hμ,
    colX r X b.x2 5 256 hx2 256 4 μ rfl (by omega) hμ,
    colD b r D hD 4 0 2 70 rfl (by omega) (by omega),
    colD b r D hD 4 1 2 86 rfl (by omega) (by omega),
    colD b r D hD 4 2 2 102 rfl (by omega) (by omega),
    colD b r D hD 4 3 2 118 rfl (by omega) (by omega),
    colD b r D hD 4 4 2 134 rfl (by omega) (by omega)]

/-- Component 3 of degree 2 after the rotation. -/
theorem v124_row (μ : ℕ) (hμ : μ < 64) : at2 (Body.v124 b) r μ = R X D 2 μ 3 := by
  rw [at2_mk _ r μ hr hμ, R_two]
  simp only [Body.v124, Body.v1, Body.v45, Body.v46, Body.v47, Body.v48, Body.v108, Body.v44, Body.v110, k0_pay23, k0_pay2, k0_pay13, k0_pay11, k0_pay14, k0_pay15, k0_pay16, k0_pay21, k0_pay12, k0_pay22, addf_apply, mulf_apply, bcol_apply, slab_apply, shapeCast_self, Fin.val_mk]
  rw [colX r X b.x2 5 256 hx2 0 0 μ rfl (by omega) hμ,
    colX r X b.x2 5 256 hx2 64 1 μ rfl (by omega) hμ,
    colX r X b.x2 5 256 hx2 128 2 μ rfl (by omega) hμ,
    colX r X b.x2 5 256 hx2 192 3 μ rfl (by omega) hμ,
    colX r X b.x2 5 256 hx2 256 4 μ rfl (by omega) hμ,
    colD b r D hD 4 0 3 71 rfl (by omega) (by omega),
    colD b r D hD 4 1 3 87 rfl (by omega) (by omega),
    colD b r D hD 4 2 3 103 rfl (by omega) (by omega),
    colD b r D hD 4 3 3 119 rfl (by omega) (by omega),
    colD b r D hD 4 4 3 135 rfl (by omega) (by omega)]

/-- Component 4 of degree 2 after the rotation. -/
theorem v143_row (μ : ℕ) (hμ : μ < 64) : at2 (Body.v143 b) r μ = R X D 2 μ 4 := by
  rw [at2_mk _ r μ hr hμ, R_two]
  simp only [Body.v143, Body.v1, Body.v44, Body.v45, Body.v46, Body.v47, Body.v48, k0_pay24, k0_pay2, k0_pay12, k0_pay11, k0_pay13, k0_pay14, k0_pay15, k0_pay16, addf_apply, mulf_apply, bcol_apply, slab_apply, shapeCast_self, Fin.val_mk]
  rw [colX r X b.x2 5 256 hx2 0 0 μ rfl (by omega) hμ,
    colX r X b.x2 5 256 hx2 64 1 μ rfl (by omega) hμ,
    colX r X b.x2 5 256 hx2 128 2 μ rfl (by omega) hμ,
    colX r X b.x2 5 256 hx2 192 3 μ rfl (by omega) hμ,
    colX r X b.x2 5 256 hx2 256 4 μ rfl (by omega) hμ,
    colD b r D hD 4 0 4 72 rfl (by omega) (by omega),
    colD b r D hD 4 1 4 88 rfl (by omega) (by omega),
    colD b r D hD 4 2 4 104 rfl (by omega) (by omega),
    colD b r D hD 4 3 4 120 rfl (by omega) (by omega),
    colD b r D hD 4 4 4 136 rfl (by omega) (by omega)]

end

end Cert.KernelIdeal.Mix

end
-- ==== Proof.KernelRot3.lean ====
/-
  The forward rotation of the kernel body at one row: degree 3.

  Each rotated component is the sum, over the degree's components `c`, of the slab `c` of the degree's block times the
  column `(l² + c) · 16 + (l² + j)` of the rotation rows, added left to right: the specification's `R`.
-/
import proofs.«104001_j24927990186029_2_alg».proof.Proof.KernelRotLib

noncomputable section

namespace Cert.KernelIdeal.Mix

open Finset Idealize.ShloMosaic Idealize.ShloMosaic.ValueIdx Cert.KernelIdeal Cert.KernelIdeal.Gen Cert.Spec

section

variable (b : Cert.KernelIdeal.Body.Blocks Ideal) (r : ℕ) (hr : r < 400) (X : ℕ → EReal) (D : ℕ → ℕ → EReal)
  (hx0 : ∀ μ, μ < 64 → at2 b.x0 r μ = X μ)
  (hx1 : ∀ c μ, c < 3 → μ < 64 → at2 b.x1 r (c * 64 + μ) = X (64 + μ * 3 + c))
  (hx2 : ∀ c μ, c < 5 → μ < 64 → at2 b.x2 r (c * 64 + μ) = X (256 + μ * 5 + c))
  (hx3 : ∀ c μ, c < 7 → μ < 64 → at2 b.x3 r (c * 64 + μ) = X (576 + μ * 7 + c))
  (hD : ∀ a a', a < 16 → a' < 16 → at2 b.x4 r (a * 16 + a') = D a a')
include hr hx0 hx1 hx2 hx3 hD

/-- Component 0 of degree 3 after the rotation. -/
theorem v179_row (μ : ℕ) (hμ : μ < 64) : at2 (Body.v179 b) r μ = R X D 3 μ 0 := by
  rw [at2_mk _ r μ hr hμ, R_three]
  simp only [Body.v179, Body.v1, Body.v150, Body.v151, Body.v152, Body.v167, Body.v168, k0_pay35, k0_pay2, k0_pay30, k0_pay25, k0_pay31, k0_pay32, k0_pay33, k0_pay26, k0_pay27, k0_pay28, k0_pay29, k0_pay34, addf_apply, mulf_apply, bcol_apply, slab_apply, shapeCast_self, Fin.val_mk]
  rw [colX r X b.x3 7 576 hx3 0 0 μ rfl (by omega) hμ,
    colX r X b.x3 7 576 hx3 64 1 μ rfl (by omega) hμ,
    colX r X b.x3 7 576 hx3 128 2 μ rfl (by omega) hμ,
    colX r X b.x3 7 576 hx3 192 3 μ rfl (by omega) hμ,
    colX r X b.x3 7 576 hx3 256 4 μ rfl (by omega) hμ,
    colX r X b.x3 7 576 hx3 320 5 μ rfl (by omega) hμ,
    colX r X b.x3 7 576 hx3 384 6 μ rfl (by omega) hμ,
    colD b r D hD 9 0 0 153 rfl (by omega) (by omega),
    colD b r D hD 9 1 0 169 rfl (by omega) (by omega),
    colD b r D hD 9 2 0 185 rfl (by omega) (by omega),
    colD b r D hD 9 3 0 201 rfl (by omega) (by omega),
    colD b r D hD 9 4 0 217 rfl (by omega) (by omega),
    colD b r D hD 9 5 0 233 rfl (by omega) (by omega),
    colD b r D hD 9 6 0 249 rfl (by omega) (by omega)]

/-- Component 1 of degree 3 after the rotation. -/
theorem v206_row (μ : ℕ) (hμ : μ < 64) : at2 (Body.v206 b) r μ = R X D 3 μ 1 := by
  rw [at2_mk _ r μ hr hμ, R_three]
  simp only [Body.v206, Body.v1, Body.v146, Body.v147, Body.v148, Body.v149, Body.v150, Body.v151, Body.v152, k0_pay36, k0_pay2, k0_pay26, k0_pay25, k0_pay27, k0_pay28, k0_pay29, k0_pay30, k0_pay31, k0_pay32, addf_apply, mulf_apply, bcol_apply, slab_apply, shapeCast_self, Fin.val_mk]
  rw [colX r X b.x3 7 576 hx3 0 0 μ rfl (by omega) hμ,
    colX r X b.x3 7 576 hx3 64 1 μ rfl (by omega) hμ,
    colX r X b.x3 7 576 hx3 128 2 μ rfl (by omega) hμ,
    colX r X b.x3 7 576 hx3 192 3 μ rfl (by omega) hμ,
    colX r X b.x3 7 576 hx3 256 4 μ rfl (by omega) hμ,
    colX r X b.x3 7 576 hx3 320 5 μ rfl (by omega) hμ,
    colX r X b.x3 7 576 hx3 384 6 μ rfl (by omega) hμ,
    colD b r D hD 9 0 1 154 rfl (by omega) (by omega),
    colD b r D hD 9 1 1 170 rfl (by omega) (by omega),
    colD b r D hD 9 2 1 186 rfl (by omega) (by omega),
    colD b r D hD 9 3 1 202 rfl (by omega) (by omega),
    colD b r D hD 9 4 1 218 rfl (by omega) (by omega),
    colD b r D hD 9 5 1 234 rfl (by omega) (by omega),
    colD b r D hD 9 6 1 250 rfl (by omega) (by omega)]

/-- Component 2 of degree 3 after the rotation. -/
theorem v233_row (μ : ℕ) (hμ : μ < 64) : at2 (Body.v233 b) r μ = R X D 3 μ 2 := by
  rw [at2_mk _ r μ hr hμ, R_three]
  simp only [Body.v233, Body.v1, Body.v152, Body.v225, Body.v146, Body.v147, Body.v148, Body.v149, Body.v150, Body.v228, Body.v151, k0_pay39, k0_pay2, k0_pay32, k0_pay25, k0_pay37, k0_pay26, k0_pay27, k0_pay28, k0_pay29, k0_pay30, k0_pay38, k0_pay31, addf_apply, mulf_apply, bcol_apply, slab_apply, shapeCast_self, Fin.val_mk]
  rw [colX r X b.x3 7 576 hx3 0 0 μ rfl (by omega) hμ,
    colX r X b.x3 7 576 hx3 64 1 μ rfl (by omega) hμ,
    colX r X b.x3 7 576 hx3 128 2 μ rfl (by omega) hμ,
    colX r X b.x3 7 576 hx3 192 3 μ rfl (by omega) hμ,
    colX r X b.x3 7 576 hx3 256 4 μ rfl (by omega) hμ,
    colX r X b.x3 7 576 hx3 320 5 μ rfl (by omega) hμ,
    colX r X b.x3 7 576 hx3 384 6 μ rfl (by omega) hμ,
    colD b r D hD 9 0 2 155 rfl (by omega) (by omega),
    colD b r D hD 9 1 2 171 rfl (by omega) (by omega),
    colD b r D hD 9 2 2 187 rfl (by omega) (by omega),
    colD b r D hD 9 3 2 203 rfl (by omega) (by omega),
    colD b r D hD 9 4 2 219 rfl (by omega) (by omega),
    colD b r D hD 9 5 2 235 rfl (by omega) (by omega),
    colD b r D hD 9 6 2 251 rfl (by omega) (by omega)]

/-- Component 3 of degree 3 after the rotation. -/
theorem v260_row (μ : ℕ) (hμ : μ < 64) : at2 (Body.v260 b) r μ = R X D 3 μ 3 := by
  rw [at2_mk _ r μ hr hμ, R_three]
  simp only [Body.v260, Body.v1, Body.v146, Body.v147, Body.v148, Body.v149, Body.v150, Body.v151, Body.v152, k0_pay40, k0_pay2, k0_pay26, k0_pay25, k0_pay27, k0_pay28, k0_pay29, k0_pay30, k0_pay31, k0_pay32, addf_apply, mulf_apply, bcol_apply, slab_apply, shapeCast_self, Fin.val_mk]
  rw [colX r X b.x3 7 576 hx3 0 0 μ rfl (by omega) hμ,
    colX r X b.x3 7 576 hx3 64 1 μ rfl (by omega) hμ,
    colX r X b.x3 7 576 hx3 128 2 μ rfl (by omega) hμ,
    colX r X b.x3 7 576 hx3 192 3 μ rfl (by omega) hμ,
    colX r X b.x3 7 576 hx3 256 4 μ rfl (by omega) hμ,
    colX r X b.x3 7 576 hx3 320 5 μ rfl (by omega) hμ,
    colX r X b.x3 7 576 hx3 384 6 μ rfl (by omega) hμ,
    colD b r D hD 9 0 3 156 rfl (by omega) (by omega),
    colD b r D hD 9 1 3 172 rfl (by omega) (by omega),
    colD b r D hD 9 2 3 188 rfl (by omega) (by omega),
    colD b r D hD 9 3 3 204 rfl (by omega) (by omega),
    colD b r D hD 9 4 3 220 rfl (by omega) (by omega),
    colD b r D hD 9 5 3 236 rfl (by omega) (by omega),
    colD b r D hD 9 6 3 252 rfl (by omega) (by omega)]

/-- Component 4 of degree 3 after the rotation. -/
theorem v287_row (μ : ℕ) (hμ : μ < 64) : at2 (Body.v287 b) r μ = R X D 3 μ 4 := by
  rw [at2_mk _ r μ hr hμ, R_three]
  simp only [Body.v287, Body.v1, Body.v146, Body.v147, Body.v148, Body.v149, Body.v150, Body.v151, Body.v152, k0_pay41, k0_pay2, k0_pay26, k0_pay25, k0_pay27, k0_pay28, k0_pay29, k0_pay30, k0_pay31, k0_pay32, addf_apply, mulf_apply, bcol_apply, slab_apply, shapeCast_self, Fin.val_mk]
  rw [colX r X b.x3 7 576 hx3 0 0 μ rfl (by omega) hμ,
    colX r X b.x3 7 576 hx3 64 1 μ rfl (by omega) hμ,
    colX r X b.x3 7 576 hx3 128 2 μ rfl (by omega) hμ,
    colX r X b.x3 7 576 hx3 192 3 μ rfl (by omega) hμ,
    colX r X b.x3 7 576 hx3 256 4 μ rfl (by omega) hμ,
    colX r X b.x3 7 576 hx3 320 5 μ rfl (by omega) hμ,
    colX r X b.x3 7 576 hx3 384 6 μ rfl (by omega) hμ,
    colD b r D hD 9 0 4 157 rfl (by omega) (by omega),
    colD b r D hD 9 1 4 173 rfl (by omega) (by omega),
    colD b r D hD 9 2 4 189 rfl (by omega) (by omega),
    colD b r D hD 9 3 4 205 rfl (by omega) (by omega),
    colD b r D hD 9 4 4 221 rfl (by omega) (by omega),
    colD b r D hD 9 5 4 237 rfl (by omega) (by omega),
    colD b r D hD 9 6 4 253 rfl (by omega) (by omega)]

/-- Component 5 of degree 3 after the rotation. -/
theorem v314_row (μ : ℕ) (hμ : μ < 64) : at2 (Body.v314 b) r μ = R X D 3 μ 5 := by
  rw [at2_mk _ r μ hr hμ, R_three]
  simp only [Body.v314, Body.v1, Body.v146, Body.v147, Body.v148, Body.v149, Body.v150, Body.v151, Body.v152, Body.v288, k0_pay43, k0_pay2, k0_pay26, k0_pay25, k0_pay27, k0_pay28, k0_pay29, k0_pay30, k0_pay31, k0_pay32, k0_pay42, addf_apply, mulf_apply, bcol_apply, slab_apply, shapeCast_self, Fin.val_mk]
  rw [colX r X b.x3 7 576 hx3 0 0 μ rfl (by omega) hμ,
    colX r X b.x3 7 576 hx3 64 1 μ rfl (by omega) hμ,
    colX r X b.x3 7 576 hx3 128 2 μ rfl (by omega) hμ,
    colX r X b.x3 7 576 hx3 192 3 μ rfl (by omega) hμ,
    colX r X b.x3 7 576 hx3 256 4 μ rfl (by omega) hμ,
    colX r X b.x3 7 576 hx3 320 5 μ rfl (by omega) hμ,
    colX r X b.x3 7 576 hx3 384 6 μ rfl (by omega) hμ,
    colD b r D hD 9 0 5 158 rfl (by omega) (by omega),
    colD b r D hD 9 1 5 174 rfl (by omega) (by omega),
    colD b r D hD 9 2 5 190 rfl (by omega) (by omega),
    colD b r D hD 9 3 5 206 rfl (by omega) (by omega),
    colD b r D hD 9 4 5 222 rfl (by omega) (by omega),
    colD b r D hD 9 5 5 238 rfl (by omega) (by omega),
    colD b r D hD 9 6 5 254 rfl (by omega) (by omega)]

/-- Component 6 of degree 3 after the rotation. -/
theorem v341_row (μ : ℕ) (hμ : μ < 64) : at2 (Body.v341 b) r μ = R X D 3 μ 6 := by
  rw [at2_mk _ r μ hr hμ, R_three]
  simp only [Body.v341, Body.v1, Body.v146, Body.v147, Body.v148, Body.v149, Body.v150, Body.v151, Body.v152, k0_pay44, k0_pay2, k0_pay26, k0_pay25, k0_pay27, k0_pay28, k0_pay29, k0_pay30, k0_pay31, k0_pay32, addf_apply, mulf_apply, bcol_apply, slab_apply, shapeCast_self, Fin.val_mk]
  rw [colX r X b.x3 7 576 hx3 0 0 μ rfl (by omega) hμ,
    colX r X b.x3 7 576 hx3 64 1 μ rfl (by omega) hμ,
    colX r X b.x3 7 576 hx3 128 2 μ rfl (by omega) hμ,
    colX r X b.x3 7 576 hx3 192 3 μ rfl (by omega) hμ,
    colX r X b.x3 7 576 hx3 256 4 μ rfl (by omega) hμ,
    colX r X b.x3 7 576 hx3 320 5 μ rfl (by omega) hμ,
    colX r X b.x3 7 576 hx3 384 6 μ rfl (by omega) hμ,
    colD b r D hD 9 0 6 159 rfl (by omega) (by omega),
    colD b r D hD 9 1 6 175 rfl (by omega) (by omega),
    colD b r D hD 9 2 6 191 rfl (by omega) (by omega),
    colD b r D hD 9 3 6 207 rfl (by omega) (by omega),
    colD b r D hD 9 4 6 223 rfl (by omega) (by omega),
    colD b r D hD 9 5 6 239 rfl (by omega) (by omega),
    colD b r D hD 9 6 6 255 rfl (by omega) (by omega)]

end

end Cert.KernelIdeal.Mix

end
-- ==== Proof.KernelMixLib.lean ====
/-
  The channel mixes of the kernel body, read at one entry: the vocabulary.

  A mix is a matrix product into a zero accumulator of a row (a concatenation of 64-channel components, narrowed to
  bf16, which the ideal values do not see) with a transposed weight block. This module reads, at an index, the four
  products as plain sums over the contracted channel, the transposes, the concatenations piece by piece and the bias
  row; and spells the specification's mixes for each order.
-/
import proofs.«104001_j24927990186029_2_alg».proof.Proof.BodyVals
import proofs.«104001_j24927990186029_2_alg».proof.Proof.Spec
import Idealize.ShloMosaic.Lib.Pipeline.Value
import Idealize.ShloMosaic.Lib.ValueIdx
import Idealize.ShloMosaic.PureOps.Ideal.Laws

noncomputable section

namespace Cert.KernelIdeal.Mix

open Finset Idealize.ShloMosaic Idealize.ShloMosaic.ValueIdx Cert.KernelIdeal Cert.KernelIdeal.Gen Cert.Spec

/-! ## The matrix products and the transposed weights -/

theorem lhs256_0 (i : S400x256.Idx) (q : dot_S400x256_S256x256_S400x256_1_0_0_1_n_n.contr.Idx) : (dot_S400x256_S256x256_S400x256_1_0_0_1_n_n.lhsIdx i q 0).val = (i 0).val := by
  unfold DotDims.lhsIdx
  rw [dif_neg (show ¬(0 : Fin S400x256.rank) ∈ dot_S400x256_S256x256_S400x256_1_0_0_1_n_n.lhsBatch by decide),
    dif_pos (show (0 : Fin S400x256.rank) ∈ dot_S400x256_S256x256_S400x256_1_0_0_1_n_n.lhsNonContracting by decide)]
  rfl
theorem lhs256_1 (i : S400x256.Idx) (q : dot_S400x256_S256x256_S400x256_1_0_0_1_n_n.contr.Idx) : (dot_S400x256_S256x256_S400x256_1_0_0_1_n_n.lhsIdx i q 1).val = (q ⟨0, by decide⟩).val :=
  dot_S400x256_S256x256_S400x256_1_0_0_1_n_n.lhsIdx_val_of_single rfl i q
theorem rhs256_0 (i : S400x256.Idx) (q : dot_S400x256_S256x256_S400x256_1_0_0_1_n_n.contr.Idx) : (dot_S400x256_S256x256_S400x256_1_0_0_1_n_n.rhsIdx i q 0).val = (q ⟨0, by decide⟩).val :=
  dot_S400x256_S256x256_S400x256_1_0_0_1_n_n.rhsIdx_val_of_single rfl i q
theorem rhs256_1 (i : S400x256.Idx) (q : dot_S400x256_S256x256_S400x256_1_0_0_1_n_n.contr.Idx) : (dot_S400x256_S256x256_S400x256_1_0_0_1_n_n.rhsIdx i q 1).val = (i 1).val := by
  unfold DotDims.rhsIdx
  rw [dif_neg (show ¬(1 : Fin S256x256.rank) ∈ dot_S400x256_S256x256_S400x256_1_0_0_1_n_n.rhsBatch by decide),
    dif_pos (show (1 : Fin S256x256.rank) ∈ dot_S400x256_S256x256_S400x256_1_0_0_1_n_n.rhsNonContracting by decide)]
  rfl

/-- The 256-channel mix into a zero accumulator: entry `(p, o)` is the sum over `k` of row entry `k` times weight entry `(k, o)`. -/
theorem mm256_apply (A : FVec Ideal S400x256 .bf16) (B : FVec Ideal S256x256 .bf16) (p : Fin 400) (o : Fin 256) :
    matmul dot_S400x256_S256x256_S400x256_1_0_0_1_n_n none A B (constant S400x256 .f32 0x00000000#32) (ix2 p o)
      = ∑ k : Fin 256, A (ix2 p k) * B (ix2 k o) := by
  show FloatOps.matmul dot_S400x256_S256x256_S400x256_1_0_0_1_n_n none A B (constant S400x256 .f32 0x00000000#32) (ix2 p o) = _
  rw [Ideal.matmul_constant_zero_apply, ← Equiv.sum_comp (contrEquiv1 dot_S400x256_S256x256_S400x256_1_0_0_1_n_n 256 rfl rfl).symm]
  refine Finset.sum_congr rfl fun k _ => ?_
  have hk := contrEquiv1_symm_val dot_S400x256_S256x256_S400x256_1_0_0_1_n_n 256 rfl rfl k
  have el : dot_S400x256_S256x256_S400x256_1_0_0_1_n_n.lhsIdx (ix2 p o) ((contrEquiv1 dot_S400x256_S256x256_S400x256_1_0_0_1_n_n 256 rfl rfl).symm k) = ix2 p k :=
    funext fun a => Fin.ext (by
      match a with
      | ⟨0, _⟩ => exact lhs256_0 _ _
      | ⟨1, _⟩ => exact (lhs256_1 _ _).trans hk)
  have er : dot_S400x256_S256x256_S400x256_1_0_0_1_n_n.rhsIdx (ix2 p o) ((contrEquiv1 dot_S400x256_S256x256_S400x256_1_0_0_1_n_n 256 rfl rfl).symm k) = ix2 k o :=
    funext fun a => Fin.ext (by
      match a with
      | ⟨0, _⟩ => exact (rhs256_0 _ _).trans hk
      | ⟨1, _⟩ => exact rhs256_1 _ _)
  rw [el, er]

/-- The transposed weight block: entry `(k, o)` is the block's entry `(o, k)`. -/
theorem tr256_apply (W : FVec Ideal S256x256 .bf16) (h : S256x256.Transposes [1, 0] S256x256) (k o : Fin 256) :
    transpose S256x256 [1, 0] W h (ix2 k o) = W (ix2 o k) :=
  transpose_apply [1, 0] W h _ (ix2 o k) (fun b => match b with | ⟨0, _⟩ => rfl | ⟨1, _⟩ => rfl)

theorem lhs192_0 (i : S400x192.Idx) (q : dot_S400x192_S192x192_S400x192_1_0_0_1_n_n.contr.Idx) : (dot_S400x192_S192x192_S400x192_1_0_0_1_n_n.lhsIdx i q 0).val = (i 0).val := by
  unfold DotDims.lhsIdx
  rw [dif_neg (show ¬(0 : Fin S400x192.rank) ∈ dot_S400x192_S192x192_S400x192_1_0_0_1_n_n.lhsBatch by decide),
    dif_pos (show (0 : Fin S400x192.rank) ∈ dot_S400x192_S192x192_S400x192_1_0_0_1_n_n.lhsNonContracting by decide)]
  rfl
theorem lhs192_1 (i : S400x192.Idx) (q : dot_S400x192_S192x192_S400x192_1_0_0_1_n_n.contr.Idx) : (dot_S400x192_S192x192_S400x192_1_0_0_1_n_n.lhsIdx i q 1).val = (q ⟨0, by decide⟩).val :=
  dot_S400x192_S192x192_S400x192_1_0_0_1_n_n.lhsIdx_val_of_single rfl i q
theorem rhs192_0 (i : S400x192.Idx) (q : dot_S400x192_S192x192_S400x192_1_0_0_1_n_n.contr.Idx) : (dot_S400x192_S192x192_S400x192_1_0_0_1_n_n.rhsIdx i q 0).val = (q ⟨0, by decide⟩).val :=
  dot_S400x192_S192x192_S400x192_1_0_0_1_n_n.rhsIdx_val_of_single rfl i q
theorem rhs192_1 (i : S400x192.Idx) (q : dot_S400x192_S192x192_S400x192_1_0_0_1_n_n.contr.Idx) : (dot_S400x192_S192x192_S400x192_1_0_0_1_n_n.rhsIdx i q 1).val = (i 1).val := by
  unfold DotDims.rhsIdx
  rw [dif_neg (show ¬(1 : Fin S192x192.rank) ∈ dot_S400x192_S192x192_S400x192_1_0_0_1_n_n.rhsBatch by decide),
    dif_pos (show (1 : Fin S192x192.rank) ∈ dot_S400x192_S192x192_S400x192_1_0_0_1_n_n.rhsNonContracting by decide)]
  rfl

/-- The 192-channel mix into a zero accumulator: entry `(p, o)` is the sum over `k` of row entry `k` times weight entry `(k, o)`. -/
theorem mm192_apply (A : FVec Ideal S400x192 .bf16) (B : FVec Ideal S192x192 .bf16) (p : Fin 400) (o : Fin 192) :
    matmul dot_S400x192_S192x192_S400x192_1_0_0_1_n_n none A B (constant S400x192 .f32 0x00000000#32) (ix2 p o)
      = ∑ k : Fin 192, A (ix2 p k) * B (ix2 k o) := by
  show FloatOps.matmul dot_S400x192_S192x192_S400x192_1_0_0_1_n_n none A B (constant S400x192 .f32 0x00000000#32) (ix2 p o) = _
  rw [Ideal.matmul_constant_zero_apply, ← Equiv.sum_comp (contrEquiv1 dot_S400x192_S192x192_S400x192_1_0_0_1_n_n 192 rfl rfl).symm]
  refine Finset.sum_congr rfl fun k _ => ?_
  have hk := contrEquiv1_symm_val dot_S400x192_S192x192_S400x192_1_0_0_1_n_n 192 rfl rfl k
  have el : dot_S400x192_S192x192_S400x192_1_0_0_1_n_n.lhsIdx (ix2 p o) ((contrEquiv1 dot_S400x192_S192x192_S400x192_1_0_0_1_n_n 192 rfl rfl).symm k) = ix2 p k :=
    funext fun a => Fin.ext (by
      match a with
      | ⟨0, _⟩ => exact lhs192_0 _ _
      | ⟨1, _⟩ => exact (lhs192_1 _ _).trans hk)
  have er : dot_S400x192_S192x192_S400x192_1_0_0_1_n_n.rhsIdx (ix2 p o) ((contrEquiv1 dot_S400x192_S192x192_S400x192_1_0_0_1_n_n 192 rfl rfl).symm k) = ix2 k o :=
    funext fun a => Fin.ext (by
      match a with
      | ⟨0, _⟩ => exact (rhs192_0 _ _).trans hk
      | ⟨1, _⟩ => exact rhs192_1 _ _)
  rw [el, er]

/-- The transposed weight block: entry `(k, o)` is the block's entry `(o, k)`. -/
theorem tr192_apply (W : FVec Ideal S192x192 .bf16) (h : S192x192.Transposes [1, 0] S192x192) (k o : Fin 192) :
    transpose S192x192 [1, 0] W h (ix2 k o) = W (ix2 o k) :=
  transpose_apply [1, 0] W h _ (ix2 o k) (fun b => match b with | ⟨0, _⟩ => rfl | ⟨1, _⟩ => rfl)

theorem lhs128_0 (i : S400x128.Idx) (q : dot_S400x128_S128x128_S400x128_1_0_0_1_n_n.contr.Idx) : (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide),
    dif_pos (show (0 : Fin S400x128.rank) ∈ dot_S400x128_S128x128_S400x128_1_0_0_1_n_n.lhsNonContracting by decide)]
  rfl
theorem lhs128_1 (i : S400x128.Idx) (q : dot_S400x128_S128x128_S400x128_1_0_0_1_n_n.contr.Idx) : (dot_S400x128_S128x128_S400x128_1_0_0_1_n_n.lhsIdx i q 1).val = (q ⟨0, by decide⟩).val :=
  dot_S400x128_S128x128_S400x128_1_0_0_1_n_n.lhsIdx_val_of_single rfl i q
theorem rhs128_0 (i : S400x128.Idx) (q : dot_S400x128_S128x128_S400x128_1_0_0_1_n_n.contr.Idx) : (dot_S400x128_S128x128_S400x128_1_0_0_1_n_n.rhsIdx i q 0).val = (q ⟨0, by decide⟩).val :=
  dot_S400x128_S128x128_S400x128_1_0_0_1_n_n.rhsIdx_val_of_single rfl i q
theorem rhs128_1 (i : S400x128.Idx) (q : dot_S400x128_S128x128_S400x128_1_0_0_1_n_n.contr.Idx) : (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide),
    dif_pos (show (1 : Fin S128x128.rank) ∈ dot_S400x128_S128x128_S400x128_1_0_0_1_n_n.rhsNonContracting by decide)]
  rfl

/-- The 128-channel mix into a zero accumulator: entry `(p, o)` is the sum over `k` of row entry `k` times weight entry `(k, o)`. -/
theorem mm128_apply (A : FVec Ideal S400x128 .bf16) (B : FVec Ideal S128x128 .bf16) (p : Fin 400) (o : Fin 128) :
    matmul dot_S400x128_S128x128_S400x128_1_0_0_1_n_n none A B (constant S400x128 .f32 0x00000000#32) (ix2 p o)
      = ∑ k : Fin 128, A (ix2 p k) * B (ix2 k o) := by
  show FloatOps.matmul dot_S400x128_S128x128_S400x128_1_0_0_1_n_n none A B (constant S400x128 .f32 0x00000000#32) (ix2 p o) = _
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p o) ((contrEquiv1 dot_S400x128_S128x128_S400x128_1_0_0_1_n_n 128 rfl rfl).symm k) = ix2 p k :=
    funext fun a => Fin.ext (by
      match a with
      | ⟨0, _⟩ => exact lhs128_0 _ _
      | ⟨1, _⟩ => exact (lhs128_1 _ _).trans hk)
  have er : dot_S400x128_S128x128_S400x128_1_0_0_1_n_n.rhsIdx (ix2 p o) ((contrEquiv1 dot_S400x128_S128x128_S400x128_1_0_0_1_n_n 128 rfl rfl).symm k) = ix2 k o :=
    funext fun a => Fin.ext (by
      match a with
      | ⟨0, _⟩ => exact (rhs128_0 _ _).trans hk
      | ⟨1, _⟩ => exact rhs128_1 _ _)
  rw [el, er]

/-- The transposed weight block: entry `(k, o)` is the block's entry `(o, k)`. -/
theorem tr128_apply (W : FVec Ideal S128x128 .bf16) (h : S128x128.Transposes [1, 0] S128x128) (k o : Fin 128) :
    transpose S128x128 [1, 0] W h (ix2 k o) = W (ix2 o k) :=
  transpose_apply [1, 0] W h _ (ix2 o k) (fun b => match b with | ⟨0, _⟩ => rfl | ⟨1, _⟩ => rfl)

theorem lhs64_0 (i : S400x64.Idx) (q : dot_S400x64_S64x64_S400x64_1_0_0_1_n_n.contr.Idx) : (dot_S400x64_S64x64_S400x64_1_0_0_1_n_n.lhsIdx i q 0).val = (i 0).val := by
  unfold DotDims.lhsIdx
  rw [dif_neg (show ¬(0 : Fin S400x64.rank) ∈ dot_S400x64_S64x64_S400x64_1_0_0_1_n_n.lhsBatch by decide),
    dif_pos (show (0 : Fin S400x64.rank) ∈ dot_S400x64_S64x64_S400x64_1_0_0_1_n_n.lhsNonContracting by decide)]
  rfl
theorem lhs64_1 (i : S400x64.Idx) (q : dot_S400x64_S64x64_S400x64_1_0_0_1_n_n.contr.Idx) : (dot_S400x64_S64x64_S400x64_1_0_0_1_n_n.lhsIdx i q 1).val = (q ⟨0, by decide⟩).val :=
  dot_S400x64_S64x64_S400x64_1_0_0_1_n_n.lhsIdx_val_of_single rfl i q
theorem rhs64_0 (i : S400x64.Idx) (q : dot_S400x64_S64x64_S400x64_1_0_0_1_n_n.contr.Idx) : (dot_S400x64_S64x64_S400x64_1_0_0_1_n_n.rhsIdx i q 0).val = (q ⟨0, by decide⟩).val :=
  dot_S400x64_S64x64_S400x64_1_0_0_1_n_n.rhsIdx_val_of_single rfl i q
theorem rhs64_1 (i : S400x64.Idx) (q : dot_S400x64_S64x64_S400x64_1_0_0_1_n_n.contr.Idx) : (dot_S400x64_S64x64_S400x64_1_0_0_1_n_n.rhsIdx i q 1).val = (i 1).val := by
  unfold DotDims.rhsIdx
  rw [dif_neg (show ¬(1 : Fin S64x64.rank) ∈ dot_S400x64_S64x64_S400x64_1_0_0_1_n_n.rhsBatch by decide),
    dif_pos (show (1 : Fin S64x64.rank) ∈ dot_S400x64_S64x64_S400x64_1_0_0_1_n_n.rhsNonContracting by decide)]
  rfl

/-- The 64-channel mix into a zero accumulator: entry `(p, o)` is the sum over `k` of row entry `k` times weight entry `(k, o)`. -/
theorem mm64_apply (A : FVec Ideal S400x64 .bf16) (B : FVec Ideal S64x64 .bf16) (p : Fin 400) (o : Fin 64) :
    matmul dot_S400x64_S64x64_S400x64_1_0_0_1_n_n none A B (constant S400x64 .f32 0x00000000#32) (ix2 p o)
      = ∑ k : Fin 64, A (ix2 p k) * B (ix2 k o) := by
  show FloatOps.matmul dot_S400x64_S64x64_S400x64_1_0_0_1_n_n none A B (constant S400x64 .f32 0x00000000#32) (ix2 p o) = _
  rw [Ideal.matmul_constant_zero_apply, ← Equiv.sum_comp (contrEquiv1 dot_S400x64_S64x64_S400x64_1_0_0_1_n_n 64 rfl rfl).symm]
  refine Finset.sum_congr rfl fun k _ => ?_
  have hk := contrEquiv1_symm_val dot_S400x64_S64x64_S400x64_1_0_0_1_n_n 64 rfl rfl k
  have el : dot_S400x64_S64x64_S400x64_1_0_0_1_n_n.lhsIdx (ix2 p o) ((contrEquiv1 dot_S400x64_S64x64_S400x64_1_0_0_1_n_n 64 rfl rfl).symm k) = ix2 p k :=
    funext fun a => Fin.ext (by
      match a with
      | ⟨0, _⟩ => exact lhs64_0 _ _
      | ⟨1, _⟩ => exact (lhs64_1 _ _).trans hk)
  have er : dot_S400x64_S64x64_S400x64_1_0_0_1_n_n.rhsIdx (ix2 p o) ((contrEquiv1 dot_S400x64_S64x64_S400x64_1_0_0_1_n_n 64 rfl rfl).symm k) = ix2 k o :=
    funext fun a => Fin.ext (by
      match a with
      | ⟨0, _⟩ => exact (rhs64_0 _ _).trans hk
      | ⟨1, _⟩ => exact rhs64_1 _ _)
  rw [el, er]

/-- The transposed weight block: entry `(k, o)` is the block's entry `(o, k)`. -/
theorem tr64_apply (W : FVec Ideal S64x64 .bf16) (h : S64x64.Transposes [1, 0] S64x64) (k o : Fin 64) :
    transpose S64x64 [1, 0] W h (ix2 k o) = W (ix2 o k) :=
  transpose_apply [1, 0] W h _ (ix2 o k) (fun b => match b with | ⟨0, _⟩ => rfl | ⟨1, _⟩ => rfl)

/-! ## The bias row, broadcast down the 400 rows -/

theorem bias_apply (x : FVec Ideal S256 .f32) (h1 : S256.ShapeCasts S1x256) (h2 : S1x256.Broadcasts S400x256)
    (p : Fin 400) (o : Fin 256) : broadcastTo S400x256 (shapeCast S1x256 x h1) h2 (ix2 p o) = at1 x o.val := by
  refine (broadcastTo_apply _ h2 (ix2 p o) (ix2 (⟨0, by decide⟩ : Fin 1) o) (fun a => ?_)).trans ?_
  · match a with
    | ⟨0, _⟩ => show 0 = if (1 : ℕ) = 1 then 0 else p.val; rw [if_pos rfl]
    | ⟨1, _⟩ => show o.val = if (256 : ℕ) = 1 then 0 else o.val; rw [if_neg (by decide)]
  · have e1 : (S256.rowMajor (ix1 o)).val = o.val := Shape.rowMajor_val_one (d := ![256]) (ix1 o)
    have e2 : (S1x256.rowMajor (ix2 (⟨0, by decide⟩ : Fin 1) o)).val = 0 * 256 + o.val :=
      Shape.rowMajor_val_two (d := ![1, 256]) (ix2 (⟨0, by decide⟩ : Fin 1) o)
    exact (shapeCast_apply x h1 _ (ix1 o) (e1.trans (e2.trans (by omega)).symm)).trans (at1_ix x o)

/-! ## The concatenated rows, piece by piece -/

theorem cat4_0 (v0 v1 v2 v3 : FVec Ideal S400x64 .f32) (h : Shape.Concatenates [S400x64, S400x64, S400x64, S400x64] S400x256 1)
    (p : Fin 400) (k : Fin 256) (q : Fin 64) (hk : k.val = 0 + q.val) :
    concatenate S400x256 1 [⟨S400x64, v0⟩, ⟨S400x64, v1⟩, ⟨S400x64, v2⟩, ⟨S400x64, v3⟩] h (ix2 p k) = v0 (ix2 p q) :=
  concatenate_apply_piece (t := S400x256) (1 : Fin S400x256.rank) [⟨S400x64, v0⟩, ⟨S400x64, v1⟩, ⟨S400x64, v2⟩, ⟨S400x64, v3⟩] h (ix2 p k) 0 (by simp) S400x64 v0 rfl rfl 0 rfl
    (ix2 p q) (fun b => match b with | ⟨0, _⟩ => fun _ => rfl | ⟨1, _⟩ => fun hb => absurd rfl hb)
    (by show 0 + q.val = k.val; omega)

theorem cat4_1 (v0 v1 v2 v3 : FVec Ideal S400x64 .f32) (h : Shape.Concatenates [S400x64, S400x64, S400x64, S400x64] S400x256 1)
    (p : Fin 400) (k : Fin 256) (q : Fin 64) (hk : k.val = 64 + q.val) :
    concatenate S400x256 1 [⟨S400x64, v0⟩, ⟨S400x64, v1⟩, ⟨S400x64, v2⟩, ⟨S400x64, v3⟩] h (ix2 p k) = v1 (ix2 p q) :=
  concatenate_apply_piece (t := S400x256) (1 : Fin S400x256.rank) [⟨S400x64, v0⟩, ⟨S400x64, v1⟩, ⟨S400x64, v2⟩, ⟨S400x64, v3⟩] h (ix2 p k) 1 (by simp) S400x64 v1 rfl rfl 64 rfl
    (ix2 p q) (fun b => match b with | ⟨0, _⟩ => fun _ => rfl | ⟨1, _⟩ => fun hb => absurd rfl hb)
    (by show 64 + q.val = k.val; omega)

theorem cat4_2 (v0 v1 v2 v3 : FVec Ideal S400x64 .f32) (h : Shape.Concatenates [S400x64, S400x64, S400x64, S400x64] S400x256 1)
    (p : Fin 400) (k : Fin 256) (q : Fin 64) (hk : k.val = 128 + q.val) :
    concatenate S400x256 1 [⟨S400x64, v0⟩, ⟨S400x64, v1⟩, ⟨S400x64, v2⟩, ⟨S400x64, v3⟩] h (ix2 p k) = v2 (ix2 p q) :=
  concatenate_apply_piece (t := S400x256) (1 : Fin S400x256.rank) [⟨S400x64, v0⟩, ⟨S400x64, v1⟩, ⟨S400x64, v2⟩, ⟨S400x64, v3⟩] h (ix2 p k) 2 (by simp) S400x64 v2 rfl rfl 128 rfl
    (ix2 p q) (fun b => match b with | ⟨0, _⟩ => fun _ => rfl | ⟨1, _⟩ => fun hb => absurd rfl hb)
    (by show 128 + q.val = k.val; omega)

theorem cat4_3 (v0 v1 v2 v3 : FVec Ideal S400x64 .f32) (h : Shape.Concatenates [S400x64, S400x64, S400x64, S400x64] S400x256 1)
    (p : Fin 400) (k : Fin 256) (q : Fin 64) (hk : k.val = 192 + q.val) :
    concatenate S400x256 1 [⟨S400x64, v0⟩, ⟨S400x64, v1⟩, ⟨S400x64, v2⟩, ⟨S400x64, v3⟩] h (ix2 p k) = v3 (ix2 p q) :=
  concatenate_apply_piece (t := S400x256) (1 : Fin S400x256.rank) [⟨S400x64, v0⟩, ⟨S400x64, v1⟩, ⟨S400x64, v2⟩, ⟨S400x64, v3⟩] h (ix2 p k) 3 (by simp) S400x64 v3 rfl rfl 192 rfl
    (ix2 p q) (fun b => match b with | ⟨0, _⟩ => fun _ => rfl | ⟨1, _⟩ => fun hb => absurd rfl hb)
    (by show 192 + q.val = k.val; omega)

theorem cat3_0 (v0 v1 v2 : FVec Ideal S400x64 .f32) (h : Shape.Concatenates [S400x64, S400x64, S400x64] S400x192 1)
    (p : Fin 400) (k : Fin 192) (q : Fin 64) (hk : k.val = 0 + q.val) :
    concatenate S400x192 1 [⟨S400x64, v0⟩, ⟨S400x64, v1⟩, ⟨S400x64, v2⟩] h (ix2 p k) = v0 (ix2 p q) :=
  concatenate_apply_piece (t := S400x192) (1 : Fin S400x192.rank) [⟨S400x64, v0⟩, ⟨S400x64, v1⟩, ⟨S400x64, v2⟩] h (ix2 p k) 0 (by simp) S400x64 v0 rfl rfl 0 rfl
    (ix2 p q) (fun b => match b with | ⟨0, _⟩ => fun _ => rfl | ⟨1, _⟩ => fun hb => absurd rfl hb)
    (by show 0 + q.val = k.val; omega)

theorem cat3_1 (v0 v1 v2 : FVec Ideal S400x64 .f32) (h : Shape.Concatenates [S400x64, S400x64, S400x64] S400x192 1)
    (p : Fin 400) (k : Fin 192) (q : Fin 64) (hk : k.val = 64 + q.val) :
    concatenate S400x192 1 [⟨S400x64, v0⟩, ⟨S400x64, v1⟩, ⟨S400x64, v2⟩] h (ix2 p k) = v1 (ix2 p q) :=
  concatenate_apply_piece (t := S400x192) (1 : Fin S400x192.rank) [⟨S400x64, v0⟩, ⟨S400x64, v1⟩, ⟨S400x64, v2⟩] h (ix2 p k) 1 (by simp) S400x64 v1 rfl rfl 64 rfl
    (ix2 p q) (fun b => match b with | ⟨0, _⟩ => fun _ => rfl | ⟨1, _⟩ => fun hb => absurd rfl hb)
    (by show 64 + q.val = k.val; omega)

theorem cat3_2 (v0 v1 v2 : FVec Ideal S400x64 .f32) (h : Shape.Concatenates [S400x64, S400x64, S400x64] S400x192 1)
    (p : Fin 400) (k : Fin 192) (q : Fin 64) (hk : k.val = 128 + q.val) :
    concatenate S400x192 1 [⟨S400x64, v0⟩, ⟨S400x64, v1⟩, ⟨S400x64, v2⟩] h (ix2 p k) = v2 (ix2 p q) :=
  concatenate_apply_piece (t := S400x192) (1 : Fin S400x192.rank) [⟨S400x64, v0⟩, ⟨S400x64, v1⟩, ⟨S400x64, v2⟩] h (ix2 p k) 2 (by simp) S400x64 v2 rfl rfl 128 rfl
    (ix2 p q) (fun b => match b with | ⟨0, _⟩ => fun _ => rfl | ⟨1, _⟩ => fun hb => absurd rfl hb)
    (by show 128 + q.val = k.val; omega)

theorem cat2_0 (v0 v1 : FVec Ideal S400x64 .f32) (h : Shape.Concatenates [S400x64, S400x64] S400x128 1)
    (p : Fin 400) (k : Fin 128) (q : Fin 64) (hk : k.val = 0 + q.val) :
    concatenate S400x128 1 [⟨S400x64, v0⟩, ⟨S400x64, v1⟩] h (ix2 p k) = v0 (ix2 p q) :=
  concatenate_apply_piece (t := S400x128) (1 : Fin S400x128.rank) [⟨S400x64, v0⟩, ⟨S400x64, v1⟩] h (ix2 p k) 0 (by simp) S400x64 v0 rfl rfl 0 rfl
    (ix2 p q) (fun b => match b with | ⟨0, _⟩ => fun _ => rfl | ⟨1, _⟩ => fun hb => absurd rfl hb)
    (by show 0 + q.val = k.val; omega)

theorem cat2_1 (v0 v1 : FVec Ideal S400x64 .f32) (h : Shape.Concatenates [S400x64, S400x64] S400x128 1)
    (p : Fin 400) (k : Fin 128) (q : Fin 64) (hk : k.val = 64 + q.val) :
    concatenate S400x128 1 [⟨S400x64, v0⟩, ⟨S400x64, v1⟩] h (ix2 p k) = v1 (ix2 p q) :=
  concatenate_apply_piece (t := S400x128) (1 : Fin S400x128.rank) [⟨S400x64, v0⟩, ⟨S400x64, v1⟩] h (ix2 p k) 1 (by simp) S400x64 v1 rfl rfl 64 rfl
    (ix2 p q) (fun b => match b with | ⟨0, _⟩ => fun _ => rfl | ⟨1, _⟩ => fun hb => absurd rfl hb)
    (by show 64 + q.val = k.val; omega)

/-! ## The specification's mixes, order by order -/

section SpecForms

variable (X : ℕ → EReal) (D : ℕ → ℕ → EReal) (W1 W2 W3 : ℕ → ℕ → EReal)

theorem ymm_one (o : ℕ) : ymm X D W1 W2 W3 1 o = ∑ k ∈ range 192, R X D (1 + k / 64) (k % 64) (k / 64) * W1 o k := rfl
theorem ypm_one (o : ℕ) : ypm X D W1 W2 W3 1 o = ∑ k ∈ range 192, R X D (1 + k / 64) (k % 64) (k / 64 + 2 * 1) * W1 o k := rfl
theorem ymm_two (o : ℕ) : ymm X D W1 W2 W3 2 o = ∑ k ∈ range 128, R X D (2 + k / 64) (k % 64) (k / 64) * W2 o k := rfl
theorem ypm_two (o : ℕ) : ypm X D W1 W2 W3 2 o = ∑ k ∈ range 128, R X D (2 + k / 64) (k % 64) (k / 64 + 2 * 2) * W2 o k := rfl
theorem ymm_three (o : ℕ) : ymm X D W1 W2 W3 3 o = ∑ k ∈ range 64, R X D (3 + k / 64) (k % 64) (k / 64) * W3 o k := rfl
theorem ypm_three (o : ℕ) : ypm X D W1 W2 W3 3 o = ∑ k ∈ range 64, R X D (3 + k / 64) (k % 64) (k / 64 + 2 * 3) * W3 o k := rfl

end SpecForms

end Cert.KernelIdeal.Mix

end
-- ==== Proof.KernelMix.lean ====
/-
  The seven channel mixes of the kernel body at one row are the specification's.

  Order 0: the row of the four degrees' order-0 components (256 channels) against `W_m0`, plus the bias. Orders ±m,
  m = 1, 2, 3: the row of the degrees' l ≥ m components of order ∓m resp. ±m against `W_m`. Each entry is a sum over
  the contracted channel `k`, whose row factor is the rotated component `k / 64` of the row at channel `k % 64`.
-/
import proofs.«104001_j24927990186029_2_alg».proof.Proof.KernelRot1
import proofs.«104001_j24927990186029_2_alg».proof.Proof.KernelRot2
import proofs.«104001_j24927990186029_2_alg».proof.Proof.KernelRot3
import proofs.«104001_j24927990186029_2_alg».proof.Proof.KernelMixLib

noncomputable section

namespace Cert.KernelIdeal.Mix

open Finset Idealize.ShloMosaic Idealize.ShloMosaic.ValueIdx Cert.KernelIdeal Cert.KernelIdeal.Gen Cert.Spec

section

variable (b : Cert.KernelIdeal.Body.Blocks Ideal) (r : ℕ) (hr : r < 400) (X : ℕ → EReal) (D : ℕ → ℕ → EReal)
  (hx0 : ∀ μ, μ < 64 → at2 b.x0 r μ = X μ)
  (hx1 : ∀ c μ, c < 3 → μ < 64 → at2 b.x1 r (c * 64 + μ) = X (64 + μ * 3 + c))
  (hx2 : ∀ c μ, c < 5 → μ < 64 → at2 b.x2 r (c * 64 + μ) = X (256 + μ * 5 + c))
  (hx3 : ∀ c μ, c < 7 → μ < 64 → at2 b.x3 r (c * 64 + μ) = X (576 + μ * 7 + c))
  (hD : ∀ a a', a < 16 → a' < 16 → at2 b.x4 r (a * 16 + a') = D a a')
include hr hx0 hx1 hx2 hx3 hD

/-! ## The rows that enter the mixes -/

theorem row0_at (h : Shape.Concatenates [S400x64, S400x64, S400x64, S400x64] S400x256 1) (k : Fin 256) :
    concatenate S400x256 1 [⟨S400x64, Body.v3 b⟩, ⟨S400x64, Body.v30 b⟩, ⟨S400x64, Body.v105 b⟩, ⟨S400x64, Body.v260 b⟩] h (ix2 ⟨r, hr⟩ k)
      = R X D (k.val / 64) (k.val % 64) (k.val / 64) := by
  have hk256 := k.isLt
  obtain ⟨c, μ, hc, hμ, hk⟩ : ∃ c μ, c < 4 ∧ μ < 64 ∧ k.val = 64 * c + μ :=
    ⟨k.val / 64, k.val % 64, by omega, by omega, by omega⟩
  have h1 : k.val / 64 = c := by omega
  have h2 : k.val % 64 = μ := by omega
  rw [h1, h2]
  interval_cases c
  · exact (cat4_0 _ _ _ _ h ⟨r, hr⟩ k ⟨μ, hμ⟩ (by show k.val = 0 + μ; omega)).trans
      ((at2_mk (Body.v3 b) r μ hr hμ).symm.trans (v3_row b r hr X D hx0 hx1 hx2 hx3 hD μ hμ))
  · exact (cat4_1 _ _ _ _ h ⟨r, hr⟩ k ⟨μ, hμ⟩ (by show k.val = 64 + μ; omega)).trans
      ((at2_mk (Body.v30 b) r μ hr hμ).symm.trans (v30_row b r hr X D hx0 hx1 hx2 hx3 hD μ hμ))
  · exact (cat4_2 _ _ _ _ h ⟨r, hr⟩ k ⟨μ, hμ⟩ (by show k.val = 128 + μ; omega)).trans
      ((at2_mk (Body.v105 b) r μ hr hμ).symm.trans (v105_row b r hr X D hx0 hx1 hx2 hx3 hD μ hμ))
  · exact (cat4_3 _ _ _ _ h ⟨r, hr⟩ k ⟨μ, hμ⟩ (by show k.val = 192 + μ; omega)).trans
      ((at2_mk (Body.v260 b) r μ hr hμ).symm.trans (v260_row b r hr X D hx0 hx1 hx2 hx3 hD μ hμ))

theorem rowm1_at (h : Shape.Concatenates [S400x64, S400x64, S400x64] S400x192 1) (k : Fin 192) :
    concatenate S400x192 1 [⟨S400x64, Body.v19 b⟩, ⟨S400x64, Body.v86 b⟩, ⟨S400x64, Body.v233 b⟩] h (ix2 ⟨r, hr⟩ k)
      = R X D (1 + k.val / 64) (k.val % 64) (k.val / 64) := by
  have hk192 := k.isLt
  obtain ⟨c, μ, hc, hμ, hk⟩ : ∃ c μ, c < 3 ∧ μ < 64 ∧ k.val = 64 * c + μ :=
    ⟨k.val / 64, k.val % 64, by omega, by omega, by omega⟩
  have h1 : k.val / 64 = c := by omega
  have h2 : k.val % 64 = μ := by omega
  rw [h1, h2]
  interval_cases c
  · exact (cat3_0 _ _ _ h ⟨r, hr⟩ k ⟨μ, hμ⟩ (by show k.val = 0 + μ; omega)).trans
      ((at2_mk (Body.v19 b) r μ hr hμ).symm.trans (v19_row b r hr X D hx0 hx1 hx2 hx3 hD μ hμ))
  · exact (cat3_1 _ _ _ h ⟨r, hr⟩ k ⟨μ, hμ⟩ (by show k.val = 64 + μ; omega)).trans
      ((at2_mk (Body.v86 b) r μ hr hμ).symm.trans (v86_row b r hr X D hx0 hx1 hx2 hx3 hD μ hμ))
  · exact (cat3_2 _ _ _ h ⟨r, hr⟩ k ⟨μ, hμ⟩ (by show k.val = 128 + μ; omega)).trans
      ((at2_mk (Body.v233 b) r μ hr hμ).symm.trans (v233_row b r hr X D hx0 hx1 hx2 hx3 hD μ hμ))

theorem rowp1_at (h : Shape.Concatenates [S400x64, S400x64, S400x64] S400x192 1) (k : Fin 192) :
    concatenate S400x192 1 [⟨S400x64, Body.v41 b⟩, ⟨S400x64, Body.v124 b⟩, ⟨S400x64, Body.v287 b⟩] h (ix2 ⟨r, hr⟩ k)
      = R X D (1 + k.val / 64) (k.val % 64) (k.val / 64 + 2 * 1) := by
  have hk192 := k.isLt
  obtain ⟨c, μ, hc, hμ, hk⟩ : ∃ c μ, c < 3 ∧ μ < 64 ∧ k.val = 64 * c + μ :=
    ⟨k.val / 64, k.val % 64, by omega, by omega, by omega⟩
  have h1 : k.val / 64 = c := by omega
  have h2 : k.val % 64 = μ := by omega
  rw [h1, h2]
  interval_cases c
  · exact (cat3_0 _ _ _ h ⟨r, hr⟩ k ⟨μ, hμ⟩ (by show k.val = 0 + μ; omega)).trans
      ((at2_mk (Body.v41 b) r μ hr hμ).symm.trans (v41_row b r hr X D hx0 hx1 hx2 hx3 hD μ hμ))
  · exact (cat3_1 _ _ _ h ⟨r, hr⟩ k ⟨μ, hμ⟩ (by show k.val = 64 + μ; omega)).trans
      ((at2_mk (Body.v124 b) r μ hr hμ).symm.trans (v124_row b r hr X D hx0 hx1 hx2 hx3 hD μ hμ))
  · exact (cat3_2 _ _ _ h ⟨r, hr⟩ k ⟨μ, hμ⟩ (by show k.val = 128 + μ; omega)).trans
      ((at2_mk (Body.v287 b) r μ hr hμ).symm.trans (v287_row b r hr X D hx0 hx1 hx2 hx3 hD μ hμ))

theorem rowm2_at (h : Shape.Concatenates [S400x64, S400x64] S400x128 1) (k : Fin 128) :
    concatenate S400x128 1 [⟨S400x64, Body.v67 b⟩, ⟨S400x64, Body.v206 b⟩] h (ix2 ⟨r, hr⟩ k)
      = R X D (2 + k.val / 64) (k.val % 64) (k.val / 64) := by
  have hk128 := k.isLt
  obtain ⟨c, μ, hc, hμ, hk⟩ : ∃ c μ, c < 2 ∧ μ < 64 ∧ k.val = 64 * c + μ :=
    ⟨k.val / 64, k.val % 64, by omega, by omega, by omega⟩
  have h1 : k.val / 64 = c := by omega
  have h2 : k.val % 64 = μ := by omega
  rw [h1, h2]
  interval_cases c
  · exact (cat2_0 _ _ h ⟨r, hr⟩ k ⟨μ, hμ⟩ (by show k.val = 0 + μ; omega)).trans
      ((at2_mk (Body.v67 b) r μ hr hμ).symm.trans (v67_row b r hr X D hx0 hx1 hx2 hx3 hD μ hμ))
  · exact (cat2_1 _ _ h ⟨r, hr⟩ k ⟨μ, hμ⟩ (by show k.val = 64 + μ; omega)).trans
      ((at2_mk (Body.v206 b) r μ hr hμ).symm.trans (v206_row b r hr X D hx0 hx1 hx2 hx3 hD μ hμ))

theorem rowp2_at (h : Shape.Concatenates [S400x64, S400x64] S400x128 1) (k : Fin 128) :
    concatenate S400x128 1 [⟨S400x64, Body.v143 b⟩, ⟨S400x64, Body.v314 b⟩] h (ix2 ⟨r, hr⟩ k)
      = R X D (2 + k.val / 64) (k.val % 64) (k.val / 64 + 2 * 2) := by
  have hk128 := k.isLt
  obtain ⟨c, μ, hc, hμ, hk⟩ : ∃ c μ, c < 2 ∧ μ < 64 ∧ k.val = 64 * c + μ :=
    ⟨k.val / 64, k.val % 64, by omega, by omega, by omega⟩
  have h1 : k.val / 64 = c := by omega
  have h2 : k.val % 64 = μ := by omega
  rw [h1, h2]
  interval_cases c
  · exact (cat2_0 _ _ h ⟨r, hr⟩ k ⟨μ, hμ⟩ (by show k.val = 0 + μ; omega)).trans
      ((at2_mk (Body.v143 b) r μ hr hμ).symm.trans (v143_row b r hr X D hx0 hx1 hx2 hx3 hD μ hμ))
  · exact (cat2_1 _ _ h ⟨r, hr⟩ k ⟨μ, hμ⟩ (by show k.val = 64 + μ; omega)).trans
      ((at2_mk (Body.v314 b) r μ hr hμ).symm.trans (v314_row b r hr X D hx0 hx1 hx2 hx3 hD μ hμ))

theorem rowm3_at (k : Fin 64) : Body.v179 b (ix2 ⟨r, hr⟩ k) = R X D (3 + k.val / 64) (k.val % 64) (k.val / 64) := by
  have hk64 := k.isLt
  have h1 : k.val / 64 = 0 := by omega
  have h2 : k.val % 64 = k.val := by omega
  rw [h1, h2]
  exact (at2_mk (Body.v179 b) r k.val hr k.isLt).symm.trans (v179_row b r hr X D hx0 hx1 hx2 hx3 hD k.val k.isLt)

theorem rowp3_at (k : Fin 64) : Body.v341 b (ix2 ⟨r, hr⟩ k) = R X D (3 + k.val / 64) (k.val % 64) (k.val / 64 + 2 * 3) := by
  have hk64 := k.isLt
  have h1 : k.val / 64 = 0 := by omega
  have h2 : k.val % 64 = k.val := by omega
  rw [h1, h2]
  exact (at2_mk (Body.v341 b) r k.val hr k.isLt).symm.trans (v341_row b r hr X D hx0 hx1 hx2 hx3 hD k.val k.isLt)

/-! ## The mixes -/

/-- Order 0. -/
theorem v351_row : ∀ o, o < 256 → at2 (Body.v351 b) r o = Spec.ym0 X D (at2 b.x5) (at1 b.x6) o := by
  intro o ho
  rw [at2_mk _ r o hr ho]
  simp only [Body.v351, k0_pay47, addf_apply]
  rw [mm256_apply, bias_apply]
  unfold ym0
  rw [Finset.sum_range]
  congr 1
  refine Finset.sum_congr rfl fun k _ => ?_
  congr 1
  · simp only [Body.v345, k0_pay45, truncf_apply]
    exact row0_at b r hr X D hx0 hx1 hx2 hx3 hD _ k
  · simp only [Body.v346, k0_pay46]
    rw [tr256_apply, truncf_apply]
    exact at2_ix b.x5 ⟨o, ho⟩ k

/-- Order -1. -/
theorem v358_row : ∀ o, o < 192 → at2 (Body.v358 b) r o = Spec.ymm X D (at2 b.x7) (at2 b.x8) (at2 b.x9) 1 o := by
  intro o ho
  rw [at2_mk _ r o hr ho, ymm_one, Finset.sum_range]
  simp only [Body.v358, k0_pay49, k0_pay48]
  rw [mm192_apply]
  refine Finset.sum_congr rfl fun k _ => ?_
  congr 1
  · rw [truncf_apply]
    exact rowm1_at b r hr X D hx0 hx1 hx2 hx3 hD _ k
  · rw [tr192_apply, truncf_apply]
    exact at2_ix b.x7 ⟨o, ho⟩ k

/-- Order +1. -/
theorem v361_row : ∀ o, o < 192 → at2 (Body.v361 b) r o = Spec.ypm X D (at2 b.x7) (at2 b.x8) (at2 b.x9) 1 o := by
  intro o ho
  rw [at2_mk _ r o hr ho, ypm_one, Finset.sum_range]
  simp only [Body.v361, k0_pay50, k0_pay48]
  rw [mm192_apply]
  refine Finset.sum_congr rfl fun k _ => ?_
  congr 1
  · rw [truncf_apply]
    exact rowp1_at b r hr X D hx0 hx1 hx2 hx3 hD _ k
  · rw [tr192_apply, truncf_apply]
    exact at2_ix b.x7 ⟨o, ho⟩ k

/-- Order -2. -/
theorem v368_row : ∀ o, o < 128 → at2 (Body.v368 b) r o = Spec.ymm X D (at2 b.x7) (at2 b.x8) (at2 b.x9) 2 o := by
  intro o ho
  rw [at2_mk _ r o hr ho, ymm_two, Finset.sum_range]
  simp only [Body.v368, k0_pay52, k0_pay51]
  rw [mm128_apply]
  refine Finset.sum_congr rfl fun k _ => ?_
  congr 1
  · rw [truncf_apply]
    exact rowm2_at b r hr X D hx0 hx1 hx2 hx3 hD _ k
  · rw [tr128_apply, truncf_apply]
    exact at2_ix b.x8 ⟨o, ho⟩ k

/-- Order +2. -/
theorem v371_row : ∀ o, o < 128 → at2 (Body.v371 b) r o = Spec.ypm X D (at2 b.x7) (at2 b.x8) (at2 b.x9) 2 o := by
  intro o ho
  rw [at2_mk _ r o hr ho, ypm_two, Finset.sum_range]
  simp only [Body.v371, k0_pay53, k0_pay51]
  rw [mm128_apply]
  refine Finset.sum_congr rfl fun k _ => ?_
  congr 1
  · rw [truncf_apply]
    exact rowp2_at b r hr X D hx0 hx1 hx2 hx3 hD _ k
  · rw [tr128_apply, truncf_apply]
    exact at2_ix b.x8 ⟨o, ho⟩ k

/-- Order -3. -/
theorem v376_row : ∀ o, o < 64 → at2 (Body.v376 b) r o = Spec.ymm X D (at2 b.x7) (at2 b.x8) (at2 b.x9) 3 o := by
  intro o ho
  rw [at2_mk _ r o hr ho, ymm_three, Finset.sum_range]
  simp only [Body.v376, k0_pay55, k0_pay54]
  rw [mm64_apply]
  refine Finset.sum_congr rfl fun k _ => ?_
  congr 1
  · rw [truncf_apply]
    exact rowm3_at b r hr X D hx0 hx1 hx2 hx3 hD k
  · rw [tr64_apply, truncf_apply]
    exact at2_ix b.x9 ⟨o, ho⟩ k

/-- Order +3. -/
theorem v379_row : ∀ o, o < 64 → at2 (Body.v379 b) r o = Spec.ypm X D (at2 b.x7) (at2 b.x8) (at2 b.x9) 3 o := by
  intro o ho
  rw [at2_mk _ r o hr ho, ypm_three, Finset.sum_range]
  simp only [Body.v379, k0_pay56, k0_pay54]
  rw [mm64_apply]
  refine Finset.sum_congr rfl fun k _ => ?_
  congr 1
  · rw [truncf_apply]
    exact rowp3_at b r hr X D hx0 hx1 hx2 hx3 hD k
  · rw [tr64_apply, truncf_apply]
    exact at2_ix b.x9 ⟨o, ho⟩ k

end

end Cert.KernelIdeal.Mix

end
-- ==== Proof.RowRead.lean ====
/-
  Reading the body's values at a row and a column given as natural numbers.

  Every value of the kernel body is a matrix of 400 rows. The pointwise operations read through `at2` with no
  side condition (outside the matrix both sides are zero); the three layout operations the inverse rotation uses —
  one column of the rotation rows broadcast along a block of 64 columns, a block of 64 consecutive columns, and
  blocks of 64 columns laid side by side — read at a row below 400 and a column below 64.
-/
import Idealize.ShloMosaic.Lib.Pipeline.Value
import proofs.«104001_j24927990186029_2_alg».proof.Proof.Spec

noncomputable section

namespace Cert.KernelIdeal.Out

open Idealize.ShloMosaic Idealize.ShloMosaic.ValueIdx Cert.Spec

/-- Inside the matrix `at2` is the entry. -/
theorem at2_pos {n0 n1 : ℕ} (x : (⟨2, ![n0, n1]⟩ : Shape).Idx → EReal) (r c : ℕ) (hr : r < n0) (hc : c < n1) :
    at2 x r c = x (ix2 ⟨r, hr⟩ ⟨c, hc⟩) := by
  unfold at2; rw [dif_pos ⟨hr, hc⟩]

/-- A product read at a row and a column. -/
theorem at2_mulf {n0 n1 : ℕ} (a b : FVec Ideal (⟨2, ![n0, n1]⟩ : Shape) .f32) (r c : ℕ) :
    at2 (mulf a b) r c = at2 a r c * at2 b r c := by
  unfold at2
  by_cases h : r < n0 ∧ c < n1
  · rw [dif_pos h, dif_pos h, dif_pos h]; rfl
  · rw [dif_neg h, dif_neg h, dif_neg h, mul_zero]

/-- A sum read at a row and a column. -/
theorem at2_addf {n0 n1 : ℕ} (a b : FVec Ideal (⟨2, ![n0, n1]⟩ : Shape) .f32) (r c : ℕ) :
    at2 (addf a b) r c = at2 a r c + at2 b r c := by
  unfold at2
  by_cases h : r < n0 ∧ c < n1
  · rw [dif_pos h, dif_pos h, dif_pos h]; rfl
  · rw [dif_neg h, dif_neg h, dif_neg h, add_zero]

/-- Column `K` of the rotation rows, broadcast along 64 columns, reads column `K`. -/
theorem at2_colBcast (K : ℕ) (v : (⟨2, ![400, 256]⟩ : Shape).Idx → EReal)
    (hs : (⟨2, ![400, 256]⟩ : Shape).Slices ![0, K] (⟨2, ![400, 1]⟩ : Shape))
    (hb : (⟨2, ![400, 1]⟩ : Shape).Broadcasts (⟨2, ![400, 64]⟩ : Shape)) (r μ : ℕ) (hr : r < 400) (hμ : μ < 64) :
    at2 (broadcastTo (⟨2, ![400, 64]⟩ : Shape) (extractStridedSlice (⟨2, ![400, 1]⟩ : Shape) ![0, K] v hs) hb) r μ
      = at2 v r K := by
  have hK : K < 256 := by
    obtain ⟨h, h2⟩ := hs
    have h3 : K + 1 ≤ 256 := h2 (1 : Fin 2)
    omega
  rw [at2_pos _ r μ hr hμ, at2_pos _ r K hr hK]
  refine (broadcastTo_apply _ hb _ (ix2 ⟨r, hr⟩ ⟨0, by decide⟩) ?_).trans ?_
  · intro a
    match a with
    | ⟨0, _⟩ => rfl
    | ⟨1, _⟩ => rfl
  · refine extractStridedSlice_apply _ v hs _ (ix2 ⟨r, hr⟩ ⟨K, hK⟩) ?_
    intro a
    match a with
    | ⟨0, _⟩ => show r = 0 + r; omega
    | ⟨1, _⟩ => show K = K + 0; omega

/-- The block of 64 columns from column `K` reads column `K + μ`. -/
theorem at2_slice64 {N : ℕ} (K : ℕ) (v : (⟨2, ![400, N]⟩ : Shape).Idx → EReal)
    (hs : (⟨2, ![400, N]⟩ : Shape).Slices ![0, K] (⟨2, ![400, 64]⟩ : Shape)) (r μ : ℕ) (hr : r < 400) (hμ : μ < 64) :
    at2 (extractStridedSlice (⟨2, ![400, 64]⟩ : Shape) ![0, K] v hs) r μ = at2 v r (K + μ) := by
  have hK : K + 64 ≤ N := by
    obtain ⟨h, h2⟩ := hs
    exact h2 (1 : Fin 2)
  have hc : K + μ < N := by omega
  rw [at2_pos _ r μ hr hμ, at2_pos _ r (K + μ) hr hc]
  refine extractStridedSlice_apply _ v hs _ (ix2 ⟨r, hr⟩ ⟨K + μ, hc⟩) ?_
  intro a
  match a with
  | ⟨0, _⟩ => show r = 0 + r; omega
  | ⟨1, _⟩ => rfl

/-- Blocks of 64 columns laid side by side: block `k` at column `μ` is column `64 k + μ` of the whole. -/
theorem at2_concat {n : ℕ} (xs : List ((s : Shape) × (s.Idx → EReal)))
    (h : Shape.Concatenates (xs.map (·.1)) (⟨2, ![400, n]⟩ : Shape) 1) (k : ℕ) (hk : k < xs.length)
    (x₁ : (⟨2, ![400, 64]⟩ : Shape).Idx → EReal) (hxk : xs[k] = ⟨(⟨2, ![400, 64]⟩ : Shape), x₁⟩)
    (hpre : (((xs.take k).map (·.1)).map fun s : Shape =>
      if h : s.rank = 2 then s.size ((1 : Fin 2).cast h.symm) else 0).sum = k * 64)
    (r μ : ℕ) (hr : r < 400) (hμ : μ < 64) (hn : k * 64 + μ < n) :
    at2 (concatenate (⟨2, ![400, n]⟩ : Shape) 1 xs h) r (k * 64 + μ) = at2 x₁ r μ := by
  rw [at2_pos _ r _ hr hn, at2_pos _ r μ hr hμ]
  refine concatenate_apply_piece (t := (⟨2, ![400, n]⟩ : Shape)) 1 xs h _ k hk (⟨2, ![400, 64]⟩ : Shape) x₁ hxk rfl (k * 64) hpre
    (ix2 ⟨r, hr⟩ ⟨μ, hμ⟩) ?_ ?_
  · intro b hb
    match b with
    | ⟨0, _⟩ => rfl
    | ⟨1, _⟩ => exact absurd (Fin.ext rfl) hb
  · rfl

theorem at2_concat3_0 (a0 a1 a2 : (⟨2, ![400, 64]⟩ : Shape).Idx → EReal)
    (h : Shape.Concatenates (([⟨⟨2, ![400, 64]⟩, a0⟩, ⟨⟨2, ![400, 64]⟩, a1⟩, ⟨⟨2, ![400, 64]⟩, a2⟩] : List ((s : Shape) × (s.Idx → EReal))).map (·.1))
      (⟨2, ![400, 192]⟩ : Shape) 1)
    (r μ : ℕ) (hr : r < 400) (hμ : μ < 64) :
    at2 (concatenate (⟨2, ![400, 192]⟩ : Shape) 1
      ([⟨⟨2, ![400, 64]⟩, a0⟩, ⟨⟨2, ![400, 64]⟩, a1⟩, ⟨⟨2, ![400, 64]⟩, a2⟩] : List ((s : Shape) × (s.Idx → EReal))) h) r (0 * 64 + μ) = at2 a0 r μ :=
  at2_concat _ h 0 (by show 0 < 3; omega) a0 rfl rfl r μ hr hμ (by omega)

theorem at2_concat3_1 (a0 a1 a2 : (⟨2, ![400, 64]⟩ : Shape).Idx → EReal)
    (h : Shape.Concatenates (([⟨⟨2, ![400, 64]⟩, a0⟩, ⟨⟨2, ![400, 64]⟩, a1⟩, ⟨⟨2, ![400, 64]⟩, a2⟩] : List ((s : Shape) × (s.Idx → EReal))).map (·.1))
      (⟨2, ![400, 192]⟩ : Shape) 1)
    (r μ : ℕ) (hr : r < 400) (hμ : μ < 64) :
    at2 (concatenate (⟨2, ![400, 192]⟩ : Shape) 1
      ([⟨⟨2, ![400, 64]⟩, a0⟩, ⟨⟨2, ![400, 64]⟩, a1⟩, ⟨⟨2, ![400, 64]⟩, a2⟩] : List ((s : Shape) × (s.Idx → EReal))) h) r (1 * 64 + μ) = at2 a1 r μ :=
  at2_concat _ h 1 (by show 1 < 3; omega) a1 rfl rfl r μ hr hμ (by omega)

theorem at2_concat3_2 (a0 a1 a2 : (⟨2, ![400, 64]⟩ : Shape).Idx → EReal)
    (h : Shape.Concatenates (([⟨⟨2, ![400, 64]⟩, a0⟩, ⟨⟨2, ![400, 64]⟩, a1⟩, ⟨⟨2, ![400, 64]⟩, a2⟩] : List ((s : Shape) × (s.Idx → EReal))).map (·.1))
      (⟨2, ![400, 192]⟩ : Shape) 1)
    (r μ : ℕ) (hr : r < 400) (hμ : μ < 64) :
    at2 (concatenate (⟨2, ![400, 192]⟩ : Shape) 1
      ([⟨⟨2, ![400, 64]⟩, a0⟩, ⟨⟨2, ![400, 64]⟩, a1⟩, ⟨⟨2, ![400, 64]⟩, a2⟩] : List ((s : Shape) × (s.Idx → EReal))) h) r (2 * 64 + μ) = at2 a2 r μ :=
  at2_concat _ h 2 (by show 2 < 3; omega) a2 rfl rfl r μ hr hμ (by omega)

theorem at2_concat5_0 (a0 a1 a2 a3 a4 : (⟨2, ![400, 64]⟩ : Shape).Idx → EReal)
    (h : Shape.Concatenates (([⟨⟨2, ![400, 64]⟩, a0⟩, ⟨⟨2, ![400, 64]⟩, a1⟩, ⟨⟨2, ![400, 64]⟩, a2⟩, ⟨⟨2, ![400, 64]⟩, a3⟩, ⟨⟨2, ![400, 64]⟩, a4⟩] : List ((s : Shape) × (s.Idx → EReal))).map (·.1))
      (⟨2, ![400, 320]⟩ : Shape) 1)
    (r μ : ℕ) (hr : r < 400) (hμ : μ < 64) :
    at2 (concatenate (⟨2, ![400, 320]⟩ : Shape) 1
      ([⟨⟨2, ![400, 64]⟩, a0⟩, ⟨⟨2, ![400, 64]⟩, a1⟩, ⟨⟨2, ![400, 64]⟩, a2⟩, ⟨⟨2, ![400, 64]⟩, a3⟩, ⟨⟨2, ![400, 64]⟩, a4⟩] : List ((s : Shape) × (s.Idx → EReal))) h) r (0 * 64 + μ) = at2 a0 r μ :=
  at2_concat _ h 0 (by show 0 < 5; omega) a0 rfl rfl r μ hr hμ (by omega)

theorem at2_concat5_1 (a0 a1 a2 a3 a4 : (⟨2, ![400, 64]⟩ : Shape).Idx → EReal)
    (h : Shape.Concatenates (([⟨⟨2, ![400, 64]⟩, a0⟩, ⟨⟨2, ![400, 64]⟩, a1⟩, ⟨⟨2, ![400, 64]⟩, a2⟩, ⟨⟨2, ![400, 64]⟩, a3⟩, ⟨⟨2, ![400, 64]⟩, a4⟩] : List ((s : Shape) × (s.Idx → EReal))).map (·.1))
      (⟨2, ![400, 320]⟩ : Shape) 1)
    (r μ : ℕ) (hr : r < 400) (hμ : μ < 64) :
    at2 (concatenate (⟨2, ![400, 320]⟩ : Shape) 1
      ([⟨⟨2, ![400, 64]⟩, a0⟩, ⟨⟨2, ![400, 64]⟩, a1⟩, ⟨⟨2, ![400, 64]⟩, a2⟩, ⟨⟨2, ![400, 64]⟩, a3⟩, ⟨⟨2, ![400, 64]⟩, a4⟩] : List ((s : Shape) × (s.Idx → EReal))) h) r (1 * 64 + μ) = at2 a1 r μ :=
  at2_concat _ h 1 (by show 1 < 5; omega) a1 rfl rfl r μ hr hμ (by omega)

theorem at2_concat5_2 (a0 a1 a2 a3 a4 : (⟨2, ![400, 64]⟩ : Shape).Idx → EReal)
    (h : Shape.Concatenates (([⟨⟨2, ![400, 64]⟩, a0⟩, ⟨⟨2, ![400, 64]⟩, a1⟩, ⟨⟨2, ![400, 64]⟩, a2⟩, ⟨⟨2, ![400, 64]⟩, a3⟩, ⟨⟨2, ![400, 64]⟩, a4⟩] : List ((s : Shape) × (s.Idx → EReal))).map (·.1))
      (⟨2, ![400, 320]⟩ : Shape) 1)
    (r μ : ℕ) (hr : r < 400) (hμ : μ < 64) :
    at2 (concatenate (⟨2, ![400, 320]⟩ : Shape) 1
      ([⟨⟨2, ![400, 64]⟩, a0⟩, ⟨⟨2, ![400, 64]⟩, a1⟩, ⟨⟨2, ![400, 64]⟩, a2⟩, ⟨⟨2, ![400, 64]⟩, a3⟩, ⟨⟨2, ![400, 64]⟩, a4⟩] : List ((s : Shape) × (s.Idx → EReal))) h) r (2 * 64 + μ) = at2 a2 r μ :=
  at2_concat _ h 2 (by show 2 < 5; omega) a2 rfl rfl r μ hr hμ (by omega)

theorem at2_concat5_3 (a0 a1 a2 a3 a4 : (⟨2, ![400, 64]⟩ : Shape).Idx → EReal)
    (h : Shape.Concatenates (([⟨⟨2, ![400, 64]⟩, a0⟩, ⟨⟨2, ![400, 64]⟩, a1⟩, ⟨⟨2, ![400, 64]⟩, a2⟩, ⟨⟨2, ![400, 64]⟩, a3⟩, ⟨⟨2, ![400, 64]⟩, a4⟩] : List ((s : Shape) × (s.Idx → EReal))).map (·.1))
      (⟨2, ![400, 320]⟩ : Shape) 1)
    (r μ : ℕ) (hr : r < 400) (hμ : μ < 64) :
    at2 (concatenate (⟨2, ![400, 320]⟩ : Shape) 1
      ([⟨⟨2, ![400, 64]⟩, a0⟩, ⟨⟨2, ![400, 64]⟩, a1⟩, ⟨⟨2, ![400, 64]⟩, a2⟩, ⟨⟨2, ![400, 64]⟩, a3⟩, ⟨⟨2, ![400, 64]⟩, a4⟩] : List ((s : Shape) × (s.Idx → EReal))) h) r (3 * 64 + μ) = at2 a3 r μ :=
  at2_concat _ h 3 (by show 3 < 5; omega) a3 rfl rfl r μ hr hμ (by omega)

theorem at2_concat5_4 (a0 a1 a2 a3 a4 : (⟨2, ![400, 64]⟩ : Shape).Idx → EReal)
    (h : Shape.Concatenates (([⟨⟨2, ![400, 64]⟩, a0⟩, ⟨⟨2, ![400, 64]⟩, a1⟩, ⟨⟨2, ![400, 64]⟩, a2⟩, ⟨⟨2, ![400, 64]⟩, a3⟩, ⟨⟨2, ![400, 64]⟩, a4⟩] : List ((s : Shape) × (s.Idx → EReal))).map (·.1))
      (⟨2, ![400, 320]⟩ : Shape) 1)
    (r μ : ℕ) (hr : r < 400) (hμ : μ < 64) :
    at2 (concatenate (⟨2, ![400, 320]⟩ : Shape) 1
      ([⟨⟨2, ![400, 64]⟩, a0⟩, ⟨⟨2, ![400, 64]⟩, a1⟩, ⟨⟨2, ![400, 64]⟩, a2⟩, ⟨⟨2, ![400, 64]⟩, a3⟩, ⟨⟨2, ![400, 64]⟩, a4⟩] : List ((s : Shape) × (s.Idx → EReal))) h) r (4 * 64 + μ) = at2 a4 r μ :=
  at2_concat _ h 4 (by show 4 < 5; omega) a4 rfl rfl r μ hr hμ (by omega)

theorem at2_concat7_0 (a0 a1 a2 a3 a4 a5 a6 : (⟨2, ![400, 64]⟩ : Shape).Idx → EReal)
    (h : Shape.Concatenates (([⟨⟨2, ![400, 64]⟩, a0⟩, ⟨⟨2, ![400, 64]⟩, a1⟩, ⟨⟨2, ![400, 64]⟩, a2⟩, ⟨⟨2, ![400, 64]⟩, a3⟩, ⟨⟨2, ![400, 64]⟩, a4⟩, ⟨⟨2, ![400, 64]⟩, a5⟩, ⟨⟨2, ![400, 64]⟩, a6⟩] : List ((s : Shape) × (s.Idx → EReal))).map (·.1))
      (⟨2, ![400, 448]⟩ : Shape) 1)
    (r μ : ℕ) (hr : r < 400) (hμ : μ < 64) :
    at2 (concatenate (⟨2, ![400, 448]⟩ : Shape) 1
      ([⟨⟨2, ![400, 64]⟩, a0⟩, ⟨⟨2, ![400, 64]⟩, a1⟩, ⟨⟨2, ![400, 64]⟩, a2⟩, ⟨⟨2, ![400, 64]⟩, a3⟩, ⟨⟨2, ![400, 64]⟩, a4⟩, ⟨⟨2, ![400, 64]⟩, a5⟩, ⟨⟨2, ![400, 64]⟩, a6⟩] : List ((s : Shape) × (s.Idx → EReal))) h) r (0 * 64 + μ) = at2 a0 r μ :=
  at2_concat _ h 0 (by show 0 < 7; omega) a0 rfl rfl r μ hr hμ (by omega)

theorem at2_concat7_1 (a0 a1 a2 a3 a4 a5 a6 : (⟨2, ![400, 64]⟩ : Shape).Idx → EReal)
    (h : Shape.Concatenates (([⟨⟨2, ![400, 64]⟩, a0⟩, ⟨⟨2, ![400, 64]⟩, a1⟩, ⟨⟨2, ![400, 64]⟩, a2⟩, ⟨⟨2, ![400, 64]⟩, a3⟩, ⟨⟨2, ![400, 64]⟩, a4⟩, ⟨⟨2, ![400, 64]⟩, a5⟩, ⟨⟨2, ![400, 64]⟩, a6⟩] : List ((s : Shape) × (s.Idx → EReal))).map (·.1))
      (⟨2, ![400, 448]⟩ : Shape) 1)
    (r μ : ℕ) (hr : r < 400) (hμ : μ < 64) :
    at2 (concatenate (⟨2, ![400, 448]⟩ : Shape) 1
      ([⟨⟨2, ![400, 64]⟩, a0⟩, ⟨⟨2, ![400, 64]⟩, a1⟩, ⟨⟨2, ![400, 64]⟩, a2⟩, ⟨⟨2, ![400, 64]⟩, a3⟩, ⟨⟨2, ![400, 64]⟩, a4⟩, ⟨⟨2, ![400, 64]⟩, a5⟩, ⟨⟨2, ![400, 64]⟩, a6⟩] : List ((s : Shape) × (s.Idx → EReal))) h) r (1 * 64 + μ) = at2 a1 r μ :=
  at2_concat _ h 1 (by show 1 < 7; omega) a1 rfl rfl r μ hr hμ (by omega)

theorem at2_concat7_2 (a0 a1 a2 a3 a4 a5 a6 : (⟨2, ![400, 64]⟩ : Shape).Idx → EReal)
    (h : Shape.Concatenates (([⟨⟨2, ![400, 64]⟩, a0⟩, ⟨⟨2, ![400, 64]⟩, a1⟩, ⟨⟨2, ![400, 64]⟩, a2⟩, ⟨⟨2, ![400, 64]⟩, a3⟩, ⟨⟨2, ![400, 64]⟩, a4⟩, ⟨⟨2, ![400, 64]⟩, a5⟩, ⟨⟨2, ![400, 64]⟩, a6⟩] : List ((s : Shape) × (s.Idx → EReal))).map (·.1))
      (⟨2, ![400, 448]⟩ : Shape) 1)
    (r μ : ℕ) (hr : r < 400) (hμ : μ < 64) :
    at2 (concatenate (⟨2, ![400, 448]⟩ : Shape) 1
      ([⟨⟨2, ![400, 64]⟩, a0⟩, ⟨⟨2, ![400, 64]⟩, a1⟩, ⟨⟨2, ![400, 64]⟩, a2⟩, ⟨⟨2, ![400, 64]⟩, a3⟩, ⟨⟨2, ![400, 64]⟩, a4⟩, ⟨⟨2, ![400, 64]⟩, a5⟩, ⟨⟨2, ![400, 64]⟩, a6⟩] : List ((s : Shape) × (s.Idx → EReal))) h) r (2 * 64 + μ) = at2 a2 r μ :=
  at2_concat _ h 2 (by show 2 < 7; omega) a2 rfl rfl r μ hr hμ (by omega)

theorem at2_concat7_3 (a0 a1 a2 a3 a4 a5 a6 : (⟨2, ![400, 64]⟩ : Shape).Idx → EReal)
    (h : Shape.Concatenates (([⟨⟨2, ![400, 64]⟩, a0⟩, ⟨⟨2, ![400, 64]⟩, a1⟩, ⟨⟨2, ![400, 64]⟩, a2⟩, ⟨⟨2, ![400, 64]⟩, a3⟩, ⟨⟨2, ![400, 64]⟩, a4⟩, ⟨⟨2, ![400, 64]⟩, a5⟩, ⟨⟨2, ![400, 64]⟩, a6⟩] : List ((s : Shape) × (s.Idx → EReal))).map (·.1))
      (⟨2, ![400, 448]⟩ : Shape) 1)
    (r μ : ℕ) (hr : r < 400) (hμ : μ < 64) :
    at2 (concatenate (⟨2, ![400, 448]⟩ : Shape) 1
      ([⟨⟨2, ![400, 64]⟩, a0⟩, ⟨⟨2, ![400, 64]⟩, a1⟩, ⟨⟨2, ![400, 64]⟩, a2⟩, ⟨⟨2, ![400, 64]⟩, a3⟩, ⟨⟨2, ![400, 64]⟩, a4⟩, ⟨⟨2, ![400, 64]⟩, a5⟩, ⟨⟨2, ![400, 64]⟩, a6⟩] : List ((s : Shape) × (s.Idx → EReal))) h) r (3 * 64 + μ) = at2 a3 r μ :=
  at2_concat _ h 3 (by show 3 < 7; omega) a3 rfl rfl r μ hr hμ (by omega)

theorem at2_concat7_4 (a0 a1 a2 a3 a4 a5 a6 : (⟨2, ![400, 64]⟩ : Shape).Idx → EReal)
    (h : Shape.Concatenates (([⟨⟨2, ![400, 64]⟩, a0⟩, ⟨⟨2, ![400, 64]⟩, a1⟩, ⟨⟨2, ![400, 64]⟩, a2⟩, ⟨⟨2, ![400, 64]⟩, a3⟩, ⟨⟨2, ![400, 64]⟩, a4⟩, ⟨⟨2, ![400, 64]⟩, a5⟩, ⟨⟨2, ![400, 64]⟩, a6⟩] : List ((s : Shape) × (s.Idx → EReal))).map (·.1))
      (⟨2, ![400, 448]⟩ : Shape) 1)
    (r μ : ℕ) (hr : r < 400) (hμ : μ < 64) :
    at2 (concatenate (⟨2, ![400, 448]⟩ : Shape) 1
      ([⟨⟨2, ![400, 64]⟩, a0⟩, ⟨⟨2, ![400, 64]⟩, a1⟩, ⟨⟨2, ![400, 64]⟩, a2⟩, ⟨⟨2, ![400, 64]⟩, a3⟩, ⟨⟨2, ![400, 64]⟩, a4⟩, ⟨⟨2, ![400, 64]⟩, a5⟩, ⟨⟨2, ![400, 64]⟩, a6⟩] : List ((s : Shape) × (s.Idx → EReal))) h) r (4 * 64 + μ) = at2 a4 r μ :=
  at2_concat _ h 4 (by show 4 < 7; omega) a4 rfl rfl r μ hr hμ (by omega)

theorem at2_concat7_5 (a0 a1 a2 a3 a4 a5 a6 : (⟨2, ![400, 64]⟩ : Shape).Idx → EReal)
    (h : Shape.Concatenates (([⟨⟨2, ![400, 64]⟩, a0⟩, ⟨⟨2, ![400, 64]⟩, a1⟩, ⟨⟨2, ![400, 64]⟩, a2⟩, ⟨⟨2, ![400, 64]⟩, a3⟩, ⟨⟨2, ![400, 64]⟩, a4⟩, ⟨⟨2, ![400, 64]⟩, a5⟩, ⟨⟨2, ![400, 64]⟩, a6⟩] : List ((s : Shape) × (s.Idx → EReal))).map (·.1))
      (⟨2, ![400, 448]⟩ : Shape) 1)
    (r μ : ℕ) (hr : r < 400) (hμ : μ < 64) :
    at2 (concatenate (⟨2, ![400, 448]⟩ : Shape) 1
      ([⟨⟨2, ![400, 64]⟩, a0⟩, ⟨⟨2, ![400, 64]⟩, a1⟩, ⟨⟨2, ![400, 64]⟩, a2⟩, ⟨⟨2, ![400, 64]⟩, a3⟩, ⟨⟨2, ![400, 64]⟩, a4⟩, ⟨⟨2, ![400, 64]⟩, a5⟩, ⟨⟨2, ![400, 64]⟩, a6⟩] : List ((s : Shape) × (s.Idx → EReal))) h) r (5 * 64 + μ) = at2 a5 r μ :=
  at2_concat _ h 5 (by show 5 < 7; omega) a5 rfl rfl r μ hr hμ (by omega)

theorem at2_concat7_6 (a0 a1 a2 a3 a4 a5 a6 : (⟨2, ![400, 64]⟩ : Shape).Idx → EReal)
    (h : Shape.Concatenates (([⟨⟨2, ![400, 64]⟩, a0⟩, ⟨⟨2, ![400, 64]⟩, a1⟩, ⟨⟨2, ![400, 64]⟩, a2⟩, ⟨⟨2, ![400, 64]⟩, a3⟩, ⟨⟨2, ![400, 64]⟩, a4⟩, ⟨⟨2, ![400, 64]⟩, a5⟩, ⟨⟨2, ![400, 64]⟩, a6⟩] : List ((s : Shape) × (s.Idx → EReal))).map (·.1))
      (⟨2, ![400, 448]⟩ : Shape) 1)
    (r μ : ℕ) (hr : r < 400) (hμ : μ < 64) :
    at2 (concatenate (⟨2, ![400, 448]⟩ : Shape) 1
      ([⟨⟨2, ![400, 64]⟩, a0⟩, ⟨⟨2, ![400, 64]⟩, a1⟩, ⟨⟨2, ![400, 64]⟩, a2⟩, ⟨⟨2, ![400, 64]⟩, a3⟩, ⟨⟨2, ![400, 64]⟩, a4⟩, ⟨⟨2, ![400, 64]⟩, a5⟩, ⟨⟨2, ![400, 64]⟩, a6⟩] : List ((s : Shape) × (s.Idx → EReal))) h) r (6 * 64 + μ) = at2 a6 r μ :=
  at2_concat _ h 6 (by show 6 < 7; omega) a6 rfl rfl r μ hr hμ (by omega)

end Cert.KernelIdeal.Out

end
-- ==== Proof.RotRows.lean ====
/-
  The rotation rows: the kernel's first value is the loaded block of flattened 16 × 16 matrices itself, so its column
  `K` is the matrix entry `(K / 16, K % 16)`.
-/
import proofs.«104001_j24927990186029_2_alg».proof.Proof.BodyVals
import proofs.«104001_j24927990186029_2_alg».proof.Proof.Spec
import proofs.«104001_j24927990186029_2_alg».proof.Proof.RowRead

noncomputable section

namespace Cert.KernelIdeal.Out

open Idealize.ShloMosaic Idealize.ShloMosaic.ValueIdx Cert.Spec Cert.KernelIdeal Cert.KernelIdeal.Gen

/-- Column `K` of the rotation rows is the entry `(K / 16, K % 16)` of the row's matrix. -/
theorem v1_col (b : Body.Blocks Ideal) (r : ℕ) (D : ℕ → ℕ → EReal)
    (hD : ∀ a a', a < 16 → a' < 16 → at2 b.x4 r (a * 16 + a') = D a a') (K : ℕ) (hK : K < 256) :
    at2 (Body.v1 b) r K = D (K / 16) (K % 16) := by
  have e : Body.v1 b = b.x4 := by
    unfold Body.v1 Gen.k0_pay2
    exact shapeCast_self _ _
  rw [e]
  have h := hD (K / 16) (K % 16) (by omega) (by omega)
  rwa [Nat.div_add_mod'] at h

end Cert.KernelIdeal.Out

end
-- ==== Proof.KernelOut1.lean ====
/-
  The stored blocks of degrees 0 and 1, read at a row.

  Degree 0 is the first 64 columns of the order-0 mix. Degree 1 has the three components (order -1, 0, +1: the first 64
  columns of the order -1 mix, columns 64 … 127 of the order-0 mix, the first 64 columns of the order +1 mix), and
  component `j` of the result is their sum against row `1 + j` of the matrix, columns 1, 2, 3, added in that order.
-/
import proofs.«104001_j24927990186029_2_alg».proof.Proof.BodyVals
import proofs.«104001_j24927990186029_2_alg».proof.Proof.Spec
import proofs.«104001_j24927990186029_2_alg».proof.Proof.RowRead
import proofs.«104001_j24927990186029_2_alg».proof.Proof.RotRows

noncomputable section

namespace Cert.KernelIdeal.Out

open Idealize.ShloMosaic Idealize.ShloMosaic.ValueIdx Cert.Spec Cert.KernelIdeal Cert.KernelIdeal.Gen

/-- The degree-0 block is the order-0 mix's first 64 outputs. -/
theorem o10_row (b : Body.Blocks Ideal) (r : ℕ) (hr : r < 400) (X : ℕ → EReal) (D : ℕ → ℕ → EReal)
    (W0 : ℕ → ℕ → EReal) (B0 : ℕ → EReal) (W1 W2 W3 : ℕ → ℕ → EReal)
    (h351 : ∀ o, o < 256 → at2 (Body.v351 b) r o = Spec.ym0 X D W0 B0 o) :
    ∀ μ, μ < 64 → at2 (Body.o10 b) r μ = Spec.out X D W0 B0 W1 W2 W3 0 μ 0 := by
  intro μ hμ
  have e : at2 (Body.o10 b) r μ = at2 (Body.v351 b) r (0 + μ) := by
    unfold Body.o10 Gen.k0_pay57
    exact at2_slice64 _ _ _ r μ hr hμ
  rw [e, h351 _ (by omega), zero_add]
  unfold Spec.out
  rw [if_pos rfl]

/-- The degree-1 block: component `j` of channel `μ` at column `64 j + μ`. -/
theorem o11_row (b : Body.Blocks Ideal) (r : ℕ) (hr : r < 400) (X : ℕ → EReal) (D : ℕ → ℕ → EReal)
    (W0 : ℕ → ℕ → EReal) (B0 : ℕ → EReal) (W1 W2 W3 : ℕ → ℕ → EReal)
    (hD : ∀ a a', a < 16 → a' < 16 → at2 b.x4 r (a * 16 + a') = D a a')
    (h351 : ∀ o, o < 256 → at2 (Body.v351 b) r o = Spec.ym0 X D W0 B0 o)
    (h358 : ∀ o, o < 192 → at2 (Body.v358 b) r o = Spec.ymm X D W1 W2 W3 1 o)
    (h361 : ∀ o, o < 192 → at2 (Body.v361 b) r o = Spec.ypm X D W1 W2 W3 1 o) :
    ∀ j μ, j < 3 → μ < 64 → at2 (Body.o11 b) r (j * 64 + μ) = Spec.out X D W0 B0 W1 W2 W3 1 μ j := by
  intro j μ hj hμ
  have e351 : at2 (Gen.k0_pay47 (Body.v345 b) (Body.v346 b) b.x6) r (64 + μ) = Spec.ym0 X D W0 B0 (64 + μ) :=
    h351 _ (by omega)
  have e358 : at2 (Gen.k0_pay49 (Body.v19 b) (Body.v86 b) (Body.v233 b) b.x7) r μ = Spec.ymm X D W1 W2 W3 1 μ :=
    h358 _ (by omega)
  have e361 : at2 (Gen.k0_pay50 (Body.v41 b) (Body.v124 b) (Body.v287 b) b.x7) r μ = Spec.ypm X D W1 W2 W3 1 μ :=
    h361 _ (by omega)
  have hd := v1_col b r D hD
  simp only [Body.o11, Gen.k0_pay63]
  interval_cases j
  all_goals first
    | rw [at2_concat3_0 _ _ _ _ r μ hr hμ]
    | rw [at2_concat3_1 _ _ _ _ r μ hr hμ]
    | rw [at2_concat3_2 _ _ _ _ r μ hr hμ]
  all_goals
    simp only [Body.v382, Body.v383, Body.v384, Body.v387, Body.v389, Gen.k0_pay58, Gen.k0_pay59, Gen.k0_pay60,
      Gen.k0_pay61, Gen.k0_pay62, at2_addf, at2_mulf, at2_colBcast _ _ _ _ r μ hr hμ, at2_slice64 _ _ _ r μ hr hμ,
      zero_add, e351, e358, e361, hd,
      Nat.reduceLT, Nat.reduceDiv, Nat.reduceMod]
    simp only [Spec.out, Spec.rotBack, Spec.C, Finset.sum_range_succ, Finset.sum_range_zero, zero_add,
      Nat.reduceMul, Nat.reduceAdd, Nat.reduceSub, Nat.reduceDiv, Nat.reduceMod, Nat.reduceLT, Nat.reduceEqDiff, ↓reduceIte]

end Cert.KernelIdeal.Out

end
-- ==== Proof.KernelOut2.lean ====
/-
  The stored block of degree 2, read at a row.

  The five components before the rotation back (orders -2, -1, 0, +1, +2) are 64-column blocks of the order -2, -1, 0,
  +1, +2 mixes (columns 0 …, 64 …, 128 …, 64 …, 0 …), and component `j` of the result is their sum against row `4 + j` of
  the matrix, columns 4 … 8, added in that order.
-/
import proofs.«104001_j24927990186029_2_alg».proof.Proof.BodyVals
import proofs.«104001_j24927990186029_2_alg».proof.Proof.Spec
import proofs.«104001_j24927990186029_2_alg».proof.Proof.RowRead
import proofs.«104001_j24927990186029_2_alg».proof.Proof.RotRows

noncomputable section

namespace Cert.KernelIdeal.Out

open Idealize.ShloMosaic Idealize.ShloMosaic.ValueIdx Cert.Spec Cert.KernelIdeal Cert.KernelIdeal.Gen

/-- The degree-2 block: component `j` of channel `μ` at column `64 j + μ`. -/
theorem o12_row (b : Body.Blocks Ideal) (r : ℕ) (hr : r < 400) (X : ℕ → EReal) (D : ℕ → ℕ → EReal)
    (W0 : ℕ → ℕ → EReal) (B0 : ℕ → EReal) (W1 W2 W3 : ℕ → ℕ → EReal)
    (hD : ∀ a a', a < 16 → a' < 16 → at2 b.x4 r (a * 16 + a') = D a a')
    (h351 : ∀ o, o < 256 → at2 (Body.v351 b) r o = Spec.ym0 X D W0 B0 o)
    (h358 : ∀ o, o < 192 → at2 (Body.v358 b) r o = Spec.ymm X D W1 W2 W3 1 o)
    (h361 : ∀ o, o < 192 → at2 (Body.v361 b) r o = Spec.ypm X D W1 W2 W3 1 o)
    (h368 : ∀ o, o < 128 → at2 (Body.v368 b) r o = Spec.ymm X D W1 W2 W3 2 o)
    (h371 : ∀ o, o < 128 → at2 (Body.v371 b) r o = Spec.ypm X D W1 W2 W3 2 o) :
    ∀ j μ, j < 5 → μ < 64 → at2 (Body.o12 b) r (j * 64 + μ) = Spec.out X D W0 B0 W1 W2 W3 2 μ j := by
  intro j μ hj hμ
  have e351 := h351 (128 + μ) (by omega)
  have e358 := h358 (64 + μ) (by omega)
  have e361 := h361 (64 + μ) (by omega)
  have e368 := h368 μ (by omega)
  have e371 := h371 μ (by omega)
  have hd := v1_col b r D hD
  simp only [Body.o12, Gen.k0_pay76]
  interval_cases j
  all_goals first
    | rw [at2_concat5_0 _ _ _ _ _ _ r μ hr hμ]
    | rw [at2_concat5_1 _ _ _ _ _ _ r μ hr hμ]
    | rw [at2_concat5_2 _ _ _ _ _ _ r μ hr hμ]
    | rw [at2_concat5_3 _ _ _ _ _ _ r μ hr hμ]
    | rw [at2_concat5_4 _ _ _ _ _ _ r μ hr hμ]
  all_goals
    simp only [Body.v420, Body.v421, Body.v422, Body.v423, Body.v424, Body.v443, Body.v446, Body.v462, Body.v481,
      Body.v500, Body.v503, Body.v506, Gen.k0_pay64, Gen.k0_pay65, Gen.k0_pay66, Gen.k0_pay67, Gen.k0_pay68,
      Gen.k0_pay69, Gen.k0_pay70, Gen.k0_pay71, Gen.k0_pay72, Gen.k0_pay73, Gen.k0_pay74, Gen.k0_pay75,
      at2_addf, at2_mulf, at2_colBcast _ _ _ _ r μ hr hμ, at2_slice64 _ _ _ r μ hr hμ,
      zero_add, e351, e358, e361, e368, e371, hd,
      Nat.reduceLT, Nat.reduceDiv, Nat.reduceMod]
    simp only [Spec.out, Spec.rotBack, Spec.C, Finset.sum_range_succ, Finset.sum_range_zero, zero_add,
      Nat.reduceMul, Nat.reduceAdd, Nat.reduceSub, Nat.reduceDiv, Nat.reduceMod, Nat.reduceLT, Nat.reduceEqDiff, ↓reduceIte]

end Cert.KernelIdeal.Out

end
-- ==== Proof.KernelOut3.lean ====
/-
  The stored block of degree 3, read at a row.

  The seven components before the rotation back (orders -3 … +3) are the order -3 mix, 64-column blocks of the order -2,
  -1, 0, +1, +2 mixes (columns 64 …, 128 …, 192 …, 128 …, 64 …) and the order +3 mix, and component `j` of the result is
  their sum against row `9 + j` of the matrix, columns 9 … 15, added in that order.
-/
import proofs.«104001_j24927990186029_2_alg».proof.Proof.BodyVals
import proofs.«104001_j24927990186029_2_alg».proof.Proof.Spec
import proofs.«104001_j24927990186029_2_alg».proof.Proof.RowRead
import proofs.«104001_j24927990186029_2_alg».proof.Proof.RotRows

noncomputable section

namespace Cert.KernelIdeal.Out

open Idealize.ShloMosaic Idealize.ShloMosaic.ValueIdx Cert.Spec Cert.KernelIdeal Cert.KernelIdeal.Gen

/-- The degree-3 block: component `j` of channel `μ` at column `64 j + μ`. -/
theorem o13_row (b : Body.Blocks Ideal) (r : ℕ) (hr : r < 400) (X : ℕ → EReal) (D : ℕ → ℕ → EReal)
    (W0 : ℕ → ℕ → EReal) (B0 : ℕ → EReal) (W1 W2 W3 : ℕ → ℕ → EReal)
    (hD : ∀ a a', a < 16 → a' < 16 → at2 b.x4 r (a * 16 + a') = D a a')
    (h351 : ∀ o, o < 256 → at2 (Body.v351 b) r o = Spec.ym0 X D W0 B0 o)
    (h358 : ∀ o, o < 192 → at2 (Body.v358 b) r o = Spec.ymm X D W1 W2 W3 1 o)
    (h361 : ∀ o, o < 192 → at2 (Body.v361 b) r o = Spec.ypm X D W1 W2 W3 1 o)
    (h368 : ∀ o, o < 128 → at2 (Body.v368 b) r o = Spec.ymm X D W1 W2 W3 2 o)
    (h371 : ∀ o, o < 128 → at2 (Body.v371 b) r o = Spec.ypm X D W1 W2 W3 2 o)
    (h376 : ∀ o, o < 64 → at2 (Body.v376 b) r o = Spec.ymm X D W1 W2 W3 3 o)
    (h379 : ∀ o, o < 64 → at2 (Body.v379 b) r o = Spec.ypm X D W1 W2 W3 3 o) :
    ∀ j μ, j < 7 → μ < 64 → at2 (Body.o13 b) r (j * 64 + μ) = Spec.out X D W0 B0 W1 W2 W3 3 μ j := by
  intro j μ hj hμ
  have e351 := h351 (192 + μ) (by omega)
  have e358 := h358 (128 + μ) (by omega)
  have e361 := h361 (128 + μ) (by omega)
  have e368 := h368 (64 + μ) (by omega)
  have e371 := h371 (64 + μ) (by omega)
  have e376 := h376 μ hμ
  have e379 := h379 μ hμ
  have hd := v1_col b r D hD
  simp only [Body.o13, Gen.k0_pay1]
  interval_cases j
  all_goals first
    | rw [at2_concat7_0 _ _ _ _ _ _ _ _ r μ hr hμ]
    | rw [at2_concat7_1 _ _ _ _ _ _ _ _ r μ hr hμ]
    | rw [at2_concat7_2 _ _ _ _ _ _ _ _ r μ hr hμ]
    | rw [at2_concat7_3 _ _ _ _ _ _ _ _ r μ hr hμ]
    | rw [at2_concat7_4 _ _ _ _ _ _ _ _ r μ hr hμ]
    | rw [at2_concat7_5 _ _ _ _ _ _ _ _ r μ hr hμ]
    | rw [at2_concat7_6 _ _ _ _ _ _ _ _ r μ hr hμ]
  all_goals
    simp only [Body.v522, Body.v523, Body.v524, Body.v525, Body.v526, Body.v553, Body.v560, Body.v563, Body.v580,
      Body.v607, Body.v622, Body.v623, Body.v634, Body.v661, Body.v680, Body.v683, Gen.k0_pay77, Gen.k0_pay78,
      Gen.k0_pay79, Gen.k0_pay80, Gen.k0_pay81, Gen.k0_pay82, Gen.k0_pay83, Gen.k0_pay84, Gen.k0_pay85,
      Gen.k0_pay86, Gen.k0_pay87, Gen.k0_pay88, Gen.k0_pay89, Gen.k0_pay90, Gen.k0_pay91, Gen.k0_pay92,
      at2_addf, at2_mulf, at2_colBcast _ _ _ _ r μ hr hμ, at2_slice64 _ _ _ r μ hr hμ,
      zero_add, e351, e358, e361, e368, e371, e376, e379, hd,
      Nat.reduceLT, Nat.reduceDiv, Nat.reduceMod]
    simp only [Spec.out, Spec.rotBack, Spec.C, Finset.sum_range_succ, Finset.sum_range_zero, zero_add,
      Nat.reduceMul, Nat.reduceAdd, Nat.reduceSub, Nat.reduceDiv, Nat.reduceMod, Nat.reduceLT, Nat.reduceEqDiff, ↓reduceIte]

end Cert.KernelIdeal.Out

end
-- ==== Proof.KernelRows.lean ====
/-
  One row of the kernel call's four stored blocks is the specification's row.

  At grid point `t` the body loads ten blocks (`Frame.blocksAt`): rows `400 t … 400 t + 399` of the four component-major slabs and of the
  flattened rotation matrices, and the four mixing matrices and the bias whole. Row `r` of the slabs is row
  `n = 400 t + r` of the features (column `64 c + μ` of degree `l`'s slab is the features' column `64 l² + μ d + c`), row
  `r` of the matrices block is the features' row's 16 × 16 matrix, and the weights are the arguments themselves. With
  these the body's seven mixes are the specification's, and its four stored blocks are the specification's result, for
  the row `n` of the arguments.
-/
import proofs.«104001_j24927990186029_2_alg».proof.Proof.FrameIdeal
import proofs.«104001_j24927990186029_2_alg».proof.Proof.KernelEntry
import proofs.«104001_j24927990186029_2_alg».proof.Proof.KernelBlocks
import proofs.«104001_j24927990186029_2_alg».proof.Proof.KernelMix
import proofs.«104001_j24927990186029_2_alg».proof.Proof.KernelOut1
import proofs.«104001_j24927990186029_2_alg».proof.Proof.KernelOut2
import proofs.«104001_j24927990186029_2_alg».proof.Proof.KernelOut3

noncomputable section

namespace Cert.KernelIdeal.Rows

open Cert.KernelIdeal Cert.KernelIdeal.Gen Cert.KernelIdeal.Frame Cert.Spec
open Idealize.ShloMosaic Idealize.ShloMosaic.TcCoe Idealize.ShloMosaic.ValueIdx Idealize.SL.Sem

variable (m : (ℓ : Loc nD τ sig) → Buf (Elt Ideal) ℓ) (c : Dev nD)

/-! ## The arguments, in natural-number coordinates -/

/-- Row `n` of the features. -/
abbrev featRow (n : ℕ) : ℕ → EReal := fun k => at2 (m ((c : Thread nD τ).loc main_arg0) : S50000x1024.Idx → EReal) n k
/-- Row `n`'s 16 × 16 matrix. -/
abbrev matRow (n : ℕ) : ℕ → ℕ → EReal := fun a a' => at3 (m ((c : Thread nD τ).loc main_arg2) : S50000x16x16.Idx → EReal) n a a'
/-- The order-0 mixing matrix. -/
abbrev wgt0 : ℕ → ℕ → EReal := at2 (m ((c : Thread nD τ).loc main_arg3) : S256x256.Idx → EReal)
/-- The bias. -/
abbrev bias0 : ℕ → EReal := at1 (m ((c : Thread nD τ).loc main_arg4) : S256.Idx → EReal)
/-- The order-1 mixing matrix. -/
abbrev wgt1 : ℕ → ℕ → EReal := at2 (m ((c : Thread nD τ).loc main_arg5) : S192x192.Idx → EReal)
/-- The order-2 mixing matrix. -/
abbrev wgt2 : ℕ → ℕ → EReal := at2 (m ((c : Thread nD τ).loc main_arg6) : S128x128.Idx → EReal)
/-- The order-3 mixing matrix. -/
abbrev wgt3 : ℕ → ℕ → EReal := at2 (m ((c : Thread nD τ).loc main_arg7) : S64x64.Idx → EReal)

/-! ## The loaded blocks at a row -/

section Loaded

variable (t : Fin cfg0.N) (r : ℕ) (hr : r < 400)
include hr

theorem row_lt : 400 * t.val + r < 50000 := by
  have ht : t.val < 125 := Nat.lt_of_lt_of_eq t.isLt N_0
  omega

/-- Degree 0's slab block at row `r`: channel `μ` of the features' row. -/
theorem slab0_row : ∀ μ, μ < 64 → at2 (blocksAt m c t).x0 r μ = featRow m c (400 * t.val + r) μ := by
  intro μ hμ
  have hn := row_lt t r hr
  refine ((Blocks.blk0_row m c t r μ hr hμ).trans (Entry.entry0 m c _ _ hn hμ)).trans ?_
  have e : 0 + μ % 64 * 1 + μ / 64 = μ := by omega
  rw [e]

/-- Degree 1's slab block at row `r`: component `c'` of channel `μ`. -/
theorem slab1_row : ∀ c' μ, c' < 3 → μ < 64 →
    at2 (blocksAt m c t).x1 r (c' * 64 + μ) = featRow m c (400 * t.val + r) (64 + μ * 3 + c') := by
  intro c' μ hc hμ
  have hn := row_lt t r hr
  have hq : c' * 64 + μ < 192 := by omega
  refine ((Blocks.blk1_row m c t r _ hr hq).trans (Entry.entry1 m c _ _ hn hq)).trans ?_
  have e : 64 + (c' * 64 + μ) % 64 * 3 + (c' * 64 + μ) / 64 = 64 + μ * 3 + c' := by omega
  rw [e]

/-- Degree 2's slab block at row `r`: component `c'` of channel `μ`. -/
theorem slab2_row : ∀ c' μ, c' < 5 → μ < 64 →
    at2 (blocksAt m c t).x2 r (c' * 64 + μ) = featRow m c (400 * t.val + r) (256 + μ * 5 + c') := by
  intro c' μ hc hμ
  have hn := row_lt t r hr
  have hq : c' * 64 + μ < 320 := by omega
  refine ((Blocks.blk2_row m c t r _ hr hq).trans (Entry.entry2 m c _ _ hn hq)).trans ?_
  have e : 256 + (c' * 64 + μ) % 64 * 5 + (c' * 64 + μ) / 64 = 256 + μ * 5 + c' := by omega
  rw [e]

/-- Degree 3's slab block at row `r`: component `c'` of channel `μ`. -/
theorem slab3_row : ∀ c' μ, c' < 7 → μ < 64 →
    at2 (blocksAt m c t).x3 r (c' * 64 + μ) = featRow m c (400 * t.val + r) (576 + μ * 7 + c') := by
  intro c' μ hc hμ
  have hn := row_lt t r hr
  have hq : c' * 64 + μ < 448 := by omega
  refine ((Blocks.blk3_row m c t r _ hr hq).trans (Entry.entry3 m c _ _ hn hq)).trans ?_
  have e : 576 + (c' * 64 + μ) % 64 * 7 + (c' * 64 + μ) / 64 = 576 + μ * 7 + c' := by omega
  rw [e]

/-- The matrices block at row `r`: the features' row's matrix, flattened row-major. -/
theorem mats_row : ∀ a a', a < 16 → a' < 16 →
    at2 (blocksAt m c t).x4 r (a * 16 + a') = matRow m c (400 * t.val + r) a a' := by
  intro a a' ha ha'
  have hn := row_lt t r hr
  have hq : a * 16 + a' < 256 := by omega
  refine ((Blocks.blk4_row m c t r _ hr hq).trans (Entry.entry4 m c _ _ hn hq)).trans ?_
  have e1 : (a * 16 + a') / 16 = a := by omega
  have e2 : (a * 16 + a') % 16 = a' := by omega
  rw [e1, e2]

end Loaded

/-! ## The weight blocks are the arguments -/

theorem wgt0_blk (t : Fin cfg0.N) : at2 (blocksAt m c t).x5 = wgt0 m c := by
  funext o k
  have h := Blocks.blk5_whole m c t o k
  rw [V_main_arg3] at h
  exact h

theorem bias0_blk (t : Fin cfg0.N) : at1 (blocksAt m c t).x6 = bias0 m c := by
  funext o
  have h := Blocks.blk6_whole m c t o
  rw [V_main_arg4] at h
  exact h

theorem wgt1_blk (t : Fin cfg0.N) : at2 (blocksAt m c t).x7 = wgt1 m c := by
  funext o k
  have h := Blocks.blk7_whole m c t o k
  rw [V_main_arg5] at h
  exact h

theorem wgt2_blk (t : Fin cfg0.N) : at2 (blocksAt m c t).x8 = wgt2 m c := by
  funext o k
  have h := Blocks.blk8_whole m c t o k
  rw [V_main_arg6] at h
  exact h

theorem wgt3_blk (t : Fin cfg0.N) : at2 (blocksAt m c t).x9 = wgt3 m c := by
  funext o k
  have h := Blocks.blk9_whole m c t o k
  rw [V_main_arg7] at h
  exact h

/-! ## The seven mixes at a row -/

section Mixes

variable (t : Fin cfg0.N) (r : ℕ) (hr : r < 400)
include hr

theorem mix0_row : ∀ o, o < 256 → at2 (Body.v351 (blocksAt m c t)) r o
    = Spec.ym0 (featRow m c (400 * t.val + r)) (matRow m c (400 * t.val + r)) (wgt0 m c) (bias0 m c) o := by
  have h := Mix.v351_row (blocksAt m c t) r hr (featRow m c (400 * t.val + r)) (matRow m c (400 * t.val + r))
    (slab0_row m c t r hr) (slab1_row m c t r hr) (slab2_row m c t r hr) (slab3_row m c t r hr) (mats_row m c t r hr)
  rw [wgt0_blk, bias0_blk] at h
  exact h

theorem mixm1_row : ∀ o, o < 192 → at2 (Body.v358 (blocksAt m c t)) r o
    = Spec.ymm (featRow m c (400 * t.val + r)) (matRow m c (400 * t.val + r)) (wgt1 m c) (wgt2 m c) (wgt3 m c) 1 o := by
  have h := Mix.v358_row (blocksAt m c t) r hr (featRow m c (400 * t.val + r)) (matRow m c (400 * t.val + r))
    (slab0_row m c t r hr) (slab1_row m c t r hr) (slab2_row m c t r hr) (slab3_row m c t r hr) (mats_row m c t r hr)
  rw [wgt1_blk, wgt2_blk, wgt3_blk] at h
  exact h

theorem mixp1_row : ∀ o, o < 192 → at2 (Body.v361 (blocksAt m c t)) r o
    = Spec.ypm (featRow m c (400 * t.val + r)) (matRow m c (400 * t.val + r)) (wgt1 m c) (wgt2 m c) (wgt3 m c) 1 o := by
  have h := Mix.v361_row (blocksAt m c t) r hr (featRow m c (400 * t.val + r)) (matRow m c (400 * t.val + r))
    (slab0_row m c t r hr) (slab1_row m c t r hr) (slab2_row m c t r hr) (slab3_row m c t r hr) (mats_row m c t r hr)
  rw [wgt1_blk, wgt2_blk, wgt3_blk] at h
  exact h

theorem mixm2_row : ∀ o, o < 128 → at2 (Body.v368 (blocksAt m c t)) r o
    = Spec.ymm (featRow m c (400 * t.val + r)) (matRow m c (400 * t.val + r)) (wgt1 m c) (wgt2 m c) (wgt3 m c) 2 o := by
  have h := Mix.v368_row (blocksAt m c t) r hr (featRow m c (400 * t.val + r)) (matRow m c (400 * t.val + r))
    (slab0_row m c t r hr) (slab1_row m c t r hr) (slab2_row m c t r hr) (slab3_row m c t r hr) (mats_row m c t r hr)
  rw [wgt1_blk, wgt2_blk, wgt3_blk] at h
  exact h

theorem mixp2_row : ∀ o, o < 128 → at2 (Body.v371 (blocksAt m c t)) r o
    = Spec.ypm (featRow m c (400 * t.val + r)) (matRow m c (400 * t.val + r)) (wgt1 m c) (wgt2 m c) (wgt3 m c) 2 o := by
  have h := Mix.v371_row (blocksAt m c t) r hr (featRow m c (400 * t.val + r)) (matRow m c (400 * t.val + r))
    (slab0_row m c t r hr) (slab1_row m c t r hr) (slab2_row m c t r hr) (slab3_row m c t r hr) (mats_row m c t r hr)
  rw [wgt1_blk, wgt2_blk, wgt3_blk] at h
  exact h

theorem mixm3_row : ∀ o, o < 64 → at2 (Body.v376 (blocksAt m c t)) r o
    = Spec.ymm (featRow m c (400 * t.val + r)) (matRow m c (400 * t.val + r)) (wgt1 m c) (wgt2 m c) (wgt3 m c) 3 o := by
  have h := Mix.v376_row (blocksAt m c t) r hr (featRow m c (400 * t.val + r)) (matRow m c (400 * t.val + r))
    (slab0_row m c t r hr) (slab1_row m c t r hr) (slab2_row m c t r hr) (slab3_row m c t r hr) (mats_row m c t r hr)
  rw [wgt1_blk, wgt2_blk, wgt3_blk] at h
  exact h

theorem mixp3_row : ∀ o, o < 64 → at2 (Body.v379 (blocksAt m c t)) r o
    = Spec.ypm (featRow m c (400 * t.val + r)) (matRow m c (400 * t.val + r)) (wgt1 m c) (wgt2 m c) (wgt3 m c) 3 o := by
  have h := Mix.v379_row (blocksAt m c t) r hr (featRow m c (400 * t.val + r)) (matRow m c (400 * t.val + r))
    (slab0_row m c t r hr) (slab1_row m c t r hr) (slab2_row m c t r hr) (slab3_row m c t r hr) (mats_row m c t r hr)
  rw [wgt1_blk, wgt2_blk, wgt3_blk] at h
  exact h

end Mixes

/-! ## The four stored blocks at a row -/

/-- Degree 0. -/
theorem out0_row (t : Fin cfg0.N) (r : ℕ) (hr : r < 400) : ∀ μ, μ < 64 →
    at2 (Body.o10 (blocksAt m c t)) r μ
      = Spec.out (featRow m c (400 * t.val + r)) (matRow m c (400 * t.val + r)) (wgt0 m c) (bias0 m c)
          (wgt1 m c) (wgt2 m c) (wgt3 m c) 0 μ 0 :=
  Out.o10_row (blocksAt m c t) r hr _ _ _ _ _ _ _ (mix0_row m c t r hr)

/-- Degree 1. -/
theorem out1_row (t : Fin cfg0.N) (r : ℕ) (hr : r < 400) : ∀ j μ, j < 3 → μ < 64 →
    at2 (Body.o11 (blocksAt m c t)) r (j * 64 + μ)
      = Spec.out (featRow m c (400 * t.val + r)) (matRow m c (400 * t.val + r)) (wgt0 m c) (bias0 m c)
          (wgt1 m c) (wgt2 m c) (wgt3 m c) 1 μ j :=
  Out.o11_row (blocksAt m c t) r hr _ _ _ _ _ _ _ (mats_row m c t r hr) (mix0_row m c t r hr)
    (mixm1_row m c t r hr) (mixp1_row m c t r hr)

/-- Degree 2. -/
theorem out2_row (t : Fin cfg0.N) (r : ℕ) (hr : r < 400) : ∀ j μ, j < 5 → μ < 64 →
    at2 (Body.o12 (blocksAt m c t)) r (j * 64 + μ)
      = Spec.out (featRow m c (400 * t.val + r)) (matRow m c (400 * t.val + r)) (wgt0 m c) (bias0 m c)
          (wgt1 m c) (wgt2 m c) (wgt3 m c) 2 μ j :=
  Out.o12_row (blocksAt m c t) r hr _ _ _ _ _ _ _ (mats_row m c t r hr) (mix0_row m c t r hr)
    (mixm1_row m c t r hr) (mixp1_row m c t r hr) (mixm2_row m c t r hr) (mixp2_row m c t r hr)

/-- Degree 3. -/
theorem out3_row (t : Fin cfg0.N) (r : ℕ) (hr : r < 400) : ∀ j μ, j < 7 → μ < 64 →
    at2 (Body.o13 (blocksAt m c t)) r (j * 64 + μ)
      = Spec.out (featRow m c (400 * t.val + r)) (matRow m c (400 * t.val + r)) (wgt0 m c) (bias0 m c)
          (wgt1 m c) (wgt2 m c) (wgt3 m c) 3 μ j :=
  Out.o13_row (blocksAt m c t) r hr _ _ _ _ _ _ _ (mats_row m c t r hr) (mix0_row m c t r hr)
    (mixm1_row m c t r hr) (mixp1_row m c t r hr) (mixm2_row m c t r hr) (mixp2_row m c t r hr)
    (mixm3_row m c t r hr) (mixp3_row m c t r hr)

end Cert.KernelIdeal.Rows

end
-- ==== Proof.KernelValue.lean ====
/-
  The kernel's four result arrays after the run, as functions of the argument arrays.

  Grid point `t` writes back block `t` — rows `400 t … 400 t + 399` — of each of the four result arrays, and the 125 blocks
  tile each array. So each array ends as ONE function of the arguments: its row `n` is row `n % 400` of what the body
  computes at point `n / 400`, which, read at a column `64 j + μ`, is the specification's component `j` of channel `μ` for
  row `n` of the features and matrices.
-/
import proofs.«104001_j24927990186029_2_alg».proof.Proof.FrameIdeal
import proofs.«104001_j24927990186029_2_alg».proof.Proof.KernelRows
import proofs.«104001_j24927990186029_2_alg».proof.Proof.KernelBlocks
import proofs.«104001_j24927990186029_2_alg».proof.Proof.Spec
import proofs.«104001_j24927990186029_2_alg».proof.Proof.HostLayout
import Idealize.ShloMosaic.Lib.Pipeline.Value

noncomputable section

namespace Cert.KernelIdeal.Value

open Cert.KernelIdeal Cert.KernelIdeal.Gen Cert.KernelIdeal.Frame Cert.KernelIdeal.Rows Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- The ten input blocks at the point numbered `k` (the first point's for a number past the grid). -/
def blocksAtN (k : ℕ) : Body.Blocks Ideal :=
  if h : k < cfg0.N then blocksAt m c ⟨k, h⟩ else blocksAt m c ⟨0, Nat.lt_of_lt_of_eq (by decide : 0 < 125) N_0.symm⟩

theorem blocksAtN_val (t : Fin cfg0.N) : blocksAtN m c t.val = blocksAt m c t := by
  unfold blocksAtN
  rw [dif_pos t.isLt]

/-! ### Output window 10 (degree 0) -/

/-- The array the kernel leaves for degree 0: row `n` is row `n % 400` of the block computed at point `n / 400`. -/
def G10 : S50000x64.Idx → EReal := fun i =>
  at2 (Body.o10 (blocksAtN m c ((i 0).val / 400))) ((i 0).val % 400) (i 1).val

/-- An index of the array is in point `t`'s block iff each coordinate is in the block's range on its axis. -/
theorem mem_blk10 (t : Fin cfg0.N) (i : S50000x64.Idx) :
    i ∈ ((cfg0.win 10).blk t).view.set ↔ ∀ a : Fin 2, win0_10.index t a * S400x64.size a ≤ (i a).val ∧ (i a).val < win0_10.index t a * S400x64.size a + S400x64.size a := by
  show i ∈ ((View.whole main_v17_0).slice (win0_10.rect t)).set ↔ _
  rw [View.set_slice_whole, Rect.mem_set_unit]
  exact Iff.rfl

/-- What point `t` writes back is block `t` of `G10`. -/
theorem flushed10_eq (t : Fin cfg0.N) :
    (dats m 0 c).flushed 10 t = ((cfg0.win 10).blk t).view.read (Elt Ideal) (G10 m c) := by
  show (cfg0.win 10).cut (grid0.coords t) ((dats m 0 c).after 10 t) = _
  rw [after0_10, out0_10_eq]
  funext y
  show Body.o10 (blocksAt m c t) y = G10 m c (((cfg0.win 10).blk t).view.emb y)
  have hf := Blocks.idx_facts t
  have hy0 : (y 0).val < 400 := (y 0).isLt
  have hy1 : (y 1).val < 64 := (y 1).isLt
  have h0 : ((((cfg0.win 10).blk t).view.emb y) 0).val = 400 * t.val + (y 0).val := by
    show win0_10.index t (0 : Fin 2) * 400 + 1 * (y 0).val = _
    omega
  have h1 : ((((cfg0.win 10).blk t).view.emb y) 1).val = (y 1).val := by
    show win0_10.index t (1 : Fin 2) * 64 + 1 * (y 1).val = _
    omega
  have e1 : (400 * t.val + (y 0).val) / 400 = t.val := by omega
  have e2 : (400 * t.val + (y 0).val) % 400 = (y 0).val := by omega
  unfold G10
  dsimp only
  rw [h0, h1, e1, e2, blocksAtN_val]
  exact at2_idx _ y

/-- Every row lies in the block of the point `row / 400`. -/
theorem cover10 (i : S50000x64.Idx) : ∃ t : Fin cfg0.N, (cfg0.win 10).flush t = true ∧ i ∈ ((cfg0.win 10).blk t).view.set := by
  have hi0 : (i 0).val < 50000 := (i 0).isLt
  have hi1 : (i 1).val < 64 := (i 1).isLt
  have hN := N_0
  have hlt : (i 0).val / 400 < cfg0.N := by show (i 0).val / 400 < grid0.N; omega
  refine ⟨⟨(i 0).val / 400, hlt⟩, flush0_10 _, ?_⟩
  rw [mem_blk10]
  have hf := Blocks.idx_facts ⟨(i 0).val / 400, hlt⟩
  have hv : (⟨(i 0).val / 400, hlt⟩ : Fin cfg0.N).val = (i 0).val / 400 := rfl
  intro a
  match a with
  | ⟨0, _⟩ =>
    show win0_10.index ⟨(i 0).val / 400, hlt⟩ (0 : Fin 2) * 400 ≤ (i 0).val ∧ (i 0).val < win0_10.index ⟨(i 0).val / 400, hlt⟩ (0 : Fin 2) * 400 + 400
    omega
  | ⟨1, _⟩ =>
    show win0_10.index ⟨(i 0).val / 400, hlt⟩ (1 : Fin 2) * 64 ≤ (i 1).val ∧ (i 1).val < win0_10.index ⟨(i 0).val / 400, hlt⟩ (1 : Fin 2) * 64 + 64
    omega

/-- The array after the run. -/
theorem final10 : (dats m 0 c).arrAt 10 cfg0.N = G10 m c :=
  (dats m 0 c).arrAt_eq_of_cover 10 (G10 m c) (fun t _ => flushed10_eq m c t) cover10

/-! ### Output window 11 (degree 1) -/

/-- The array the kernel leaves for degree 1: row `n` is row `n % 400` of the block computed at point `n / 400`. -/
def G11 : S50000x192.Idx → EReal := fun i =>
  at2 (Body.o11 (blocksAtN m c ((i 0).val / 400))) ((i 0).val % 400) (i 1).val

/-- An index of the array is in point `t`'s block iff each coordinate is in the block's range on its axis. -/
theorem mem_blk11 (t : Fin cfg0.N) (i : S50000x192.Idx) :
    i ∈ ((cfg0.win 11).blk t).view.set ↔ ∀ a : Fin 2, win0_11.index t a * S400x192.size a ≤ (i a).val ∧ (i a).val < win0_11.index t a * S400x192.size a + S400x192.size a := by
  show i ∈ ((View.whole main_v17_1).slice (win0_11.rect t)).set ↔ _
  rw [View.set_slice_whole, Rect.mem_set_unit]
  exact Iff.rfl

/-- What point `t` writes back is block `t` of `G11`. -/
theorem flushed11_eq (t : Fin cfg0.N) :
    (dats m 0 c).flushed 11 t = ((cfg0.win 11).blk t).view.read (Elt Ideal) (G11 m c) := by
  show (cfg0.win 11).cut (grid0.coords t) ((dats m 0 c).after 11 t) = _
  rw [after0_11, out0_11_eq]
  funext y
  show Body.o11 (blocksAt m c t) y = G11 m c (((cfg0.win 11).blk t).view.emb y)
  have hf := Blocks.idx_facts t
  have hy0 : (y 0).val < 400 := (y 0).isLt
  have hy1 : (y 1).val < 192 := (y 1).isLt
  have h0 : ((((cfg0.win 11).blk t).view.emb y) 0).val = 400 * t.val + (y 0).val := by
    show win0_11.index t (0 : Fin 2) * 400 + 1 * (y 0).val = _
    omega
  have h1 : ((((cfg0.win 11).blk t).view.emb y) 1).val = (y 1).val := by
    show win0_11.index t (1 : Fin 2) * 192 + 1 * (y 1).val = _
    omega
  have e1 : (400 * t.val + (y 0).val) / 400 = t.val := by omega
  have e2 : (400 * t.val + (y 0).val) % 400 = (y 0).val := by omega
  unfold G11
  dsimp only
  rw [h0, h1, e1, e2, blocksAtN_val]
  exact at2_idx _ y

/-- Every row lies in the block of the point `row / 400`. -/
theorem cover11 (i : S50000x192.Idx) : ∃ t : Fin cfg0.N, (cfg0.win 11).flush t = true ∧ i ∈ ((cfg0.win 11).blk t).view.set := by
  have hi0 : (i 0).val < 50000 := (i 0).isLt
  have hi1 : (i 1).val < 192 := (i 1).isLt
  have hN := N_0
  have hlt : (i 0).val / 400 < cfg0.N := by show (i 0).val / 400 < grid0.N; omega
  refine ⟨⟨(i 0).val / 400, hlt⟩, flush0_11 _, ?_⟩
  rw [mem_blk11]
  have hf := Blocks.idx_facts ⟨(i 0).val / 400, hlt⟩
  have hv : (⟨(i 0).val / 400, hlt⟩ : Fin cfg0.N).val = (i 0).val / 400 := rfl
  intro a
  match a with
  | ⟨0, _⟩ =>
    show win0_11.index ⟨(i 0).val / 400, hlt⟩ (0 : Fin 2) * 400 ≤ (i 0).val ∧ (i 0).val < win0_11.index ⟨(i 0).val / 400, hlt⟩ (0 : Fin 2) * 400 + 400
    omega
  | ⟨1, _⟩ =>
    show win0_11.index ⟨(i 0).val / 400, hlt⟩ (1 : Fin 2) * 192 ≤ (i 1).val ∧ (i 1).val < win0_11.index ⟨(i 0).val / 400, hlt⟩ (1 : Fin 2) * 192 + 192
    omega

/-- The array after the run. -/
theorem final11 : (dats m 0 c).arrAt 11 cfg0.N = G11 m c :=
  (dats m 0 c).arrAt_eq_of_cover 11 (G11 m c) (fun t _ => flushed11_eq m c t) cover11

/-! ### Output window 12 (degree 2) -/

/-- The array the kernel leaves for degree 2: row `n` is row `n % 400` of the block computed at point `n / 400`. -/
def G12 : S50000x320.Idx → EReal := fun i =>
  at2 (Body.o12 (blocksAtN m c ((i 0).val / 400))) ((i 0).val % 400) (i 1).val

/-- An index of the array is in point `t`'s block iff each coordinate is in the block's range on its axis. -/
theorem mem_blk12 (t : Fin cfg0.N) (i : S50000x320.Idx) :
    i ∈ ((cfg0.win 12).blk t).view.set ↔ ∀ a : Fin 2, win0_12.index t a * S400x320.size a ≤ (i a).val ∧ (i a).val < win0_12.index t a * S400x320.size a + S400x320.size a := by
  show i ∈ ((View.whole main_v17_2).slice (win0_12.rect t)).set ↔ _
  rw [View.set_slice_whole, Rect.mem_set_unit]
  exact Iff.rfl

/-- What point `t` writes back is block `t` of `G12`. -/
theorem flushed12_eq (t : Fin cfg0.N) :
    (dats m 0 c).flushed 12 t = ((cfg0.win 12).blk t).view.read (Elt Ideal) (G12 m c) := by
  show (cfg0.win 12).cut (grid0.coords t) ((dats m 0 c).after 12 t) = _
  rw [after0_12, out0_12_eq]
  funext y
  show Body.o12 (blocksAt m c t) y = G12 m c (((cfg0.win 12).blk t).view.emb y)
  have hf := Blocks.idx_facts t
  have hy0 : (y 0).val < 400 := (y 0).isLt
  have hy1 : (y 1).val < 320 := (y 1).isLt
  have h0 : ((((cfg0.win 12).blk t).view.emb y) 0).val = 400 * t.val + (y 0).val := by
    show win0_12.index t (0 : Fin 2) * 400 + 1 * (y 0).val = _
    omega
  have h1 : ((((cfg0.win 12).blk t).view.emb y) 1).val = (y 1).val := by
    show win0_12.index t (1 : Fin 2) * 320 + 1 * (y 1).val = _
    omega
  have e1 : (400 * t.val + (y 0).val) / 400 = t.val := by omega
  have e2 : (400 * t.val + (y 0).val) % 400 = (y 0).val := by omega
  unfold G12
  dsimp only
  rw [h0, h1, e1, e2, blocksAtN_val]
  exact at2_idx _ y

/-- Every row lies in the block of the point `row / 400`. -/
theorem cover12 (i : S50000x320.Idx) : ∃ t : Fin cfg0.N, (cfg0.win 12).flush t = true ∧ i ∈ ((cfg0.win 12).blk t).view.set := by
  have hi0 : (i 0).val < 50000 := (i 0).isLt
  have hi1 : (i 1).val < 320 := (i 1).isLt
  have hN := N_0
  have hlt : (i 0).val / 400 < cfg0.N := by show (i 0).val / 400 < grid0.N; omega
  refine ⟨⟨(i 0).val / 400, hlt⟩, flush0_12 _, ?_⟩
  rw [mem_blk12]
  have hf := Blocks.idx_facts ⟨(i 0).val / 400, hlt⟩
  have hv : (⟨(i 0).val / 400, hlt⟩ : Fin cfg0.N).val = (i 0).val / 400 := rfl
  intro a
  match a with
  | ⟨0, _⟩ =>
    show win0_12.index ⟨(i 0).val / 400, hlt⟩ (0 : Fin 2) * 400 ≤ (i 0).val ∧ (i 0).val < win0_12.index ⟨(i 0).val / 400, hlt⟩ (0 : Fin 2) * 400 + 400
    omega
  | ⟨1, _⟩ =>
    show win0_12.index ⟨(i 0).val / 400, hlt⟩ (1 : Fin 2) * 320 ≤ (i 1).val ∧ (i 1).val < win0_12.index ⟨(i 0).val / 400, hlt⟩ (1 : Fin 2) * 320 + 320
    omega

/-- The array after the run. -/
theorem final12 : (dats m 0 c).arrAt 12 cfg0.N = G12 m c :=
  (dats m 0 c).arrAt_eq_of_cover 12 (G12 m c) (fun t _ => flushed12_eq m c t) cover12

/-! ### Output window 13 (degree 3) -/

/-- The array the kernel leaves for degree 3: row `n` is row `n % 400` of the block computed at point `n / 400`. -/
def G13 : S50000x448.Idx → EReal := fun i =>
  at2 (Body.o13 (blocksAtN m c ((i 0).val / 400))) ((i 0).val % 400) (i 1).val

/-- An index of the array is in point `t`'s block iff each coordinate is in the block's range on its axis. -/
theorem mem_blk13 (t : Fin cfg0.N) (i : S50000x448.Idx) :
    i ∈ ((cfg0.win 13).blk t).view.set ↔ ∀ a : Fin 2, win0_13.index t a * S400x448.size a ≤ (i a).val ∧ (i a).val < win0_13.index t a * S400x448.size a + S400x448.size a := by
  show i ∈ ((View.whole main_v17_3).slice (win0_13.rect t)).set ↔ _
  rw [View.set_slice_whole, Rect.mem_set_unit]
  exact Iff.rfl

/-- What point `t` writes back is block `t` of `G13`. -/
theorem flushed13_eq (t : Fin cfg0.N) :
    (dats m 0 c).flushed 13 t = ((cfg0.win 13).blk t).view.read (Elt Ideal) (G13 m c) := by
  show (cfg0.win 13).cut (grid0.coords t) ((dats m 0 c).after 13 t) = _
  rw [after0_13, out0_13_eq]
  funext y
  show Body.o13 (blocksAt m c t) y = G13 m c (((cfg0.win 13).blk t).view.emb y)
  have hf := Blocks.idx_facts t
  have hy0 : (y 0).val < 400 := (y 0).isLt
  have hy1 : (y 1).val < 448 := (y 1).isLt
  have h0 : ((((cfg0.win 13).blk t).view.emb y) 0).val = 400 * t.val + (y 0).val := by
    show win0_13.index t (0 : Fin 2) * 400 + 1 * (y 0).val = _
    omega
  have h1 : ((((cfg0.win 13).blk t).view.emb y) 1).val = (y 1).val := by
    show win0_13.index t (1 : Fin 2) * 448 + 1 * (y 1).val = _
    omega
  have e1 : (400 * t.val + (y 0).val) / 400 = t.val := by omega
  have e2 : (400 * t.val + (y 0).val) % 400 = (y 0).val := by omega
  unfold G13
  dsimp only
  rw [h0, h1, e1, e2, blocksAtN_val]
  exact at2_idx _ y

/-- Every row lies in the block of the point `row / 400`. -/
theorem cover13 (i : S50000x448.Idx) : ∃ t : Fin cfg0.N, (cfg0.win 13).flush t = true ∧ i ∈ ((cfg0.win 13).blk t).view.set := by
  have hi0 : (i 0).val < 50000 := (i 0).isLt
  have hi1 : (i 1).val < 448 := (i 1).isLt
  have hN := N_0
  have hlt : (i 0).val / 400 < cfg0.N := by show (i 0).val / 400 < grid0.N; omega
  refine ⟨⟨(i 0).val / 400, hlt⟩, flush0_13 _, ?_⟩
  rw [mem_blk13]
  have hf := Blocks.idx_facts ⟨(i 0).val / 400, hlt⟩
  have hv : (⟨(i 0).val / 400, hlt⟩ : Fin cfg0.N).val = (i 0).val / 400 := rfl
  intro a
  match a with
  | ⟨0, _⟩ =>
    show win0_13.index ⟨(i 0).val / 400, hlt⟩ (0 : Fin 2) * 400 ≤ (i 0).val ∧ (i 0).val < win0_13.index ⟨(i 0).val / 400, hlt⟩ (0 : Fin 2) * 400 + 400
    omega
  | ⟨1, _⟩ =>
    show win0_13.index ⟨(i 0).val / 400, hlt⟩ (1 : Fin 2) * 448 ≤ (i 1).val ∧ (i 1).val < win0_13.index ⟨(i 0).val / 400, hlt⟩ (1 : Fin 2) * 448 + 448
    omega

/-- The array after the run. -/
theorem final13 : (dats m 0 c).arrAt 13 cfg0.N = G13 m c :=
  (dats m 0 c).arrAt_eq_of_cover 13 (G13 m c) (fun t _ => flushed13_eq m c t) cover13

/-! ## The arrays' entries, from the arguments -/

/-- Degree 0 of the result, from the argument arrays. -/
theorem G10_val (n q : ℕ) (hn : n < 50000) (hq : q < 64) :
    at2 (G10 m c) n q = Spec.out (featRow m c n) (matRow m c n) (wgt0 m c) (bias0 m c) (wgt1 m c) (wgt2 m c) (wgt3 m c) 0 q 0 := by
  have hN := N_0
  have hlt : n / 400 < cfg0.N := by show n / 400 < grid0.N; omega
  have hr : n % 400 < 400 := by omega
  unfold at2
  rw [dif_pos ⟨hn, hq⟩]
  show at2 (Body.o10 (blocksAtN m c (n / 400))) (n % 400) q = _
  rw [show blocksAtN m c (n / 400) = blocksAt m c ⟨n / 400, hlt⟩ from blocksAtN_val m c ⟨n / 400, hlt⟩]
  have h := out0_row m c ⟨n / 400, hlt⟩ (n % 400) hr q hq
  have e : 400 * (⟨n / 400, hlt⟩ : Fin cfg0.N).val + n % 400 = n := by
    show 400 * (n / 400) + n % 400 = n
    omega
  rw [e] at h
  exact h

/-- Degree 1 of the result, from the argument arrays: column `q = 64 j + μ`. -/
theorem G11_val (n q : ℕ) (hn : n < 50000) (hq : q < 192) :
    at2 (G11 m c) n q = Spec.out (featRow m c n) (matRow m c n) (wgt0 m c) (bias0 m c) (wgt1 m c) (wgt2 m c) (wgt3 m c) 1 (q % 64) (q / 64) := by
  have hN := N_0
  have hlt : n / 400 < cfg0.N := by show n / 400 < grid0.N; omega
  have hr : n % 400 < 400 := by omega
  unfold at2
  rw [dif_pos ⟨hn, hq⟩]
  show at2 (Body.o11 (blocksAtN m c (n / 400))) (n % 400) q = _
  rw [show blocksAtN m c (n / 400) = blocksAt m c ⟨n / 400, hlt⟩ from blocksAtN_val m c ⟨n / 400, hlt⟩]
  have h := out1_row m c ⟨n / 400, hlt⟩ (n % 400) hr (q / 64) (q % 64) (by omega) (by omega)
  have e : 400 * (⟨n / 400, hlt⟩ : Fin cfg0.N).val + n % 400 = n := by
    show 400 * (n / 400) + n % 400 = n
    omega
  have eq : q / 64 * 64 + q % 64 = q := by omega
  rw [e, eq] at h
  exact h

/-- Degree 2 of the result, from the argument arrays: column `q = 64 j + μ`. -/
theorem G12_val (n q : ℕ) (hn : n < 50000) (hq : q < 320) :
    at2 (G12 m c) n q = Spec.out (featRow m c n) (matRow m c n) (wgt0 m c) (bias0 m c) (wgt1 m c) (wgt2 m c) (wgt3 m c) 2 (q % 64) (q / 64) := by
  have hN := N_0
  have hlt : n / 400 < cfg0.N := by show n / 400 < grid0.N; omega
  have hr : n % 400 < 400 := by omega
  unfold at2
  rw [dif_pos ⟨hn, hq⟩]
  show at2 (Body.o12 (blocksAtN m c (n / 400))) (n % 400) q = _
  rw [show blocksAtN m c (n / 400) = blocksAt m c ⟨n / 400, hlt⟩ from blocksAtN_val m c ⟨n / 400, hlt⟩]
  have h := out2_row m c ⟨n / 400, hlt⟩ (n % 400) hr (q / 64) (q % 64) (by omega) (by omega)
  have e : 400 * (⟨n / 400, hlt⟩ : Fin cfg0.N).val + n % 400 = n := by
    show 400 * (n / 400) + n % 400 = n
    omega
  have eq : q / 64 * 64 + q % 64 = q := by omega
  rw [e, eq] at h
  exact h

/-- Degree 3 of the result, from the argument arrays: column `q = 64 j + μ`. -/
theorem G13_val (n q : ℕ) (hn : n < 50000) (hq : q < 448) :
    at2 (G13 m c) n q = Spec.out (featRow m c n) (matRow m c n) (wgt0 m c) (bias0 m c) (wgt1 m c) (wgt2 m c) (wgt3 m c) 3 (q % 64) (q / 64) := by
  have hN := N_0
  have hlt : n / 400 < cfg0.N := by show n / 400 < grid0.N; omega
  have hr : n % 400 < 400 := by omega
  unfold at2
  rw [dif_pos ⟨hn, hq⟩]
  show at2 (Body.o13 (blocksAtN m c (n / 400))) (n % 400) q = _
  rw [show blocksAtN m c (n / 400) = blocksAt m c ⟨n / 400, hlt⟩ from blocksAtN_val m c ⟨n / 400, hlt⟩]
  have h := out3_row m c ⟨n / 400, hlt⟩ (n % 400) hr (q / 64) (q % 64) (by omega) (by omega)
  have e : 400 * (⟨n / 400, hlt⟩ : Fin cfg0.N).val + n % 400 = n := by
    show 400 * (n / 400) + n % 400 = n
    omega
  have eq : q / 64 * 64 + q % 64 = q := by omega
  rw [e, eq] at h
  exact h

/-! ## The result: the four arrays re-interleaved and joined -/

/-- The joined array, entry by entry, is the specification's row `n` at column `col`: the column's range picks the degree,
    the re-interleaving takes column `d μ + j` of that degree to column `64 j + μ` of the kernel's array. -/
theorem joined_apply (i : S50000x1024.Idx) :
    concatenate S50000x1024 1 [⟨S50000x64, (shapeCast S50000x64 (transpose S50000x64x1 [0, 2, 1] (shapeCast S50000x1x64 (G10 m c) Facts₀.shapeCasts_S50000x64_S50000x1x64) Facts₀.transposes_S50000x1x64_S50000x64x1_0_2_1) Facts₀.shapeCasts_S50000x64x1_S50000x64)⟩, ⟨S50000x192, (shapeCast S50000x192 (transpose S50000x64x3 [0, 2, 1] (shapeCast S50000x3x64 (G11 m c) Facts₀.shapeCasts_S50000x192_S50000x3x64) Facts₀.transposes_S50000x3x64_S50000x64x3_0_2_1) Facts₀.shapeCasts_S50000x64x3_S50000x192)⟩, ⟨S50000x320, (shapeCast S50000x320 (transpose S50000x64x5 [0, 2, 1] (shapeCast S50000x5x64 (G12 m c) Facts₀.shapeCasts_S50000x320_S50000x5x64) Facts₀.transposes_S50000x5x64_S50000x64x5_0_2_1) Facts₀.shapeCasts_S50000x64x5_S50000x320)⟩, ⟨S50000x448, (shapeCast S50000x448 (transpose S50000x64x7 [0, 2, 1] (shapeCast S50000x7x64 (G13 m c) Facts₀.shapeCasts_S50000x448_S50000x7x64) Facts₀.transposes_S50000x7x64_S50000x64x7_0_2_1) Facts₀.shapeCasts_S50000x64x7_S50000x448)⟩] Facts₀.concatenates_S50000x64_S50000x192_S50000x320_S50000x448_S50000x1024_d1 i
      = Spec.Gfull (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0).val (i 1).val := by
  obtain ⟨n, col, rfl⟩ : ∃ (n : Fin 50000) (col : Fin 1024), i = ix2 n col := ⟨i 0, i 1, eq_ix2 i⟩
  have hn := n.isLt
  have hc := col.isLt
  show _ = Spec.Gfull _ _ _ _ _ _ _ n.val col.val
  unfold Spec.Gfull
  by_cases h0 : col.val < 64
  · -- columns 0 … 63: degree 0
    have hq : (col.val - 0) % 1 * 64 + (col.val - 0) / 1 < 64 := by omega
    rw [Layout.cat0_apply _ _ _ _ n col (by omega) h0, Layout.back0_apply, at2_ix (G10 m c),
      G10_val m c n.val _ hn hq]
    show _ = Spec.G _ _ _ _ _ _ _ col.val
    unfold Spec.G
    rw [if_pos h0]
    have e1 : (col.val - 0) % 1 * 64 + (col.val - 0) / 1 = col.val := by omega
    rw [e1]
  by_cases h1 : col.val < 256
  · -- columns 64 … 255: degree 1
    have hq : (col.val - 64) % 3 * 64 + (col.val - 64) / 3 < 192 := by omega
    rw [Layout.cat1_apply _ _ _ _ n col (by omega) (by omega), Layout.back1_apply, at2_ix (G11 m c),
      G11_val m c n.val _ hn hq]
    show _ = Spec.G _ _ _ _ _ _ _ col.val
    unfold Spec.G
    rw [if_neg h0, if_pos h1]
    have e1 : ((col.val - 64) % 3 * 64 + (col.val - 64) / 3) % 64 = (col.val - 64) / 3 := by omega
    have e2 : ((col.val - 64) % 3 * 64 + (col.val - 64) / 3) / 64 = (col.val - 64) % 3 := by omega
    rw [e1, e2]
  by_cases h2 : col.val < 576
  · -- columns 256 … 575: degree 2
    have hq : (col.val - 256) % 5 * 64 + (col.val - 256) / 5 < 320 := by omega
    rw [Layout.cat2_apply _ _ _ _ n col (by omega) (by omega), Layout.back2_apply, at2_ix (G12 m c),
      G12_val m c n.val _ hn hq]
    show _ = Spec.G _ _ _ _ _ _ _ col.val
    unfold Spec.G
    rw [if_neg h0, if_neg h1, if_pos h2]
    have e1 : ((col.val - 256) % 5 * 64 + (col.val - 256) / 5) % 64 = (col.val - 256) / 5 := by omega
    have e2 : ((col.val - 256) % 5 * 64 + (col.val - 256) / 5) / 64 = (col.val - 256) % 5 := by omega
    rw [e1, e2]
  · -- columns 576 … 1023: degree 3
    have hq : (col.val - 576) % 7 * 64 + (col.val - 576) / 7 < 448 := by omega
    rw [Layout.cat3_apply _ _ _ _ n col (by omega) (by omega), Layout.back3_apply, at2_ix (G13 m c),
      G13_val m c n.val _ hn hq]
    show _ = Spec.G _ _ _ _ _ _ _ col.val
    unfold Spec.G
    rw [if_neg h0, if_neg h1, if_neg h2]
    have e1 : ((col.val - 576) % 7 * 64 + (col.val - 576) / 7) % 64 = (col.val - 576) / 7 := by omega
    have e2 : ((col.val - 576) % 7 * 64 + (col.val - 576) / 7) / 64 = (col.val - 576) % 7 := by omega
    rw [e1, e2]

end Cert.KernelIdeal.Value

end
-- ==== Proof.KernelTail.lean ====
/-
  The result of the program from what the region leaves in its four output arrays.

  After the region thirteen host operations remain: each output array (degree `l`, `64 (2 l + 1)` columns,
  component-major) is reshaped to `[N, 2 l + 1, 64]`, its last two axes transposed, and reshaped back (so that it is
  channel-major again), and the four are concatenated along the columns into the `[N, 1024]` result. The region's run
  ends with each output array at what the proof data compute (the entry contents overwritten block by block by what the
  body left); no later operation writes those arrays, so the result buffer holds that composition of them.
-/
import proofs.«104001_j24927990186029_2_alg».proof.Proof.FrameIdeal

noncomputable section

namespace Cert.KernelIdeal.Tail

open Cert.KernelIdeal Cert.KernelIdeal.Gen Cert.KernelIdeal.Frame
open Idealize.ShloMosaic Idealize.ShloMosaic.TcCoe Idealize.SL.Sem

variable {F : FTy → Type} [FloatOps F]

variable (m : (ℓ : Loc nD τ sig) → Buf (Elt F) ℓ)

/-- The result buffer after the thirteen later host operations, run from the region's arrays at their final contents:
    the four output arrays, each regrouped from component-major to channel-major, side by side. -/
theorem tail30 (c : Dev nD) :
    (Pipeline.afterTail₀ cfgs (dats m) 0 (V0 m) [hostOps1] c main_v30 : S50000x1024.Idx → Elt F .f32)
      = concatenate S50000x1024 1
          [⟨S50000x64, shapeCast S50000x64 (transpose S50000x64x1 [0, 2, 1] (shapeCast S50000x1x64 ((dats m 0 c).arrAt 10 cfg0.N : S50000x64.Idx → Elt F .f32) Facts₀.shapeCasts_S50000x64_S50000x1x64)
            Facts₀.transposes_S50000x1x64_S50000x64x1_0_2_1) Facts₀.shapeCasts_S50000x64x1_S50000x64⟩,
           ⟨S50000x192, shapeCast S50000x192 (transpose S50000x64x3 [0, 2, 1] (shapeCast S50000x3x64 ((dats m 0 c).arrAt 11 cfg0.N : S50000x192.Idx → Elt F .f32) Facts₀.shapeCasts_S50000x192_S50000x3x64)
            Facts₀.transposes_S50000x3x64_S50000x64x3_0_2_1) Facts₀.shapeCasts_S50000x64x3_S50000x192⟩,
           ⟨S50000x320, shapeCast S50000x320 (transpose S50000x64x5 [0, 2, 1] (shapeCast S50000x5x64 ((dats m 0 c).arrAt 12 cfg0.N : S50000x320.Idx → Elt F .f32) Facts₀.shapeCasts_S50000x320_S50000x5x64)
            Facts₀.transposes_S50000x5x64_S50000x64x5_0_2_1) Facts₀.shapeCasts_S50000x64x5_S50000x320⟩,
           ⟨S50000x448, shapeCast S50000x448 (transpose S50000x64x7 [0, 2, 1] (shapeCast S50000x7x64 ((dats m 0 c).arrAt 13 cfg0.N : S50000x448.Idx → Elt F .f32) Facts₀.shapeCasts_S50000x448_S50000x7x64)
            Facts₀.transposes_S50000x7x64_S50000x64x7_0_2_1) Facts₀.shapeCasts_S50000x64x7_S50000x448⟩]
          Facts₀.concatenates_S50000x64_S50000x192_S50000x320_S50000x448_S50000x1024_d1 := by
  have h10 : Pipeline.withArrays spec0 c (V0 m c) (fun w => (dats m 0 c).arrAt w cfg0.N) (Proc.devRef .tc main_v17_0)
      = (dats m 0 c).arrAt 10 cfg0.N :=
    Pipeline.withArrays_arr spec0 launch0.win.arr_inj c (V0 m c) (fun w => (dats m 0 c).arrAt w cfg0.N) 10
  have h11 : Pipeline.withArrays spec0 c (V0 m c) (fun w => (dats m 0 c).arrAt w cfg0.N) (Proc.devRef .tc main_v17_1)
      = (dats m 0 c).arrAt 11 cfg0.N :=
    Pipeline.withArrays_arr spec0 launch0.win.arr_inj c (V0 m c) (fun w => (dats m 0 c).arrAt w cfg0.N) 11
  have h12 : Pipeline.withArrays spec0 c (V0 m c) (fun w => (dats m 0 c).arrAt w cfg0.N) (Proc.devRef .tc main_v17_2)
      = (dats m 0 c).arrAt 12 cfg0.N :=
    Pipeline.withArrays_arr spec0 launch0.win.arr_inj c (V0 m c) (fun w => (dats m 0 c).arrAt w cfg0.N) 12
  have h13 : Pipeline.withArrays spec0 c (V0 m c) (fun w => (dats m 0 c).arrAt w cfg0.N) (Proc.devRef .tc main_v17_3)
      = (dats m 0 c).arrAt 13 cfg0.N :=
    Pipeline.withArrays_arr spec0 launch0.win.arr_inj c (V0 m c) (fun w => (dats m 0 c).arrAt w cfg0.N) 13
  rw [← h10, ← h11, ← h12, ← h13]
  unfold Pipeline.afterTail₀
  simp only [hostOps1, List.flatten_cons, List.flatten_nil, List.append_nil]
  after_results
  rfl

end Cert.KernelIdeal.Tail

end
-- ==== Proof.KernelRun.lean ====
/-
  The idealized kernel's run with its result read back.

  The program is host re-layouts, the kernel call, host re-layouts. The frame run leaves each of the call's four result
  arrays at the array the grid's 125 points wrote block by block; the operations after the call re-interleave each and
  join them; and the joined array is, entry by entry, the specification's row. The eight arguments end as launched: no
  host operation writes one, and the call only reads them.
-/
import proofs.«104001_j24927990186029_2_alg».proof.Proof.KernelValue
import proofs.«104001_j24927990186029_2_alg».proof.Proof.KernelTail

noncomputable section

namespace Cert.KernelIdeal.Value

open Cert.KernelIdeal Cert.KernelIdeal.Gen Cert.KernelIdeal.Frame Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- What the operations after the call leave in the result buffer: the specification, entry by entry. -/
theorem result_eq (c : Dev nD) :
    Pipeline.afterTail₀ cfgs (dats m) 0 (V0 m) [hostOps1] c main_v30
      = (fun i : S50000x1024.Idx => Spec.Gfull (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0).val (i 1).val) := by
  rw [Tail.tail30 m c, final10, final11, final12, final13]
  exact funext (joined_apply m c)

/-- Every weakly fair execution of the idealized kernel program terminates with its result at the specification of the
    launched arguments, and the arguments unchanged. -/
theorem run_G : θ_run defs (onTc (τ := τ) (main (F := Ideal))) ⟨m, fun _ => 0, ρ⟩ (fun r => ∀ c : Dev nD,
      r.2.mem ((c.tc : Thread nD τ).loc main_v30) = (fun i : S50000x1024.Idx => Spec.Gfull (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h c).2 main_v30 (Pipeline.mem_restRefs_of main_v30 (by decide) (by decide))).trans (result_eq m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).1 5).trans (((dats m 0 c).arrAt_in 5 rfl _).trans ((A_eq m c 5).trans (V_main_arg3 m c))),
    ((h c).1 6).trans (((dats m 0 c).arrAt_in 6 rfl _).trans ((A_eq m c 6).trans (V_main_arg4 m c))),
    ((h c).1 7).trans (((dats m 0 c).arrAt_in 7 rfl _).trans ((A_eq m c 7).trans (V_main_arg5 m c))),
    ((h c).1 8).trans (((dats m 0 c).arrAt_in 8 rfl _).trans ((A_eq m c 8).trans (V_main_arg6 m c))),
    ((h c).1 9).trans (((dats m 0 c).arrAt_in 9 rfl _).trans ((A_eq m c 9).trans (V_main_arg7 m c)))⟩) (run_main m ρ)

end Cert.KernelIdeal.Value

end
-- ==== Proof.RefVals.lean ====
/-
  The reference program, one operation at a time, as pure functions of its arrays.

  The reference is a straight line of 125 array operations on the seven arrays it reads (the features `x0`, the
  rotation matrices `x2`, the order-0 mixing matrix `x3` and bias `x4`, the mixing matrices `x5`, `x6`, `x7` of orders 1, 2, 3).
  `vN` is what operation `N` writes: the operation's own term applied to the earlier operations' values. Every `vN`
  takes all seven arrays, whichever it depends on, so that they compose uniformly. Operations 0–13 slice the features by
  degree and rotate degrees 1, 2, 3; 14–26 mix the order-0 components; 27–66 the orders ∓1, ∓2, ∓3; 67–123 regroup by
  degree and rotate back; 124 joins the four degrees.
-/
import proofs.«104001_j24927990186029_2_alg».proof.Proof.Gen.ReferenceIdeal

noncomputable section

namespace Cert.ReferenceIdeal.Vals

open Idealize.ShloMosaic Cert.ReferenceIdeal Cert.ReferenceIdeal.Facts₀

variable {F : FTy → Type} [FloatOps F]
/-- Operation 0 (`%0 = stablehlo.slice`). -/
def v0 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  extractStridedSlice S50000x64 ![0, 0] x0 slices_S50000x1024_S50000x64_0_0

/-- Operation 1 (`%1 = stablehlo.reshape`). -/
def v1 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  shapeCast S50000x64x1 (v0 x0 x2 x3 x4 x5 x6 x7) shapeCasts_S50000x64_S50000x64x1

/-- Operation 2 (`%2 = stablehlo.slice`). -/
def v2 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x192, .f32⟩ : BufTy).Contents (Elt F) :=
  extractStridedSlice S50000x192 ![0, 64] x0 slices_S50000x1024_S50000x192_0_64

/-- Operation 3 (`%3 = stablehlo.reshape`). -/
def v3 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x3, .f32⟩ : BufTy).Contents (Elt F) :=
  shapeCast S50000x64x3 (v2 x0 x2 x3 x4 x5 x6 x7) shapeCasts_S50000x192_S50000x64x3

/-- Operation 4 (`%4 = stablehlo.slice`). -/
def v4 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x3x3, .f32⟩ : BufTy).Contents (Elt F) :=
  extractStridedSlice S50000x3x3 ![0, 1, 1] x2 slices_S50000x16x16_S50000x3x3_0_1_1

/-- Operation 5 (`%5 = stablehlo.dot_general`). -/
def v5 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x3, .f32⟩ : BufTy).Contents (Elt F) :=
  Host.dotGeneral dot_S50000x64x3_S50000x3x3_S50000x64x3_2_1_1_2_0_0 none (v3 x0 x2 x3 x4 x5 x6 x7) (v4 x0 x2 x3 x4 x5 x6 x7)

/-- Operation 6 (`%6 = stablehlo.slice`). -/
def v6 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x320, .f32⟩ : BufTy).Contents (Elt F) :=
  extractStridedSlice S50000x320 ![0, 256] x0 slices_S50000x1024_S50000x320_0_256

/-- Operation 7 (`%7 = stablehlo.reshape`). -/
def v7 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x5, .f32⟩ : BufTy).Contents (Elt F) :=
  shapeCast S50000x64x5 (v6 x0 x2 x3 x4 x5 x6 x7) shapeCasts_S50000x320_S50000x64x5

/-- Operation 8 (`%8 = stablehlo.slice`). -/
def v8 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x5x5, .f32⟩ : BufTy).Contents (Elt F) :=
  extractStridedSlice S50000x5x5 ![0, 4, 4] x2 slices_S50000x16x16_S50000x5x5_0_4_4

/-- Operation 9 (`%9 = stablehlo.dot_general`). -/
def v9 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x5, .f32⟩ : BufTy).Contents (Elt F) :=
  Host.dotGeneral dot_S50000x64x5_S50000x5x5_S50000x64x5_2_1_1_2_0_0 none (v7 x0 x2 x3 x4 x5 x6 x7) (v8 x0 x2 x3 x4 x5 x6 x7)

/-- Operation 10 (`%10 = stablehlo.slice`). -/
def v10 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x448, .f32⟩ : BufTy).Contents (Elt F) :=
  extractStridedSlice S50000x448 ![0, 576] x0 slices_S50000x1024_S50000x448_0_576

/-- Operation 11 (`%11 = stablehlo.reshape`). -/
def v11 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x7, .f32⟩ : BufTy).Contents (Elt F) :=
  shapeCast S50000x64x7 (v10 x0 x2 x3 x4 x5 x6 x7) shapeCasts_S50000x448_S50000x64x7

/-- Operation 12 (`%12 = stablehlo.slice`). -/
def v12 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x7x7, .f32⟩ : BufTy).Contents (Elt F) :=
  extractStridedSlice S50000x7x7 ![0, 9, 9] x2 slices_S50000x16x16_S50000x7x7_0_9_9

/-- Operation 13 (`%13 = stablehlo.dot_general`). -/
def v13 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x7, .f32⟩ : BufTy).Contents (Elt F) :=
  Host.dotGeneral dot_S50000x64x7_S50000x7x7_S50000x64x7_2_1_1_2_0_0 none (v11 x0 x2 x3 x4 x5 x6 x7) (v12 x0 x2 x3 x4 x5 x6 x7)

/-- Operation 14 (`%14 = stablehlo.reshape`). -/
def v14 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v1 x0 x2 x3 x4 x5 x6 x7) shapeCasts_S50000x64x1_S50000x64

/-- Operation 15 (`%15 = stablehlo.slice`). -/
def v15 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  extractStridedSlice S50000x64x1 ![0, 0, 1] (v5 x0 x2 x3 x4 x5 x6 x7) slices_S50000x64x3_S50000x64x1_0_0_1

/-- Operation 16 (`%16 = stablehlo.reshape`). -/
def v16 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v15 x0 x2 x3 x4 x5 x6 x7) shapeCasts_S50000x64x1_S50000x64

/-- Operation 17 (`%17 = stablehlo.slice`). -/
def v17 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  extractStridedSlice S50000x64x1 ![0, 0, 2] (v9 x0 x2 x3 x4 x5 x6 x7) slices_S50000x64x5_S50000x64x1_0_0_2

/-- Operation 18 (`%18 = stablehlo.reshape`). -/
def v18 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v17 x0 x2 x3 x4 x5 x6 x7) shapeCasts_S50000x64x1_S50000x64

/-- Operation 19 (`%19 = stablehlo.slice`). -/
def v19 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  extractStridedSlice S50000x64x1 ![0, 0, 3] (v13 x0 x2 x3 x4 x5 x6 x7) slices_S50000x64x7_S50000x64x1_0_0_3

/-- Operation 20 (`%20 = stablehlo.reshape`). -/
def v20 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v19 x0 x2 x3 x4 x5 x6 x7) shapeCasts_S50000x64x1_S50000x64

/-- Operation 21 (`%21 = stablehlo.concatenate`). -/
def v21 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x256, .f32⟩ : BufTy).Contents (Elt F) :=
  concatenate S50000x256 1 [⟨S50000x64, (v14 x0 x2 x3 x4 x5 x6 x7)⟩, ⟨S50000x64, (v16 x0 x2 x3 x4 x5 x6 x7)⟩, ⟨S50000x64, (v18 x0 x2 x3 x4 x5 x6 x7)⟩, ⟨S50000x64, (v20 x0 x2 x3 x4 x5 x6 x7)⟩] concatenates_S50000x64_S50000x64_S50000x64_S50000x64_S50000x256_d1

/-- Operation 22 (`%22 = stablehlo.transpose`). -/
def v22 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S256x256, .f32⟩ : BufTy).Contents (Elt F) :=
  transpose S256x256 [1, 0] x3 transposes_S256x256_S256x256_1_0

/-- Operation 23 (`%23 = stablehlo.dot_general`). -/
def v23 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x256, .f32⟩ : BufTy).Contents (Elt F) :=
  Host.dotGeneral dot_S50000x256_S256x256_S50000x256_1_0_0_1_n_n none (v21 x0 x2 x3 x4 x5 x6 x7) (v22 x0 x2 x3 x4 x5 x6 x7)

/-- Operation 24 (`%24 = stablehlo.broadcast_in_dim`). -/
def v24 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S1x256, .f32⟩ : BufTy).Contents (Elt F) :=
  broadcastInDim S1x256 ![1] bcast_S256_S1x256_1 x4

/-- Operation 25 (`%25 = stablehlo.broadcast_in_dim`). -/
def v25 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x256, .f32⟩ : BufTy).Contents (Elt F) :=
  broadcastInDim S50000x256 ![0, 1] bcast_S1x256_S50000x256_0_1 (v24 x0 x2 x3 x4 x5 x6 x7)

/-- Operation 26 (`%26 = stablehlo.add`). -/
def v26 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x256, .f32⟩ : BufTy).Contents (Elt F) :=
  addf (v23 x0 x2 x3 x4 x5 x6 x7) (v25 x0 x2 x3 x4 x5 x6 x7)

/-- Operation 27 (`%27 = stablehlo.slice`). -/
def v27 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  extractStridedSlice S50000x64x1 ![0, 0, 0] (v5 x0 x2 x3 x4 x5 x6 x7) slices_S50000x64x3_S50000x64x1_0_0_0

/-- Operation 28 (`%28 = stablehlo.reshape`). -/
def v28 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v27 x0 x2 x3 x4 x5 x6 x7) shapeCasts_S50000x64x1_S50000x64

/-- Operation 29 (`%29 = stablehlo.slice`). -/
def v29 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  extractStridedSlice S50000x64x1 ![0, 0, 1] (v9 x0 x2 x3 x4 x5 x6 x7) slices_S50000x64x5_S50000x64x1_0_0_1

/-- Operation 30 (`%30 = stablehlo.reshape`). -/
def v30 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v29 x0 x2 x3 x4 x5 x6 x7) shapeCasts_S50000x64x1_S50000x64

/-- Operation 31 (`%31 = stablehlo.slice`). -/
def v31 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  extractStridedSlice S50000x64x1 ![0, 0, 2] (v13 x0 x2 x3 x4 x5 x6 x7) slices_S50000x64x7_S50000x64x1_0_0_2

/-- Operation 32 (`%32 = stablehlo.reshape`). -/
def v32 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v31 x0 x2 x3 x4 x5 x6 x7) shapeCasts_S50000x64x1_S50000x64

/-- Operation 33 (`%33 = stablehlo.concatenate`). -/
def v33 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x192, .f32⟩ : BufTy).Contents (Elt F) :=
  concatenate S50000x192 1 [⟨S50000x64, (v28 x0 x2 x3 x4 x5 x6 x7)⟩, ⟨S50000x64, (v30 x0 x2 x3 x4 x5 x6 x7)⟩, ⟨S50000x64, (v32 x0 x2 x3 x4 x5 x6 x7)⟩] concatenates_S50000x64_S50000x64_S50000x64_S50000x192_d1

/-- Operation 34 (`%34 = stablehlo.slice`). -/
def v34 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  extractStridedSlice S50000x64x1 ![0, 0, 2] (v5 x0 x2 x3 x4 x5 x6 x7) slices_S50000x64x3_S50000x64x1_0_0_2

/-- Operation 35 (`%35 = stablehlo.reshape`). -/
def v35 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v34 x0 x2 x3 x4 x5 x6 x7) shapeCasts_S50000x64x1_S50000x64

/-- Operation 36 (`%36 = stablehlo.slice`). -/
def v36 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  extractStridedSlice S50000x64x1 ![0, 0, 3] (v9 x0 x2 x3 x4 x5 x6 x7) slices_S50000x64x5_S50000x64x1_0_0_3

/-- Operation 37 (`%37 = stablehlo.reshape`). -/
def v37 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v36 x0 x2 x3 x4 x5 x6 x7) shapeCasts_S50000x64x1_S50000x64

/-- Operation 38 (`%38 = stablehlo.slice`). -/
def v38 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  extractStridedSlice S50000x64x1 ![0, 0, 4] (v13 x0 x2 x3 x4 x5 x6 x7) slices_S50000x64x7_S50000x64x1_0_0_4

/-- Operation 39 (`%39 = stablehlo.reshape`). -/
def v39 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v38 x0 x2 x3 x4 x5 x6 x7) shapeCasts_S50000x64x1_S50000x64

/-- Operation 40 (`%40 = stablehlo.concatenate`). -/
def v40 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x192, .f32⟩ : BufTy).Contents (Elt F) :=
  concatenate S50000x192 1 [⟨S50000x64, (v35 x0 x2 x3 x4 x5 x6 x7)⟩, ⟨S50000x64, (v37 x0 x2 x3 x4 x5 x6 x7)⟩, ⟨S50000x64, (v39 x0 x2 x3 x4 x5 x6 x7)⟩] concatenates_S50000x64_S50000x64_S50000x64_S50000x192_d1

/-- Operation 41 (`%41 = stablehlo.broadcast_in_dim`). -/
def v41 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x1x192, .f32⟩ : BufTy).Contents (Elt F) :=
  broadcastInDim S50000x1x192 ![0, 2] bcast_S50000x192_S50000x1x192_0_2 (v33 x0 x2 x3 x4 x5 x6 x7)

/-- Operation 42 (`%42 = stablehlo.broadcast_in_dim`). -/
def v42 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x1x192, .f32⟩ : BufTy).Contents (Elt F) :=
  broadcastInDim S50000x1x192 ![0, 2] bcast_S50000x192_S50000x1x192_0_2 (v40 x0 x2 x3 x4 x5 x6 x7)

/-- Operation 43 (`%43 = stablehlo.concatenate`). -/
def v43 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x2x192, .f32⟩ : BufTy).Contents (Elt F) :=
  concatenate S50000x2x192 1 [⟨S50000x1x192, (v41 x0 x2 x3 x4 x5 x6 x7)⟩, ⟨S50000x1x192, (v42 x0 x2 x3 x4 x5 x6 x7)⟩] concatenates_S50000x1x192_S50000x1x192_S50000x2x192_d1

/-- Operation 44 (`%44 = stablehlo.dot_general`). -/
def v44 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x2x192, .f32⟩ : BufTy).Contents (Elt F) :=
  Host.dotGeneral dot_S50000x2x192_S192x192_S50000x2x192_2_1_01_0_n_n none (v43 x0 x2 x3 x4 x5 x6 x7) x5

/-- Operation 45 (`%45 = stablehlo.slice`). -/
def v45 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  extractStridedSlice S50000x64x1 ![0, 0, 0] (v9 x0 x2 x3 x4 x5 x6 x7) slices_S50000x64x5_S50000x64x1_0_0_0

/-- Operation 46 (`%46 = stablehlo.reshape`). -/
def v46 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v45 x0 x2 x3 x4 x5 x6 x7) shapeCasts_S50000x64x1_S50000x64

/-- Operation 47 (`%47 = stablehlo.slice`). -/
def v47 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  extractStridedSlice S50000x64x1 ![0, 0, 1] (v13 x0 x2 x3 x4 x5 x6 x7) slices_S50000x64x7_S50000x64x1_0_0_1

/-- Operation 48 (`%48 = stablehlo.reshape`). -/
def v48 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v47 x0 x2 x3 x4 x5 x6 x7) shapeCasts_S50000x64x1_S50000x64

/-- Operation 49 (`%49 = stablehlo.concatenate`). -/
def v49 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x128, .f32⟩ : BufTy).Contents (Elt F) :=
  concatenate S50000x128 1 [⟨S50000x64, (v46 x0 x2 x3 x4 x5 x6 x7)⟩, ⟨S50000x64, (v48 x0 x2 x3 x4 x5 x6 x7)⟩] concatenates_S50000x64_S50000x64_S50000x128_d1

/-- Operation 50 (`%50 = stablehlo.slice`). -/
def v50 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  extractStridedSlice S50000x64x1 ![0, 0, 4] (v9 x0 x2 x3 x4 x5 x6 x7) slices_S50000x64x5_S50000x64x1_0_0_4

/-- Operation 51 (`%51 = stablehlo.reshape`). -/
def v51 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v50 x0 x2 x3 x4 x5 x6 x7) shapeCasts_S50000x64x1_S50000x64

/-- Operation 52 (`%52 = stablehlo.slice`). -/
def v52 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  extractStridedSlice S50000x64x1 ![0, 0, 5] (v13 x0 x2 x3 x4 x5 x6 x7) slices_S50000x64x7_S50000x64x1_0_0_5

/-- Operation 53 (`%53 = stablehlo.reshape`). -/
def v53 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v52 x0 x2 x3 x4 x5 x6 x7) shapeCasts_S50000x64x1_S50000x64

/-- Operation 54 (`%54 = stablehlo.concatenate`). -/
def v54 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x128, .f32⟩ : BufTy).Contents (Elt F) :=
  concatenate S50000x128 1 [⟨S50000x64, (v51 x0 x2 x3 x4 x5 x6 x7)⟩, ⟨S50000x64, (v53 x0 x2 x3 x4 x5 x6 x7)⟩] concatenates_S50000x64_S50000x64_S50000x128_d1

/-- Operation 55 (`%55 = stablehlo.broadcast_in_dim`). -/
def v55 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x1x128, .f32⟩ : BufTy).Contents (Elt F) :=
  broadcastInDim S50000x1x128 ![0, 2] bcast_S50000x128_S50000x1x128_0_2 (v49 x0 x2 x3 x4 x5 x6 x7)

/-- Operation 56 (`%56 = stablehlo.broadcast_in_dim`). -/
def v56 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x1x128, .f32⟩ : BufTy).Contents (Elt F) :=
  broadcastInDim S50000x1x128 ![0, 2] bcast_S50000x128_S50000x1x128_0_2 (v54 x0 x2 x3 x4 x5 x6 x7)

/-- Operation 57 (`%57 = stablehlo.concatenate`). -/
def v57 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x2x128, .f32⟩ : BufTy).Contents (Elt F) :=
  concatenate S50000x2x128 1 [⟨S50000x1x128, (v55 x0 x2 x3 x4 x5 x6 x7)⟩, ⟨S50000x1x128, (v56 x0 x2 x3 x4 x5 x6 x7)⟩] concatenates_S50000x1x128_S50000x1x128_S50000x2x128_d1

/-- Operation 58 (`%58 = stablehlo.dot_general`). -/
def v58 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x2x128, .f32⟩ : BufTy).Contents (Elt F) :=
  Host.dotGeneral dot_S50000x2x128_S128x128_S50000x2x128_2_1_01_0_n_n none (v57 x0 x2 x3 x4 x5 x6 x7) x6

/-- Operation 59 (`%59 = stablehlo.slice`). -/
def v59 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  extractStridedSlice S50000x64x1 ![0, 0, 0] (v13 x0 x2 x3 x4 x5 x6 x7) slices_S50000x64x7_S50000x64x1_0_0_0

/-- Operation 60 (`%60 = stablehlo.reshape`). -/
def v60 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v59 x0 x2 x3 x4 x5 x6 x7) shapeCasts_S50000x64x1_S50000x64

/-- Operation 61 (`%61 = stablehlo.slice`). -/
def v61 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  extractStridedSlice S50000x64x1 ![0, 0, 6] (v13 x0 x2 x3 x4 x5 x6 x7) slices_S50000x64x7_S50000x64x1_0_0_6

/-- Operation 62 (`%62 = stablehlo.reshape`). -/
def v62 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v61 x0 x2 x3 x4 x5 x6 x7) shapeCasts_S50000x64x1_S50000x64

/-- Operation 63 (`%63 = stablehlo.broadcast_in_dim`). -/
def v63 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x1x64, .f32⟩ : BufTy).Contents (Elt F) :=
  broadcastInDim S50000x1x64 ![0, 2] bcast_S50000x64_S50000x1x64_0_2 (v60 x0 x2 x3 x4 x5 x6 x7)

/-- Operation 64 (`%64 = stablehlo.broadcast_in_dim`). -/
def v64 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x1x64, .f32⟩ : BufTy).Contents (Elt F) :=
  broadcastInDim S50000x1x64 ![0, 2] bcast_S50000x64_S50000x1x64_0_2 (v62 x0 x2 x3 x4 x5 x6 x7)

/-- Operation 65 (`%65 = stablehlo.concatenate`). -/
def v65 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x2x64, .f32⟩ : BufTy).Contents (Elt F) :=
  concatenate S50000x2x64 1 [⟨S50000x1x64, (v63 x0 x2 x3 x4 x5 x6 x7)⟩, ⟨S50000x1x64, (v64 x0 x2 x3 x4 x5 x6 x7)⟩] concatenates_S50000x1x64_S50000x1x64_S50000x2x64_d1

/-- Operation 66 (`%66 = stablehlo.dot_general`). -/
def v66 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x2x64, .f32⟩ : BufTy).Contents (Elt F) :=
  Host.dotGeneral dot_S50000x2x64_S64x64_S50000x2x64_2_1_01_0_n_n none (v65 x0 x2 x3 x4 x5 x6 x7) x7

/-- Operation 67 (`%67 = stablehlo.slice`). -/
def v67 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  extractStridedSlice S50000x64 ![0, 0] (v26 x0 x2 x3 x4 x5 x6 x7) slices_S50000x256_S50000x64_0_0

/-- Operation 68 (`%68 = stablehlo.broadcast_in_dim`). -/
def v68 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  broadcastInDim S50000x64x1 ![0, 1] bcast_S50000x64_S50000x64x1_0_1 (v67 x0 x2 x3 x4 x5 x6 x7)

/-- Operation 69 (`%69 = stablehlo.reshape`). -/
def v69 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v68 x0 x2 x3 x4 x5 x6 x7) shapeCasts_S50000x64x1_S50000x64

/-- Operation 70 (`%70 = stablehlo.slice`). -/
def v70 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  extractStridedSlice S50000x64 ![0, 64] (v26 x0 x2 x3 x4 x5 x6 x7) slices_S50000x256_S50000x64_0_64

/-- Operation 71 (`%71 = stablehlo.slice`). -/
def v71 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x1x64, .f32⟩ : BufTy).Contents (Elt F) :=
  extractStridedSlice S50000x1x64 ![0, 0, 0] (v44 x0 x2 x3 x4 x5 x6 x7) slices_S50000x2x192_S50000x1x64_0_0_0

/-- Operation 72 (`%72 = stablehlo.reshape`). -/
def v72 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v71 x0 x2 x3 x4 x5 x6 x7) shapeCasts_S50000x1x64_S50000x64

/-- Operation 73 (`%73 = stablehlo.slice`). -/
def v73 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x1x64, .f32⟩ : BufTy).Contents (Elt F) :=
  extractStridedSlice S50000x1x64 ![0, 1, 0] (v44 x0 x2 x3 x4 x5 x6 x7) slices_S50000x2x192_S50000x1x64_0_1_0

/-- Operation 74 (`%74 = stablehlo.reshape`). -/
def v74 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v73 x0 x2 x3 x4 x5 x6 x7) shapeCasts_S50000x1x64_S50000x64

/-- Operation 75 (`%75 = stablehlo.broadcast_in_dim`). -/
def v75 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  broadcastInDim S50000x64x1 ![0, 1] bcast_S50000x64_S50000x64x1_0_1 (v72 x0 x2 x3 x4 x5 x6 x7)

/-- Operation 76 (`%76 = stablehlo.broadcast_in_dim`). -/
def v76 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  broadcastInDim S50000x64x1 ![0, 1] bcast_S50000x64_S50000x64x1_0_1 (v70 x0 x2 x3 x4 x5 x6 x7)

/-- Operation 77 (`%77 = stablehlo.broadcast_in_dim`). -/
def v77 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  broadcastInDim S50000x64x1 ![0, 1] bcast_S50000x64_S50000x64x1_0_1 (v74 x0 x2 x3 x4 x5 x6 x7)

/-- Operation 78 (`%78 = stablehlo.concatenate`). -/
def v78 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x3, .f32⟩ : BufTy).Contents (Elt F) :=
  concatenate S50000x64x3 2 [⟨S50000x64x1, (v75 x0 x2 x3 x4 x5 x6 x7)⟩, ⟨S50000x64x1, (v76 x0 x2 x3 x4 x5 x6 x7)⟩, ⟨S50000x64x1, (v77 x0 x2 x3 x4 x5 x6 x7)⟩] concatenates_S50000x64x1_S50000x64x1_S50000x64x1_S50000x64x3_d2

/-- Operation 79 (`%79 = stablehlo.slice`). -/
def v79 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x3x3, .f32⟩ : BufTy).Contents (Elt F) :=
  extractStridedSlice S50000x3x3 ![0, 1, 1] x2 slices_S50000x16x16_S50000x3x3_0_1_1

/-- Operation 80 (`%80 = stablehlo.dot_general`). -/
def v80 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x3, .f32⟩ : BufTy).Contents (Elt F) :=
  Host.dotGeneral dot_S50000x64x3_S50000x3x3_S50000x64x3_2_2_1_1_0_0 none (v78 x0 x2 x3 x4 x5 x6 x7) (v79 x0 x2 x3 x4 x5 x6 x7)

/-- Operation 81 (`%81 = stablehlo.reshape`). -/
def v81 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x192, .f32⟩ : BufTy).Contents (Elt F) :=
  shapeCast S50000x192 (v80 x0 x2 x3 x4 x5 x6 x7) shapeCasts_S50000x64x3_S50000x192

/-- Operation 82 (`%82 = stablehlo.slice`). -/
def v82 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  extractStridedSlice S50000x64 ![0, 128] (v26 x0 x2 x3 x4 x5 x6 x7) slices_S50000x256_S50000x64_0_128

/-- Operation 83 (`%83 = stablehlo.slice`). -/
def v83 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x1x64, .f32⟩ : BufTy).Contents (Elt F) :=
  extractStridedSlice S50000x1x64 ![0, 0, 64] (v44 x0 x2 x3 x4 x5 x6 x7) slices_S50000x2x192_S50000x1x64_0_0_64

/-- Operation 84 (`%84 = stablehlo.reshape`). -/
def v84 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v83 x0 x2 x3 x4 x5 x6 x7) shapeCasts_S50000x1x64_S50000x64

/-- Operation 85 (`%85 = stablehlo.slice`). -/
def v85 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x1x64, .f32⟩ : BufTy).Contents (Elt F) :=
  extractStridedSlice S50000x1x64 ![0, 1, 64] (v44 x0 x2 x3 x4 x5 x6 x7) slices_S50000x2x192_S50000x1x64_0_1_64

/-- Operation 86 (`%86 = stablehlo.reshape`). -/
def v86 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v85 x0 x2 x3 x4 x5 x6 x7) shapeCasts_S50000x1x64_S50000x64

/-- Operation 87 (`%87 = stablehlo.slice`). -/
def v87 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x1x64, .f32⟩ : BufTy).Contents (Elt F) :=
  extractStridedSlice S50000x1x64 ![0, 0, 0] (v58 x0 x2 x3 x4 x5 x6 x7) slices_S50000x2x128_S50000x1x64_0_0_0

/-- Operation 88 (`%88 = stablehlo.reshape`). -/
def v88 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v87 x0 x2 x3 x4 x5 x6 x7) shapeCasts_S50000x1x64_S50000x64

/-- Operation 89 (`%89 = stablehlo.slice`). -/
def v89 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x1x64, .f32⟩ : BufTy).Contents (Elt F) :=
  extractStridedSlice S50000x1x64 ![0, 1, 0] (v58 x0 x2 x3 x4 x5 x6 x7) slices_S50000x2x128_S50000x1x64_0_1_0

/-- Operation 90 (`%90 = stablehlo.reshape`). -/
def v90 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v89 x0 x2 x3 x4 x5 x6 x7) shapeCasts_S50000x1x64_S50000x64

/-- Operation 91 (`%91 = stablehlo.broadcast_in_dim`). -/
def v91 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  broadcastInDim S50000x64x1 ![0, 1] bcast_S50000x64_S50000x64x1_0_1 (v88 x0 x2 x3 x4 x5 x6 x7)

/-- Operation 92 (`%92 = stablehlo.broadcast_in_dim`). -/
def v92 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  broadcastInDim S50000x64x1 ![0, 1] bcast_S50000x64_S50000x64x1_0_1 (v84 x0 x2 x3 x4 x5 x6 x7)

/-- Operation 93 (`%93 = stablehlo.broadcast_in_dim`). -/
def v93 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  broadcastInDim S50000x64x1 ![0, 1] bcast_S50000x64_S50000x64x1_0_1 (v82 x0 x2 x3 x4 x5 x6 x7)

/-- Operation 94 (`%94 = stablehlo.broadcast_in_dim`). -/
def v94 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  broadcastInDim S50000x64x1 ![0, 1] bcast_S50000x64_S50000x64x1_0_1 (v86 x0 x2 x3 x4 x5 x6 x7)

/-- Operation 95 (`%95 = stablehlo.broadcast_in_dim`). -/
def v95 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  broadcastInDim S50000x64x1 ![0, 1] bcast_S50000x64_S50000x64x1_0_1 (v90 x0 x2 x3 x4 x5 x6 x7)

/-- Operation 96 (`%96 = stablehlo.concatenate`). -/
def v96 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x5, .f32⟩ : BufTy).Contents (Elt F) :=
  concatenate S50000x64x5 2 [⟨S50000x64x1, (v91 x0 x2 x3 x4 x5 x6 x7)⟩, ⟨S50000x64x1, (v92 x0 x2 x3 x4 x5 x6 x7)⟩, ⟨S50000x64x1, (v93 x0 x2 x3 x4 x5 x6 x7)⟩, ⟨S50000x64x1, (v94 x0 x2 x3 x4 x5 x6 x7)⟩, ⟨S50000x64x1, (v95 x0 x2 x3 x4 x5 x6 x7)⟩] concatenates_S50000x64x1_S50000x64x1_S50000x64x1_S50000x64x1_S50000x64x1_S50000x64x5_d2

/-- Operation 97 (`%97 = stablehlo.slice`). -/
def v97 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x5x5, .f32⟩ : BufTy).Contents (Elt F) :=
  extractStridedSlice S50000x5x5 ![0, 4, 4] x2 slices_S50000x16x16_S50000x5x5_0_4_4

/-- Operation 98 (`%98 = stablehlo.dot_general`). -/
def v98 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x5, .f32⟩ : BufTy).Contents (Elt F) :=
  Host.dotGeneral dot_S50000x64x5_S50000x5x5_S50000x64x5_2_2_1_1_0_0 none (v96 x0 x2 x3 x4 x5 x6 x7) (v97 x0 x2 x3 x4 x5 x6 x7)

/-- Operation 99 (`%99 = stablehlo.reshape`). -/
def v99 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x320, .f32⟩ : BufTy).Contents (Elt F) :=
  shapeCast S50000x320 (v98 x0 x2 x3 x4 x5 x6 x7) shapeCasts_S50000x64x5_S50000x320

/-- Operation 100 (`%100 = stablehlo.slice`). -/
def v100 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  extractStridedSlice S50000x64 ![0, 192] (v26 x0 x2 x3 x4 x5 x6 x7) slices_S50000x256_S50000x64_0_192

/-- Operation 101 (`%101 = stablehlo.slice`). -/
def v101 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x1x64, .f32⟩ : BufTy).Contents (Elt F) :=
  extractStridedSlice S50000x1x64 ![0, 0, 128] (v44 x0 x2 x3 x4 x5 x6 x7) slices_S50000x2x192_S50000x1x64_0_0_128

/-- Operation 102 (`%102 = stablehlo.reshape`). -/
def v102 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v101 x0 x2 x3 x4 x5 x6 x7) shapeCasts_S50000x1x64_S50000x64

/-- Operation 103 (`%103 = stablehlo.slice`). -/
def v103 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x1x64, .f32⟩ : BufTy).Contents (Elt F) :=
  extractStridedSlice S50000x1x64 ![0, 1, 128] (v44 x0 x2 x3 x4 x5 x6 x7) slices_S50000x2x192_S50000x1x64_0_1_128

/-- Operation 104 (`%104 = stablehlo.reshape`). -/
def v104 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v103 x0 x2 x3 x4 x5 x6 x7) shapeCasts_S50000x1x64_S50000x64

/-- Operation 105 (`%105 = stablehlo.slice`). -/
def v105 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x1x64, .f32⟩ : BufTy).Contents (Elt F) :=
  extractStridedSlice S50000x1x64 ![0, 0, 64] (v58 x0 x2 x3 x4 x5 x6 x7) slices_S50000x2x128_S50000x1x64_0_0_64

/-- Operation 106 (`%106 = stablehlo.reshape`). -/
def v106 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v105 x0 x2 x3 x4 x5 x6 x7) shapeCasts_S50000x1x64_S50000x64

/-- Operation 107 (`%107 = stablehlo.slice`). -/
def v107 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x1x64, .f32⟩ : BufTy).Contents (Elt F) :=
  extractStridedSlice S50000x1x64 ![0, 1, 64] (v58 x0 x2 x3 x4 x5 x6 x7) slices_S50000x2x128_S50000x1x64_0_1_64

/-- Operation 108 (`%108 = stablehlo.reshape`). -/
def v108 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v107 x0 x2 x3 x4 x5 x6 x7) shapeCasts_S50000x1x64_S50000x64

/-- Operation 109 (`%109 = stablehlo.slice`). -/
def v109 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x1x64, .f32⟩ : BufTy).Contents (Elt F) :=
  extractStridedSlice S50000x1x64 ![0, 0, 0] (v66 x0 x2 x3 x4 x5 x6 x7) slices_S50000x2x64_S50000x1x64_0_0_0

/-- Operation 110 (`%110 = stablehlo.reshape`). -/
def v110 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v109 x0 x2 x3 x4 x5 x6 x7) shapeCasts_S50000x1x64_S50000x64

/-- Operation 111 (`%111 = stablehlo.slice`). -/
def v111 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x1x64, .f32⟩ : BufTy).Contents (Elt F) :=
  extractStridedSlice S50000x1x64 ![0, 1, 0] (v66 x0 x2 x3 x4 x5 x6 x7) slices_S50000x2x64_S50000x1x64_0_1_0

/-- Operation 112 (`%112 = stablehlo.reshape`). -/
def v112 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64, .f32⟩ : BufTy).Contents (Elt F) :=
  shapeCast S50000x64 (v111 x0 x2 x3 x4 x5 x6 x7) shapeCasts_S50000x1x64_S50000x64

/-- Operation 113 (`%113 = stablehlo.broadcast_in_dim`). -/
def v113 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  broadcastInDim S50000x64x1 ![0, 1] bcast_S50000x64_S50000x64x1_0_1 (v110 x0 x2 x3 x4 x5 x6 x7)

/-- Operation 114 (`%114 = stablehlo.broadcast_in_dim`). -/
def v114 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  broadcastInDim S50000x64x1 ![0, 1] bcast_S50000x64_S50000x64x1_0_1 (v106 x0 x2 x3 x4 x5 x6 x7)

/-- Operation 115 (`%115 = stablehlo.broadcast_in_dim`). -/
def v115 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  broadcastInDim S50000x64x1 ![0, 1] bcast_S50000x64_S50000x64x1_0_1 (v102 x0 x2 x3 x4 x5 x6 x7)

/-- Operation 116 (`%116 = stablehlo.broadcast_in_dim`). -/
def v116 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  broadcastInDim S50000x64x1 ![0, 1] bcast_S50000x64_S50000x64x1_0_1 (v100 x0 x2 x3 x4 x5 x6 x7)

/-- Operation 117 (`%117 = stablehlo.broadcast_in_dim`). -/
def v117 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  broadcastInDim S50000x64x1 ![0, 1] bcast_S50000x64_S50000x64x1_0_1 (v104 x0 x2 x3 x4 x5 x6 x7)

/-- Operation 118 (`%118 = stablehlo.broadcast_in_dim`). -/
def v118 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  broadcastInDim S50000x64x1 ![0, 1] bcast_S50000x64_S50000x64x1_0_1 (v108 x0 x2 x3 x4 x5 x6 x7)

/-- Operation 119 (`%119 = stablehlo.broadcast_in_dim`). -/
def v119 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x1, .f32⟩ : BufTy).Contents (Elt F) :=
  broadcastInDim S50000x64x1 ![0, 1] bcast_S50000x64_S50000x64x1_0_1 (v112 x0 x2 x3 x4 x5 x6 x7)

/-- Operation 120 (`%120 = stablehlo.concatenate`). -/
def v120 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x7, .f32⟩ : BufTy).Contents (Elt F) :=
  concatenate S50000x64x7 2 [⟨S50000x64x1, (v113 x0 x2 x3 x4 x5 x6 x7)⟩, ⟨S50000x64x1, (v114 x0 x2 x3 x4 x5 x6 x7)⟩, ⟨S50000x64x1, (v115 x0 x2 x3 x4 x5 x6 x7)⟩, ⟨S50000x64x1, (v116 x0 x2 x3 x4 x5 x6 x7)⟩, ⟨S50000x64x1, (v117 x0 x2 x3 x4 x5 x6 x7)⟩, ⟨S50000x64x1, (v118 x0 x2 x3 x4 x5 x6 x7)⟩, ⟨S50000x64x1, (v119 x0 x2 x3 x4 x5 x6 x7)⟩] concatenates_S50000x64x1_S50000x64x1_S50000x64x1_S50000x64x1_S50000x64x1_S50000x64x1_S50000x64x1_S50000x64x7_d2

/-- Operation 121 (`%121 = stablehlo.slice`). -/
def v121 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x7x7, .f32⟩ : BufTy).Contents (Elt F) :=
  extractStridedSlice S50000x7x7 ![0, 9, 9] x2 slices_S50000x16x16_S50000x7x7_0_9_9

/-- Operation 122 (`%122 = stablehlo.dot_general`). -/
def v122 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x64x7, .f32⟩ : BufTy).Contents (Elt F) :=
  Host.dotGeneral dot_S50000x64x7_S50000x7x7_S50000x64x7_2_2_1_1_0_0 none (v120 x0 x2 x3 x4 x5 x6 x7) (v121 x0 x2 x3 x4 x5 x6 x7)

/-- Operation 123 (`%123 = stablehlo.reshape`). -/
def v123 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x448, .f32⟩ : BufTy).Contents (Elt F) :=
  shapeCast S50000x448 (v122 x0 x2 x3 x4 x5 x6 x7) shapeCasts_S50000x64x7_S50000x448

/-- Operation 124 (`%124 = stablehlo.concatenate`). -/
def v124 (x0 : (⟨S50000x1024, .f32⟩ : BufTy).Contents (Elt F)) (x2 : (⟨S50000x16x16, .f32⟩ : BufTy).Contents (Elt F)) (x3 : (⟨S256x256, .f32⟩ : BufTy).Contents (Elt F)) (x4 : (⟨S256, .f32⟩ : BufTy).Contents (Elt F)) (x5 : (⟨S192x192, .f32⟩ : BufTy).Contents (Elt F)) (x6 : (⟨S128x128, .f32⟩ : BufTy).Contents (Elt F)) (x7 : (⟨S64x64, .f32⟩ : BufTy).Contents (Elt F)) :
    (⟨S50000x1024, .f32⟩ : BufTy).Contents (Elt F) :=
  concatenate S50000x1024 1 [⟨S50000x64, (v69 x0 x2 x3 x4 x5 x6 x7)⟩, ⟨S50000x192, (v81 x0 x2 x3 x4 x5 x6 x7)⟩, ⟨S50000x320, (v99 x0 x2 x3 x4 x5 x6 x7)⟩, ⟨S50000x448, (v123 x0 x2 x3 x4 x5 x6 x7)⟩] concatenates_S50000x64_S50000x192_S50000x320_S50000x448_S50000x1024_d1

end Cert.ReferenceIdeal.Vals

end
-- ==== Proof.RefRun.lean ====
/-
  The reference program's run, read back.

  The reference's `main` is a straight line of 125 array operations; none allocates, and each writes one buffer of its
  own. So every weakly fair execution terminates with every buffer at the fold of the operations over the launch
  contents: the result buffer at the last operation's value `Vals.v124` of the seven arrays the program reads, and the
  eight argument arrays, which no operation writes, as launched.
-/
import proofs.«104001_j24927990186029_2_alg».proof.Proof.RefVals
import Idealize.ShloMosaic.Lib.StableHlo.Run

noncomputable section

namespace Cert.ReferenceIdeal.Run

open Cert.ReferenceIdeal Cert.ReferenceIdeal.Facts₀ Idealize.ShloMosaic Idealize.ShloMosaic.TcCoe Idealize.SL.Sem Idealize.ShloMosaic.StableHlo

variable {F : FTy → Type} [FloatOps F]

set_option maxHeartbeats 0 in
set_option maxRecDepth 8192 in
/-- Operations 0 … 15. -/
abbrev ops0 : List (HloOp τ sig (Elt F)) :=
  [ unary main_arg0 main_v0 ((extractStridedSlice S50000x64 ![0, 0] · slices_S50000x1024_S50000x64_0_0) : (⟨S50000x1024, .f32⟩ : BufTy).Contents (Elt F) → (⟨S50000x64, .f32⟩ : BufTy).Contents (Elt F)),
    reshape main_v0 main_v1 rfl shapeCasts_S50000x64_S50000x64x1,
    unary main_arg0 main_v2 ((extractStridedSlice S50000x192 ![0, 64] · slices_S50000x1024_S50000x192_0_64) : (⟨S50000x1024, .f32⟩ : BufTy).Contents (Elt F) → (⟨S50000x192, .f32⟩ : BufTy).Contents (Elt F)),
    reshape main_v2 main_v3 rfl shapeCasts_S50000x192_S50000x64x3,
    unary main_arg2 main_v4 ((extractStridedSlice S50000x3x3 ![0, 1, 1] · slices_S50000x16x16_S50000x3x3_0_1_1) : (⟨S50000x16x16, .f32⟩ : BufTy).Contents (Elt F) → (⟨S50000x3x3, .f32⟩ : BufTy).Contents (Elt F)),
    binary main_v3 main_v4 main_v5 ((fun l r => Host.dotGeneral dot_S50000x64x3_S50000x3x3_S50000x64x3_2_1_1_2_0_0 none l r) : (⟨S50000x64x3, .f32⟩ : BufTy).Contents (Elt F) → (⟨S50000x3x3, .f32⟩ : BufTy).Contents (Elt F) → (⟨S50000x64x3, .f32⟩ : BufTy).Contents (Elt F)),
    unary main_arg0 main_v6 ((extractStridedSlice S50000x320 ![0, 256] · slices_S50000x1024_S50000x320_0_256) : (⟨S50000x1024, .f32⟩ : BufTy).Contents (Elt F) → (⟨S50000x320, .f32⟩ : BufTy).Contents (Elt F)),
    reshape main_v6 main_v7 rfl shapeCasts_S50000x320_S50000x64x5,
    unary main_arg2 main_v8 ((extractStridedSlice S50000x5x5 ![0, 4, 4] · slices_S50000x16x16_S50000x5x5_0_4_4) : (⟨S50000x16x16, .f32⟩ : BufTy).Contents (Elt F) → (⟨S50000x5x5, .f32⟩ : BufTy).Contents (Elt F)),
    binary main_v7 main_v8 main_v9 ((fun l r => Host.dotGeneral dot_S50000x64x5_S50000x5x5_S50000x64x5_2_1_1_2_0_0 none l r) : (⟨S50000x64x5, .f32⟩ : BufTy).Contents (Elt F) → (⟨S50000x5x5, .f32⟩ : BufTy).Contents (Elt F) → (⟨S50000x64x5, .f32⟩ : BufTy).Contents (Elt F)),
    unary main_arg0 main_v10 ((extractStridedSlice S50000x448 ![0, 576] · slices_S50000x1024_S50000x448_0_576) : (⟨S50000x1024, .f32⟩ : BufTy).Contents (Elt F) → (⟨S50000x448, .f32⟩ : BufTy).Contents (Elt F)),
    reshape main_v10 main_v11 rfl shapeCasts_S50000x448_S50000x64x7,
    unary main_arg2 main_v12 ((extractStridedSlice S50000x7x7 ![0, 9, 9] · slices_S50000x16x16_S50000x7x7_0_9_9) : (⟨S50000x16x16, .f32⟩ : BufTy).Contents (Elt F) → (⟨S50000x7x7, .f32⟩ : BufTy).Contents (Elt F)),
    binary main_v11 main_v12 main_v13 ((fun l r => Host.dotGeneral dot_S50000x64x7_S50000x7x7_S50000x64x7_2_1_1_2_0_0 none l r) : (⟨S50000x64x7, .f32⟩ : BufTy).Contents (Elt F) → (⟨S50000x7x7, .f32⟩ : BufTy).Contents (Elt F) → (⟨S50000x64x7, .f32⟩ : BufTy).Contents (Elt F)),
    reshape main_v1 main_v14 rfl shapeCasts_S50000x64x1_S50000x64,
    unary main_v5 main_v15 ((extractStridedSlice S50000x64x1 ![0, 0, 1] · slices_S50000x64x3_S50000x64x1_0_0_1) : (⟨S50000x64x3, .f32⟩ : BufTy).Contents (Elt F) → (⟨S50000x64x1, .f32⟩ : BufTy).Contents (Elt F)) ]

set_option maxHeartbeats 0 in
set_option maxRecDepth 8192 in
/-- Operations 16 … 31. -/
abbrev ops1 : List (HloOp τ sig (Elt F)) :=
  [ reshape main_v15 main_v16 rfl shapeCasts_S50000x64x1_S50000x64,
    unary main_v9 main_v17 ((extractStridedSlice S50000x64x1 ![0, 0, 2] · slices_S50000x64x5_S50000x64x1_0_0_2) : (⟨S50000x64x5, .f32⟩ : BufTy).Contents (Elt F) → (⟨S50000x64x1, .f32⟩ : BufTy).Contents (Elt F)),
    reshape main_v17 main_v18 rfl shapeCasts_S50000x64x1_S50000x64,
    unary main_v13 main_v19 ((extractStridedSlice S50000x64x1 ![0, 0, 3] · slices_S50000x64x7_S50000x64x1_0_0_3) : (⟨S50000x64x7, .f32⟩ : BufTy).Contents (Elt F) → (⟨S50000x64x1, .f32⟩ : BufTy).Contents (Elt F)),
    reshape main_v19 main_v20 rfl shapeCasts_S50000x64x1_S50000x64,
    nary ![main_v14, main_v16, main_v18, main_v20] main_v21 (fun u => concatenate S50000x256 1 [⟨S50000x64, u 0⟩, ⟨S50000x64, u 1⟩, ⟨S50000x64, u 2⟩, ⟨S50000x64, u 3⟩] concatenates_S50000x64_S50000x64_S50000x64_S50000x64_S50000x256_d1),
    unary main_arg3 main_v22 ((transpose S256x256 [1, 0] · transposes_S256x256_S256x256_1_0) : (⟨S256x256, .f32⟩ : BufTy).Contents (Elt F) → (⟨S256x256, .f32⟩ : BufTy).Contents (Elt F)),
    binary main_v21 main_v22 main_v23 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg4 main_v24 (broadcastInDim S1x256 ![1] bcast_S256_S1x256_1 : (⟨S256, .f32⟩ : BufTy).Contents (Elt F) → (⟨S1x256, .f32⟩ : BufTy).Contents (Elt F)),
    unary main_v24 main_v25 (broadcastInDim S50000x256 ![0, 1] bcast_S1x256_S50000x256_0_1 : (⟨S1x256, .f32⟩ : BufTy).Contents (Elt F) → (⟨S50000x256, .f32⟩ : BufTy).Contents (Elt F)),
    binary main_v23 main_v25 main_v26 (addf : (⟨S50000x256, .f32⟩ : BufTy).Contents (Elt F) → (⟨S50000x256, .f32⟩ : BufTy).Contents (Elt F) → (⟨S50000x256, .f32⟩ : BufTy).Contents (Elt F)),
    unary main_v5 main_v27 ((extractStridedSlice S50000x64x1 ![0, 0, 0] · slices_S50000x64x3_S50000x64x1_0_0_0) : (⟨S50000x64x3, .f32⟩ : BufTy).Contents (Elt F) → (⟨S50000x64x1, .f32⟩ : BufTy).Contents (Elt F)),
    reshape main_v27 main_v28 rfl shapeCasts_S50000x64x1_S50000x64,
    unary main_v9 main_v29 ((extractStridedSlice S50000x64x1 ![0, 0, 1] · slices_S50000x64x5_S50000x64x1_0_0_1) : (⟨S50000x64x5, .f32⟩ : BufTy).Contents (Elt F) → (⟨S50000x64x1, .f32⟩ : BufTy).Contents (Elt F)),
    reshape main_v29 main_v30 rfl shapeCasts_S50000x64x1_S50000x64,
    unary main_v13 main_v31 ((extractStridedSlice S50000x64x1 ![0, 0, 2] · slices_S50000x64x7_S50000x64x1_0_0_2) : (⟨S50000x64x7, .f32⟩ : BufTy).Contents (Elt F) → (⟨S50000x64x1, .f32⟩ : BufTy).Contents (Elt F)) ]

set_option maxHeartbeats 0 in
set_option maxRecDepth 8192 in
/-- Operations 32 … 47. -/
abbrev ops2 : List (HloOp τ sig (Elt F)) :=
  [ reshape main_v31 main_v32 rfl shapeCasts_S50000x64x1_S50000x64,
    nary ![main_v28, main_v30, main_v32] main_v33 (fun u => concatenate S50000x192 1 [⟨S50000x64, u 0⟩, ⟨S50000x64, u 1⟩, ⟨S50000x64, u 2⟩] concatenates_S50000x64_S50000x64_S50000x64_S50000x192_d1),
    unary main_v5 main_v34 ((extractStridedSlice S50000x64x1 ![0, 0, 2] · slices_S50000x64x3_S50000x64x1_0_0_2) : (⟨S50000x64x3, .f32⟩ : BufTy).Contents (Elt F) → (⟨S50000x64x1, .f32⟩ : BufTy).Contents (Elt F)),
    reshape main_v34 main_v35 rfl shapeCasts_S50000x64x1_S50000x64,
    unary main_v9 main_v36 ((extractStridedSlice S50000x64x1 ![0, 0, 3] · slices_S50000x64x5_S50000x64x1_0_0_3) : (⟨S50000x64x5, .f32⟩ : BufTy).Contents (Elt F) → (⟨S50000x64x1, .f32⟩ : BufTy).Contents (Elt F)),
    reshape main_v36 main_v37 rfl shapeCasts_S50000x64x1_S50000x64,
    unary main_v13 main_v38 ((extractStridedSlice S50000x64x1 ![0, 0, 4] · slices_S50000x64x7_S50000x64x1_0_0_4) : (⟨S50000x64x7, .f32⟩ : BufTy).Contents (Elt F) → (⟨S50000x64x1, .f32⟩ : BufTy).Contents (Elt F)),
    reshape main_v38 main_v39 rfl shapeCasts_S50000x64x1_S50000x64,
    nary ![main_v35, main_v37, main_v39] main_v40 (fun u => concatenate S50000x192 1 [⟨S50000x64, u 0⟩, ⟨S50000x64, u 1⟩, ⟨S50000x64, u 2⟩] concatenates_S50000x64_S50000x64_S50000x64_S50000x192_d1),
    unary main_v33 main_v41 (broadcastInDim S50000x1x192 ![0, 2] bcast_S50000x192_S50000x1x192_0_2 : (⟨S50000x192, .f32⟩ : BufTy).Contents (Elt F) → (⟨S50000x1x192, .f32⟩ : BufTy).Contents (Elt F)),
    unary main_v40 main_v42 (broadcastInDim S50000x1x192 ![0, 2] bcast_S50000x192_S50000x1x192_0_2 : (⟨S50000x192, .f32⟩ : BufTy).Contents (Elt F) → (⟨S50000x1x192, .f32⟩ : BufTy).Contents (Elt F)),
    binary main_v41 main_v42 main_v43 ((fun a b => concatenate S50000x2x192 1 [⟨S50000x1x192, a⟩, ⟨S50000x1x192, b⟩] concatenates_S50000x1x192_S50000x1x192_S50000x2x192_d1) : (⟨S50000x1x192, .f32⟩ : BufTy).Contents (Elt F) → (⟨S50000x1x192, .f32⟩ : BufTy).Contents (Elt F) → (⟨S50000x2x192, .f32⟩ : BufTy).Contents (Elt F)),
    binary main_v43 main_arg5 main_v44 ((fun l r => Host.dotGeneral dot_S50000x2x192_S192x192_S50000x2x192_2_1_01_0_n_n none l r) : (⟨S50000x2x192, .f32⟩ : BufTy).Contents (Elt F) → (⟨S192x192, .f32⟩ : BufTy).Contents (Elt F) → (⟨S50000x2x192, .f32⟩ : BufTy).Contents (Elt F)),
    unary main_v9 main_v45 ((extractStridedSlice S50000x64x1 ![0, 0, 0] · slices_S50000x64x5_S50000x64x1_0_0_0) : (⟨S50000x64x5, .f32⟩ : BufTy).Contents (Elt F) → (⟨S50000x64x1, .f32⟩ : BufTy).Contents (Elt F)),
    reshape main_v45 main_v46 rfl shapeCasts_S50000x64x1_S50000x64,
    unary main_v13 main_v47 ((extractStridedSlice S50000x64x1 ![0, 0, 1] · slices_S50000x64x7_S50000x64x1_0_0_1) : (⟨S50000x64x7, .f32⟩ : BufTy).Contents (Elt F) → (⟨S50000x64x1, .f32⟩ : BufTy).Contents (Elt F)) ]

set_option maxHeartbeats 0 in
set_option maxRecDepth 8192 in
/-- Operations 48 … 63. -/
abbrev ops3 : List (HloOp τ sig (Elt F)) :=
  [ reshape main_v47 main_v48 rfl shapeCasts_S50000x64x1_S50000x64,
    binary main_v46 main_v48 main_v49 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_v9 main_v50 ((extractStridedSlice S50000x64x1 ![0, 0, 4] · slices_S50000x64x5_S50000x64x1_0_0_4) : (⟨S50000x64x5, .f32⟩ : BufTy).Contents (Elt F) → (⟨S50000x64x1, .f32⟩ : BufTy).Contents (Elt F)),
    reshape main_v50 main_v51 rfl shapeCasts_S50000x64x1_S50000x64,
    unary main_v13 main_v52 ((extractStridedSlice S50000x64x1 ![0, 0, 5] · slices_S50000x64x7_S50000x64x1_0_0_5) : (⟨S50000x64x7, .f32⟩ : BufTy).Contents (Elt F) → (⟨S50000x64x1, .f32⟩ : BufTy).Contents (Elt F)),
    reshape main_v52 main_v53 rfl shapeCasts_S50000x64x1_S50000x64,
    binary main_v51 main_v53 main_v54 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_v49 main_v55 (broadcastInDim S50000x1x128 ![0, 2] bcast_S50000x128_S50000x1x128_0_2 : (⟨S50000x128, .f32⟩ : BufTy).Contents (Elt F) → (⟨S50000x1x128, .f32⟩ : BufTy).Contents (Elt F)),
    unary main_v54 main_v56 (broadcastInDim S50000x1x128 ![0, 2] bcast_S50000x128_S50000x1x128_0_2 : (⟨S50000x128, .f32⟩ : BufTy).Contents (Elt F) → (⟨S50000x1x128, .f32⟩ : BufTy).Contents (Elt F)),
    binary main_v55 main_v56 main_v57 ((fun a b => concatenate S50000x2x128 1 [⟨S50000x1x128, a⟩, ⟨S50000x1x128, b⟩] concatenates_S50000x1x128_S50000x1x128_S50000x2x128_d1) : (⟨S50000x1x128, .f32⟩ : BufTy).Contents (Elt F) → (⟨S50000x1x128, .f32⟩ : BufTy).Contents (Elt F) → (⟨S50000x2x128, .f32⟩ : BufTy).Contents (Elt F)),
    binary main_v57 main_arg6 main_v58 ((fun l r => Host.dotGeneral dot_S50000x2x128_S128x128_S50000x2x128_2_1_01_0_n_n none l r) : (⟨S50000x2x128, .f32⟩ : BufTy).Contents (Elt F) → (⟨S128x128, .f32⟩ : BufTy).Contents (Elt F) → (⟨S50000x2x128, .f32⟩ : BufTy).Contents (Elt F)),
    unary main_v13 main_v59 ((extractStridedSlice S50000x64x1 ![0, 0, 0] · slices_S50000x64x7_S50000x64x1_0_0_0) : (⟨S50000x64x7, .f32⟩ : BufTy).Contents (Elt F) → (⟨S50000x64x1, .f32⟩ : BufTy).Contents (Elt F)),
    reshape main_v59 main_v60 rfl shapeCasts_S50000x64x1_S50000x64,
    unary main_v13 main_v61 ((extractStridedSlice S50000x64x1 ![0, 0, 6] · slices_S50000x64x7_S50000x64x1_0_0_6) : (⟨S50000x64x7, .f32⟩ : BufTy).Contents (Elt F) → (⟨S50000x64x1, .f32⟩ : BufTy).Contents (Elt F)),
    reshape main_v61 main_v62 rfl shapeCasts_S50000x64x1_S50000x64,
    unary main_v60 main_v63 (broadcastInDim S50000x1x64 ![0, 2] bcast_S50000x64_S50000x1x64_0_2 : (⟨S50000x64, .f32⟩ : BufTy).Contents (Elt F) → (⟨S50000x1x64, .f32⟩ : BufTy).Contents (Elt F)) ]

set_option maxHeartbeats 0 in
set_option maxRecDepth 8192 in
/-- Operations 64 … 79. -/
abbrev ops4 : List (HloOp τ sig (Elt F)) :=
  [ unary main_v62 main_v64 (broadcastInDim S50000x1x64 ![0, 2] bcast_S50000x64_S50000x1x64_0_2 : (⟨S50000x64, .f32⟩ : BufTy).Contents (Elt F) → (⟨S50000x1x64, .f32⟩ : BufTy).Contents (Elt F)),
    binary main_v63 main_v64 main_v65 ((fun a b => concatenate S50000x2x64 1 [⟨S50000x1x64, a⟩, ⟨S50000x1x64, b⟩] concatenates_S50000x1x64_S50000x1x64_S50000x2x64_d1) : (⟨S50000x1x64, .f32⟩ : BufTy).Contents (Elt F) → (⟨S50000x1x64, .f32⟩ : BufTy).Contents (Elt F) → (⟨S50000x2x64, .f32⟩ : BufTy).Contents (Elt F)),
    binary main_v65 main_arg7 main_v66 ((fun l r => Host.dotGeneral dot_S50000x2x64_S64x64_S50000x2x64_2_1_01_0_n_n none l r) : (⟨S50000x2x64, .f32⟩ : BufTy).Contents (Elt F) → (⟨S64x64, .f32⟩ : BufTy).Contents (Elt F) → (⟨S50000x2x64, .f32⟩ : BufTy).Contents (Elt F)),
    unary main_v26 main_v67 ((extractStridedSlice S50000x64 ![0, 0] · slices_S50000x256_S50000x64_0_0) : (⟨S50000x256, .f32⟩ : BufTy).Contents (Elt F) → (⟨S50000x64, .f32⟩ : BufTy).Contents (Elt F)),
    unary main_v67 main_v68 (broadcastInDim S50000x64x1 ![0, 1] bcast_S50000x64_S50000x64x1_0_1 : (⟨S50000x64, .f32⟩ : BufTy).Contents (Elt F) → (⟨S50000x64x1, .f32⟩ : BufTy).Contents (Elt F)),
    reshape main_v68 main_v69 rfl shapeCasts_S50000x64x1_S50000x64,
    unary main_v26 main_v70 ((extractStridedSlice S50000x64 ![0, 64] · slices_S50000x256_S50000x64_0_64) : (⟨S50000x256, .f32⟩ : BufTy).Contents (Elt F) → (⟨S50000x64, .f32⟩ : BufTy).Contents (Elt F)),
    unary main_v44 main_v71 ((extractStridedSlice S50000x1x64 ![0, 0, 0] · slices_S50000x2x192_S50000x1x64_0_0_0) : (⟨S50000x2x192, .f32⟩ : BufTy).Contents (Elt F) → (⟨S50000x1x64, .f32⟩ : BufTy).Contents (Elt F)),
    reshape main_v71 main_v72 rfl shapeCasts_S50000x1x64_S50000x64,
    unary main_v44 main_v73 ((extractStridedSlice S50000x1x64 ![0, 1, 0] · slices_S50000x2x192_S50000x1x64_0_1_0) : (⟨S50000x2x192, .f32⟩ : BufTy).Contents (Elt F) → (⟨S50000x1x64, .f32⟩ : BufTy).Contents (Elt F)),
    reshape main_v73 main_v74 rfl shapeCasts_S50000x1x64_S50000x64,
    unary main_v72 main_v75 (broadcastInDim S50000x64x1 ![0, 1] bcast_S50000x64_S50000x64x1_0_1 : (⟨S50000x64, .f32⟩ : BufTy).Contents (Elt F) → (⟨S50000x64x1, .f32⟩ : BufTy).Contents (Elt F)),
    unary main_v70 main_v76 (broadcastInDim S50000x64x1 ![0, 1] bcast_S50000x64_S50000x64x1_0_1 : (⟨S50000x64, .f32⟩ : BufTy).Contents (Elt F) → (⟨S50000x64x1, .f32⟩ : BufTy).Contents (Elt F)),
    unary main_v74 main_v77 (broadcastInDim S50000x64x1 ![0, 1] bcast_S50000x64_S50000x64x1_0_1 : (⟨S50000x64, .f32⟩ : BufTy).Contents (Elt F) → (⟨S50000x64x1, .f32⟩ : BufTy).Contents (Elt F)),
    nary ![main_v75, main_v76, main_v77] main_v78 (fun u => concatenate S50000x64x3 2 [⟨S50000x64x1, u 0⟩, ⟨S50000x64x1, u 1⟩, ⟨S50000x64x1, u 2⟩] concatenates_S50000x64x1_S50000x64x1_S50000x64x1_S50000x64x3_d2),
    unary main_arg2 main_v79 ((extractStridedSlice S50000x3x3 ![0, 1, 1] · slices_S50000x16x16_S50000x3x3_0_1_1) : (⟨S50000x16x16, .f32⟩ : BufTy).Contents (Elt F) → (⟨S50000x3x3, .f32⟩ : BufTy).Contents (Elt F)) ]

set_option maxHeartbeats 0 in
set_option maxRecDepth 8192 in
/-- Operations 80 … 95. -/
abbrev ops5 : List (HloOp τ sig (Elt F)) :=
  [ binary main_v78 main_v79 main_v80 ((fun l r => Host.dotGeneral dot_S50000x64x3_S50000x3x3_S50000x64x3_2_2_1_1_0_0 none l r) : (⟨S50000x64x3, .f32⟩ : BufTy).Contents (Elt F) → (⟨S50000x3x3, .f32⟩ : BufTy).Contents (Elt F) → (⟨S50000x64x3, .f32⟩ : BufTy).Contents (Elt F)),
    reshape main_v80 main_v81 rfl shapeCasts_S50000x64x3_S50000x192,
    unary main_v26 main_v82 ((extractStridedSlice S50000x64 ![0, 128] · slices_S50000x256_S50000x64_0_128) : (⟨S50000x256, .f32⟩ : BufTy).Contents (Elt F) → (⟨S50000x64, .f32⟩ : BufTy).Contents (Elt F)),
    unary main_v44 main_v83 ((extractStridedSlice S50000x1x64 ![0, 0, 64] · slices_S50000x2x192_S50000x1x64_0_0_64) : (⟨S50000x2x192, .f32⟩ : BufTy).Contents (Elt F) → (⟨S50000x1x64, .f32⟩ : BufTy).Contents (Elt F)),
    reshape main_v83 main_v84 rfl shapeCasts_S50000x1x64_S50000x64,
    unary main_v44 main_v85 ((extractStridedSlice S50000x1x64 ![0, 1, 64] · slices_S50000x2x192_S50000x1x64_0_1_64) : (⟨S50000x2x192, .f32⟩ : BufTy).Contents (Elt F) → (⟨S50000x1x64, .f32⟩ : BufTy).Contents (Elt F)),
    reshape main_v85 main_v86 rfl shapeCasts_S50000x1x64_S50000x64,
    unary main_v58 main_v87 ((extractStridedSlice S50000x1x64 ![0, 0, 0] · slices_S50000x2x128_S50000x1x64_0_0_0) : (⟨S50000x2x128, .f32⟩ : BufTy).Contents (Elt F) → (⟨S50000x1x64, .f32⟩ : BufTy).Contents (Elt F)),
    reshape main_v87 main_v88 rfl shapeCasts_S50000x1x64_S50000x64,
    unary main_v58 main_v89 ((extractStridedSlice S50000x1x64 ![0, 1, 0] · slices_S50000x2x128_S50000x1x64_0_1_0) : (⟨S50000x2x128, .f32⟩ : BufTy).Contents (Elt F) → (⟨S50000x1x64, .f32⟩ : BufTy).Contents (Elt F)),
    reshape main_v89 main_v90 rfl shapeCasts_S50000x1x64_S50000x64,
    unary main_v88 main_v91 (broadcastInDim S50000x64x1 ![0, 1] bcast_S50000x64_S50000x64x1_0_1 : (⟨S50000x64, .f32⟩ : BufTy).Contents (Elt F) → (⟨S50000x64x1, .f32⟩ : BufTy).Contents (Elt F)),
    unary main_v84 main_v92 (broadcastInDim S50000x64x1 ![0, 1] bcast_S50000x64_S50000x64x1_0_1 : (⟨S50000x64, .f32⟩ : BufTy).Contents (Elt F) → (⟨S50000x64x1, .f32⟩ : BufTy).Contents (Elt F)),
    unary main_v82 main_v93 (broadcastInDim S50000x64x1 ![0, 1] bcast_S50000x64_S50000x64x1_0_1 : (⟨S50000x64, .f32⟩ : BufTy).Contents (Elt F) → (⟨S50000x64x1, .f32⟩ : BufTy).Contents (Elt F)),
    unary main_v86 main_v94 (broadcastInDim S50000x64x1 ![0, 1] bcast_S50000x64_S50000x64x1_0_1 : (⟨S50000x64, .f32⟩ : BufTy).Contents (Elt F) → (⟨S50000x64x1, .f32⟩ : BufTy).Contents (Elt F)),
    unary main_v90 main_v95 (broadcastInDim S50000x64x1 ![0, 1] bcast_S50000x64_S50000x64x1_0_1 : (⟨S50000x64, .f32⟩ : BufTy).Contents (Elt F) → (⟨S50000x64x1, .f32⟩ : BufTy).Contents (Elt F)) ]

set_option maxHeartbeats 0 in
set_option maxRecDepth 8192 in
/-- Operations 96 … 111. -/
abbrev ops6 : List (HloOp τ sig (Elt F)) :=
  [ nary ![main_v91, main_v92, main_v93, main_v94, main_v95] main_v96 (fun u => concatenate S50000x64x5 2 [⟨S50000x64x1, u 0⟩, ⟨S50000x64x1, u 1⟩, ⟨S50000x64x1, u 2⟩, ⟨S50000x64x1, u 3⟩, ⟨S50000x64x1, u 4⟩] concatenates_S50000x64x1_S50000x64x1_S50000x64x1_S50000x64x1_S50000x64x1_S50000x64x5_d2),
    unary main_arg2 main_v97 ((extractStridedSlice S50000x5x5 ![0, 4, 4] · slices_S50000x16x16_S50000x5x5_0_4_4) : (⟨S50000x16x16, .f32⟩ : BufTy).Contents (Elt F) → (⟨S50000x5x5, .f32⟩ : BufTy).Contents (Elt F)),
    binary main_v96 main_v97 main_v98 ((fun l r => Host.dotGeneral dot_S50000x64x5_S50000x5x5_S50000x64x5_2_2_1_1_0_0 none l r) : (⟨S50000x64x5, .f32⟩ : BufTy).Contents (Elt F) → (⟨S50000x5x5, .f32⟩ : BufTy).Contents (Elt F) → (⟨S50000x64x5, .f32⟩ : BufTy).Contents (Elt F)),
    reshape main_v98 main_v99 rfl shapeCasts_S50000x64x5_S50000x320,
    unary main_v26 main_v100 ((extractStridedSlice S50000x64 ![0, 192] · slices_S50000x256_S50000x64_0_192) : (⟨S50000x256, .f32⟩ : BufTy).Contents (Elt F) → (⟨S50000x64, .f32⟩ : BufTy).Contents (Elt F)),
    unary main_v44 main_v101 ((extractStridedSlice S50000x1x64 ![0, 0, 128] · slices_S50000x2x192_S50000x1x64_0_0_128) : (⟨S50000x2x192, .f32⟩ : BufTy).Contents (Elt F) → (⟨S50000x1x64, .f32⟩ : BufTy).Contents (Elt F)),
    reshape main_v101 main_v102 rfl shapeCasts_S50000x1x64_S50000x64,
    unary main_v44 main_v103 ((extractStridedSlice S50000x1x64 ![0, 1, 128] · slices_S50000x2x192_S50000x1x64_0_1_128) : (⟨S50000x2x192, .f32⟩ : BufTy).Contents (Elt F) → (⟨S50000x1x64, .f32⟩ : BufTy).Contents (Elt F)),
    reshape main_v103 main_v104 rfl shapeCasts_S50000x1x64_S50000x64,
    unary main_v58 main_v105 ((extractStridedSlice S50000x1x64 ![0, 0, 64] · slices_S50000x2x128_S50000x1x64_0_0_64) : (⟨S50000x2x128, .f32⟩ : BufTy).Contents (Elt F) → (⟨S50000x1x64, .f32⟩ : BufTy).Contents (Elt F)),
    reshape main_v105 main_v106 rfl shapeCasts_S50000x1x64_S50000x64,
    unary main_v58 main_v107 ((extractStridedSlice S50000x1x64 ![0, 1, 64] · slices_S50000x2x128_S50000x1x64_0_1_64) : (⟨S50000x2x128, .f32⟩ : BufTy).Contents (Elt F) → (⟨S50000x1x64, .f32⟩ : BufTy).Contents (Elt F)),
    reshape main_v107 main_v108 rfl shapeCasts_S50000x1x64_S50000x64,
    unary main_v66 main_v109 ((extractStridedSlice S50000x1x64 ![0, 0, 0] · slices_S50000x2x64_S50000x1x64_0_0_0) : (⟨S50000x2x64, .f32⟩ : BufTy).Contents (Elt F) → (⟨S50000x1x64, .f32⟩ : BufTy).Contents (Elt F)),
    reshape main_v109 main_v110 rfl shapeCasts_S50000x1x64_S50000x64,
    unary main_v66 main_v111 ((extractStridedSlice S50000x1x64 ![0, 1, 0] · slices_S50000x2x64_S50000x1x64_0_1_0) : (⟨S50000x2x64, .f32⟩ : BufTy).Contents (Elt F) → (⟨S50000x1x64, .f32⟩ : BufTy).Contents (Elt F)) ]

set_option maxHeartbeats 0 in
set_option maxRecDepth 8192 in
/-- Operations 112 … 124. -/
abbrev ops7 : List (HloOp τ sig (Elt F)) :=
  [ reshape main_v111 main_v112 rfl shapeCasts_S50000x1x64_S50000x64,
    unary main_v110 main_v113 (broadcastInDim S50000x64x1 ![0, 1] bcast_S50000x64_S50000x64x1_0_1 : (⟨S50000x64, .f32⟩ : BufTy).Contents (Elt F) → (⟨S50000x64x1, .f32⟩ : BufTy).Contents (Elt F)),
    unary main_v106 main_v114 (broadcastInDim S50000x64x1 ![0, 1] bcast_S50000x64_S50000x64x1_0_1 : (⟨S50000x64, .f32⟩ : BufTy).Contents (Elt F) → (⟨S50000x64x1, .f32⟩ : BufTy).Contents (Elt F)),
    unary main_v102 main_v115 (broadcastInDim S50000x64x1 ![0, 1] bcast_S50000x64_S50000x64x1_0_1 : (⟨S50000x64, .f32⟩ : BufTy).Contents (Elt F) → (⟨S50000x64x1, .f32⟩ : BufTy).Contents (Elt F)),
    unary main_v100 main_v116 (broadcastInDim S50000x64x1 ![0, 1] bcast_S50000x64_S50000x64x1_0_1 : (⟨S50000x64, .f32⟩ : BufTy).Contents (Elt F) → (⟨S50000x64x1, .f32⟩ : BufTy).Contents (Elt F)),
    unary main_v104 main_v117 (broadcastInDim S50000x64x1 ![0, 1] bcast_S50000x64_S50000x64x1_0_1 : (⟨S50000x64, .f32⟩ : BufTy).Contents (Elt F) → (⟨S50000x64x1, .f32⟩ : BufTy).Contents (Elt F)),
    unary main_v108 main_v118 (broadcastInDim S50000x64x1 ![0, 1] bcast_S50000x64_S50000x64x1_0_1 : (⟨S50000x64, .f32⟩ : BufTy).Contents (Elt F) → (⟨S50000x64x1, .f32⟩ : BufTy).Contents (Elt F)),
    unary main_v112 main_v119 (broadcastInDim S50000x64x1 ![0, 1] bcast_S50000x64_S50000x64x1_0_1 : (⟨S50000x64, .f32⟩ : BufTy).Contents (Elt F) → (⟨S50000x64x1, .f32⟩ : BufTy).Contents (Elt F)),
    nary ![main_v113, main_v114, main_v115, main_v116, main_v117, main_v118, main_v119] main_v120 (fun u => concatenate S50000x64x7 2 [⟨S50000x64x1, u 0⟩, ⟨S50000x64x1, u 1⟩, ⟨S50000x64x1, u 2⟩, ⟨S50000x64x1, u 3⟩, ⟨S50000x64x1, u 4⟩, ⟨S50000x64x1, u 5⟩, ⟨S50000x64x1, u 6⟩] concatenates_S50000x64x1_S50000x64x1_S50000x64x1_S50000x64x1_S50000x64x1_S50000x64x1_S50000x64x1_S50000x64x7_d2),
    unary main_arg2 main_v121 ((extractStridedSlice S50000x7x7 ![0, 9, 9] · slices_S50000x16x16_S50000x7x7_0_9_9) : (⟨S50000x16x16, .f32⟩ : BufTy).Contents (Elt F) → (⟨S50000x7x7, .f32⟩ : BufTy).Contents (Elt F)),
    binary main_v120 main_v121 main_v122 ((fun l r => Host.dotGeneral dot_S50000x64x7_S50000x7x7_S50000x64x7_2_2_1_1_0_0 none l r) : (⟨S50000x64x7, .f32⟩ : BufTy).Contents (Elt F) → (⟨S50000x7x7, .f32⟩ : BufTy).Contents (Elt F) → (⟨S50000x64x7, .f32⟩ : BufTy).Contents (Elt F)),
    reshape main_v122 main_v123 rfl shapeCasts_S50000x64x7_S50000x448,
    nary ![main_v69, main_v81, main_v99, main_v123] main_v124 (fun u => concatenate S50000x1024 1 [⟨S50000x64, u 0⟩, ⟨S50000x192, u 1⟩, ⟨S50000x320, u 2⟩, ⟨S50000x448, u 3⟩] concatenates_S50000x64_S50000x192_S50000x320_S50000x448_S50000x1024_d1) ]

/-- The program's 125 operations, in order. -/
abbrev ops : List (HloOp τ sig (Elt F)) := ops0 ++ ops1 ++ ops2 ++ ops3 ++ ops4 ++ ops5 ++ ops6 ++ ops7

set_option maxRecDepth 8192 in
set_option maxHeartbeats 0 in
/-- The program is the sequence of its operations. -/
theorem main_eq (c : Dev nD) : main (F := F) c = seq ops := rfl

/-- No buffer and no semaphore of the program is scoped. -/
theorem scopedRefs_eq : (Finset.univ.filter fun b : Ref sig .tc => b.isScoped) = ∅ := by decide
theorem scopedSems_eq : (Finset.univ.filter fun sm : SemLoc sig => sm.isScoped .tc) = ∅ := by decide

/-! Every operation touches TensorCore buffers only. -/
theorem ops0_sub : (ops0 : List (HloOp τ sig (Elt F))).Forall fun op => op.bufs ⊆ tcRefs τ sig :=
  ⟨unary_bufs_sub .., reshape_bufs_sub .., unary_bufs_sub .., reshape_bufs_sub .., unary_bufs_sub .., binary_bufs_sub .., unary_bufs_sub .., reshape_bufs_sub .., unary_bufs_sub .., binary_bufs_sub .., unary_bufs_sub .., reshape_bufs_sub .., unary_bufs_sub .., binary_bufs_sub .., reshape_bufs_sub .., unary_bufs_sub ..⟩
theorem ops1_sub : (ops1 : List (HloOp τ sig (Elt F))).Forall fun op => op.bufs ⊆ tcRefs τ sig :=
  ⟨reshape_bufs_sub .., unary_bufs_sub .., reshape_bufs_sub .., unary_bufs_sub .., reshape_bufs_sub .., nary_bufs_sub .., unary_bufs_sub .., binary_bufs_sub .., unary_bufs_sub .., unary_bufs_sub .., binary_bufs_sub .., unary_bufs_sub .., reshape_bufs_sub .., unary_bufs_sub .., reshape_bufs_sub .., unary_bufs_sub ..⟩
theorem ops2_sub : (ops2 : List (HloOp τ sig (Elt F))).Forall fun op => op.bufs ⊆ tcRefs τ sig :=
  ⟨reshape_bufs_sub .., nary_bufs_sub .., unary_bufs_sub .., reshape_bufs_sub .., unary_bufs_sub .., reshape_bufs_sub .., unary_bufs_sub .., reshape_bufs_sub .., nary_bufs_sub .., unary_bufs_sub .., unary_bufs_sub .., binary_bufs_sub .., binary_bufs_sub .., unary_bufs_sub .., reshape_bufs_sub .., unary_bufs_sub ..⟩
theorem ops3_sub : (ops3 : List (HloOp τ sig (Elt F))).Forall fun op => op.bufs ⊆ tcRefs τ sig :=
  ⟨reshape_bufs_sub .., binary_bufs_sub .., unary_bufs_sub .., reshape_bufs_sub .., unary_bufs_sub .., reshape_bufs_sub .., binary_bufs_sub .., unary_bufs_sub .., unary_bufs_sub .., binary_bufs_sub .., binary_bufs_sub .., unary_bufs_sub .., reshape_bufs_sub .., unary_bufs_sub .., reshape_bufs_sub .., unary_bufs_sub ..⟩
theorem ops4_sub : (ops4 : List (HloOp τ sig (Elt F))).Forall fun op => op.bufs ⊆ tcRefs τ sig :=
  ⟨unary_bufs_sub .., binary_bufs_sub .., binary_bufs_sub .., unary_bufs_sub .., unary_bufs_sub .., reshape_bufs_sub .., unary_bufs_sub .., unary_bufs_sub .., reshape_bufs_sub .., unary_bufs_sub .., reshape_bufs_sub .., unary_bufs_sub .., unary_bufs_sub .., unary_bufs_sub .., nary_bufs_sub .., unary_bufs_sub ..⟩
theorem ops5_sub : (ops5 : List (HloOp τ sig (Elt F))).Forall fun op => op.bufs ⊆ tcRefs τ sig :=
  ⟨binary_bufs_sub .., reshape_bufs_sub .., unary_bufs_sub .., unary_bufs_sub .., reshape_bufs_sub .., unary_bufs_sub .., reshape_bufs_sub .., unary_bufs_sub .., reshape_bufs_sub .., unary_bufs_sub .., reshape_bufs_sub .., unary_bufs_sub .., unary_bufs_sub .., unary_bufs_sub .., unary_bufs_sub .., unary_bufs_sub ..⟩
theorem ops6_sub : (ops6 : List (HloOp τ sig (Elt F))).Forall fun op => op.bufs ⊆ tcRefs τ sig :=
  ⟨nary_bufs_sub .., unary_bufs_sub .., binary_bufs_sub .., reshape_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub ..⟩
theorem ops7_sub : (ops7 : List (HloOp τ sig (Elt F))).Forall fun op => op.bufs ⊆ tcRefs τ sig :=
  ⟨reshape_bufs_sub .., unary_bufs_sub .., unary_bufs_sub .., unary_bufs_sub .., unary_bufs_sub .., unary_bufs_sub .., unary_bufs_sub .., unary_bufs_sub .., nary_bufs_sub .., unary_bufs_sub .., binary_bufs_sub .., reshape_bufs_sub .., nary_bufs_sub ..⟩
theorem ops_sub : (ops : List (HloOp τ sig (Elt F))).Forall fun op => op.bufs ⊆ tcRefs τ sig :=
  List.forall_append.2 ⟨List.forall_append.2 ⟨List.forall_append.2 ⟨List.forall_append.2 ⟨List.forall_append.2 ⟨List.forall_append.2 ⟨List.forall_append.2 ⟨ops0_sub, ops1_sub⟩, ops2_sub⟩, ops3_sub⟩, ops4_sub⟩, ops5_sub⟩, ops6_sub⟩, ops7_sub⟩

/-! ## The run in eight pieces

The contents after the first `k` pieces are named `Vk`; of each only the buffers a later piece (or the result) reads
are described, each as the corresponding `Vals.vN` of the seven launched arrays, together with the eight arguments,
which no operation writes. -/

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! A concatenation of three, five or seven operands: the result with each operand's contents at its own buffer
    (the library states this for four operands). -/
theorem nary3_result' {x a b y : Ref sig .tc}
    (f : ((k : Fin 3) → ((![x, a, b] : Fin 3 → Ref sig .tc) k).ty.Contents (Elt F)) → y.ty.Contents (Elt F)) (hxs hy)
    (F : Valuation τ sig (Elt F)) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary5_result' {x a b c e y : Ref sig .tc}
    (f : ((k : Fin 5) → ((![x, a, b, c, e] : Fin 5 → Ref sig .tc) k).ty.Contents (Elt F)) → y.ty.Contents (Elt F)) (hxs hy)
    (F : Valuation τ sig (Elt F)) :
    (nary (τ := τ) ![x, a, b, c, e] y f hxs hy).result F (no_index (Proc.devRef .tc y))
      = f (Fin.cons (F (Proc.devRef .tc x)) (Fin.cons (F (Proc.devRef .tc a)) (Fin.cons (F (Proc.devRef .tc b)) (Fin.cons (F (Proc.devRef .tc c)) (Fin.cons (F (Proc.devRef .tc e)) (fun i => i.elim0)))))) := by
  rw [nary_result]; congr 1; funext k; fin_cases k <;> rfl

theorem nary7_result' {x a b c e g h y : Ref sig .tc}
    (f : ((k : Fin 7) → ((![x, a, b, c, e, g, h] : Fin 7 → Ref sig .tc) k).ty.Contents (Elt F)) → y.ty.Contents (Elt F)) (hxs hy)
    (F : Valuation τ sig (Elt F)) :
    (nary (τ := τ) ![x, a, b, c, e, g, h] y f hxs hy).result F (no_index (Proc.devRef .tc y))
      = f (Fin.cons (F (Proc.devRef .tc x)) (Fin.cons (F (Proc.devRef .tc a)) (Fin.cons (F (Proc.devRef .tc b)) (Fin.cons (F (Proc.devRef .tc c)) (Fin.cons (F (Proc.devRef .tc e)) (Fin.cons (F (Proc.devRef .tc g)) (Fin.cons (F (Proc.devRef .tc h)) (fun i => i.elim0)))))))) := by
  rw [nary_result]; congr 1; funext k; fin_cases k <;> rfl

/-- Rewrites each operation's result at a named buffer, one at a time, where the one pass above stops (under a
    concatenation's operand list). -/
macro "results_rw" : tactic =>
  `(tactic| repeat (first
      | rw [unary_result] | rw [binary_result] | rw [reshape_result]
      | rw [nary3_result'] | rw [nary4_result] | rw [nary5_result'] | rw [nary7_result'] | rw [nary_result]
      | (rw [unary_result_ne]; rotate_left; decide)
      | (rw [binary_result_ne]; rotate_left; decide)
      | (rw [reshape_result_ne]; rotate_left; decide)
      | (rw [nary_result_ne]; rotate_left; decide)))

/-- A buffer none of the operations 0 … 15 writes keeps its contents. -/
theorem ops0_frame (V : Valuation τ sig (Elt F)) (r : Ref sig .tc)
    (hr : ∀ y ∈ ([main_v0, main_v1, main_v2, main_v3, main_v4, main_v5, main_v6, main_v7, main_v8, main_v9, main_v10, main_v11, main_v12, main_v13, main_v14, main_v15] : List (Ref sig .tc)), r ≠ y) :
    after (ops0 (F := F)) V (Proc.devRef .tc r) = V (Proc.devRef .tc r) :=
  after_of_forall_not_mem (b := Proc.devRef .tc r) _ _ (List.forall_iff_forall_mem.mp (by
    simp only [ops0, List.Forall, nullary_writes, unary_writes, binary_writes, ternary_writes, quaternary_writes, reshape_writes,
      nary_writes, Finset.mem_singleton]
    repeat' apply And.intro
    all_goals exact devRef_ne_of_ne (hr _ (by decide))))

/-- A buffer none of the operations 16 … 31 writes keeps its contents. -/
theorem ops1_frame (V : Valuation τ sig (Elt F)) (r : Ref sig .tc)
    (hr : ∀ y ∈ ([main_v16, main_v17, main_v18, main_v19, main_v20, main_v21, main_v22, main_v23, main_v24, main_v25, main_v26, main_v27, main_v28, main_v29, main_v30, main_v31] : List (Ref sig .tc)), r ≠ y) :
    after (ops1 (F := F)) V (Proc.devRef .tc r) = V (Proc.devRef .tc r) :=
  after_of_forall_not_mem (b := Proc.devRef .tc r) _ _ (List.forall_iff_forall_mem.mp (by
    simp only [ops1, List.Forall, nullary_writes, unary_writes, binary_writes, ternary_writes, quaternary_writes, reshape_writes,
      nary_writes, Finset.mem_singleton]
    repeat' apply And.intro
    all_goals exact devRef_ne_of_ne (hr _ (by decide))))

/-- A buffer none of the operations 32 … 47 writes keeps its contents. -/
theorem ops2_frame (V : Valuation τ sig (Elt F)) (r : Ref sig .tc)
    (hr : ∀ y ∈ ([main_v32, main_v33, main_v34, main_v35, main_v36, main_v37, main_v38, main_v39, main_v40, main_v41, main_v42, main_v43, main_v44, main_v45, main_v46, main_v47] : List (Ref sig .tc)), r ≠ y) :
    after (ops2 (F := F)) V (Proc.devRef .tc r) = V (Proc.devRef .tc r) :=
  after_of_forall_not_mem (b := Proc.devRef .tc r) _ _ (List.forall_iff_forall_mem.mp (by
    simp only [ops2, List.Forall, nullary_writes, unary_writes, binary_writes, ternary_writes, quaternary_writes, reshape_writes,
      nary_writes, Finset.mem_singleton]
    repeat' apply And.intro
    all_goals exact devRef_ne_of_ne (hr _ (by decide))))

/-- A buffer none of the operations 48 … 63 writes keeps its contents. -/
theorem ops3_frame (V : Valuation τ sig (Elt F)) (r : Ref sig .tc)
    (hr : ∀ y ∈ ([main_v48, main_v49, main_v50, main_v51, main_v52, main_v53, main_v54, main_v55, main_v56, main_v57, main_v58, main_v59, main_v60, main_v61, main_v62, main_v63] : List (Ref sig .tc)), r ≠ y) :
    after (ops3 (F := F)) V (Proc.devRef .tc r) = V (Proc.devRef .tc r) :=
  after_of_forall_not_mem (b := Proc.devRef .tc r) _ _ (List.forall_iff_forall_mem.mp (by
    simp only [ops3, List.Forall, nullary_writes, unary_writes, binary_writes, ternary_writes, quaternary_writes, reshape_writes,
      nary_writes, Finset.mem_singleton]
    repeat' apply And.intro
    all_goals exact devRef_ne_of_ne (hr _ (by decide))))

/-- A buffer none of the operations 64 … 79 writes keeps its contents. -/
theorem ops4_frame (V : Valuation τ sig (Elt F)) (r : Ref sig .tc)
    (hr : ∀ y ∈ ([main_v64, main_v65, main_v66, main_v67, main_v68, main_v69, main_v70, main_v71, main_v72, main_v73, main_v74, main_v75, main_v76, main_v77, main_v78, main_v79] : List (Ref sig .tc)), r ≠ y) :
    after (ops4 (F := F)) V (Proc.devRef .tc r) = V (Proc.devRef .tc r) :=
  after_of_forall_not_mem (b := Proc.devRef .tc r) _ _ (List.forall_iff_forall_mem.mp (by
    simp only [ops4, List.Forall, nullary_writes, unary_writes, binary_writes, ternary_writes, quaternary_writes, reshape_writes,
      nary_writes, Finset.mem_singleton]
    repeat' apply And.intro
    all_goals exact devRef_ne_of_ne (hr _ (by decide))))

/-- A buffer none of the operations 80 … 95 writes keeps its contents. -/
theorem ops5_frame (V : Valuation τ sig (Elt F)) (r : Ref sig .tc)
    (hr : ∀ y ∈ ([main_v80, main_v81, main_v82, main_v83, main_v84, main_v85, main_v86, main_v87, main_v88, main_v89, main_v90, main_v91, main_v92, main_v93, main_v94, main_v95] : List (Ref sig .tc)), r ≠ y) :
    after (ops5 (F := F)) V (Proc.devRef .tc r) = V (Proc.devRef .tc r) :=
  after_of_forall_not_mem (b := Proc.devRef .tc r) _ _ (List.forall_iff_forall_mem.mp (by
    simp only [ops5, List.Forall, nullary_writes, unary_writes, binary_writes, ternary_writes, quaternary_writes, reshape_writes,
      nary_writes, Finset.mem_singleton]
    repeat' apply And.intro
    all_goals exact devRef_ne_of_ne (hr _ (by decide))))

/-- A buffer none of the operations 96 … 111 writes keeps its contents. -/
theorem ops6_frame (V : Valuation τ sig (Elt F)) (r : Ref sig .tc)
    (hr : ∀ y ∈ ([main_v96, main_v97, main_v98, main_v99, main_v100, main_v101, main_v102, main_v103, main_v104, main_v105, main_v106, main_v107, main_v108, main_v109, main_v110, main_v111] : List (Ref sig .tc)), r ≠ y) :
    after (ops6 (F := F)) V (Proc.devRef .tc r) = V (Proc.devRef .tc r) :=
  after_of_forall_not_mem (b := Proc.devRef .tc r) _ _ (List.forall_iff_forall_mem.mp (by
    simp only [ops6, List.Forall, nullary_writes, unary_writes, binary_writes, ternary_writes, quaternary_writes, reshape_writes,
      nary_writes, Finset.mem_singleton]
    repeat' apply And.intro
    all_goals exact devRef_ne_of_ne (hr _ (by decide))))

/-- A buffer none of the operations 112 … 124 writes keeps its contents. -/
theorem ops7_frame (V : Valuation τ sig (Elt F)) (r : Ref sig .tc)
    (hr : ∀ y ∈ ([main_v112, main_v113, main_v114, main_v115, main_v116, main_v117, main_v118, main_v119, main_v120, main_v121, main_v122, main_v123, main_v124] : List (Ref sig .tc)), r ≠ y) :
    after (ops7 (F := F)) V (Proc.devRef .tc r) = V (Proc.devRef .tc r) :=
  after_of_forall_not_mem (b := Proc.devRef .tc r) _ _ (List.forall_iff_forall_mem.mp (by
    simp only [ops7, List.Forall, nullary_writes, unary_writes, binary_writes, ternary_writes, quaternary_writes, reshape_writes,
      nary_writes, Finset.mem_singleton]
    repeat' apply And.intro
    all_goals exact devRef_ne_of_ne (hr _ (by decide))))

section States
variable (V : Valuation τ sig (Elt F))

/-- The contents after operations 0 … 15. -/
def V1 : Valuation τ sig (Elt F) := after ops0 V
/-- The contents after operations 0 … 31. -/
def V2 : Valuation τ sig (Elt F) := after ops1 (V1 V)
/-- The contents after operations 0 … 47. -/
def V3 : Valuation τ sig (Elt F) := after ops2 (V2 V)
/-- The contents after operations 0 … 63. -/
def V4 : Valuation τ sig (Elt F) := after ops3 (V3 V)
/-- The contents after operations 0 … 79. -/
def V5 : Valuation τ sig (Elt F) := after ops4 (V4 V)
/-- The contents after operations 0 … 95. -/
def V6 : Valuation τ sig (Elt F) := after ops5 (V5 V)
/-- The contents after operations 0 … 111. -/
def V7 : Valuation τ sig (Elt F) := after ops6 (V6 V)
/-- The contents after operations 0 … 124. -/
def V8 : Valuation τ sig (Elt F) := after ops7 (V7 V)

theorem V1_arg0 : V1 V (Proc.devRef .tc main_arg0) = V (Proc.devRef .tc main_arg0) :=
  (ops0_frame V main_arg0 (by decide))
theorem V1_arg1 : V1 V (Proc.devRef .tc main_arg1) = V (Proc.devRef .tc main_arg1) :=
  (ops0_frame V main_arg1 (by decide))
theorem V1_arg2 : V1 V (Proc.devRef .tc main_arg2) = V (Proc.devRef .tc main_arg2) :=
  (ops0_frame V main_arg2 (by decide))
theorem V1_arg3 : V1 V (Proc.devRef .tc main_arg3) = V (Proc.devRef .tc main_arg3) :=
  (ops0_frame V main_arg3 (by decide))
theorem V1_arg4 : V1 V (Proc.devRef .tc main_arg4) = V (Proc.devRef .tc main_arg4) :=
  (ops0_frame V main_arg4 (by decide))
theorem V1_arg5 : V1 V (Proc.devRef .tc main_arg5) = V (Proc.devRef .tc main_arg5) :=
  (ops0_frame V main_arg5 (by decide))
theorem V1_arg6 : V1 V (Proc.devRef .tc main_arg6) = V (Proc.devRef .tc main_arg6) :=
  (ops0_frame V main_arg6 (by decide))
theorem V1_arg7 : V1 V (Proc.devRef .tc main_arg7) = V (Proc.devRef .tc main_arg7) :=
  (ops0_frame V main_arg7 (by decide))
set_option maxRecDepth 8192 in
theorem V1_v5 : V1 V (Proc.devRef .tc main_v5) = Vals.v5 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V1
  simp only [ops0]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne']
  results_rw

  rfl
set_option maxRecDepth 8192 in
theorem V1_v9 : V1 V (Proc.devRef .tc main_v9) = Vals.v9 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V1
  simp only [ops0]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne']
  results_rw

  rfl
set_option maxRecDepth 8192 in
theorem V1_v13 : V1 V (Proc.devRef .tc main_v13) = Vals.v13 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V1
  simp only [ops0]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne']
  results_rw

  rfl
set_option maxRecDepth 8192 in
theorem V1_v14 : V1 V (Proc.devRef .tc main_v14) = Vals.v14 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V1
  simp only [ops0]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne']
  results_rw

  rfl
set_option maxRecDepth 8192 in
theorem V1_v15 : V1 V (Proc.devRef .tc main_v15) = Vals.v15 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V1
  simp only [ops0]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne']
  results_rw

  rfl

theorem V2_arg0 : V2 V (Proc.devRef .tc main_arg0) = V (Proc.devRef .tc main_arg0) :=
  (ops1_frame (V1 V) main_arg0 (by decide)).trans (V1_arg0 V)
theorem V2_arg1 : V2 V (Proc.devRef .tc main_arg1) = V (Proc.devRef .tc main_arg1) :=
  (ops1_frame (V1 V) main_arg1 (by decide)).trans (V1_arg1 V)
theorem V2_arg2 : V2 V (Proc.devRef .tc main_arg2) = V (Proc.devRef .tc main_arg2) :=
  (ops1_frame (V1 V) main_arg2 (by decide)).trans (V1_arg2 V)
theorem V2_arg3 : V2 V (Proc.devRef .tc main_arg3) = V (Proc.devRef .tc main_arg3) :=
  (ops1_frame (V1 V) main_arg3 (by decide)).trans (V1_arg3 V)
theorem V2_arg4 : V2 V (Proc.devRef .tc main_arg4) = V (Proc.devRef .tc main_arg4) :=
  (ops1_frame (V1 V) main_arg4 (by decide)).trans (V1_arg4 V)
theorem V2_arg5 : V2 V (Proc.devRef .tc main_arg5) = V (Proc.devRef .tc main_arg5) :=
  (ops1_frame (V1 V) main_arg5 (by decide)).trans (V1_arg5 V)
theorem V2_arg6 : V2 V (Proc.devRef .tc main_arg6) = V (Proc.devRef .tc main_arg6) :=
  (ops1_frame (V1 V) main_arg6 (by decide)).trans (V1_arg6 V)
theorem V2_arg7 : V2 V (Proc.devRef .tc main_arg7) = V (Proc.devRef .tc main_arg7) :=
  (ops1_frame (V1 V) main_arg7 (by decide)).trans (V1_arg7 V)
theorem V2_v5 : V2 V (Proc.devRef .tc main_v5) = Vals.v5 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (ops1_frame (V1 V) main_v5 (by decide)).trans (V1_v5 V)
theorem V2_v9 : V2 V (Proc.devRef .tc main_v9) = Vals.v9 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (ops1_frame (V1 V) main_v9 (by decide)).trans (V1_v9 V)
theorem V2_v13 : V2 V (Proc.devRef .tc main_v13) = Vals.v13 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (ops1_frame (V1 V) main_v13 (by decide)).trans (V1_v13 V)
set_option maxRecDepth 8192 in
theorem V2_v26 : V2 V (Proc.devRef .tc main_v26) = Vals.v26 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V2
  simp only [ops1]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V1_v5 V, V1_v9 V, V1_v13 V, V1_v14 V, V1_v15 V, V1_arg0 V, V1_arg2 V, V1_arg3 V, V1_arg4 V, V1_arg5 V, V1_arg6 V, V1_arg7 V]
  results_rw
  try rw [V1_v5 V]
  try rw [V1_v9 V]
  try rw [V1_v13 V]
  try rw [V1_v14 V]
  try rw [V1_v15 V]
  try rw [V1_arg0 V]
  try rw [V1_arg2 V]
  try rw [V1_arg3 V]
  try rw [V1_arg4 V]
  try rw [V1_arg5 V]
  try rw [V1_arg6 V]
  try rw [V1_arg7 V]
  rfl
set_option maxRecDepth 8192 in
theorem V2_v28 : V2 V (Proc.devRef .tc main_v28) = Vals.v28 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V2
  simp only [ops1]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V1_v5 V, V1_v9 V, V1_v13 V, V1_v14 V, V1_v15 V, V1_arg0 V, V1_arg2 V, V1_arg3 V, V1_arg4 V, V1_arg5 V, V1_arg6 V, V1_arg7 V]
  results_rw
  try rw [V1_v5 V]
  try rw [V1_v9 V]
  try rw [V1_v13 V]
  try rw [V1_v14 V]
  try rw [V1_v15 V]
  try rw [V1_arg0 V]
  try rw [V1_arg2 V]
  try rw [V1_arg3 V]
  try rw [V1_arg4 V]
  try rw [V1_arg5 V]
  try rw [V1_arg6 V]
  try rw [V1_arg7 V]
  rfl
set_option maxRecDepth 8192 in
theorem V2_v30 : V2 V (Proc.devRef .tc main_v30) = Vals.v30 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V2
  simp only [ops1]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V1_v5 V, V1_v9 V, V1_v13 V, V1_v14 V, V1_v15 V, V1_arg0 V, V1_arg2 V, V1_arg3 V, V1_arg4 V, V1_arg5 V, V1_arg6 V, V1_arg7 V]
  results_rw
  try rw [V1_v5 V]
  try rw [V1_v9 V]
  try rw [V1_v13 V]
  try rw [V1_v14 V]
  try rw [V1_v15 V]
  try rw [V1_arg0 V]
  try rw [V1_arg2 V]
  try rw [V1_arg3 V]
  try rw [V1_arg4 V]
  try rw [V1_arg5 V]
  try rw [V1_arg6 V]
  try rw [V1_arg7 V]
  rfl
set_option maxRecDepth 8192 in
theorem V2_v31 : V2 V (Proc.devRef .tc main_v31) = Vals.v31 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V2
  simp only [ops1]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V1_v5 V, V1_v9 V, V1_v13 V, V1_v14 V, V1_v15 V, V1_arg0 V, V1_arg2 V, V1_arg3 V, V1_arg4 V, V1_arg5 V, V1_arg6 V, V1_arg7 V]
  results_rw
  try rw [V1_v5 V]
  try rw [V1_v9 V]
  try rw [V1_v13 V]
  try rw [V1_v14 V]
  try rw [V1_v15 V]
  try rw [V1_arg0 V]
  try rw [V1_arg2 V]
  try rw [V1_arg3 V]
  try rw [V1_arg4 V]
  try rw [V1_arg5 V]
  try rw [V1_arg6 V]
  try rw [V1_arg7 V]
  rfl

theorem V3_arg0 : V3 V (Proc.devRef .tc main_arg0) = V (Proc.devRef .tc main_arg0) :=
  (ops2_frame (V2 V) main_arg0 (by decide)).trans (V2_arg0 V)
theorem V3_arg1 : V3 V (Proc.devRef .tc main_arg1) = V (Proc.devRef .tc main_arg1) :=
  (ops2_frame (V2 V) main_arg1 (by decide)).trans (V2_arg1 V)
theorem V3_arg2 : V3 V (Proc.devRef .tc main_arg2) = V (Proc.devRef .tc main_arg2) :=
  (ops2_frame (V2 V) main_arg2 (by decide)).trans (V2_arg2 V)
theorem V3_arg3 : V3 V (Proc.devRef .tc main_arg3) = V (Proc.devRef .tc main_arg3) :=
  (ops2_frame (V2 V) main_arg3 (by decide)).trans (V2_arg3 V)
theorem V3_arg4 : V3 V (Proc.devRef .tc main_arg4) = V (Proc.devRef .tc main_arg4) :=
  (ops2_frame (V2 V) main_arg4 (by decide)).trans (V2_arg4 V)
theorem V3_arg5 : V3 V (Proc.devRef .tc main_arg5) = V (Proc.devRef .tc main_arg5) :=
  (ops2_frame (V2 V) main_arg5 (by decide)).trans (V2_arg5 V)
theorem V3_arg6 : V3 V (Proc.devRef .tc main_arg6) = V (Proc.devRef .tc main_arg6) :=
  (ops2_frame (V2 V) main_arg6 (by decide)).trans (V2_arg6 V)
theorem V3_arg7 : V3 V (Proc.devRef .tc main_arg7) = V (Proc.devRef .tc main_arg7) :=
  (ops2_frame (V2 V) main_arg7 (by decide)).trans (V2_arg7 V)
theorem V3_v9 : V3 V (Proc.devRef .tc main_v9) = Vals.v9 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (ops2_frame (V2 V) main_v9 (by decide)).trans (V2_v9 V)
theorem V3_v13 : V3 V (Proc.devRef .tc main_v13) = Vals.v13 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (ops2_frame (V2 V) main_v13 (by decide)).trans (V2_v13 V)
theorem V3_v26 : V3 V (Proc.devRef .tc main_v26) = Vals.v26 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (ops2_frame (V2 V) main_v26 (by decide)).trans (V2_v26 V)
set_option maxRecDepth 8192 in
theorem V3_v44 : V3 V (Proc.devRef .tc main_v44) = Vals.v44 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V3
  simp only [ops2]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V2_v5 V, V2_v9 V, V2_v13 V, V2_v26 V, V2_v28 V, V2_v30 V, V2_v31 V, V2_arg0 V, V2_arg2 V, V2_arg3 V, V2_arg4 V, V2_arg5 V, V2_arg6 V, V2_arg7 V]
  results_rw
  try rw [V2_v5 V]
  try rw [V2_v9 V]
  try rw [V2_v13 V]
  try rw [V2_v26 V]
  try rw [V2_v28 V]
  try rw [V2_v30 V]
  try rw [V2_v31 V]
  try rw [V2_arg0 V]
  try rw [V2_arg2 V]
  try rw [V2_arg3 V]
  try rw [V2_arg4 V]
  try rw [V2_arg5 V]
  try rw [V2_arg6 V]
  try rw [V2_arg7 V]
  rfl
set_option maxRecDepth 8192 in
theorem V3_v46 : V3 V (Proc.devRef .tc main_v46) = Vals.v46 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V3
  simp only [ops2]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V2_v5 V, V2_v9 V, V2_v13 V, V2_v26 V, V2_v28 V, V2_v30 V, V2_v31 V, V2_arg0 V, V2_arg2 V, V2_arg3 V, V2_arg4 V, V2_arg5 V, V2_arg6 V, V2_arg7 V]
  results_rw
  try rw [V2_v5 V]
  try rw [V2_v9 V]
  try rw [V2_v13 V]
  try rw [V2_v26 V]
  try rw [V2_v28 V]
  try rw [V2_v30 V]
  try rw [V2_v31 V]
  try rw [V2_arg0 V]
  try rw [V2_arg2 V]
  try rw [V2_arg3 V]
  try rw [V2_arg4 V]
  try rw [V2_arg5 V]
  try rw [V2_arg6 V]
  try rw [V2_arg7 V]
  rfl
set_option maxRecDepth 8192 in
theorem V3_v47 : V3 V (Proc.devRef .tc main_v47) = Vals.v47 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V3
  simp only [ops2]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V2_v5 V, V2_v9 V, V2_v13 V, V2_v26 V, V2_v28 V, V2_v30 V, V2_v31 V, V2_arg0 V, V2_arg2 V, V2_arg3 V, V2_arg4 V, V2_arg5 V, V2_arg6 V, V2_arg7 V]
  results_rw
  try rw [V2_v5 V]
  try rw [V2_v9 V]
  try rw [V2_v13 V]
  try rw [V2_v26 V]
  try rw [V2_v28 V]
  try rw [V2_v30 V]
  try rw [V2_v31 V]
  try rw [V2_arg0 V]
  try rw [V2_arg2 V]
  try rw [V2_arg3 V]
  try rw [V2_arg4 V]
  try rw [V2_arg5 V]
  try rw [V2_arg6 V]
  try rw [V2_arg7 V]
  rfl

theorem V4_arg0 : V4 V (Proc.devRef .tc main_arg0) = V (Proc.devRef .tc main_arg0) :=
  (ops3_frame (V3 V) main_arg0 (by decide)).trans (V3_arg0 V)
theorem V4_arg1 : V4 V (Proc.devRef .tc main_arg1) = V (Proc.devRef .tc main_arg1) :=
  (ops3_frame (V3 V) main_arg1 (by decide)).trans (V3_arg1 V)
theorem V4_arg2 : V4 V (Proc.devRef .tc main_arg2) = V (Proc.devRef .tc main_arg2) :=
  (ops3_frame (V3 V) main_arg2 (by decide)).trans (V3_arg2 V)
theorem V4_arg3 : V4 V (Proc.devRef .tc main_arg3) = V (Proc.devRef .tc main_arg3) :=
  (ops3_frame (V3 V) main_arg3 (by decide)).trans (V3_arg3 V)
theorem V4_arg4 : V4 V (Proc.devRef .tc main_arg4) = V (Proc.devRef .tc main_arg4) :=
  (ops3_frame (V3 V) main_arg4 (by decide)).trans (V3_arg4 V)
theorem V4_arg5 : V4 V (Proc.devRef .tc main_arg5) = V (Proc.devRef .tc main_arg5) :=
  (ops3_frame (V3 V) main_arg5 (by decide)).trans (V3_arg5 V)
theorem V4_arg6 : V4 V (Proc.devRef .tc main_arg6) = V (Proc.devRef .tc main_arg6) :=
  (ops3_frame (V3 V) main_arg6 (by decide)).trans (V3_arg6 V)
theorem V4_arg7 : V4 V (Proc.devRef .tc main_arg7) = V (Proc.devRef .tc main_arg7) :=
  (ops3_frame (V3 V) main_arg7 (by decide)).trans (V3_arg7 V)
theorem V4_v26 : V4 V (Proc.devRef .tc main_v26) = Vals.v26 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (ops3_frame (V3 V) main_v26 (by decide)).trans (V3_v26 V)
theorem V4_v44 : V4 V (Proc.devRef .tc main_v44) = Vals.v44 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (ops3_frame (V3 V) main_v44 (by decide)).trans (V3_v44 V)
set_option maxRecDepth 8192 in
theorem V4_v58 : V4 V (Proc.devRef .tc main_v58) = Vals.v58 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V4
  simp only [ops3]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V3_v9 V, V3_v13 V, V3_v26 V, V3_v44 V, V3_v46 V, V3_v47 V, V3_arg0 V, V3_arg2 V, V3_arg3 V, V3_arg4 V, V3_arg5 V, V3_arg6 V, V3_arg7 V]
  results_rw
  try rw [V3_v9 V]
  try rw [V3_v13 V]
  try rw [V3_v26 V]
  try rw [V3_v44 V]
  try rw [V3_v46 V]
  try rw [V3_v47 V]
  try rw [V3_arg0 V]
  try rw [V3_arg2 V]
  try rw [V3_arg3 V]
  try rw [V3_arg4 V]
  try rw [V3_arg5 V]
  try rw [V3_arg6 V]
  try rw [V3_arg7 V]
  rfl
set_option maxRecDepth 8192 in
theorem V4_v62 : V4 V (Proc.devRef .tc main_v62) = Vals.v62 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V4
  simp only [ops3]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V3_v9 V, V3_v13 V, V3_v26 V, V3_v44 V, V3_v46 V, V3_v47 V, V3_arg0 V, V3_arg2 V, V3_arg3 V, V3_arg4 V, V3_arg5 V, V3_arg6 V, V3_arg7 V]
  results_rw
  try rw [V3_v9 V]
  try rw [V3_v13 V]
  try rw [V3_v26 V]
  try rw [V3_v44 V]
  try rw [V3_v46 V]
  try rw [V3_v47 V]
  try rw [V3_arg0 V]
  try rw [V3_arg2 V]
  try rw [V3_arg3 V]
  try rw [V3_arg4 V]
  try rw [V3_arg5 V]
  try rw [V3_arg6 V]
  try rw [V3_arg7 V]
  rfl
set_option maxRecDepth 8192 in
theorem V4_v63 : V4 V (Proc.devRef .tc main_v63) = Vals.v63 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V4
  simp only [ops3]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V3_v9 V, V3_v13 V, V3_v26 V, V3_v44 V, V3_v46 V, V3_v47 V, V3_arg0 V, V3_arg2 V, V3_arg3 V, V3_arg4 V, V3_arg5 V, V3_arg6 V, V3_arg7 V]
  results_rw
  try rw [V3_v9 V]
  try rw [V3_v13 V]
  try rw [V3_v26 V]
  try rw [V3_v44 V]
  try rw [V3_v46 V]
  try rw [V3_v47 V]
  try rw [V3_arg0 V]
  try rw [V3_arg2 V]
  try rw [V3_arg3 V]
  try rw [V3_arg4 V]
  try rw [V3_arg5 V]
  try rw [V3_arg6 V]
  try rw [V3_arg7 V]
  rfl

theorem V5_arg0 : V5 V (Proc.devRef .tc main_arg0) = V (Proc.devRef .tc main_arg0) :=
  (ops4_frame (V4 V) main_arg0 (by decide)).trans (V4_arg0 V)
theorem V5_arg1 : V5 V (Proc.devRef .tc main_arg1) = V (Proc.devRef .tc main_arg1) :=
  (ops4_frame (V4 V) main_arg1 (by decide)).trans (V4_arg1 V)
theorem V5_arg2 : V5 V (Proc.devRef .tc main_arg2) = V (Proc.devRef .tc main_arg2) :=
  (ops4_frame (V4 V) main_arg2 (by decide)).trans (V4_arg2 V)
theorem V5_arg3 : V5 V (Proc.devRef .tc main_arg3) = V (Proc.devRef .tc main_arg3) :=
  (ops4_frame (V4 V) main_arg3 (by decide)).trans (V4_arg3 V)
theorem V5_arg4 : V5 V (Proc.devRef .tc main_arg4) = V (Proc.devRef .tc main_arg4) :=
  (ops4_frame (V4 V) main_arg4 (by decide)).trans (V4_arg4 V)
theorem V5_arg5 : V5 V (Proc.devRef .tc main_arg5) = V (Proc.devRef .tc main_arg5) :=
  (ops4_frame (V4 V) main_arg5 (by decide)).trans (V4_arg5 V)
theorem V5_arg6 : V5 V (Proc.devRef .tc main_arg6) = V (Proc.devRef .tc main_arg6) :=
  (ops4_frame (V4 V) main_arg6 (by decide)).trans (V4_arg6 V)
theorem V5_arg7 : V5 V (Proc.devRef .tc main_arg7) = V (Proc.devRef .tc main_arg7) :=
  (ops4_frame (V4 V) main_arg7 (by decide)).trans (V4_arg7 V)
theorem V5_v26 : V5 V (Proc.devRef .tc main_v26) = Vals.v26 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (ops4_frame (V4 V) main_v26 (by decide)).trans (V4_v26 V)
theorem V5_v44 : V5 V (Proc.devRef .tc main_v44) = Vals.v44 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (ops4_frame (V4 V) main_v44 (by decide)).trans (V4_v44 V)
theorem V5_v58 : V5 V (Proc.devRef .tc main_v58) = Vals.v58 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (ops4_frame (V4 V) main_v58 (by decide)).trans (V4_v58 V)
set_option maxRecDepth 8192 in
theorem V5_v66 : V5 V (Proc.devRef .tc main_v66) = Vals.v66 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V5
  simp only [ops4]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V4_v26 V, V4_v44 V, V4_v58 V, V4_v62 V, V4_v63 V, V4_arg0 V, V4_arg2 V, V4_arg3 V, V4_arg4 V, V4_arg5 V, V4_arg6 V, V4_arg7 V]
  results_rw
  try rw [V4_v26 V]
  try rw [V4_v44 V]
  try rw [V4_v58 V]
  try rw [V4_v62 V]
  try rw [V4_v63 V]
  try rw [V4_arg0 V]
  try rw [V4_arg2 V]
  try rw [V4_arg3 V]
  try rw [V4_arg4 V]
  try rw [V4_arg5 V]
  try rw [V4_arg6 V]
  try rw [V4_arg7 V]
  rfl
set_option maxRecDepth 8192 in
theorem V5_v69 : V5 V (Proc.devRef .tc main_v69) = Vals.v69 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V5
  simp only [ops4]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V4_v26 V, V4_v44 V, V4_v58 V, V4_v62 V, V4_v63 V, V4_arg0 V, V4_arg2 V, V4_arg3 V, V4_arg4 V, V4_arg5 V, V4_arg6 V, V4_arg7 V]
  results_rw
  try rw [V4_v26 V]
  try rw [V4_v44 V]
  try rw [V4_v58 V]
  try rw [V4_v62 V]
  try rw [V4_v63 V]
  try rw [V4_arg0 V]
  try rw [V4_arg2 V]
  try rw [V4_arg3 V]
  try rw [V4_arg4 V]
  try rw [V4_arg5 V]
  try rw [V4_arg6 V]
  try rw [V4_arg7 V]
  rfl
set_option maxRecDepth 8192 in
theorem V5_v78 : V5 V (Proc.devRef .tc main_v78) = Vals.v78 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V5
  simp only [ops4]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V4_v26 V, V4_v44 V, V4_v58 V, V4_v62 V, V4_v63 V, V4_arg0 V, V4_arg2 V, V4_arg3 V, V4_arg4 V, V4_arg5 V, V4_arg6 V, V4_arg7 V]
  results_rw
  try rw [V4_v26 V]
  try rw [V4_v44 V]
  try rw [V4_v58 V]
  try rw [V4_v62 V]
  try rw [V4_v63 V]
  try rw [V4_arg0 V]
  try rw [V4_arg2 V]
  try rw [V4_arg3 V]
  try rw [V4_arg4 V]
  try rw [V4_arg5 V]
  try rw [V4_arg6 V]
  try rw [V4_arg7 V]
  rfl
set_option maxRecDepth 8192 in
theorem V5_v79 : V5 V (Proc.devRef .tc main_v79) = Vals.v79 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V5
  simp only [ops4]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V4_v26 V, V4_v44 V, V4_v58 V, V4_v62 V, V4_v63 V, V4_arg0 V, V4_arg2 V, V4_arg3 V, V4_arg4 V, V4_arg5 V, V4_arg6 V, V4_arg7 V]
  results_rw
  try rw [V4_v26 V]
  try rw [V4_v44 V]
  try rw [V4_v58 V]
  try rw [V4_v62 V]
  try rw [V4_v63 V]
  try rw [V4_arg0 V]
  try rw [V4_arg2 V]
  try rw [V4_arg3 V]
  try rw [V4_arg4 V]
  try rw [V4_arg5 V]
  try rw [V4_arg6 V]
  try rw [V4_arg7 V]
  rfl

theorem V6_arg0 : V6 V (Proc.devRef .tc main_arg0) = V (Proc.devRef .tc main_arg0) :=
  (ops5_frame (V5 V) main_arg0 (by decide)).trans (V5_arg0 V)
theorem V6_arg1 : V6 V (Proc.devRef .tc main_arg1) = V (Proc.devRef .tc main_arg1) :=
  (ops5_frame (V5 V) main_arg1 (by decide)).trans (V5_arg1 V)
theorem V6_arg2 : V6 V (Proc.devRef .tc main_arg2) = V (Proc.devRef .tc main_arg2) :=
  (ops5_frame (V5 V) main_arg2 (by decide)).trans (V5_arg2 V)
theorem V6_arg3 : V6 V (Proc.devRef .tc main_arg3) = V (Proc.devRef .tc main_arg3) :=
  (ops5_frame (V5 V) main_arg3 (by decide)).trans (V5_arg3 V)
theorem V6_arg4 : V6 V (Proc.devRef .tc main_arg4) = V (Proc.devRef .tc main_arg4) :=
  (ops5_frame (V5 V) main_arg4 (by decide)).trans (V5_arg4 V)
theorem V6_arg5 : V6 V (Proc.devRef .tc main_arg5) = V (Proc.devRef .tc main_arg5) :=
  (ops5_frame (V5 V) main_arg5 (by decide)).trans (V5_arg5 V)
theorem V6_arg6 : V6 V (Proc.devRef .tc main_arg6) = V (Proc.devRef .tc main_arg6) :=
  (ops5_frame (V5 V) main_arg6 (by decide)).trans (V5_arg6 V)
theorem V6_arg7 : V6 V (Proc.devRef .tc main_arg7) = V (Proc.devRef .tc main_arg7) :=
  (ops5_frame (V5 V) main_arg7 (by decide)).trans (V5_arg7 V)
theorem V6_v26 : V6 V (Proc.devRef .tc main_v26) = Vals.v26 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (ops5_frame (V5 V) main_v26 (by decide)).trans (V5_v26 V)
theorem V6_v44 : V6 V (Proc.devRef .tc main_v44) = Vals.v44 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (ops5_frame (V5 V) main_v44 (by decide)).trans (V5_v44 V)
theorem V6_v58 : V6 V (Proc.devRef .tc main_v58) = Vals.v58 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (ops5_frame (V5 V) main_v58 (by decide)).trans (V5_v58 V)
theorem V6_v66 : V6 V (Proc.devRef .tc main_v66) = Vals.v66 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (ops5_frame (V5 V) main_v66 (by decide)).trans (V5_v66 V)
theorem V6_v69 : V6 V (Proc.devRef .tc main_v69) = Vals.v69 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (ops5_frame (V5 V) main_v69 (by decide)).trans (V5_v69 V)
set_option maxRecDepth 8192 in
theorem V6_v81 : V6 V (Proc.devRef .tc main_v81) = Vals.v81 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V6
  simp only [ops5]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V5_v26 V, V5_v44 V, V5_v58 V, V5_v66 V, V5_v69 V, V5_v78 V, V5_v79 V, V5_arg0 V, V5_arg2 V, V5_arg3 V, V5_arg4 V, V5_arg5 V, V5_arg6 V, V5_arg7 V]
  results_rw
  try rw [V5_v26 V]
  try rw [V5_v44 V]
  try rw [V5_v58 V]
  try rw [V5_v66 V]
  try rw [V5_v69 V]
  try rw [V5_v78 V]
  try rw [V5_v79 V]
  try rw [V5_arg0 V]
  try rw [V5_arg2 V]
  try rw [V5_arg3 V]
  try rw [V5_arg4 V]
  try rw [V5_arg5 V]
  try rw [V5_arg6 V]
  try rw [V5_arg7 V]
  rfl
set_option maxRecDepth 8192 in
theorem V6_v91 : V6 V (Proc.devRef .tc main_v91) = Vals.v91 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V6
  simp only [ops5]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V5_v26 V, V5_v44 V, V5_v58 V, V5_v66 V, V5_v69 V, V5_v78 V, V5_v79 V, V5_arg0 V, V5_arg2 V, V5_arg3 V, V5_arg4 V, V5_arg5 V, V5_arg6 V, V5_arg7 V]
  results_rw
  try rw [V5_v26 V]
  try rw [V5_v44 V]
  try rw [V5_v58 V]
  try rw [V5_v66 V]
  try rw [V5_v69 V]
  try rw [V5_v78 V]
  try rw [V5_v79 V]
  try rw [V5_arg0 V]
  try rw [V5_arg2 V]
  try rw [V5_arg3 V]
  try rw [V5_arg4 V]
  try rw [V5_arg5 V]
  try rw [V5_arg6 V]
  try rw [V5_arg7 V]
  rfl
set_option maxRecDepth 8192 in
theorem V6_v92 : V6 V (Proc.devRef .tc main_v92) = Vals.v92 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V6
  simp only [ops5]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V5_v26 V, V5_v44 V, V5_v58 V, V5_v66 V, V5_v69 V, V5_v78 V, V5_v79 V, V5_arg0 V, V5_arg2 V, V5_arg3 V, V5_arg4 V, V5_arg5 V, V5_arg6 V, V5_arg7 V]
  results_rw
  try rw [V5_v26 V]
  try rw [V5_v44 V]
  try rw [V5_v58 V]
  try rw [V5_v66 V]
  try rw [V5_v69 V]
  try rw [V5_v78 V]
  try rw [V5_v79 V]
  try rw [V5_arg0 V]
  try rw [V5_arg2 V]
  try rw [V5_arg3 V]
  try rw [V5_arg4 V]
  try rw [V5_arg5 V]
  try rw [V5_arg6 V]
  try rw [V5_arg7 V]
  rfl
set_option maxRecDepth 8192 in
theorem V6_v93 : V6 V (Proc.devRef .tc main_v93) = Vals.v93 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V6
  simp only [ops5]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V5_v26 V, V5_v44 V, V5_v58 V, V5_v66 V, V5_v69 V, V5_v78 V, V5_v79 V, V5_arg0 V, V5_arg2 V, V5_arg3 V, V5_arg4 V, V5_arg5 V, V5_arg6 V, V5_arg7 V]
  results_rw
  try rw [V5_v26 V]
  try rw [V5_v44 V]
  try rw [V5_v58 V]
  try rw [V5_v66 V]
  try rw [V5_v69 V]
  try rw [V5_v78 V]
  try rw [V5_v79 V]
  try rw [V5_arg0 V]
  try rw [V5_arg2 V]
  try rw [V5_arg3 V]
  try rw [V5_arg4 V]
  try rw [V5_arg5 V]
  try rw [V5_arg6 V]
  try rw [V5_arg7 V]
  rfl
set_option maxRecDepth 8192 in
theorem V6_v94 : V6 V (Proc.devRef .tc main_v94) = Vals.v94 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V6
  simp only [ops5]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V5_v26 V, V5_v44 V, V5_v58 V, V5_v66 V, V5_v69 V, V5_v78 V, V5_v79 V, V5_arg0 V, V5_arg2 V, V5_arg3 V, V5_arg4 V, V5_arg5 V, V5_arg6 V, V5_arg7 V]
  results_rw
  try rw [V5_v26 V]
  try rw [V5_v44 V]
  try rw [V5_v58 V]
  try rw [V5_v66 V]
  try rw [V5_v69 V]
  try rw [V5_v78 V]
  try rw [V5_v79 V]
  try rw [V5_arg0 V]
  try rw [V5_arg2 V]
  try rw [V5_arg3 V]
  try rw [V5_arg4 V]
  try rw [V5_arg5 V]
  try rw [V5_arg6 V]
  try rw [V5_arg7 V]
  rfl
set_option maxRecDepth 8192 in
theorem V6_v95 : V6 V (Proc.devRef .tc main_v95) = Vals.v95 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V6
  simp only [ops5]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V5_v26 V, V5_v44 V, V5_v58 V, V5_v66 V, V5_v69 V, V5_v78 V, V5_v79 V, V5_arg0 V, V5_arg2 V, V5_arg3 V, V5_arg4 V, V5_arg5 V, V5_arg6 V, V5_arg7 V]
  results_rw
  try rw [V5_v26 V]
  try rw [V5_v44 V]
  try rw [V5_v58 V]
  try rw [V5_v66 V]
  try rw [V5_v69 V]
  try rw [V5_v78 V]
  try rw [V5_v79 V]
  try rw [V5_arg0 V]
  try rw [V5_arg2 V]
  try rw [V5_arg3 V]
  try rw [V5_arg4 V]
  try rw [V5_arg5 V]
  try rw [V5_arg6 V]
  try rw [V5_arg7 V]
  rfl

theorem V7_arg0 : V7 V (Proc.devRef .tc main_arg0) = V (Proc.devRef .tc main_arg0) :=
  (ops6_frame (V6 V) main_arg0 (by decide)).trans (V6_arg0 V)
theorem V7_arg1 : V7 V (Proc.devRef .tc main_arg1) = V (Proc.devRef .tc main_arg1) :=
  (ops6_frame (V6 V) main_arg1 (by decide)).trans (V6_arg1 V)
theorem V7_arg2 : V7 V (Proc.devRef .tc main_arg2) = V (Proc.devRef .tc main_arg2) :=
  (ops6_frame (V6 V) main_arg2 (by decide)).trans (V6_arg2 V)
theorem V7_arg3 : V7 V (Proc.devRef .tc main_arg3) = V (Proc.devRef .tc main_arg3) :=
  (ops6_frame (V6 V) main_arg3 (by decide)).trans (V6_arg3 V)
theorem V7_arg4 : V7 V (Proc.devRef .tc main_arg4) = V (Proc.devRef .tc main_arg4) :=
  (ops6_frame (V6 V) main_arg4 (by decide)).trans (V6_arg4 V)
theorem V7_arg5 : V7 V (Proc.devRef .tc main_arg5) = V (Proc.devRef .tc main_arg5) :=
  (ops6_frame (V6 V) main_arg5 (by decide)).trans (V6_arg5 V)
theorem V7_arg6 : V7 V (Proc.devRef .tc main_arg6) = V (Proc.devRef .tc main_arg6) :=
  (ops6_frame (V6 V) main_arg6 (by decide)).trans (V6_arg6 V)
theorem V7_arg7 : V7 V (Proc.devRef .tc main_arg7) = V (Proc.devRef .tc main_arg7) :=
  (ops6_frame (V6 V) main_arg7 (by decide)).trans (V6_arg7 V)
theorem V7_v69 : V7 V (Proc.devRef .tc main_v69) = Vals.v69 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (ops6_frame (V6 V) main_v69 (by decide)).trans (V6_v69 V)
theorem V7_v81 : V7 V (Proc.devRef .tc main_v81) = Vals.v81 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (ops6_frame (V6 V) main_v81 (by decide)).trans (V6_v81 V)
set_option maxRecDepth 8192 in
theorem V7_v99 : V7 V (Proc.devRef .tc main_v99) = Vals.v99 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V7
  simp only [ops6]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V6_v26 V, V6_v44 V, V6_v58 V, V6_v66 V, V6_v69 V, V6_v81 V, V6_v91 V, V6_v92 V, V6_v93 V, V6_v94 V, V6_v95 V, V6_arg0 V, V6_arg2 V, V6_arg3 V, V6_arg4 V, V6_arg5 V, V6_arg6 V, V6_arg7 V]
  results_rw
  try rw [V6_v26 V]
  try rw [V6_v44 V]
  try rw [V6_v58 V]
  try rw [V6_v66 V]
  try rw [V6_v69 V]
  try rw [V6_v81 V]
  try rw [V6_v91 V]
  try rw [V6_v92 V]
  try rw [V6_v93 V]
  try rw [V6_v94 V]
  try rw [V6_v95 V]
  try rw [V6_arg0 V]
  try rw [V6_arg2 V]
  try rw [V6_arg3 V]
  try rw [V6_arg4 V]
  try rw [V6_arg5 V]
  try rw [V6_arg6 V]
  try rw [V6_arg7 V]
  rfl
set_option maxRecDepth 8192 in
theorem V7_v100 : V7 V (Proc.devRef .tc main_v100) = Vals.v100 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V7
  simp only [ops6]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V6_v26 V, V6_v44 V, V6_v58 V, V6_v66 V, V6_v69 V, V6_v81 V, V6_v91 V, V6_v92 V, V6_v93 V, V6_v94 V, V6_v95 V, V6_arg0 V, V6_arg2 V, V6_arg3 V, V6_arg4 V, V6_arg5 V, V6_arg6 V, V6_arg7 V]
  results_rw
  try rw [V6_v26 V]
  try rw [V6_v44 V]
  try rw [V6_v58 V]
  try rw [V6_v66 V]
  try rw [V6_v69 V]
  try rw [V6_v81 V]
  try rw [V6_v91 V]
  try rw [V6_v92 V]
  try rw [V6_v93 V]
  try rw [V6_v94 V]
  try rw [V6_v95 V]
  try rw [V6_arg0 V]
  try rw [V6_arg2 V]
  try rw [V6_arg3 V]
  try rw [V6_arg4 V]
  try rw [V6_arg5 V]
  try rw [V6_arg6 V]
  try rw [V6_arg7 V]
  rfl
set_option maxRecDepth 8192 in
theorem V7_v102 : V7 V (Proc.devRef .tc main_v102) = Vals.v102 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V7
  simp only [ops6]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V6_v26 V, V6_v44 V, V6_v58 V, V6_v66 V, V6_v69 V, V6_v81 V, V6_v91 V, V6_v92 V, V6_v93 V, V6_v94 V, V6_v95 V, V6_arg0 V, V6_arg2 V, V6_arg3 V, V6_arg4 V, V6_arg5 V, V6_arg6 V, V6_arg7 V]
  results_rw
  try rw [V6_v26 V]
  try rw [V6_v44 V]
  try rw [V6_v58 V]
  try rw [V6_v66 V]
  try rw [V6_v69 V]
  try rw [V6_v81 V]
  try rw [V6_v91 V]
  try rw [V6_v92 V]
  try rw [V6_v93 V]
  try rw [V6_v94 V]
  try rw [V6_v95 V]
  try rw [V6_arg0 V]
  try rw [V6_arg2 V]
  try rw [V6_arg3 V]
  try rw [V6_arg4 V]
  try rw [V6_arg5 V]
  try rw [V6_arg6 V]
  try rw [V6_arg7 V]
  rfl
set_option maxRecDepth 8192 in
theorem V7_v104 : V7 V (Proc.devRef .tc main_v104) = Vals.v104 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V7
  simp only [ops6]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V6_v26 V, V6_v44 V, V6_v58 V, V6_v66 V, V6_v69 V, V6_v81 V, V6_v91 V, V6_v92 V, V6_v93 V, V6_v94 V, V6_v95 V, V6_arg0 V, V6_arg2 V, V6_arg3 V, V6_arg4 V, V6_arg5 V, V6_arg6 V, V6_arg7 V]
  results_rw
  try rw [V6_v26 V]
  try rw [V6_v44 V]
  try rw [V6_v58 V]
  try rw [V6_v66 V]
  try rw [V6_v69 V]
  try rw [V6_v81 V]
  try rw [V6_v91 V]
  try rw [V6_v92 V]
  try rw [V6_v93 V]
  try rw [V6_v94 V]
  try rw [V6_v95 V]
  try rw [V6_arg0 V]
  try rw [V6_arg2 V]
  try rw [V6_arg3 V]
  try rw [V6_arg4 V]
  try rw [V6_arg5 V]
  try rw [V6_arg6 V]
  try rw [V6_arg7 V]
  rfl
set_option maxRecDepth 8192 in
theorem V7_v106 : V7 V (Proc.devRef .tc main_v106) = Vals.v106 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V7
  simp only [ops6]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V6_v26 V, V6_v44 V, V6_v58 V, V6_v66 V, V6_v69 V, V6_v81 V, V6_v91 V, V6_v92 V, V6_v93 V, V6_v94 V, V6_v95 V, V6_arg0 V, V6_arg2 V, V6_arg3 V, V6_arg4 V, V6_arg5 V, V6_arg6 V, V6_arg7 V]
  results_rw
  try rw [V6_v26 V]
  try rw [V6_v44 V]
  try rw [V6_v58 V]
  try rw [V6_v66 V]
  try rw [V6_v69 V]
  try rw [V6_v81 V]
  try rw [V6_v91 V]
  try rw [V6_v92 V]
  try rw [V6_v93 V]
  try rw [V6_v94 V]
  try rw [V6_v95 V]
  try rw [V6_arg0 V]
  try rw [V6_arg2 V]
  try rw [V6_arg3 V]
  try rw [V6_arg4 V]
  try rw [V6_arg5 V]
  try rw [V6_arg6 V]
  try rw [V6_arg7 V]
  rfl
set_option maxRecDepth 8192 in
theorem V7_v108 : V7 V (Proc.devRef .tc main_v108) = Vals.v108 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V7
  simp only [ops6]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V6_v26 V, V6_v44 V, V6_v58 V, V6_v66 V, V6_v69 V, V6_v81 V, V6_v91 V, V6_v92 V, V6_v93 V, V6_v94 V, V6_v95 V, V6_arg0 V, V6_arg2 V, V6_arg3 V, V6_arg4 V, V6_arg5 V, V6_arg6 V, V6_arg7 V]
  results_rw
  try rw [V6_v26 V]
  try rw [V6_v44 V]
  try rw [V6_v58 V]
  try rw [V6_v66 V]
  try rw [V6_v69 V]
  try rw [V6_v81 V]
  try rw [V6_v91 V]
  try rw [V6_v92 V]
  try rw [V6_v93 V]
  try rw [V6_v94 V]
  try rw [V6_v95 V]
  try rw [V6_arg0 V]
  try rw [V6_arg2 V]
  try rw [V6_arg3 V]
  try rw [V6_arg4 V]
  try rw [V6_arg5 V]
  try rw [V6_arg6 V]
  try rw [V6_arg7 V]
  rfl
set_option maxRecDepth 8192 in
theorem V7_v110 : V7 V (Proc.devRef .tc main_v110) = Vals.v110 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V7
  simp only [ops6]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V6_v26 V, V6_v44 V, V6_v58 V, V6_v66 V, V6_v69 V, V6_v81 V, V6_v91 V, V6_v92 V, V6_v93 V, V6_v94 V, V6_v95 V, V6_arg0 V, V6_arg2 V, V6_arg3 V, V6_arg4 V, V6_arg5 V, V6_arg6 V, V6_arg7 V]
  results_rw
  try rw [V6_v26 V]
  try rw [V6_v44 V]
  try rw [V6_v58 V]
  try rw [V6_v66 V]
  try rw [V6_v69 V]
  try rw [V6_v81 V]
  try rw [V6_v91 V]
  try rw [V6_v92 V]
  try rw [V6_v93 V]
  try rw [V6_v94 V]
  try rw [V6_v95 V]
  try rw [V6_arg0 V]
  try rw [V6_arg2 V]
  try rw [V6_arg3 V]
  try rw [V6_arg4 V]
  try rw [V6_arg5 V]
  try rw [V6_arg6 V]
  try rw [V6_arg7 V]
  rfl
set_option maxRecDepth 8192 in
theorem V7_v111 : V7 V (Proc.devRef .tc main_v111) = Vals.v111 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V7
  simp only [ops6]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V6_v26 V, V6_v44 V, V6_v58 V, V6_v66 V, V6_v69 V, V6_v81 V, V6_v91 V, V6_v92 V, V6_v93 V, V6_v94 V, V6_v95 V, V6_arg0 V, V6_arg2 V, V6_arg3 V, V6_arg4 V, V6_arg5 V, V6_arg6 V, V6_arg7 V]
  results_rw
  try rw [V6_v26 V]
  try rw [V6_v44 V]
  try rw [V6_v58 V]
  try rw [V6_v66 V]
  try rw [V6_v69 V]
  try rw [V6_v81 V]
  try rw [V6_v91 V]
  try rw [V6_v92 V]
  try rw [V6_v93 V]
  try rw [V6_v94 V]
  try rw [V6_v95 V]
  try rw [V6_arg0 V]
  try rw [V6_arg2 V]
  try rw [V6_arg3 V]
  try rw [V6_arg4 V]
  try rw [V6_arg5 V]
  try rw [V6_arg6 V]
  try rw [V6_arg7 V]
  rfl

theorem V8_arg0 : V8 V (Proc.devRef .tc main_arg0) = V (Proc.devRef .tc main_arg0) :=
  (ops7_frame (V7 V) main_arg0 (by decide)).trans (V7_arg0 V)
theorem V8_arg1 : V8 V (Proc.devRef .tc main_arg1) = V (Proc.devRef .tc main_arg1) :=
  (ops7_frame (V7 V) main_arg1 (by decide)).trans (V7_arg1 V)
theorem V8_arg2 : V8 V (Proc.devRef .tc main_arg2) = V (Proc.devRef .tc main_arg2) :=
  (ops7_frame (V7 V) main_arg2 (by decide)).trans (V7_arg2 V)
theorem V8_arg3 : V8 V (Proc.devRef .tc main_arg3) = V (Proc.devRef .tc main_arg3) :=
  (ops7_frame (V7 V) main_arg3 (by decide)).trans (V7_arg3 V)
theorem V8_arg4 : V8 V (Proc.devRef .tc main_arg4) = V (Proc.devRef .tc main_arg4) :=
  (ops7_frame (V7 V) main_arg4 (by decide)).trans (V7_arg4 V)
theorem V8_arg5 : V8 V (Proc.devRef .tc main_arg5) = V (Proc.devRef .tc main_arg5) :=
  (ops7_frame (V7 V) main_arg5 (by decide)).trans (V7_arg5 V)
theorem V8_arg6 : V8 V (Proc.devRef .tc main_arg6) = V (Proc.devRef .tc main_arg6) :=
  (ops7_frame (V7 V) main_arg6 (by decide)).trans (V7_arg6 V)
theorem V8_arg7 : V8 V (Proc.devRef .tc main_arg7) = V (Proc.devRef .tc main_arg7) :=
  (ops7_frame (V7 V) main_arg7 (by decide)).trans (V7_arg7 V)
set_option maxRecDepth 8192 in
theorem V8_v124 : V8 V (Proc.devRef .tc main_v124) = Vals.v124 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V8
  simp only [ops7]
  simp (disch := decide) only [after_cons, after_nil, Matrix.cons_val,
      nullary_result', unary_result', binary_result', ternary_result', quaternary_result', reshape_result', nary3_result', nary4_result', nary5_result', nary7_result', nary_result',
      nullary_result_ne', unary_result_ne', binary_result_ne', ternary_result_ne', quaternary_result_ne', reshape_result_ne',
      nary_result_ne',
      V7_v69 V, V7_v81 V, V7_v99 V, V7_v100 V, V7_v102 V, V7_v104 V, V7_v106 V, V7_v108 V, V7_v110 V, V7_v111 V, V7_arg0 V, V7_arg2 V, V7_arg3 V, V7_arg4 V, V7_arg5 V, V7_arg6 V, V7_arg7 V]
  results_rw
  try rw [V7_v69 V]
  try rw [V7_v81 V]
  try rw [V7_v99 V]
  try rw [V7_v100 V]
  try rw [V7_v102 V]
  try rw [V7_v104 V]
  try rw [V7_v106 V]
  try rw [V7_v108 V]
  try rw [V7_v110 V]
  try rw [V7_v111 V]
  try rw [V7_arg0 V]
  try rw [V7_arg2 V]
  try rw [V7_arg3 V]
  try rw [V7_arg4 V]
  try rw [V7_arg5 V]
  try rw [V7_arg6 V]
  try rw [V7_arg7 V]
  rfl

/-- The whole line is the eight pieces in order. -/
theorem after_ops : after (ops (F := F)) V = V8 V := by
  show after (ops0 ++ ops1 ++ ops2 ++ ops3 ++ ops4 ++ ops5 ++ ops6 ++ ops7) V = _
  rw [after_append, after_append, after_append, after_append, after_append, after_append, after_append]
  rfl

end States

set_option maxRecDepth 8192 in
set_option maxHeartbeats 0 in
/-- Every weakly fair execution of the reference terminates with its result at `Vals.v124` of the launched arrays and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v124) = Vals.v124 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v124).trans ((congrFun (after_ops _) _).trans (V8_v124 _)),
      (h c main_arg0).trans ((congrFun (after_ops _) _).trans (V8_arg0 _)),
      (h c main_arg1).trans ((congrFun (after_ops _) _).trans (V8_arg1 _)),
      (h c main_arg2).trans ((congrFun (after_ops _) _).trans (V8_arg2 _)),
      (h c main_arg3).trans ((congrFun (after_ops _) _).trans (V8_arg3 _)),
      (h c main_arg4).trans ((congrFun (after_ops _) _).trans (V8_arg4 _)),
      (h c main_arg5).trans ((congrFun (after_ops _) _).trans (V8_arg5 _)),
      (h c main_arg6).trans ((congrFun (after_ops _) _).trans (V8_arg6 _)),
      (h c main_arg7).trans ((congrFun (after_ops _) _).trans (V8_arg7 _))⟩)
    (run_seq scopedRefs_eq scopedSems_eq defs main (fun _ => ops) main_eq (fun _ => ops_sub) m ρ)

end Cert.ReferenceIdeal.Run

end
-- ==== Proof.RefRot.lean ====
/-
  The reference's forward rotation, read at an index.

  Row `n` of the input holds, for each degree `l = 1, 2, 3` with `d = 2 l + 1` components, the 64 × d block stored
  channel-major from column `64 l²`; the reference slices that block, views it as `[n, μ, c]`, and contracts `c` against
  the `d × d` diagonal block of the row's matrix at `(l², l²)`. Read at `(n, μ, j)` that is
  `Σ_{c<d} x(n, 64 l² + μ d + c) · D(n, l² + c, l² + j)`, the specification's `R l μ j` of row `n`. The single components the
  mixes use are slices `[.., .., c : c + 1]` of these, viewed as `[n, μ]`; the degree-0 block is read unrotated.

  A slice read at an index is the operand at the index shifted by the offsets; a reshape read at an index is the operand
  at the index with the same row-major position; a contraction read at an index is the sum over the contracted
  coordinate of the products of the operands at the two indices that coordinate completes.
-/
import proofs.«104001_j24927990186029_2_alg».proof.Proof.RefVals
import proofs.«104001_j24927990186029_2_alg».proof.Proof.Spec
import Idealize.ShloMosaic.Lib.Pipeline.Value
import Idealize.ShloMosaic.Lib.ValueIdx
import Idealize.ShloMosaic.PureOps.Ideal.Laws

noncomputable section

namespace Cert.ReferenceIdeal.Mix

open Finset Cert.Spec Cert.ReferenceIdeal Idealize.ShloMosaic Idealize.ShloMosaic.ValueIdx

/-! ## Congruence in the natural-number coordinates -/

theorem at2_congr {n0 n1 : ℕ} (x : (⟨2, ![n0, n1]⟩ : Shape).Idx → EReal) {a a' b b' : ℕ} (ha : a = a') (hb : b = b') :
    at2 x a b = at2 x a' b' := by rw [ha, hb]

theorem at3_congr {n0 n1 n2 : ℕ} (x : (⟨3, ![n0, n1, n2]⟩ : Shape).Idx → EReal) {a a' b b' c c' : ℕ}
    (ha : a = a') (hb : b = b') (hc : c = c') : at3 x a b c = at3 x a' b' c' := by rw [ha, hb, hc]

/-! ## The specification's rotation at each degree -/

section Generic
variable (X : ℕ → EReal) (D : ℕ → ℕ → EReal)

theorem R_zero (μ j : ℕ) : Spec.R X D 0 μ j = X μ := by
  unfold Spec.R; exact if_pos rfl
theorem R_one (μ j : ℕ) : Spec.R X D 1 μ j = Spec.rot X D 3 64 1 μ j := by
  unfold Spec.R; exact (if_neg (show ¬(1 : ℕ) = 0 by decide)).trans (if_pos rfl)
theorem R_two (μ j : ℕ) : Spec.R X D 2 μ j = Spec.rot X D 5 256 4 μ j := by
  unfold Spec.R
  exact (if_neg (show ¬(2 : ℕ) = 0 by decide)).trans ((if_neg (show ¬(2 : ℕ) = 1 by decide)).trans (if_pos rfl))
theorem R_three (μ j : ℕ) : Spec.R X D 3 μ j = Spec.rot X D 7 576 9 μ j := by
  unfold Spec.R
  exact (if_neg (show ¬(3 : ℕ) = 0 by decide)).trans ((if_neg (show ¬(3 : ℕ) = 1 by decide)).trans
    (if_neg (show ¬(3 : ℕ) = 2 by decide)))

end Generic

variable (x0 : (⟨S50000x1024, .f32⟩ : BufTy).Contents (Elt Ideal)) (x2 : (⟨S50000x16x16, .f32⟩ : BufTy).Contents (Elt Ideal))
  (x3 : (⟨S256x256, .f32⟩ : BufTy).Contents (Elt Ideal)) (x4 : (⟨S256, .f32⟩ : BufTy).Contents (Elt Ideal))
  (x5 : (⟨S192x192, .f32⟩ : BufTy).Contents (Elt Ideal)) (x6 : (⟨S128x128, .f32⟩ : BufTy).Contents (Elt Ideal))
  (x7 : (⟨S64x64, .f32⟩ : BufTy).Contents (Elt Ideal))

/-- Component `j` of channel `μ` of degree `l` of row `n` after the rotation. -/
def Rn (n l μ j : ℕ) : EReal :=
  Spec.R (fun k => at2 x0 n k) (fun a a' => at3 x2 n a a') l μ j

theorem Rn_congr {n n' l l' μ μ' j j' : ℕ} (hn : n = n') (hl : l = l') (hμ : μ = μ') (hj : j = j') :
    Rn x0 x2 n l μ j = Rn x0 x2 n' l' μ' j' := by rw [hn, hl, hμ, hj]

/-! ## The sliced blocks at an index -/

/-- The degree-1 block of the input viewed as `[n, μ, c]`: column `64 + μ · 3 + c` of row `n`. -/
theorem v3_row (i : S50000x64x3.Idx) :
    Vals.v3 (F := Ideal) x0 x2 x3 x4 x5 x6 x7 i = at2 x0 (i 0).val (64 + (i 1).val * 3 + (i 2).val) := by
  have h1 : (i 1).val < 64 := (i 1).isLt
  have h2 : (i 2).val < 3 := (i 2).isLt
  unfold Vals.v3 Vals.v2
  refine (shapeCast_apply _ _ i (ix2 (i 0) ⟨(i 1).val * 3 + (i 2).val, by omega⟩) ?_).trans ?_
  · rw [Shape.rowMajor_val_two, Shape.rowMajor_val_three]
    show (i 0).val * 192 + ((i 1).val * 3 + (i 2).val) = ((i 0).val * 64 + (i 1).val) * 3 + (i 2).val
    omega
  · refine (extractStridedSlice_apply _ x0 _ _ (ix2 (i 0) ⟨64 + ((i 1).val * 3 + (i 2).val), by omega⟩) ?_).trans ?_
    · intro a
      match a with
      | ⟨0, _⟩ => exact (Nat.zero_add _).symm
      | ⟨1, _⟩ => rfl
    · exact (at2_ix x0 _ _).trans (at2_congr x0 rfl (Nat.add_assoc _ _ _).symm)

/-- The degree-1 diagonal block of the row's matrix. -/
theorem v4_row (i : S50000x3x3.Idx) :
    Vals.v4 (F := Ideal) x0 x2 x3 x4 x5 x6 x7 i = at3 x2 (i 0).val (1 + (i 1).val) (1 + (i 2).val) := by
  have h1 : (i 1).val < 3 := (i 1).isLt
  have h2 : (i 2).val < 3 := (i 2).isLt
  unfold Vals.v4
  refine (extractStridedSlice_apply _ x2 _ _ (ix3 (i 0) ⟨1 + (i 1).val, by omega⟩ ⟨1 + (i 2).val, by omega⟩) ?_).trans (at3_ix x2 _ _ _)
  intro a
  match a with
  | ⟨0, _⟩ => exact (Nat.zero_add _).symm
  | ⟨1, _⟩ => rfl
  | ⟨2, _⟩ => rfl

/-- The rotated degree-1 block at `(n, μ, j)`. -/
theorem v5_row (i : S50000x64x3.Idx) :
    Vals.v5 (F := Ideal) x0 x2 x3 x4 x5 x6 x7 i = Rn x0 x2 (i 0).val 1 (i 1).val (i 2).val := by
  unfold Vals.v5
  simp only [Host.dotGeneral]
  rw [Ideal.dotGeneral_apply, ← Equiv.sum_comp (contrEquiv1 dot_S50000x64x3_S50000x3x3_S50000x64x3_2_1_1_2_0_0 3 rfl rfl).symm]
  unfold Rn
  rw [R_one]
  unfold Spec.rot
  rw [Finset.sum_range]
  refine Finset.sum_congr rfl fun k _ => ?_
  have hk := contrEquiv1_symm_val dot_S50000x64x3_S50000x3x3_S50000x64x3_2_1_1_2_0_0 3 rfl rfl k
  have el : dot_S50000x64x3_S50000x3x3_S50000x64x3_2_1_1_2_0_0.lhsIdx i ((contrEquiv1 dot_S50000x64x3_S50000x3x3_S50000x64x3_2_1_1_2_0_0 3 rfl rfl).symm k) = ix3 (i 0) (i 1) k :=
    funext fun a => Fin.ext (by
      match a with
      | ⟨0, _⟩ => rfl
      | ⟨1, _⟩ => rfl
      | ⟨2, _⟩ => exact (dot_S50000x64x3_S50000x3x3_S50000x64x3_2_1_1_2_0_0.lhsIdx_val_of_single rfl i _).trans hk)
  have er : dot_S50000x64x3_S50000x3x3_S50000x64x3_2_1_1_2_0_0.rhsIdx i ((contrEquiv1 dot_S50000x64x3_S50000x3x3_S50000x64x3_2_1_1_2_0_0 3 rfl rfl).symm k) = ix3 (i 0) k (i 2) :=
    funext fun a => Fin.ext (by
      match a with
      | ⟨0, _⟩ => rfl
      | ⟨1, _⟩ => exact (dot_S50000x64x3_S50000x3x3_S50000x64x3_2_1_1_2_0_0.rhsIdx_val_of_single rfl i _).trans hk
      | ⟨2, _⟩ => rfl)
  rw [el, er]
  exact congrArg₂ (· * ·) (v3_row x0 x2 x3 x4 x5 x6 x7 _) (v4_row x0 x2 x3 x4 x5 x6 x7 _)

/-- The degree-2 block of the input viewed as `[n, μ, c]`: column `256 + μ · 5 + c` of row `n`. -/
theorem v7_row (i : S50000x64x5.Idx) :
    Vals.v7 (F := Ideal) x0 x2 x3 x4 x5 x6 x7 i = at2 x0 (i 0).val (256 + (i 1).val * 5 + (i 2).val) := by
  have h1 : (i 1).val < 64 := (i 1).isLt
  have h2 : (i 2).val < 5 := (i 2).isLt
  unfold Vals.v7 Vals.v6
  refine (shapeCast_apply _ _ i (ix2 (i 0) ⟨(i 1).val * 5 + (i 2).val, by omega⟩) ?_).trans ?_
  · rw [Shape.rowMajor_val_two, Shape.rowMajor_val_three]
    show (i 0).val * 320 + ((i 1).val * 5 + (i 2).val) = ((i 0).val * 64 + (i 1).val) * 5 + (i 2).val
    omega
  · refine (extractStridedSlice_apply _ x0 _ _ (ix2 (i 0) ⟨256 + ((i 1).val * 5 + (i 2).val), by omega⟩) ?_).trans ?_
    · intro a
      match a with
      | ⟨0, _⟩ => exact (Nat.zero_add _).symm
      | ⟨1, _⟩ => rfl
    · exact (at2_ix x0 _ _).trans (at2_congr x0 rfl (Nat.add_assoc _ _ _).symm)

/-- The degree-2 diagonal block of the row's matrix. -/
theorem v8_row (i : S50000x5x5.Idx) :
    Vals.v8 (F := Ideal) x0 x2 x3 x4 x5 x6 x7 i = at3 x2 (i 0).val (4 + (i 1).val) (4 + (i 2).val) := by
  have h1 : (i 1).val < 5 := (i 1).isLt
  have h2 : (i 2).val < 5 := (i 2).isLt
  unfold Vals.v8
  refine (extractStridedSlice_apply _ x2 _ _ (ix3 (i 0) ⟨4 + (i 1).val, by omega⟩ ⟨4 + (i 2).val, by omega⟩) ?_).trans (at3_ix x2 _ _ _)
  intro a
  match a with
  | ⟨0, _⟩ => exact (Nat.zero_add _).symm
  | ⟨1, _⟩ => rfl
  | ⟨2, _⟩ => rfl

/-- The rotated degree-2 block at `(n, μ, j)`. -/
theorem v9_row (i : S50000x64x5.Idx) :
    Vals.v9 (F := Ideal) x0 x2 x3 x4 x5 x6 x7 i = Rn x0 x2 (i 0).val 2 (i 1).val (i 2).val := by
  unfold Vals.v9
  simp only [Host.dotGeneral]
  rw [Ideal.dotGeneral_apply, ← Equiv.sum_comp (contrEquiv1 dot_S50000x64x5_S50000x5x5_S50000x64x5_2_1_1_2_0_0 5 rfl rfl).symm]
  unfold Rn
  rw [R_two]
  unfold Spec.rot
  rw [Finset.sum_range]
  refine Finset.sum_congr rfl fun k _ => ?_
  have hk := contrEquiv1_symm_val dot_S50000x64x5_S50000x5x5_S50000x64x5_2_1_1_2_0_0 5 rfl rfl k
  have el : dot_S50000x64x5_S50000x5x5_S50000x64x5_2_1_1_2_0_0.lhsIdx i ((contrEquiv1 dot_S50000x64x5_S50000x5x5_S50000x64x5_2_1_1_2_0_0 5 rfl rfl).symm k) = ix3 (i 0) (i 1) k :=
    funext fun a => Fin.ext (by
      match a with
      | ⟨0, _⟩ => rfl
      | ⟨1, _⟩ => rfl
      | ⟨2, _⟩ => exact (dot_S50000x64x5_S50000x5x5_S50000x64x5_2_1_1_2_0_0.lhsIdx_val_of_single rfl i _).trans hk)
  have er : dot_S50000x64x5_S50000x5x5_S50000x64x5_2_1_1_2_0_0.rhsIdx i ((contrEquiv1 dot_S50000x64x5_S50000x5x5_S50000x64x5_2_1_1_2_0_0 5 rfl rfl).symm k) = ix3 (i 0) k (i 2) :=
    funext fun a => Fin.ext (by
      match a with
      | ⟨0, _⟩ => rfl
      | ⟨1, _⟩ => exact (dot_S50000x64x5_S50000x5x5_S50000x64x5_2_1_1_2_0_0.rhsIdx_val_of_single rfl i _).trans hk
      | ⟨2, _⟩ => rfl)
  rw [el, er]
  exact congrArg₂ (· * ·) (v7_row x0 x2 x3 x4 x5 x6 x7 _) (v8_row x0 x2 x3 x4 x5 x6 x7 _)

/-- The degree-3 block of the input viewed as `[n, μ, c]`: column `576 + μ · 7 + c` of row `n`. -/
theorem v11_row (i : S50000x64x7.Idx) :
    Vals.v11 (F := Ideal) x0 x2 x3 x4 x5 x6 x7 i = at2 x0 (i 0).val (576 + (i 1).val * 7 + (i 2).val) := by
  have h1 : (i 1).val < 64 := (i 1).isLt
  have h2 : (i 2).val < 7 := (i 2).isLt
  unfold Vals.v11 Vals.v10
  refine (shapeCast_apply _ _ i (ix2 (i 0) ⟨(i 1).val * 7 + (i 2).val, by omega⟩) ?_).trans ?_
  · rw [Shape.rowMajor_val_two, Shape.rowMajor_val_three]
    show (i 0).val * 448 + ((i 1).val * 7 + (i 2).val) = ((i 0).val * 64 + (i 1).val) * 7 + (i 2).val
    omega
  · refine (extractStridedSlice_apply _ x0 _ _ (ix2 (i 0) ⟨576 + ((i 1).val * 7 + (i 2).val), by omega⟩) ?_).trans ?_
    · intro a
      match a with
      | ⟨0, _⟩ => exact (Nat.zero_add _).symm
      | ⟨1, _⟩ => rfl
    · exact (at2_ix x0 _ _).trans (at2_congr x0 rfl (Nat.add_assoc _ _ _).symm)

/-- The degree-3 diagonal block of the row's matrix. -/
theorem v12_row (i : S50000x7x7.Idx) :
    Vals.v12 (F := Ideal) x0 x2 x3 x4 x5 x6 x7 i = at3 x2 (i 0).val (9 + (i 1).val) (9 + (i 2).val) := by
  have h1 : (i 1).val < 7 := (i 1).isLt
  have h2 : (i 2).val < 7 := (i 2).isLt
  unfold Vals.v12
  refine (extractStridedSlice_apply _ x2 _ _ (ix3 (i 0) ⟨9 + (i 1).val, by omega⟩ ⟨9 + (i 2).val, by omega⟩) ?_).trans (at3_ix x2 _ _ _)
  intro a
  match a with
  | ⟨0, _⟩ => exact (Nat.zero_add _).symm
  | ⟨1, _⟩ => rfl
  | ⟨2, _⟩ => rfl

/-- The rotated degree-3 block at `(n, μ, j)`. -/
theorem v13_row (i : S50000x64x7.Idx) :
    Vals.v13 (F := Ideal) x0 x2 x3 x4 x5 x6 x7 i = Rn x0 x2 (i 0).val 3 (i 1).val (i 2).val := by
  unfold Vals.v13
  simp only [Host.dotGeneral]
  rw [Ideal.dotGeneral_apply, ← Equiv.sum_comp (contrEquiv1 dot_S50000x64x7_S50000x7x7_S50000x64x7_2_1_1_2_0_0 7 rfl rfl).symm]
  unfold Rn
  rw [R_three]
  unfold Spec.rot
  rw [Finset.sum_range]
  refine Finset.sum_congr rfl fun k _ => ?_
  have hk := contrEquiv1_symm_val dot_S50000x64x7_S50000x7x7_S50000x64x7_2_1_1_2_0_0 7 rfl rfl k
  have el : dot_S50000x64x7_S50000x7x7_S50000x64x7_2_1_1_2_0_0.lhsIdx i ((contrEquiv1 dot_S50000x64x7_S50000x7x7_S50000x64x7_2_1_1_2_0_0 7 rfl rfl).symm k) = ix3 (i 0) (i 1) k :=
    funext fun a => Fin.ext (by
      match a with
      | ⟨0, _⟩ => rfl
      | ⟨1, _⟩ => rfl
      | ⟨2, _⟩ => exact (dot_S50000x64x7_S50000x7x7_S50000x64x7_2_1_1_2_0_0.lhsIdx_val_of_single rfl i _).trans hk)
  have er : dot_S50000x64x7_S50000x7x7_S50000x64x7_2_1_1_2_0_0.rhsIdx i ((contrEquiv1 dot_S50000x64x7_S50000x7x7_S50000x64x7_2_1_1_2_0_0 7 rfl rfl).symm k) = ix3 (i 0) k (i 2) :=
    funext fun a => Fin.ext (by
      match a with
      | ⟨0, _⟩ => rfl
      | ⟨1, _⟩ => exact (dot_S50000x64x7_S50000x7x7_S50000x64x7_2_1_1_2_0_0.rhsIdx_val_of_single rfl i _).trans hk
      | ⟨2, _⟩ => rfl)
  rw [el, er]
  exact congrArg₂ (· * ·) (v11_row x0 x2 x3 x4 x5 x6 x7 _) (v12_row x0 x2 x3 x4 x5 x6 x7 _)

/-- The degree-0 block, unrotated. -/
theorem v14_row (i : S50000x64.Idx) :
    Vals.v14 (F := Ideal) x0 x2 x3 x4 x5 x6 x7 i = Rn x0 x2 (i 0).val 0 (i 1).val 0 := by
  have h1 : (i 1).val < 64 := (i 1).isLt
  unfold Vals.v14 Vals.v1 Vals.v0 Rn
  rw [R_zero]
  refine (shapeCast_apply _ _ i (ix3 (i 0) (i 1) ⟨0, Nat.one_pos⟩) ?_).trans ?_
  · rw [Shape.rowMajor_val_two, Shape.rowMajor_val_three]
    show ((i 0).val * 64 + (i 1).val) * 1 + 0 = (i 0).val * 64 + (i 1).val
    omega
  · refine (shapeCast_apply _ _ _ (ix2 (i 0) (i 1)) ?_).trans ?_
    · refine (Shape.rowMajor_val_two _).trans (Eq.trans ?_ (Shape.rowMajor_val_three _).symm)
      show (i 0).val * 64 + (i 1).val = ((i 0).val * 64 + (i 1).val) * 1 + 0
      omega
    · refine (extractStridedSlice_apply _ x0 _ _ (ix2 (i 0) ⟨(i 1).val, by omega⟩) ?_).trans (at2_ix x0 _ _)
      intro a
      match a with
      | ⟨0, _⟩ => exact (Nat.zero_add _).symm
      | ⟨1, _⟩ => exact (Nat.zero_add _).symm

/-! ## Single components: a slice `[.., .., c : c + 1]` of a rotated block viewed as `[n, μ]` -/

theorem v16_row (i : S50000x64.Idx) :
    Vals.v16 (F := Ideal) x0 x2 x3 x4 x5 x6 x7 i = Rn x0 x2 (i 0).val 1 (i 1).val 1 := by
  unfold Vals.v16 Vals.v15
  refine (shapeCast_apply _ _ i (ix3 (i 0) (i 1) ⟨0, Nat.one_pos⟩) ?_).trans ?_
  · rw [Shape.rowMajor_val_two, Shape.rowMajor_val_three]
    show ((i 0).val * 64 + (i 1).val) * 1 + 0 = (i 0).val * 64 + (i 1).val
    omega
  · refine (extractStridedSlice_apply _ _ _ _ (ix3 (i 0) (i 1) ⟨1, by decide⟩) ?_).trans (v5_row x0 x2 x3 x4 x5 x6 x7 _)
    intro a
    match a with
    | ⟨0, _⟩ => exact (Nat.zero_add _).symm
    | ⟨1, _⟩ => exact (Nat.zero_add _).symm
    | ⟨2, _⟩ => rfl

theorem v18_row (i : S50000x64.Idx) :
    Vals.v18 (F := Ideal) x0 x2 x3 x4 x5 x6 x7 i = Rn x0 x2 (i 0).val 2 (i 1).val 2 := by
  unfold Vals.v18 Vals.v17
  refine (shapeCast_apply _ _ i (ix3 (i 0) (i 1) ⟨0, Nat.one_pos⟩) ?_).trans ?_
  · rw [Shape.rowMajor_val_two, Shape.rowMajor_val_three]
    show ((i 0).val * 64 + (i 1).val) * 1 + 0 = (i 0).val * 64 + (i 1).val
    omega
  · refine (extractStridedSlice_apply _ _ _ _ (ix3 (i 0) (i 1) ⟨2, by decide⟩) ?_).trans (v9_row x0 x2 x3 x4 x5 x6 x7 _)
    intro a
    match a with
    | ⟨0, _⟩ => exact (Nat.zero_add _).symm
    | ⟨1, _⟩ => exact (Nat.zero_add _).symm
    | ⟨2, _⟩ => rfl

theorem v20_row (i : S50000x64.Idx) :
    Vals.v20 (F := Ideal) x0 x2 x3 x4 x5 x6 x7 i = Rn x0 x2 (i 0).val 3 (i 1).val 3 := by
  unfold Vals.v20 Vals.v19
  refine (shapeCast_apply _ _ i (ix3 (i 0) (i 1) ⟨0, Nat.one_pos⟩) ?_).trans ?_
  · rw [Shape.rowMajor_val_two, Shape.rowMajor_val_three]
    show ((i 0).val * 64 + (i 1).val) * 1 + 0 = (i 0).val * 64 + (i 1).val
    omega
  · refine (extractStridedSlice_apply _ _ _ _ (ix3 (i 0) (i 1) ⟨3, by decide⟩) ?_).trans (v13_row x0 x2 x3 x4 x5 x6 x7 _)
    intro a
    match a with
    | ⟨0, _⟩ => exact (Nat.zero_add _).symm
    | ⟨1, _⟩ => exact (Nat.zero_add _).symm
    | ⟨2, _⟩ => rfl

theorem v28_row (i : S50000x64.Idx) :
    Vals.v28 (F := Ideal) x0 x2 x3 x4 x5 x6 x7 i = Rn x0 x2 (i 0).val 1 (i 1).val 0 := by
  unfold Vals.v28 Vals.v27
  refine (shapeCast_apply _ _ i (ix3 (i 0) (i 1) ⟨0, Nat.one_pos⟩) ?_).trans ?_
  · rw [Shape.rowMajor_val_two, Shape.rowMajor_val_three]
    show ((i 0).val * 64 + (i 1).val) * 1 + 0 = (i 0).val * 64 + (i 1).val
    omega
  · refine (extractStridedSlice_apply _ _ _ _ (ix3 (i 0) (i 1) ⟨0, by decide⟩) ?_).trans (v5_row x0 x2 x3 x4 x5 x6 x7 _)
    intro a
    match a with
    | ⟨0, _⟩ => exact (Nat.zero_add _).symm
    | ⟨1, _⟩ => exact (Nat.zero_add _).symm
    | ⟨2, _⟩ => rfl

theorem v30_row (i : S50000x64.Idx) :
    Vals.v30 (F := Ideal) x0 x2 x3 x4 x5 x6 x7 i = Rn x0 x2 (i 0).val 2 (i 1).val 1 := by
  unfold Vals.v30 Vals.v29
  refine (shapeCast_apply _ _ i (ix3 (i 0) (i 1) ⟨0, Nat.one_pos⟩) ?_).trans ?_
  · rw [Shape.rowMajor_val_two, Shape.rowMajor_val_three]
    show ((i 0).val * 64 + (i 1).val) * 1 + 0 = (i 0).val * 64 + (i 1).val
    omega
  · refine (extractStridedSlice_apply _ _ _ _ (ix3 (i 0) (i 1) ⟨1, by decide⟩) ?_).trans (v9_row x0 x2 x3 x4 x5 x6 x7 _)
    intro a
    match a with
    | ⟨0, _⟩ => exact (Nat.zero_add _).symm
    | ⟨1, _⟩ => exact (Nat.zero_add _).symm
    | ⟨2, _⟩ => rfl

theorem v32_row (i : S50000x64.Idx) :
    Vals.v32 (F := Ideal) x0 x2 x3 x4 x5 x6 x7 i = Rn x0 x2 (i 0).val 3 (i 1).val 2 := by
  unfold Vals.v32 Vals.v31
  refine (shapeCast_apply _ _ i (ix3 (i 0) (i 1) ⟨0, Nat.one_pos⟩) ?_).trans ?_
  · rw [Shape.rowMajor_val_two, Shape.rowMajor_val_three]
    show ((i 0).val * 64 + (i 1).val) * 1 + 0 = (i 0).val * 64 + (i 1).val
    omega
  · refine (extractStridedSlice_apply _ _ _ _ (ix3 (i 0) (i 1) ⟨2, by decide⟩) ?_).trans (v13_row x0 x2 x3 x4 x5 x6 x7 _)
    intro a
    match a with
    | ⟨0, _⟩ => exact (Nat.zero_add _).symm
    | ⟨1, _⟩ => exact (Nat.zero_add _).symm
    | ⟨2, _⟩ => rfl

theorem v35_row (i : S50000x64.Idx) :
    Vals.v35 (F := Ideal) x0 x2 x3 x4 x5 x6 x7 i = Rn x0 x2 (i 0).val 1 (i 1).val 2 := by
  unfold Vals.v35 Vals.v34
  refine (shapeCast_apply _ _ i (ix3 (i 0) (i 1) ⟨0, Nat.one_pos⟩) ?_).trans ?_
  · rw [Shape.rowMajor_val_two, Shape.rowMajor_val_three]
    show ((i 0).val * 64 + (i 1).val) * 1 + 0 = (i 0).val * 64 + (i 1).val
    omega
  · refine (extractStridedSlice_apply _ _ _ _ (ix3 (i 0) (i 1) ⟨2, by decide⟩) ?_).trans (v5_row x0 x2 x3 x4 x5 x6 x7 _)
    intro a
    match a with
    | ⟨0, _⟩ => exact (Nat.zero_add _).symm
    | ⟨1, _⟩ => exact (Nat.zero_add _).symm
    | ⟨2, _⟩ => rfl

theorem v37_row (i : S50000x64.Idx) :
    Vals.v37 (F := Ideal) x0 x2 x3 x4 x5 x6 x7 i = Rn x0 x2 (i 0).val 2 (i 1).val 3 := by
  unfold Vals.v37 Vals.v36
  refine (shapeCast_apply _ _ i (ix3 (i 0) (i 1) ⟨0, Nat.one_pos⟩) ?_).trans ?_
  · rw [Shape.rowMajor_val_two, Shape.rowMajor_val_three]
    show ((i 0).val * 64 + (i 1).val) * 1 + 0 = (i 0).val * 64 + (i 1).val
    omega
  · refine (extractStridedSlice_apply _ _ _ _ (ix3 (i 0) (i 1) ⟨3, by decide⟩) ?_).trans (v9_row x0 x2 x3 x4 x5 x6 x7 _)
    intro a
    match a with
    | ⟨0, _⟩ => exact (Nat.zero_add _).symm
    | ⟨1, _⟩ => exact (Nat.zero_add _).symm
    | ⟨2, _⟩ => rfl

theorem v39_row (i : S50000x64.Idx) :
    Vals.v39 (F := Ideal) x0 x2 x3 x4 x5 x6 x7 i = Rn x0 x2 (i 0).val 3 (i 1).val 4 := by
  unfold Vals.v39 Vals.v38
  refine (shapeCast_apply _ _ i (ix3 (i 0) (i 1) ⟨0, Nat.one_pos⟩) ?_).trans ?_
  · rw [Shape.rowMajor_val_two, Shape.rowMajor_val_three]
    show ((i 0).val * 64 + (i 1).val) * 1 + 0 = (i 0).val * 64 + (i 1).val
    omega
  · refine (extractStridedSlice_apply _ _ _ _ (ix3 (i 0) (i 1) ⟨4, by decide⟩) ?_).trans (v13_row x0 x2 x3 x4 x5 x6 x7 _)
    intro a
    match a with
    | ⟨0, _⟩ => exact (Nat.zero_add _).symm
    | ⟨1, _⟩ => exact (Nat.zero_add _).symm
    | ⟨2, _⟩ => rfl

theorem v46_row (i : S50000x64.Idx) :
    Vals.v46 (F := Ideal) x0 x2 x3 x4 x5 x6 x7 i = Rn x0 x2 (i 0).val 2 (i 1).val 0 := by
  unfold Vals.v46 Vals.v45
  refine (shapeCast_apply _ _ i (ix3 (i 0) (i 1) ⟨0, Nat.one_pos⟩) ?_).trans ?_
  · rw [Shape.rowMajor_val_two, Shape.rowMajor_val_three]
    show ((i 0).val * 64 + (i 1).val) * 1 + 0 = (i 0).val * 64 + (i 1).val
    omega
  · refine (extractStridedSlice_apply _ _ _ _ (ix3 (i 0) (i 1) ⟨0, by decide⟩) ?_).trans (v9_row x0 x2 x3 x4 x5 x6 x7 _)
    intro a
    match a with
    | ⟨0, _⟩ => exact (Nat.zero_add _).symm
    | ⟨1, _⟩ => exact (Nat.zero_add _).symm
    | ⟨2, _⟩ => rfl

theorem v48_row (i : S50000x64.Idx) :
    Vals.v48 (F := Ideal) x0 x2 x3 x4 x5 x6 x7 i = Rn x0 x2 (i 0).val 3 (i 1).val 1 := by
  unfold Vals.v48 Vals.v47
  refine (shapeCast_apply _ _ i (ix3 (i 0) (i 1) ⟨0, Nat.one_pos⟩) ?_).trans ?_
  · rw [Shape.rowMajor_val_two, Shape.rowMajor_val_three]
    show ((i 0).val * 64 + (i 1).val) * 1 + 0 = (i 0).val * 64 + (i 1).val
    omega
  · refine (extractStridedSlice_apply _ _ _ _ (ix3 (i 0) (i 1) ⟨1, by decide⟩) ?_).trans (v13_row x0 x2 x3 x4 x5 x6 x7 _)
    intro a
    match a with
    | ⟨0, _⟩ => exact (Nat.zero_add _).symm
    | ⟨1, _⟩ => exact (Nat.zero_add _).symm
    | ⟨2, _⟩ => rfl

theorem v51_row (i : S50000x64.Idx) :
    Vals.v51 (F := Ideal) x0 x2 x3 x4 x5 x6 x7 i = Rn x0 x2 (i 0).val 2 (i 1).val 4 := by
  unfold Vals.v51 Vals.v50
  refine (shapeCast_apply _ _ i (ix3 (i 0) (i 1) ⟨0, Nat.one_pos⟩) ?_).trans ?_
  · rw [Shape.rowMajor_val_two, Shape.rowMajor_val_three]
    show ((i 0).val * 64 + (i 1).val) * 1 + 0 = (i 0).val * 64 + (i 1).val
    omega
  · refine (extractStridedSlice_apply _ _ _ _ (ix3 (i 0) (i 1) ⟨4, by decide⟩) ?_).trans (v9_row x0 x2 x3 x4 x5 x6 x7 _)
    intro a
    match a with
    | ⟨0, _⟩ => exact (Nat.zero_add _).symm
    | ⟨1, _⟩ => exact (Nat.zero_add _).symm
    | ⟨2, _⟩ => rfl

theorem v53_row (i : S50000x64.Idx) :
    Vals.v53 (F := Ideal) x0 x2 x3 x4 x5 x6 x7 i = Rn x0 x2 (i 0).val 3 (i 1).val 5 := by
  unfold Vals.v53 Vals.v52
  refine (shapeCast_apply _ _ i (ix3 (i 0) (i 1) ⟨0, Nat.one_pos⟩) ?_).trans ?_
  · rw [Shape.rowMajor_val_two, Shape.rowMajor_val_three]
    show ((i 0).val * 64 + (i 1).val) * 1 + 0 = (i 0).val * 64 + (i 1).val
    omega
  · refine (extractStridedSlice_apply _ _ _ _ (ix3 (i 0) (i 1) ⟨5, by decide⟩) ?_).trans (v13_row x0 x2 x3 x4 x5 x6 x7 _)
    intro a
    match a with
    | ⟨0, _⟩ => exact (Nat.zero_add _).symm
    | ⟨1, _⟩ => exact (Nat.zero_add _).symm
    | ⟨2, _⟩ => rfl

theorem v60_row (i : S50000x64.Idx) :
    Vals.v60 (F := Ideal) x0 x2 x3 x4 x5 x6 x7 i = Rn x0 x2 (i 0).val 3 (i 1).val 0 := by
  unfold Vals.v60 Vals.v59
  refine (shapeCast_apply _ _ i (ix3 (i 0) (i 1) ⟨0, Nat.one_pos⟩) ?_).trans ?_
  · rw [Shape.rowMajor_val_two, Shape.rowMajor_val_three]
    show ((i 0).val * 64 + (i 1).val) * 1 + 0 = (i 0).val * 64 + (i 1).val
    omega
  · refine (extractStridedSlice_apply _ _ _ _ (ix3 (i 0) (i 1) ⟨0, by decide⟩) ?_).trans (v13_row x0 x2 x3 x4 x5 x6 x7 _)
    intro a
    match a with
    | ⟨0, _⟩ => exact (Nat.zero_add _).symm
    | ⟨1, _⟩ => exact (Nat.zero_add _).symm
    | ⟨2, _⟩ => rfl

theorem v62_row (i : S50000x64.Idx) :
    Vals.v62 (F := Ideal) x0 x2 x3 x4 x5 x6 x7 i = Rn x0 x2 (i 0).val 3 (i 1).val 6 := by
  unfold Vals.v62 Vals.v61
  refine (shapeCast_apply _ _ i (ix3 (i 0) (i 1) ⟨0, Nat.one_pos⟩) ?_).trans ?_
  · rw [Shape.rowMajor_val_two, Shape.rowMajor_val_three]
    show ((i 0).val * 64 + (i 1).val) * 1 + 0 = (i 0).val * 64 + (i 1).val
    omega
  · refine (extractStridedSlice_apply _ _ _ _ (ix3 (i 0) (i 1) ⟨6, by decide⟩) ?_).trans (v13_row x0 x2 x3 x4 x5 x6 x7 _)
    intro a
    match a with
    | ⟨0, _⟩ => exact (Nat.zero_add _).symm
    | ⟨1, _⟩ => exact (Nat.zero_add _).symm
    | ⟨2, _⟩ => rfl

end Cert.ReferenceIdeal.Mix

end
-- ==== Proof.RefMix.lean ====
/-
  The reference's four mixes, read at an index.

  Row `n`'s order-0 components (component `l` of each degree `l`, 64 channels each) are laid side by side, 256 numbers, and
  multiplied with the transposed `W_m0`, plus the bias: `Σ_{k<256} R (k/64) (k%64) (k/64) · W_m0(o, k) + b(o)`. For
  `m = 1, 2, 3` the order `-m` components (component `l - m` of each degree `l ≥ m`) form one row of `64 (4 - m)` numbers and
  the order `+m` components (component `l + m`) another; the two rows are stacked on a new axis and each is multiplied with
  `W_m`: `Σ_k R (m + k/64) (k%64) (k/64) · W_m(o, k)` and the same with component `k/64 + 2m`. A concatenation is read at
  an index by the piece its coordinate along the joined axis falls in; a broadcast to a new unit axis and a transpose
  are read at the index with that axis dropped, respectively the two coordinates swapped.
-/
import proofs.«104001_j24927990186029_2_alg».proof.Proof.RefRot

noncomputable section

namespace Cert.ReferenceIdeal.Mix

open Finset Cert.Spec Cert.ReferenceIdeal Idealize.ShloMosaic Idealize.ShloMosaic.ValueIdx

/-! ## The specification's mixes at each order -/

section Generic
variable (X : ℕ → EReal) (D : ℕ → ℕ → EReal) (W1 W2 W3 : ℕ → ℕ → EReal)

theorem Wm_1 : Spec.Wm W1 W2 W3 1 = W1 := by
  unfold Spec.Wm; exact if_pos rfl
theorem Wm_2 : Spec.Wm W1 W2 W3 2 = W2 := by
  unfold Spec.Wm; exact (if_neg (show ¬(2 : ℕ) = 1 by decide)).trans (if_pos rfl)
theorem Wm_3 : Spec.Wm W1 W2 W3 3 = W3 := by
  unfold Spec.Wm; exact (if_neg (show ¬(3 : ℕ) = 1 by decide)).trans (if_neg (show ¬(3 : ℕ) = 2 by decide))

theorem ymm_1 (o : ℕ) : Spec.ymm X D W1 W2 W3 1 o =
    ∑ k ∈ range 192, Spec.R X D (1 + k / 64) (k % 64) (k / 64) * W1 o k := by
  unfold Spec.ymm; exact Finset.sum_congr rfl fun k _ => by rw [Wm_1]
theorem ypm_1 (o : ℕ) : Spec.ypm X D W1 W2 W3 1 o =
    ∑ k ∈ range 192, Spec.R X D (1 + k / 64) (k % 64) (k / 64 + 2) * W1 o k := by
  unfold Spec.ypm; exact Finset.sum_congr rfl fun k _ => by rw [Wm_1]
theorem ymm_2 (o : ℕ) : Spec.ymm X D W1 W2 W3 2 o =
    ∑ k ∈ range 128, Spec.R X D (2 + k / 64) (k % 64) (k / 64) * W2 o k := by
  unfold Spec.ymm; exact Finset.sum_congr rfl fun k _ => by rw [Wm_2]
theorem ypm_2 (o : ℕ) : Spec.ypm X D W1 W2 W3 2 o =
    ∑ k ∈ range 128, Spec.R X D (2 + k / 64) (k % 64) (k / 64 + 4) * W2 o k := by
  unfold Spec.ypm; exact Finset.sum_congr rfl fun k _ => by rw [Wm_2]
theorem ymm_3 (o : ℕ) : Spec.ymm X D W1 W2 W3 3 o =
    ∑ k ∈ range 64, Spec.R X D (3 + k / 64) (k % 64) (k / 64) * W3 o k := by
  unfold Spec.ymm; exact Finset.sum_congr rfl fun k _ => by rw [Wm_3]
theorem ypm_3 (o : ℕ) : Spec.ypm X D W1 W2 W3 3 o =
    ∑ k ∈ range 64, Spec.R X D (3 + k / 64) (k % 64) (k / 64 + 6) * W3 o k := by
  unfold Spec.ypm; exact Finset.sum_congr rfl fun k _ => by rw [Wm_3]

end Generic

variable (x0 : (⟨S50000x1024, .f32⟩ : BufTy).Contents (Elt Ideal)) (x2 : (⟨S50000x16x16, .f32⟩ : BufTy).Contents (Elt Ideal))
  (x3 : (⟨S256x256, .f32⟩ : BufTy).Contents (Elt Ideal)) (x4 : (⟨S256, .f32⟩ : BufTy).Contents (Elt Ideal))
  (x5 : (⟨S192x192, .f32⟩ : BufTy).Contents (Elt Ideal)) (x6 : (⟨S128x128, .f32⟩ : BufTy).Contents (Elt Ideal))
  (x7 : (⟨S64x64, .f32⟩ : BufTy).Contents (Elt Ideal))

/-! ## The rows the mixes take -/

/-- The order-0 components of the four degrees side by side: entry `k` is channel `k % 64` of degree `k / 64`. -/
theorem v21_row (i : S50000x256.Idx) :
    Vals.v21 (F := Ideal) x0 x2 x3 x4 x5 x6 x7 i = Rn x0 x2 (i 0).val ((i 1).val / 64) ((i 1).val % 64) ((i 1).val / 64) := by
  have h1 : (i 1).val < 256 := (i 1).isLt
  unfold Vals.v21
  rcases (by omega : (i 1).val < 64 ∨ (64 ≤ (i 1).val ∧ (i 1).val < 128) ∨ (128 ≤ (i 1).val ∧ (i 1).val < 192) ∨ 192 ≤ (i 1).val) with h | h | h | h
  · refine (concatenate_apply_piece (1 : Fin S50000x256.rank) _ _ i 0 (by simp) S50000x64 (Vals.v14 (F := Ideal) x0 x2 x3 x4 x5 x6 x7) (by rfl) (by rfl) 0 (by rfl)
        (ix2 (i 0) ⟨(i 1).val - 0, by omega⟩) (fun b hb => by
          match b with
          | ⟨0, _⟩ => rfl
          | ⟨1, _⟩ => exact absurd (Fin.ext rfl) hb) ?_).trans ?_
    · show 0 + ((i 1).val - 0) = (i 1).val
      omega
    · refine (v14_row x0 x2 x3 x4 x5 x6 x7 _).trans (Rn_congr x0 x2 rfl ?_ ?_ ?_)
      · omega
      · show (i 1).val - 0 = (i 1).val % 64
        omega
      · omega
  · refine (concatenate_apply_piece (1 : Fin S50000x256.rank) _ _ i 1 (by simp) S50000x64 (Vals.v16 (F := Ideal) x0 x2 x3 x4 x5 x6 x7) (by rfl) (by rfl) 64 (by rfl)
        (ix2 (i 0) ⟨(i 1).val - 64, by omega⟩) (fun b hb => by
          match b with
          | ⟨0, _⟩ => rfl
          | ⟨1, _⟩ => exact absurd (Fin.ext rfl) hb) ?_).trans ?_
    · show 64 + ((i 1).val - 64) = (i 1).val
      omega
    · refine (v16_row x0 x2 x3 x4 x5 x6 x7 _).trans (Rn_congr x0 x2 rfl ?_ ?_ ?_)
      · omega
      · show (i 1).val - 64 = (i 1).val % 64
        omega
      · omega
  · refine (concatenate_apply_piece (1 : Fin S50000x256.rank) _ _ i 2 (by simp) S50000x64 (Vals.v18 (F := Ideal) x0 x2 x3 x4 x5 x6 x7) (by rfl) (by rfl) 128 (by rfl)
        (ix2 (i 0) ⟨(i 1).val - 128, by omega⟩) (fun b hb => by
          match b with
          | ⟨0, _⟩ => rfl
          | ⟨1, _⟩ => exact absurd (Fin.ext rfl) hb) ?_).trans ?_
    · show 128 + ((i 1).val - 128) = (i 1).val
      omega
    · refine (v18_row x0 x2 x3 x4 x5 x6 x7 _).trans (Rn_congr x0 x2 rfl ?_ ?_ ?_)
      · omega
      · show (i 1).val - 128 = (i 1).val % 64
        omega
      · omega
  · refine (concatenate_apply_piece (1 : Fin S50000x256.rank) _ _ i 3 (by simp) S50000x64 (Vals.v20 (F := Ideal) x0 x2 x3 x4 x5 x6 x7) (by rfl) (by rfl) 192 (by rfl)
        (ix2 (i 0) ⟨(i 1).val - 192, by omega⟩) (fun b hb => by
          match b with
          | ⟨0, _⟩ => rfl
          | ⟨1, _⟩ => exact absurd (Fin.ext rfl) hb) ?_).trans ?_
    · show 192 + ((i 1).val - 192) = (i 1).val
      omega
    · refine (v20_row x0 x2 x3 x4 x5 x6 x7 _).trans (Rn_congr x0 x2 rfl ?_ ?_ ?_)
      · omega
      · show (i 1).val - 192 = (i 1).val % 64
        omega
      · omega

/-- The order `-1` components of degrees 1, 2, 3 side by side. -/
theorem v33_row (i : S50000x192.Idx) :
    Vals.v33 (F := Ideal) x0 x2 x3 x4 x5 x6 x7 i = Rn x0 x2 (i 0).val (1 + (i 1).val / 64) ((i 1).val % 64) ((i 1).val / 64) := by
  have h1 : (i 1).val < 192 := (i 1).isLt
  unfold Vals.v33
  rcases (by omega : (i 1).val < 64 ∨ (64 ≤ (i 1).val ∧ (i 1).val < 128) ∨ 128 ≤ (i 1).val) with h | h | h
  · refine (concatenate_apply_piece (1 : Fin S50000x192.rank) _ _ i 0 (by simp) S50000x64 (Vals.v28 (F := Ideal) x0 x2 x3 x4 x5 x6 x7) (by rfl) (by rfl) 0 (by rfl)
        (ix2 (i 0) ⟨(i 1).val - 0, by omega⟩) (fun b hb => by
          match b with
          | ⟨0, _⟩ => rfl
          | ⟨1, _⟩ => exact absurd (Fin.ext rfl) hb) ?_).trans ?_
    · show 0 + ((i 1).val - 0) = (i 1).val
      omega
    · refine (v28_row x0 x2 x3 x4 x5 x6 x7 _).trans (Rn_congr x0 x2 rfl ?_ ?_ ?_)
      · omega
      · show (i 1).val - 0 = (i 1).val % 64
        omega
      · omega
  · refine (concatenate_apply_piece (1 : Fin S50000x192.rank) _ _ i 1 (by simp) S50000x64 (Vals.v30 (F := Ideal) x0 x2 x3 x4 x5 x6 x7) (by rfl) (by rfl) 64 (by rfl)
        (ix2 (i 0) ⟨(i 1).val - 64, by omega⟩) (fun b hb => by
          match b with
          | ⟨0, _⟩ => rfl
          | ⟨1, _⟩ => exact absurd (Fin.ext rfl) hb) ?_).trans ?_
    · show 64 + ((i 1).val - 64) = (i 1).val
      omega
    · refine (v30_row x0 x2 x3 x4 x5 x6 x7 _).trans (Rn_congr x0 x2 rfl ?_ ?_ ?_)
      · omega
      · show (i 1).val - 64 = (i 1).val % 64
        omega
      · omega
  · refine (concatenate_apply_piece (1 : Fin S50000x192.rank) _ _ i 2 (by simp) S50000x64 (Vals.v32 (F := Ideal) x0 x2 x3 x4 x5 x6 x7) (by rfl) (by rfl) 128 (by rfl)
        (ix2 (i 0) ⟨(i 1).val - 128, by omega⟩) (fun b hb => by
          match b with
          | ⟨0, _⟩ => rfl
          | ⟨1, _⟩ => exact absurd (Fin.ext rfl) hb) ?_).trans ?_
    · show 128 + ((i 1).val - 128) = (i 1).val
      omega
    · refine (v32_row x0 x2 x3 x4 x5 x6 x7 _).trans (Rn_congr x0 x2 rfl ?_ ?_ ?_)
      · omega
      · show (i 1).val - 128 = (i 1).val % 64
        omega
      · omega

/-- The order `+1` components of degrees 1, 2, 3 side by side. -/
theorem v40_row (i : S50000x192.Idx) :
    Vals.v40 (F := Ideal) x0 x2 x3 x4 x5 x6 x7 i = Rn x0 x2 (i 0).val (1 + (i 1).val / 64) ((i 1).val % 64) ((i 1).val / 64 + 2) := by
  have h1 : (i 1).val < 192 := (i 1).isLt
  unfold Vals.v40
  rcases (by omega : (i 1).val < 64 ∨ (64 ≤ (i 1).val ∧ (i 1).val < 128) ∨ 128 ≤ (i 1).val) with h | h | h
  · refine (concatenate_apply_piece (1 : Fin S50000x192.rank) _ _ i 0 (by simp) S50000x64 (Vals.v35 (F := Ideal) x0 x2 x3 x4 x5 x6 x7) (by rfl) (by rfl) 0 (by rfl)
        (ix2 (i 0) ⟨(i 1).val - 0, by omega⟩) (fun b hb => by
          match b with
          | ⟨0, _⟩ => rfl
          | ⟨1, _⟩ => exact absurd (Fin.ext rfl) hb) ?_).trans ?_
    · show 0 + ((i 1).val - 0) = (i 1).val
      omega
    · refine (v35_row x0 x2 x3 x4 x5 x6 x7 _).trans (Rn_congr x0 x2 rfl ?_ ?_ ?_)
      · omega
      · show (i 1).val - 0 = (i 1).val % 64
        omega
      · omega
  · refine (concatenate_apply_piece (1 : Fin S50000x192.rank) _ _ i 1 (by simp) S50000x64 (Vals.v37 (F := Ideal) x0 x2 x3 x4 x5 x6 x7) (by rfl) (by rfl) 64 (by rfl)
        (ix2 (i 0) ⟨(i 1).val - 64, by omega⟩) (fun b hb => by
          match b with
          | ⟨0, _⟩ => rfl
          | ⟨1, _⟩ => exact absurd (Fin.ext rfl) hb) ?_).trans ?_
    · show 64 + ((i 1).val - 64) = (i 1).val
      omega
    · refine (v37_row x0 x2 x3 x4 x5 x6 x7 _).trans (Rn_congr x0 x2 rfl ?_ ?_ ?_)
      · omega
      · show (i 1).val - 64 = (i 1).val % 64
        omega
      · omega
  · refine (concatenate_apply_piece (1 : Fin S50000x192.rank) _ _ i 2 (by simp) S50000x64 (Vals.v39 (F := Ideal) x0 x2 x3 x4 x5 x6 x7) (by rfl) (by rfl) 128 (by rfl)
        (ix2 (i 0) ⟨(i 1).val - 128, by omega⟩) (fun b hb => by
          match b with
          | ⟨0, _⟩ => rfl
          | ⟨1, _⟩ => exact absurd (Fin.ext rfl) hb) ?_).trans ?_
    · show 128 + ((i 1).val - 128) = (i 1).val
      omega
    · refine (v39_row x0 x2 x3 x4 x5 x6 x7 _).trans (Rn_congr x0 x2 rfl ?_ ?_ ?_)
      · omega
      · show (i 1).val - 128 = (i 1).val % 64
        omega
      · omega

/-- The order `-2` components of degrees 2, 3 side by side. -/
theorem v49_row (i : S50000x128.Idx) :
    Vals.v49 (F := Ideal) x0 x2 x3 x4 x5 x6 x7 i = Rn x0 x2 (i 0).val (2 + (i 1).val / 64) ((i 1).val % 64) ((i 1).val / 64) := by
  have h1 : (i 1).val < 128 := (i 1).isLt
  unfold Vals.v49
  by_cases h : (i 1).val < 64
  · refine (concatenate_pair_apply_left (s₁ := S50000x64) (s₂ := S50000x64) (1 : Fin S50000x128.rank) _ _ _ i rfl (ix2 (i 0) ⟨(i 1).val, h⟩) (fun b => by
          match b with
          | ⟨0, _⟩ => rfl
          | ⟨1, _⟩ => rfl)).trans ?_
    refine (v46_row x0 x2 x3 x4 x5 x6 x7 _).trans (Rn_congr x0 x2 rfl ?_ ?_ ?_)
    · omega
    · show (i 1).val = (i 1).val % 64
      omega
    · omega
  · refine (concatenate_pair_apply_right (s₁ := S50000x64) (s₂ := S50000x64) (1 : Fin S50000x128.rank) _ _ _ i rfl rfl (ix2 (i 0) ⟨(i 1).val - 64, by omega⟩) (fun b hb => by
          match b with
          | ⟨0, _⟩ => rfl
          | ⟨1, _⟩ => exact absurd (Fin.ext rfl) hb) ?_).trans ?_
    · show (i 1).val - 64 + 64 = (i 1).val
      omega
    · refine (v48_row x0 x2 x3 x4 x5 x6 x7 _).trans (Rn_congr x0 x2 rfl ?_ ?_ ?_)
      · omega
      · show (i 1).val - 64 = (i 1).val % 64
        omega
      · omega

/-- The order `+2` components of degrees 2, 3 side by side. -/
theorem v54_row (i : S50000x128.Idx) :
    Vals.v54 (F := Ideal) x0 x2 x3 x4 x5 x6 x7 i = Rn x0 x2 (i 0).val (2 + (i 1).val / 64) ((i 1).val % 64) ((i 1).val / 64 + 4) := by
  have h1 : (i 1).val < 128 := (i 1).isLt
  unfold Vals.v54
  by_cases h : (i 1).val < 64
  · refine (concatenate_pair_apply_left (s₁ := S50000x64) (s₂ := S50000x64) (1 : Fin S50000x128.rank) _ _ _ i rfl (ix2 (i 0) ⟨(i 1).val, h⟩) (fun b => by
          match b with
          | ⟨0, _⟩ => rfl
          | ⟨1, _⟩ => rfl)).trans ?_
    refine (v51_row x0 x2 x3 x4 x5 x6 x7 _).trans (Rn_congr x0 x2 rfl ?_ ?_ ?_)
    · omega
    · show (i 1).val = (i 1).val % 64
      omega
    · omega
  · refine (concatenate_pair_apply_right (s₁ := S50000x64) (s₂ := S50000x64) (1 : Fin S50000x128.rank) _ _ _ i rfl rfl (ix2 (i 0) ⟨(i 1).val - 64, by omega⟩) (fun b hb => by
          match b with
          | ⟨0, _⟩ => rfl
          | ⟨1, _⟩ => exact absurd (Fin.ext rfl) hb) ?_).trans ?_
    · show (i 1).val - 64 + 64 = (i 1).val
      omega
    · refine (v53_row x0 x2 x3 x4 x5 x6 x7 _).trans (Rn_congr x0 x2 rfl ?_ ?_ ?_)
      · omega
      · show (i 1).val - 64 = (i 1).val % 64
        omega
      · omega

/-- The order `-3` component of degree 3, written with the same coordinates as the longer rows. -/
theorem v60_rowm (i : S50000x64.Idx) :
    Vals.v60 (F := Ideal) x0 x2 x3 x4 x5 x6 x7 i = Rn x0 x2 (i 0).val (3 + (i 1).val / 64) ((i 1).val % 64) ((i 1).val / 64) := by
  have h1 : (i 1).val < 64 := (i 1).isLt
  rw [v60_row]
  refine Rn_congr x0 x2 rfl ?_ ?_ ?_ <;> omega
/-- The order `+3` component of degree 3. -/
theorem v62_rowm (i : S50000x64.Idx) :
    Vals.v62 (F := Ideal) x0 x2 x3 x4 x5 x6 x7 i = Rn x0 x2 (i 0).val (3 + (i 1).val / 64) ((i 1).val % 64) ((i 1).val / 64 + 6) := by
  have h1 : (i 1).val < 64 := (i 1).isLt
  rw [v62_row]
  refine Rn_congr x0 x2 rfl ?_ ?_ ?_ <;> omega

/-- The two rows of order 1 stacked on a new middle axis: at index 0 of it the order `-1` row. -/
theorem v43_m (j : S50000x2x192.Idx) (h : (j 1).val = 0) :
    Vals.v43 (F := Ideal) x0 x2 x3 x4 x5 x6 x7 j = Rn x0 x2 (j 0).val (1 + (j 2).val / 64) ((j 2).val % 64) ((j 2).val / 64) := by
  unfold Vals.v43
  refine (concatenate_pair_apply_left (s₁ := S50000x1x192) (s₂ := S50000x1x192) (1 : Fin S50000x2x192.rank) _ _ _ j rfl (ix3 (j 0) ⟨0, Nat.one_pos⟩ (j 2)) (fun b => by
          match b with
          | ⟨0, _⟩ => rfl
          | ⟨1, _⟩ => exact h.symm
          | ⟨2, _⟩ => rfl)).trans ?_
  unfold Vals.v41
  refine (broadcastInDim_apply _ _ _ _ (ix2 (j 0) (j 2)) (fun a => by
        match a with
        | ⟨0, _⟩ => rfl
        | ⟨1, _⟩ => rfl)).trans ?_
  exact v33_row x0 x2 x3 x4 x5 x6 x7 _
/-- At index 1 the order `+1` row. -/
theorem v43_p (j : S50000x2x192.Idx) (h : ¬(j 1).val = 0) :
    Vals.v43 (F := Ideal) x0 x2 x3 x4 x5 x6 x7 j = Rn x0 x2 (j 0).val (1 + (j 2).val / 64) ((j 2).val % 64) ((j 2).val / 64 + 2) := by
  have h1 : (j 1).val < 2 := (j 1).isLt
  unfold Vals.v43
  refine (concatenate_pair_apply_right (s₁ := S50000x1x192) (s₂ := S50000x1x192) (1 : Fin S50000x2x192.rank) _ _ _ j rfl rfl (ix3 (j 0) ⟨0, Nat.one_pos⟩ (j 2)) (fun b hb => by
          match b with
          | ⟨0, _⟩ => rfl
          | ⟨1, _⟩ => exact absurd (Fin.ext rfl) hb
          | ⟨2, _⟩ => rfl) ?_).trans ?_
  · show 0 + 1 = (j 1).val
    omega
  · unfold Vals.v42
    refine (broadcastInDim_apply _ _ _ _ (ix2 (j 0) (j 2)) (fun a => by
          match a with
          | ⟨0, _⟩ => rfl
          | ⟨1, _⟩ => rfl)).trans ?_
    exact v40_row x0 x2 x3 x4 x5 x6 x7 _

/-- The two rows of order 2 stacked on a new middle axis: at index 0 of it the order `-2` row. -/
theorem v57_m (j : S50000x2x128.Idx) (h : (j 1).val = 0) :
    Vals.v57 (F := Ideal) x0 x2 x3 x4 x5 x6 x7 j = Rn x0 x2 (j 0).val (2 + (j 2).val / 64) ((j 2).val % 64) ((j 2).val / 64) := by
  unfold Vals.v57
  refine (concatenate_pair_apply_left (s₁ := S50000x1x128) (s₂ := S50000x1x128) (1 : Fin S50000x2x128.rank) _ _ _ j rfl (ix3 (j 0) ⟨0, Nat.one_pos⟩ (j 2)) (fun b => by
          match b with
          | ⟨0, _⟩ => rfl
          | ⟨1, _⟩ => exact h.symm
          | ⟨2, _⟩ => rfl)).trans ?_
  unfold Vals.v55
  refine (broadcastInDim_apply _ _ _ _ (ix2 (j 0) (j 2)) (fun a => by
        match a with
        | ⟨0, _⟩ => rfl
        | ⟨1, _⟩ => rfl)).trans ?_
  exact v49_row x0 x2 x3 x4 x5 x6 x7 _
/-- At index 1 the order `+2` row. -/
theorem v57_p (j : S50000x2x128.Idx) (h : ¬(j 1).val = 0) :
    Vals.v57 (F := Ideal) x0 x2 x3 x4 x5 x6 x7 j = Rn x0 x2 (j 0).val (2 + (j 2).val / 64) ((j 2).val % 64) ((j 2).val / 64 + 4) := by
  have h1 : (j 1).val < 2 := (j 1).isLt
  unfold Vals.v57
  refine (concatenate_pair_apply_right (s₁ := S50000x1x128) (s₂ := S50000x1x128) (1 : Fin S50000x2x128.rank) _ _ _ j rfl rfl (ix3 (j 0) ⟨0, Nat.one_pos⟩ (j 2)) (fun b hb => by
          match b with
          | ⟨0, _⟩ => rfl
          | ⟨1, _⟩ => exact absurd (Fin.ext rfl) hb
          | ⟨2, _⟩ => rfl) ?_).trans ?_
  · show 0 + 1 = (j 1).val
    omega
  · unfold Vals.v56
    refine (broadcastInDim_apply _ _ _ _ (ix2 (j 0) (j 2)) (fun a => by
          match a with
          | ⟨0, _⟩ => rfl
          | ⟨1, _⟩ => rfl)).trans ?_
    exact v54_row x0 x2 x3 x4 x5 x6 x7 _

/-- The two rows of order 3 stacked on a new middle axis: at index 0 of it the order `-3` row. -/
theorem v65_m (j : S50000x2x64.Idx) (h : (j 1).val = 0) :
    Vals.v65 (F := Ideal) x0 x2 x3 x4 x5 x6 x7 j = Rn x0 x2 (j 0).val (3 + (j 2).val / 64) ((j 2).val % 64) ((j 2).val / 64) := by
  unfold Vals.v65
  refine (concatenate_pair_apply_left (s₁ := S50000x1x64) (s₂ := S50000x1x64) (1 : Fin S50000x2x64.rank) _ _ _ j rfl (ix3 (j 0) ⟨0, Nat.one_pos⟩ (j 2)) (fun b => by
          match b with
          | ⟨0, _⟩ => rfl
          | ⟨1, _⟩ => exact h.symm
          | ⟨2, _⟩ => rfl)).trans ?_
  unfold Vals.v63
  refine (broadcastInDim_apply _ _ _ _ (ix2 (j 0) (j 2)) (fun a => by
        match a with
        | ⟨0, _⟩ => rfl
        | ⟨1, _⟩ => rfl)).trans ?_
  exact v60_rowm x0 x2 x3 x4 x5 x6 x7 _
/-- At index 1 the order `+3` row. -/
theorem v65_p (j : S50000x2x64.Idx) (h : ¬(j 1).val = 0) :
    Vals.v65 (F := Ideal) x0 x2 x3 x4 x5 x6 x7 j = Rn x0 x2 (j 0).val (3 + (j 2).val / 64) ((j 2).val % 64) ((j 2).val / 64 + 6) := by
  have h1 : (j 1).val < 2 := (j 1).isLt
  unfold Vals.v65
  refine (concatenate_pair_apply_right (s₁ := S50000x1x64) (s₂ := S50000x1x64) (1 : Fin S50000x2x64.rank) _ _ _ j rfl rfl (ix3 (j 0) ⟨0, Nat.one_pos⟩ (j 2)) (fun b hb => by
          match b with
          | ⟨0, _⟩ => rfl
          | ⟨1, _⟩ => exact absurd (Fin.ext rfl) hb
          | ⟨2, _⟩ => rfl) ?_).trans ?_
  · show 0 + 1 = (j 1).val
    omega
  · unfold Vals.v64
    refine (broadcastInDim_apply _ _ _ _ (ix2 (j 0) (j 2)) (fun a => by
          match a with
          | ⟨0, _⟩ => rfl
          | ⟨1, _⟩ => rfl)).trans ?_
    exact v62_rowm x0 x2 x3 x4 x5 x6 x7 _

/-! ## The four mixes -/

/-- The order-0 mix before the bias, as a sum over the 256 inputs. -/
theorem v23_sum (i : S50000x256.Idx) :
    Vals.v23 (F := Ideal) x0 x2 x3 x4 x5 x6 x7 i =
      ∑ k : Fin 256, Vals.v21 (F := Ideal) x0 x2 x3 x4 x5 x6 x7 (ix2 (i 0) k) * at2 x3 (i 1).val k.val := by
  unfold Vals.v23
  simp only [Host.dotGeneral]
  rw [Ideal.dotGeneral_apply, ← Equiv.sum_comp (contrEquiv1 dot_S50000x256_S256x256_S50000x256_1_0_0_1_n_n 256 rfl rfl).symm]
  refine Finset.sum_congr rfl fun k _ => ?_
  have hk := contrEquiv1_symm_val dot_S50000x256_S256x256_S50000x256_1_0_0_1_n_n 256 rfl rfl k
  have el : dot_S50000x256_S256x256_S50000x256_1_0_0_1_n_n.lhsIdx i ((contrEquiv1 dot_S50000x256_S256x256_S50000x256_1_0_0_1_n_n 256 rfl rfl).symm k) = ix2 (i 0) k :=
    funext fun a => Fin.ext (by
      match a with
      | ⟨0, _⟩ => rfl
      | ⟨1, _⟩ => exact (dot_S50000x256_S256x256_S50000x256_1_0_0_1_n_n.lhsIdx_val_of_single rfl i _).trans hk)
  have er : dot_S50000x256_S256x256_S50000x256_1_0_0_1_n_n.rhsIdx i ((contrEquiv1 dot_S50000x256_S256x256_S50000x256_1_0_0_1_n_n 256 rfl rfl).symm k) = ix2 k (i 1) :=
    funext fun a => Fin.ext (by
      match a with
      | ⟨0, _⟩ => exact (dot_S50000x256_S256x256_S50000x256_1_0_0_1_n_n.rhsIdx_val_of_single rfl i _).trans hk
      | ⟨1, _⟩ => rfl)
  rw [el, er]
  unfold Vals.v22
  refine congrArg₂ (· * ·) rfl ?_
  exact (transpose_apply _ x3 _ (ix2 k (i 1)) (ix2 (i 1) k) (fun b => by
      match b with
      | ⟨0, _⟩ => rfl
      | ⟨1, _⟩ => rfl)).trans (at2_ix x3 _ _)

/-- The bias broadcast over the rows. -/
theorem v25_row (i : S50000x256.Idx) :
    Vals.v25 (F := Ideal) x0 x2 x3 x4 x5 x6 x7 i = at1 x4 (i 1).val := by
  unfold Vals.v25 Vals.v24
  refine (broadcastInDim_apply _ _ _ i (ix2 ⟨0, Nat.one_pos⟩ (i 1)) (fun a => by
      match a with
      | ⟨0, _⟩ => rfl
      | ⟨1, _⟩ => rfl)).trans ?_
  exact (broadcastInDim_apply _ _ x4 _ (ix1 (i 1)) (fun a => by
      match a with
      | ⟨0, _⟩ => rfl)).trans (at1_ix x4 _)

theorem v26_row (i : S50000x256.Idx) :
    Vals.v26 (F := Ideal) x0 x2 x3 x4 x5 x6 x7 i =
      Spec.ym0 (fun k => at2 x0 (i 0).val k) (fun a a' => at3 x2 (i 0).val a a') (at2 x3) (at1 x4) (i 1).val := by
  unfold Vals.v26
  rw [addf_apply, v23_sum, v25_row]
  unfold Spec.ym0
  rw [Finset.sum_range]
  refine congrArg₂ (· + ·) (Finset.sum_congr rfl fun k _ => ?_) rfl
  exact congrArg₂ (· * ·) (v21_row x0 x2 x3 x4 x5 x6 x7 _) rfl

/-- The order-1 mix as a sum over the 192 inputs of the stacked rows. -/
theorem v44_sum (i : S50000x2x192.Idx) :
    Vals.v44 (F := Ideal) x0 x2 x3 x4 x5 x6 x7 i =
      ∑ k : Fin 192, Vals.v43 (F := Ideal) x0 x2 x3 x4 x5 x6 x7 (ix3 (i 0) (i 1) k) * at2 x5 (i 2).val k.val := by
  unfold Vals.v44
  simp only [Host.dotGeneral]
  rw [Ideal.dotGeneral_apply, ← Equiv.sum_comp (contrEquiv1 dot_S50000x2x192_S192x192_S50000x2x192_2_1_01_0_n_n 192 rfl rfl).symm]
  refine Finset.sum_congr rfl fun k _ => ?_
  have hk := contrEquiv1_symm_val dot_S50000x2x192_S192x192_S50000x2x192_2_1_01_0_n_n 192 rfl rfl k
  have el : dot_S50000x2x192_S192x192_S50000x2x192_2_1_01_0_n_n.lhsIdx i ((contrEquiv1 dot_S50000x2x192_S192x192_S50000x2x192_2_1_01_0_n_n 192 rfl rfl).symm k) = ix3 (i 0) (i 1) k :=
    funext fun a => Fin.ext (by
      match a with
      | ⟨0, _⟩ => rfl
      | ⟨1, _⟩ => rfl
      | ⟨2, _⟩ => exact (dot_S50000x2x192_S192x192_S50000x2x192_2_1_01_0_n_n.lhsIdx_val_of_single rfl i _).trans hk)
  have er : dot_S50000x2x192_S192x192_S50000x2x192_2_1_01_0_n_n.rhsIdx i ((contrEquiv1 dot_S50000x2x192_S192x192_S50000x2x192_2_1_01_0_n_n 192 rfl rfl).symm k) = ix2 (i 2) k :=
    funext fun a => Fin.ext (by
      match a with
      | ⟨0, _⟩ => rfl
      | ⟨1, _⟩ => exact (dot_S50000x2x192_S192x192_S50000x2x192_2_1_01_0_n_n.rhsIdx_val_of_single rfl i _).trans hk)
  rw [el, er]
  exact congrArg₂ (· * ·) rfl (at2_ix x5 _ _)

theorem v44_row (i : S50000x2x192.Idx) :
    Vals.v44 (F := Ideal) x0 x2 x3 x4 x5 x6 x7 i =
      if (i 1).val = 0 then Spec.ymm (fun k => at2 x0 (i 0).val k) (fun a a' => at3 x2 (i 0).val a a') (at2 x5) (at2 x6) (at2 x7) 1 (i 2).val
      else Spec.ypm (fun k => at2 x0 (i 0).val k) (fun a a' => at3 x2 (i 0).val a a') (at2 x5) (at2 x6) (at2 x7) 1 (i 2).val := by
  rw [v44_sum]
  by_cases h : (i 1).val = 0
  · rw [if_pos h, ymm_1, Finset.sum_range]
    refine Finset.sum_congr rfl fun k _ => ?_
    exact congrArg₂ (· * ·) (v43_m x0 x2 x3 x4 x5 x6 x7 (ix3 (i 0) (i 1) k) h) rfl
  · rw [if_neg h, ypm_1, Finset.sum_range]
    refine Finset.sum_congr rfl fun k _ => ?_
    exact congrArg₂ (· * ·) (v43_p x0 x2 x3 x4 x5 x6 x7 (ix3 (i 0) (i 1) k) h) rfl

/-- The order-2 mix as a sum over the 128 inputs of the stacked rows. -/
theorem v58_sum (i : S50000x2x128.Idx) :
    Vals.v58 (F := Ideal) x0 x2 x3 x4 x5 x6 x7 i =
      ∑ k : Fin 128, Vals.v57 (F := Ideal) x0 x2 x3 x4 x5 x6 x7 (ix3 (i 0) (i 1) k) * at2 x6 (i 2).val k.val := by
  unfold Vals.v58
  simp only [Host.dotGeneral]
  rw [Ideal.dotGeneral_apply, ← Equiv.sum_comp (contrEquiv1 dot_S50000x2x128_S128x128_S50000x2x128_2_1_01_0_n_n 128 rfl rfl).symm]
  refine Finset.sum_congr rfl fun k _ => ?_
  have hk := contrEquiv1_symm_val dot_S50000x2x128_S128x128_S50000x2x128_2_1_01_0_n_n 128 rfl rfl k
  have el : dot_S50000x2x128_S128x128_S50000x2x128_2_1_01_0_n_n.lhsIdx i ((contrEquiv1 dot_S50000x2x128_S128x128_S50000x2x128_2_1_01_0_n_n 128 rfl rfl).symm k) = ix3 (i 0) (i 1) k :=
    funext fun a => Fin.ext (by
      match a with
      | ⟨0, _⟩ => rfl
      | ⟨1, _⟩ => rfl
      | ⟨2, _⟩ => exact (dot_S50000x2x128_S128x128_S50000x2x128_2_1_01_0_n_n.lhsIdx_val_of_single rfl i _).trans hk)
  have er : dot_S50000x2x128_S128x128_S50000x2x128_2_1_01_0_n_n.rhsIdx i ((contrEquiv1 dot_S50000x2x128_S128x128_S50000x2x128_2_1_01_0_n_n 128 rfl rfl).symm k) = ix2 (i 2) k :=
    funext fun a => Fin.ext (by
      match a with
      | ⟨0, _⟩ => rfl
      | ⟨1, _⟩ => exact (dot_S50000x2x128_S128x128_S50000x2x128_2_1_01_0_n_n.rhsIdx_val_of_single rfl i _).trans hk)
  rw [el, er]
  exact congrArg₂ (· * ·) rfl (at2_ix x6 _ _)

theorem v58_row (i : S50000x2x128.Idx) :
    Vals.v58 (F := Ideal) x0 x2 x3 x4 x5 x6 x7 i =
      if (i 1).val = 0 then Spec.ymm (fun k => at2 x0 (i 0).val k) (fun a a' => at3 x2 (i 0).val a a') (at2 x5) (at2 x6) (at2 x7) 2 (i 2).val
      else Spec.ypm (fun k => at2 x0 (i 0).val k) (fun a a' => at3 x2 (i 0).val a a') (at2 x5) (at2 x6) (at2 x7) 2 (i 2).val := by
  rw [v58_sum]
  by_cases h : (i 1).val = 0
  · rw [if_pos h, ymm_2, Finset.sum_range]
    refine Finset.sum_congr rfl fun k _ => ?_
    exact congrArg₂ (· * ·) (v57_m x0 x2 x3 x4 x5 x6 x7 (ix3 (i 0) (i 1) k) h) rfl
  · rw [if_neg h, ypm_2, Finset.sum_range]
    refine Finset.sum_congr rfl fun k _ => ?_
    exact congrArg₂ (· * ·) (v57_p x0 x2 x3 x4 x5 x6 x7 (ix3 (i 0) (i 1) k) h) rfl

/-- The order-3 mix as a sum over the 64 inputs of the stacked rows. -/
theorem v66_sum (i : S50000x2x64.Idx) :
    Vals.v66 (F := Ideal) x0 x2 x3 x4 x5 x6 x7 i =
      ∑ k : Fin 64, Vals.v65 (F := Ideal) x0 x2 x3 x4 x5 x6 x7 (ix3 (i 0) (i 1) k) * at2 x7 (i 2).val k.val := by
  unfold Vals.v66
  simp only [Host.dotGeneral]
  rw [Ideal.dotGeneral_apply, ← Equiv.sum_comp (contrEquiv1 dot_S50000x2x64_S64x64_S50000x2x64_2_1_01_0_n_n 64 rfl rfl).symm]
  refine Finset.sum_congr rfl fun k _ => ?_
  have hk := contrEquiv1_symm_val dot_S50000x2x64_S64x64_S50000x2x64_2_1_01_0_n_n 64 rfl rfl k
  have el : dot_S50000x2x64_S64x64_S50000x2x64_2_1_01_0_n_n.lhsIdx i ((contrEquiv1 dot_S50000x2x64_S64x64_S50000x2x64_2_1_01_0_n_n 64 rfl rfl).symm k) = ix3 (i 0) (i 1) k :=
    funext fun a => Fin.ext (by
      match a with
      | ⟨0, _⟩ => rfl
      | ⟨1, _⟩ => rfl
      | ⟨2, _⟩ => exact (dot_S50000x2x64_S64x64_S50000x2x64_2_1_01_0_n_n.lhsIdx_val_of_single rfl i _).trans hk)
  have er : dot_S50000x2x64_S64x64_S50000x2x64_2_1_01_0_n_n.rhsIdx i ((contrEquiv1 dot_S50000x2x64_S64x64_S50000x2x64_2_1_01_0_n_n 64 rfl rfl).symm k) = ix2 (i 2) k :=
    funext fun a => Fin.ext (by
      match a with
      | ⟨0, _⟩ => rfl
      | ⟨1, _⟩ => exact (dot_S50000x2x64_S64x64_S50000x2x64_2_1_01_0_n_n.rhsIdx_val_of_single rfl i _).trans hk)
  rw [el, er]
  exact congrArg₂ (· * ·) rfl (at2_ix x7 _ _)

theorem v66_row (i : S50000x2x64.Idx) :
    Vals.v66 (F := Ideal) x0 x2 x3 x4 x5 x6 x7 i =
      if (i 1).val = 0 then Spec.ymm (fun k => at2 x0 (i 0).val k) (fun a a' => at3 x2 (i 0).val a a') (at2 x5) (at2 x6) (at2 x7) 3 (i 2).val
      else Spec.ypm (fun k => at2 x0 (i 0).val k) (fun a a' => at3 x2 (i 0).val a a') (at2 x5) (at2 x6) (at2 x7) 3 (i 2).val := by
  rw [v66_sum]
  by_cases h : (i 1).val = 0
  · rw [if_pos h, ymm_3, Finset.sum_range]
    refine Finset.sum_congr rfl fun k _ => ?_
    exact congrArg₂ (· * ·) (v65_m x0 x2 x3 x4 x5 x6 x7 (ix3 (i 0) (i 1) k) h) rfl
  · rw [if_neg h, ypm_3, Finset.sum_range]
    refine Finset.sum_congr rfl fun k _ => ?_
    exact congrArg₂ (· * ·) (v65_p x0 x2 x3 x4 x5 x6 x7 (ix3 (i 0) (i 1) k) h) rfl

end Cert.ReferenceIdeal.Mix

end
-- ==== Proof.RefOut.lean ====
/-
  The reference's second half over the extended reals. Given the four mixes of a row (the order-0 mix `ym0` and, for
  `m = 1, 2, 3`, the order `-m` and `+m` mixes `ymm m`, `ypm m`), the reference regroups them by degree — component `c` of
  degree `l` is the order `c - l` mix's channel block of that degree, `Spec.C l c μ` —, multiplies each degree's
  `64 × (2 l + 1)` block by the transpose of the row's matrix block, `Σ_c C l c μ · D(l² + j, l² + c)`, and lays the four
  degrees side by side: columns `0‥63`, `64‥255`, `256‥575`, `576‥1023`. Read at an index that is `Spec.Gfull`.

  The steps: a regrouped block is a concatenation of `2 l + 1` unit-width pieces along its last axis, so its entry
  `(n, μ, c)` is piece `c` at `(n, μ, 0)`; each piece is a slice of a mix (reshaped, broadcast), read back to the mix by
  the arithmetic of row-major positions; the product with the matrix block is a sum over `Fin (2 l + 1)`, which is the
  specification's sum over `Finset.range (2 l + 1)`; the reshape to `64 (2 l + 1)` columns sends column `q` to channel
  `q / (2 l + 1)`, component `q % (2 l + 1)`.
-/
import proofs.«104001_j24927990186029_2_alg».proof.Proof.RefVals
import proofs.«104001_j24927990186029_2_alg».proof.Proof.Spec
import Idealize.ShloMosaic.Lib.Pipeline.Value
import Idealize.ShloMosaic.Lib.ValueIdx
import Idealize.ShloMosaic.PureOps.Ideal.Laws

noncomputable section

namespace Cert.ReferenceIdeal.Out

open Cert.Spec Cert.ReferenceIdeal Idealize.ShloMosaic Idealize.ShloMosaic.ValueIdx Idealize.ShloMosaic.StableHlo

/-! ## The specification's regrouping and rotation back, case by case -/

section SpecCases

variable (X : ℕ → EReal) (D : ℕ → ℕ → EReal)
variable (W0 : ℕ → ℕ → EReal) (B0 : ℕ → EReal) (W1 W2 W3 : ℕ → ℕ → EReal)

/-- Component 0 of degree 1: order -1. -/
theorem C_1_0 (μ : ℕ) : Spec.C X D W0 B0 W1 W2 W3 1 0 μ = Spec.ymm X D W1 W2 W3 1 μ := by
  unfold Spec.C
  simp

/-- Component 1 of degree 1: order 0. -/
theorem C_1_1 (μ : ℕ) : Spec.C X D W0 B0 W1 W2 W3 1 1 μ = Spec.ym0 X D W0 B0 (64 + μ) := by
  unfold Spec.C
  simp

/-- Component 2 of degree 1: order 1. -/
theorem C_1_2 (μ : ℕ) : Spec.C X D W0 B0 W1 W2 W3 1 2 μ = Spec.ypm X D W1 W2 W3 1 μ := by
  unfold Spec.C
  simp

/-- Component 0 of degree 2: order -2. -/
theorem C_2_0 (μ : ℕ) : Spec.C X D W0 B0 W1 W2 W3 2 0 μ = Spec.ymm X D W1 W2 W3 2 μ := by
  unfold Spec.C
  simp

/-- Component 1 of degree 2: order -1. -/
theorem C_2_1 (μ : ℕ) : Spec.C X D W0 B0 W1 W2 W3 2 1 μ = Spec.ymm X D W1 W2 W3 1 (64 + μ) := by
  unfold Spec.C
  simp

/-- Component 2 of degree 2: order 0. -/
theorem C_2_2 (μ : ℕ) : Spec.C X D W0 B0 W1 W2 W3 2 2 μ = Spec.ym0 X D W0 B0 (128 + μ) := by
  unfold Spec.C
  simp

/-- Component 3 of degree 2: order 1. -/
theorem C_2_3 (μ : ℕ) : Spec.C X D W0 B0 W1 W2 W3 2 3 μ = Spec.ypm X D W1 W2 W3 1 (64 + μ) := by
  unfold Spec.C
  simp

/-- Component 4 of degree 2: order 2. -/
theorem C_2_4 (μ : ℕ) : Spec.C X D W0 B0 W1 W2 W3 2 4 μ = Spec.ypm X D W1 W2 W3 2 μ := by
  unfold Spec.C
  simp

/-- Component 0 of degree 3: order -3. -/
theorem C_3_0 (μ : ℕ) : Spec.C X D W0 B0 W1 W2 W3 3 0 μ = Spec.ymm X D W1 W2 W3 3 μ := by
  unfold Spec.C
  simp

/-- Component 1 of degree 3: order -2. -/
theorem C_3_1 (μ : ℕ) : Spec.C X D W0 B0 W1 W2 W3 3 1 μ = Spec.ymm X D W1 W2 W3 2 (64 + μ) := by
  unfold Spec.C
  simp

/-- Component 2 of degree 3: order -1. -/
theorem C_3_2 (μ : ℕ) : Spec.C X D W0 B0 W1 W2 W3 3 2 μ = Spec.ymm X D W1 W2 W3 1 (128 + μ) := by
  unfold Spec.C
  simp

/-- Component 3 of degree 3: order 0. -/
theorem C_3_3 (μ : ℕ) : Spec.C X D W0 B0 W1 W2 W3 3 3 μ = Spec.ym0 X D W0 B0 (192 + μ) := by
  unfold Spec.C
  simp

/-- Component 4 of degree 3: order 1. -/
theorem C_3_4 (μ : ℕ) : Spec.C X D W0 B0 W1 W2 W3 3 4 μ = Spec.ypm X D W1 W2 W3 1 (128 + μ) := by
  unfold Spec.C
  simp

/-- Component 5 of degree 3: order 2. -/
theorem C_3_5 (μ : ℕ) : Spec.C X D W0 B0 W1 W2 W3 3 5 μ = Spec.ypm X D W1 W2 W3 2 (64 + μ) := by
  unfold Spec.C
  simp

/-- Component 6 of degree 3: order 3. -/
theorem C_3_6 (μ : ℕ) : Spec.C X D W0 B0 W1 W2 W3 3 6 μ = Spec.ypm X D W1 W2 W3 3 μ := by
  unfold Spec.C
  simp

/-- Degree 0 is not rotated. -/
theorem out_0 (μ j : ℕ) : Spec.out X D W0 B0 W1 W2 W3 0 μ j = Spec.ym0 X D W0 B0 μ := by
  unfold Spec.out
  rw [if_pos rfl]

/-- The rotation back of degree 1 as a sum over `Fin 3`. -/
theorem out_1 (μ j : ℕ) : Spec.out X D W0 B0 W1 W2 W3 1 μ j
    = ∑ c : Fin 3, Spec.C X D W0 B0 W1 W2 W3 1 c.val μ * D (1 + j) (1 + c.val) := by
  unfold Spec.out Spec.rotBack
  rw [if_neg (by decide), if_pos rfl, Finset.sum_range]

/-- The rotation back of degree 2 as a sum over `Fin 5`. -/
theorem out_2 (μ j : ℕ) : Spec.out X D W0 B0 W1 W2 W3 2 μ j
    = ∑ c : Fin 5, Spec.C X D W0 B0 W1 W2 W3 2 c.val μ * D (4 + j) (4 + c.val) := by
  unfold Spec.out Spec.rotBack
  rw [if_neg (by decide), if_neg (by decide), if_pos rfl, Finset.sum_range]

/-- The rotation back of degree 3 as a sum over `Fin 7`. -/
theorem out_3 (μ j : ℕ) : Spec.out X D W0 B0 W1 W2 W3 3 μ j
    = ∑ c : Fin 7, Spec.C X D W0 B0 W1 W2 W3 3 c.val μ * D (9 + j) (9 + c.val) := by
  unfold Spec.out Spec.rotBack
  rw [if_neg (by decide), if_neg (by decide), if_neg (by decide), Finset.sum_range]

end SpecCases

/-! ## A concatenation read at an index -/

/-- A concatenation read at an index, the piece named by its place in the list: piece `k`, whose span along the axis
    starts at `pre`, at the index with the same coordinates off the axis and `pre` less on it. -/
theorem cat_piece {t : Shape} (a : Fin t.rank) (xs : List ((s : Shape) × (s.Idx → EReal)))
    (h : Shape.Concatenates (xs.map (·.1)) t a) (j : t.Idx) (k : ℕ) (s₁ : Shape) (x₁ : s₁.Idx → EReal)
    (hxk : xs[k]? = some ⟨s₁, x₁⟩) (hr : s₁.rank = t.rank) (pre : ℕ)
    (hpre : (((xs.take k).map (·.1)).map fun s : Shape => if h : s.rank = t.rank then s.size (a.cast h.symm) else 0).sum = pre)
    (i : s₁.Idx) (hi : ∀ b : Fin s₁.rank, b.cast hr ≠ a → (i b).val = (j (b.cast hr)).val)
    (ha : pre + (i (a.cast hr.symm)).val = (j a).val) :
    concatenate t a xs h j = x₁ i := by
  obtain ⟨hk, hxk'⟩ := List.getElem?_eq_some_iff.1 hxk
  exact concatenate_apply_piece a xs h j k hk s₁ x₁ hxk' hr pre hpre i hi ha

/-- The shape of a regrouped block (`N` components) and of one of its pieces (`N = 1`). -/
abbrev Blk (N : ℕ) : Shape := ⟨3, ![50000, 64, N]⟩

/-- Unit-width pieces along the last axis: entry `(n, μ, k)` of the concatenation is piece `k` at `(n, μ, 0)`. -/
theorem cat_last {N : ℕ} (xs : List ((s : Shape) × (s.Idx → EReal)))
    (h : Shape.Concatenates (xs.map (·.1)) (Blk N) 2) (j : (Blk N).Idx) (k : ℕ) (x₁ : (Blk 1).Idx → EReal)
    (hxk : xs[k]? = some ⟨Blk 1, x₁⟩)
    (hpre : (((xs.take k).map (·.1)).map fun s : Shape =>
      if h : s.rank = (Blk N).rank then s.size ((2 : Fin (Blk N).rank).cast h.symm) else 0).sum = k)
    (hj : (j 2).val = k) :
    concatenate (Blk N) 2 xs h j = x₁ (ix3 (n0 := 50000) (n1 := 64) (n2 := 1) (j 0) (j 1) ⟨0, Nat.one_pos⟩) := by
  refine cat_piece (t := Blk N) 2 xs h j k (Blk 1) x₁ hxk rfl k hpre _ (fun b hb => ?_) ?_
  · match b, hb with
    | ⟨0, _⟩, _ => rfl
    | ⟨1, _⟩, _ => rfl
    | ⟨2, _⟩, hb => exact absurd (Fin.ext rfl) hb
  · show k + 0 = (j 2).val
    omega

/-! ## Layout operations of the reference read at an index -/

section Layout

/-- A slice `[:, s, off : off + 64]` of a `[50000, 2, K]` mix, reshaped to `[50000, 64]` and broadcast to `[50000, 64, 1]`:
    entry `(n, μ, 0)` is the mix at `(n, s, off + μ)`. -/
theorem piece3_apply {K : ℕ} (y : (⟨3, ![50000, 2, K]⟩ : Shape).Idx → EReal) (s off : ℕ)
    (hs : (⟨3, ![50000, 2, K]⟩ : Shape).Slices ![0, s, off] S50000x1x64)
    (hc : S50000x1x64.ShapeCasts S50000x64)
    (hb : S50000x64.BroadcastsInDim S50000x64x1 (![0, 1] : Fin 2 → Fin S50000x64x1.rank))
    (p : S50000x64x1.Idx) (q : (⟨3, ![50000, 2, K]⟩ : Shape).Idx)
    (h0 : (q 0).val = (p 0).val) (h1 : (q 1).val = s) (h2 : (q 2).val = off + (p 1).val) :
    broadcastInDim S50000x64x1 ![0, 1] hb
      (shapeCast S50000x64 (extractStridedSlice S50000x1x64 ![0, s, off] y hs) hc) p = y q := by
  have hp0 : (p 0).val < 50000 := (p 0).isLt
  have hp1 : (p 1).val < 64 := (p 1).isLt
  refine Eq.trans (broadcastInDim_apply _ hb _ p (ix2 (n0 := 50000) (n1 := 64) (p 0) (p 1)) (fun a => ?_)) ?_
  · match a with
    | ⟨0, _⟩ => show (p 0).val = if (50000 : ℕ) = 1 then 0 else (p 0).val; rw [if_neg (by decide)]
    | ⟨1, _⟩ => show (p 1).val = if (64 : ℕ) = 1 then 0 else (p 1).val; rw [if_neg (by decide)]
  refine Eq.trans (shapeCast_apply _ hc _
    (ix3 (n0 := 50000) (n1 := 1) (n2 := 64) (p 0) ⟨0, Nat.one_pos⟩ (p 1)) ?_) ?_
  · rw [Shape.rowMajor_val_three, Shape.rowMajor_val_two]
    show ((p 0).val * 1 + 0) * 64 + (p 1).val = (p 0).val * 64 + (p 1).val
    omega
  refine extractStridedSlice_apply _ y hs _ q (fun a => ?_)
  match a with
  | ⟨0, _⟩ => show (q 0).val = 0 + (p 0).val; omega
  | ⟨1, _⟩ => show (q 1).val = s + 0; omega
  | ⟨2, _⟩ => show (q 2).val = off + (p 1).val; omega

/-- Columns `off ‥ off + 63` of the order-0 mix, broadcast to `[50000, 64, 1]`: entry `(n, μ, 0)` is the mix at
    `(n, off + μ)`. -/
theorem piece2_apply (y : S50000x256.Idx → EReal) (off : ℕ)
    (hs : S50000x256.Slices ![0, off] S50000x64)
    (hb : S50000x64.BroadcastsInDim S50000x64x1 (![0, 1] : Fin 2 → Fin S50000x64x1.rank))
    (p : S50000x64x1.Idx) (q : S50000x256.Idx)
    (h0 : (q 0).val = (p 0).val) (h1 : (q 1).val = off + (p 1).val) :
    broadcastInDim S50000x64x1 ![0, 1] hb (extractStridedSlice S50000x64 ![0, off] y hs) p = y q := by
  refine Eq.trans (broadcastInDim_apply _ hb _ p (ix2 (n0 := 50000) (n1 := 64) (p 0) (p 1)) (fun a => ?_)) ?_
  · match a with
    | ⟨0, _⟩ => show (p 0).val = if (50000 : ℕ) = 1 then 0 else (p 0).val; rw [if_neg (by decide)]
    | ⟨1, _⟩ => show (p 1).val = if (64 : ℕ) = 1 then 0 else (p 1).val; rw [if_neg (by decide)]
  refine extractStridedSlice_apply _ y hs _ q (fun a => ?_)
  match a with
  | ⟨0, _⟩ => show (q 0).val = 0 + (p 0).val; omega
  | ⟨1, _⟩ => show (q 1).val = off + (p 1).val; omega

/-- A `[50000, 64, 1]` array viewed `[50000, 64]`: entry `(n, μ)` is entry `(n, μ, 0)`. -/
theorem unit_apply (y : S50000x64x1.Idx → EReal) (hc : S50000x64x1.ShapeCasts S50000x64) (i : S50000x64.Idx) :
    shapeCast S50000x64 y hc i = y (ix3 (n0 := 50000) (n1 := 64) (n2 := 1) (i 0) (i 1) ⟨0, Nat.one_pos⟩) := by
  refine shapeCast_apply y hc i _ ?_
  rw [Shape.rowMajor_val_three, Shape.rowMajor_val_two]
  show ((i 0).val * 64 + (i 1).val) * 1 + 0 = (i 0).val * 64 + (i 1).val
  omega

/-! The operand indices of the degree's product (`[50000, 64, 3]` by `[50000, 3, 3]`, batch axis 0, contracting the
    last axis of both), coordinate by coordinate. -/

theorem lhs3_0 (j : S50000x64x3.Idx) (q : dot_S50000x64x3_S50000x3x3_S50000x64x3_2_2_1_1_0_0.contr.Idx) :
    (dot_S50000x64x3_S50000x3x3_S50000x64x3_2_2_1_1_0_0.lhsIdx j q 0).val = (j 0).val := by
  unfold DotDims.lhsIdx
  rw [dif_pos (show (0 : Fin S50000x64x3.rank) ∈ dot_S50000x64x3_S50000x3x3_S50000x64x3_2_2_1_1_0_0.lhsBatch by decide)]
  rfl

theorem lhs3_1 (j : S50000x64x3.Idx) (q : dot_S50000x64x3_S50000x3x3_S50000x64x3_2_2_1_1_0_0.contr.Idx) :
    (dot_S50000x64x3_S50000x3x3_S50000x64x3_2_2_1_1_0_0.lhsIdx j q 1).val = (j 1).val := by
  unfold DotDims.lhsIdx
  rw [dif_neg (show ¬(1 : Fin S50000x64x3.rank) ∈ dot_S50000x64x3_S50000x3x3_S50000x64x3_2_2_1_1_0_0.lhsBatch by decide),
    dif_pos (show (1 : Fin S50000x64x3.rank) ∈ dot_S50000x64x3_S50000x3x3_S50000x64x3_2_2_1_1_0_0.lhsNonContracting by decide)]
  rfl

theorem lhs3_2 (j : S50000x64x3.Idx) (q : dot_S50000x64x3_S50000x3x3_S50000x64x3_2_2_1_1_0_0.contr.Idx) :
    (dot_S50000x64x3_S50000x3x3_S50000x64x3_2_2_1_1_0_0.lhsIdx j q 2).val = (q ⟨0, by decide⟩).val :=
  dot_S50000x64x3_S50000x3x3_S50000x64x3_2_2_1_1_0_0.lhsIdx_val_of_single rfl j q

theorem rhs3_0 (j : S50000x64x3.Idx) (q : dot_S50000x64x3_S50000x3x3_S50000x64x3_2_2_1_1_0_0.contr.Idx) :
    (dot_S50000x64x3_S50000x3x3_S50000x64x3_2_2_1_1_0_0.rhsIdx j q 0).val = (j 0).val := by
  unfold DotDims.rhsIdx
  rw [dif_pos (show (0 : Fin S50000x3x3.rank) ∈ dot_S50000x64x3_S50000x3x3_S50000x64x3_2_2_1_1_0_0.rhsBatch by decide)]
  rfl

theorem rhs3_1 (j : S50000x64x3.Idx) (q : dot_S50000x64x3_S50000x3x3_S50000x64x3_2_2_1_1_0_0.contr.Idx) :
    (dot_S50000x64x3_S50000x3x3_S50000x64x3_2_2_1_1_0_0.rhsIdx j q 1).val = (j 2).val := by
  unfold DotDims.rhsIdx
  rw [dif_neg (show ¬(1 : Fin S50000x3x3.rank) ∈ dot_S50000x64x3_S50000x3x3_S50000x64x3_2_2_1_1_0_0.rhsBatch by decide),
    dif_pos (show (1 : Fin S50000x3x3.rank) ∈ dot_S50000x64x3_S50000x3x3_S50000x64x3_2_2_1_1_0_0.rhsNonContracting by decide)]
  rfl

theorem rhs3_2 (j : S50000x64x3.Idx) (q : dot_S50000x64x3_S50000x3x3_S50000x64x3_2_2_1_1_0_0.contr.Idx) :
    (dot_S50000x64x3_S50000x3x3_S50000x64x3_2_2_1_1_0_0.rhsIdx j q 2).val = (q ⟨0, by decide⟩).val :=
  dot_S50000x64x3_S50000x3x3_S50000x64x3_2_2_1_1_0_0.rhsIdx_val_of_single rfl j q

/-- The batched product of a `[50000, 64, 3]` block with the `[50000, 3, 3]` matrix blocks, contracting the last
    axis of both: entry `(n, μ, j)` is `Σ_k l(n, μ, k) · r(n, j, k)`. -/
theorem dot3_apply (l : S50000x64x3.Idx → EReal) (r : S50000x3x3.Idx → EReal) (j : S50000x64x3.Idx) :
    Host.dotGeneral (F := Ideal) (φ₁ := .f32) (φ₂ := .f32) dot_S50000x64x3_S50000x3x3_S50000x64x3_2_2_1_1_0_0 none l r j
      = ∑ k : Fin 3, l (ix3 (n0 := 50000) (n1 := 64) (n2 := 3) (j 0) (j 1) k)
          * r (ix3 (n0 := 50000) (n1 := 3) (n2 := 3) (j 0) (j 2) k) := by
  show FloatOps.dotGeneral (F := Ideal) (φ₁ := .f32) (φ₂ := .f32) dot_S50000x64x3_S50000x3x3_S50000x64x3_2_2_1_1_0_0 none .single l r j = _
  rw [Ideal.dotGeneral_apply, ← Equiv.sum_comp (contrEquiv1 dot_S50000x64x3_S50000x3x3_S50000x64x3_2_2_1_1_0_0 3 rfl rfl).symm]
  refine Finset.sum_congr rfl fun k _ => ?_
  have hk := contrEquiv1_symm_val dot_S50000x64x3_S50000x3x3_S50000x64x3_2_2_1_1_0_0 3 rfl rfl k
  have el : dot_S50000x64x3_S50000x3x3_S50000x64x3_2_2_1_1_0_0.lhsIdx j ((contrEquiv1 dot_S50000x64x3_S50000x3x3_S50000x64x3_2_2_1_1_0_0 3 rfl rfl).symm k)
      = ix3 (n0 := 50000) (n1 := 64) (n2 := 3) (j 0) (j 1) k := funext fun a => Fin.ext (by
    match a with
    | ⟨0, _⟩ => exact lhs3_0 _ _
    | ⟨1, _⟩ => exact lhs3_1 _ _
    | ⟨2, _⟩ => exact (lhs3_2 _ _).trans hk)
  have er : dot_S50000x64x3_S50000x3x3_S50000x64x3_2_2_1_1_0_0.rhsIdx j ((contrEquiv1 dot_S50000x64x3_S50000x3x3_S50000x64x3_2_2_1_1_0_0 3 rfl rfl).symm k)
      = ix3 (n0 := 50000) (n1 := 3) (n2 := 3) (j 0) (j 2) k := funext fun a => Fin.ext (by
    match a with
    | ⟨0, _⟩ => exact rhs3_0 _ _
    | ⟨1, _⟩ => exact rhs3_1 _ _
    | ⟨2, _⟩ => exact (rhs3_2 _ _).trans hk)
  rw [el, er]

/-! The operand indices of the degree's product (`[50000, 64, 5]` by `[50000, 5, 5]`, batch axis 0, contracting the
    last axis of both), coordinate by coordinate. -/

theorem lhs5_0 (j : S50000x64x5.Idx) (q : dot_S50000x64x5_S50000x5x5_S50000x64x5_2_2_1_1_0_0.contr.Idx) :
    (dot_S50000x64x5_S50000x5x5_S50000x64x5_2_2_1_1_0_0.lhsIdx j q 0).val = (j 0).val := by
  unfold DotDims.lhsIdx
  rw [dif_pos (show (0 : Fin S50000x64x5.rank) ∈ dot_S50000x64x5_S50000x5x5_S50000x64x5_2_2_1_1_0_0.lhsBatch by decide)]
  rfl

theorem lhs5_1 (j : S50000x64x5.Idx) (q : dot_S50000x64x5_S50000x5x5_S50000x64x5_2_2_1_1_0_0.contr.Idx) :
    (dot_S50000x64x5_S50000x5x5_S50000x64x5_2_2_1_1_0_0.lhsIdx j q 1).val = (j 1).val := by
  unfold DotDims.lhsIdx
  rw [dif_neg (show ¬(1 : Fin S50000x64x5.rank) ∈ dot_S50000x64x5_S50000x5x5_S50000x64x5_2_2_1_1_0_0.lhsBatch by decide),
    dif_pos (show (1 : Fin S50000x64x5.rank) ∈ dot_S50000x64x5_S50000x5x5_S50000x64x5_2_2_1_1_0_0.lhsNonContracting by decide)]
  rfl

theorem lhs5_2 (j : S50000x64x5.Idx) (q : dot_S50000x64x5_S50000x5x5_S50000x64x5_2_2_1_1_0_0.contr.Idx) :
    (dot_S50000x64x5_S50000x5x5_S50000x64x5_2_2_1_1_0_0.lhsIdx j q 2).val = (q ⟨0, by decide⟩).val :=
  dot_S50000x64x5_S50000x5x5_S50000x64x5_2_2_1_1_0_0.lhsIdx_val_of_single rfl j q

theorem rhs5_0 (j : S50000x64x5.Idx) (q : dot_S50000x64x5_S50000x5x5_S50000x64x5_2_2_1_1_0_0.contr.Idx) :
    (dot_S50000x64x5_S50000x5x5_S50000x64x5_2_2_1_1_0_0.rhsIdx j q 0).val = (j 0).val := by
  unfold DotDims.rhsIdx
  rw [dif_pos (show (0 : Fin S50000x5x5.rank) ∈ dot_S50000x64x5_S50000x5x5_S50000x64x5_2_2_1_1_0_0.rhsBatch by decide)]
  rfl

theorem rhs5_1 (j : S50000x64x5.Idx) (q : dot_S50000x64x5_S50000x5x5_S50000x64x5_2_2_1_1_0_0.contr.Idx) :
    (dot_S50000x64x5_S50000x5x5_S50000x64x5_2_2_1_1_0_0.rhsIdx j q 1).val = (j 2).val := by
  unfold DotDims.rhsIdx
  rw [dif_neg (show ¬(1 : Fin S50000x5x5.rank) ∈ dot_S50000x64x5_S50000x5x5_S50000x64x5_2_2_1_1_0_0.rhsBatch by decide),
    dif_pos (show (1 : Fin S50000x5x5.rank) ∈ dot_S50000x64x5_S50000x5x5_S50000x64x5_2_2_1_1_0_0.rhsNonContracting by decide)]
  rfl

theorem rhs5_2 (j : S50000x64x5.Idx) (q : dot_S50000x64x5_S50000x5x5_S50000x64x5_2_2_1_1_0_0.contr.Idx) :
    (dot_S50000x64x5_S50000x5x5_S50000x64x5_2_2_1_1_0_0.rhsIdx j q 2).val = (q ⟨0, by decide⟩).val :=
  dot_S50000x64x5_S50000x5x5_S50000x64x5_2_2_1_1_0_0.rhsIdx_val_of_single rfl j q

/-- The batched product of a `[50000, 64, 5]` block with the `[50000, 5, 5]` matrix blocks, contracting the last
    axis of both: entry `(n, μ, j)` is `Σ_k l(n, μ, k) · r(n, j, k)`. -/
theorem dot5_apply (l : S50000x64x5.Idx → EReal) (r : S50000x5x5.Idx → EReal) (j : S50000x64x5.Idx) :
    Host.dotGeneral (F := Ideal) (φ₁ := .f32) (φ₂ := .f32) dot_S50000x64x5_S50000x5x5_S50000x64x5_2_2_1_1_0_0 none l r j
      = ∑ k : Fin 5, l (ix3 (n0 := 50000) (n1 := 64) (n2 := 5) (j 0) (j 1) k)
          * r (ix3 (n0 := 50000) (n1 := 5) (n2 := 5) (j 0) (j 2) k) := by
  show FloatOps.dotGeneral (F := Ideal) (φ₁ := .f32) (φ₂ := .f32) dot_S50000x64x5_S50000x5x5_S50000x64x5_2_2_1_1_0_0 none .single l r j = _
  rw [Ideal.dotGeneral_apply, ← Equiv.sum_comp (contrEquiv1 dot_S50000x64x5_S50000x5x5_S50000x64x5_2_2_1_1_0_0 5 rfl rfl).symm]
  refine Finset.sum_congr rfl fun k _ => ?_
  have hk := contrEquiv1_symm_val dot_S50000x64x5_S50000x5x5_S50000x64x5_2_2_1_1_0_0 5 rfl rfl k
  have el : dot_S50000x64x5_S50000x5x5_S50000x64x5_2_2_1_1_0_0.lhsIdx j ((contrEquiv1 dot_S50000x64x5_S50000x5x5_S50000x64x5_2_2_1_1_0_0 5 rfl rfl).symm k)
      = ix3 (n0 := 50000) (n1 := 64) (n2 := 5) (j 0) (j 1) k := funext fun a => Fin.ext (by
    match a with
    | ⟨0, _⟩ => exact lhs5_0 _ _
    | ⟨1, _⟩ => exact lhs5_1 _ _
    | ⟨2, _⟩ => exact (lhs5_2 _ _).trans hk)
  have er : dot_S50000x64x5_S50000x5x5_S50000x64x5_2_2_1_1_0_0.rhsIdx j ((contrEquiv1 dot_S50000x64x5_S50000x5x5_S50000x64x5_2_2_1_1_0_0 5 rfl rfl).symm k)
      = ix3 (n0 := 50000) (n1 := 5) (n2 := 5) (j 0) (j 2) k := funext fun a => Fin.ext (by
    match a with
    | ⟨0, _⟩ => exact rhs5_0 _ _
    | ⟨1, _⟩ => exact rhs5_1 _ _
    | ⟨2, _⟩ => exact (rhs5_2 _ _).trans hk)
  rw [el, er]

/-! The operand indices of the degree's product (`[50000, 64, 7]` by `[50000, 7, 7]`, batch axis 0, contracting the
    last axis of both), coordinate by coordinate. -/

theorem lhs7_0 (j : S50000x64x7.Idx) (q : dot_S50000x64x7_S50000x7x7_S50000x64x7_2_2_1_1_0_0.contr.Idx) :
    (dot_S50000x64x7_S50000x7x7_S50000x64x7_2_2_1_1_0_0.lhsIdx j q 0).val = (j 0).val := by
  unfold DotDims.lhsIdx
  rw [dif_pos (show (0 : Fin S50000x64x7.rank) ∈ dot_S50000x64x7_S50000x7x7_S50000x64x7_2_2_1_1_0_0.lhsBatch by decide)]
  rfl

theorem lhs7_1 (j : S50000x64x7.Idx) (q : dot_S50000x64x7_S50000x7x7_S50000x64x7_2_2_1_1_0_0.contr.Idx) :
    (dot_S50000x64x7_S50000x7x7_S50000x64x7_2_2_1_1_0_0.lhsIdx j q 1).val = (j 1).val := by
  unfold DotDims.lhsIdx
  rw [dif_neg (show ¬(1 : Fin S50000x64x7.rank) ∈ dot_S50000x64x7_S50000x7x7_S50000x64x7_2_2_1_1_0_0.lhsBatch by decide),
    dif_pos (show (1 : Fin S50000x64x7.rank) ∈ dot_S50000x64x7_S50000x7x7_S50000x64x7_2_2_1_1_0_0.lhsNonContracting by decide)]
  rfl

theorem lhs7_2 (j : S50000x64x7.Idx) (q : dot_S50000x64x7_S50000x7x7_S50000x64x7_2_2_1_1_0_0.contr.Idx) :
    (dot_S50000x64x7_S50000x7x7_S50000x64x7_2_2_1_1_0_0.lhsIdx j q 2).val = (q ⟨0, by decide⟩).val :=
  dot_S50000x64x7_S50000x7x7_S50000x64x7_2_2_1_1_0_0.lhsIdx_val_of_single rfl j q

theorem rhs7_0 (j : S50000x64x7.Idx) (q : dot_S50000x64x7_S50000x7x7_S50000x64x7_2_2_1_1_0_0.contr.Idx) :
    (dot_S50000x64x7_S50000x7x7_S50000x64x7_2_2_1_1_0_0.rhsIdx j q 0).val = (j 0).val := by
  unfold DotDims.rhsIdx
  rw [dif_pos (show (0 : Fin S50000x7x7.rank) ∈ dot_S50000x64x7_S50000x7x7_S50000x64x7_2_2_1_1_0_0.rhsBatch by decide)]
  rfl

theorem rhs7_1 (j : S50000x64x7.Idx) (q : dot_S50000x64x7_S50000x7x7_S50000x64x7_2_2_1_1_0_0.contr.Idx) :
    (dot_S50000x64x7_S50000x7x7_S50000x64x7_2_2_1_1_0_0.rhsIdx j q 1).val = (j 2).val := by
  unfold DotDims.rhsIdx
  rw [dif_neg (show ¬(1 : Fin S50000x7x7.rank) ∈ dot_S50000x64x7_S50000x7x7_S50000x64x7_2_2_1_1_0_0.rhsBatch by decide),
    dif_pos (show (1 : Fin S50000x7x7.rank) ∈ dot_S50000x64x7_S50000x7x7_S50000x64x7_2_2_1_1_0_0.rhsNonContracting by decide)]
  rfl

theorem rhs7_2 (j : S50000x64x7.Idx) (q : dot_S50000x64x7_S50000x7x7_S50000x64x7_2_2_1_1_0_0.contr.Idx) :
    (dot_S50000x64x7_S50000x7x7_S50000x64x7_2_2_1_1_0_0.rhsIdx j q 2).val = (q ⟨0, by decide⟩).val :=
  dot_S50000x64x7_S50000x7x7_S50000x64x7_2_2_1_1_0_0.rhsIdx_val_of_single rfl j q

/-- The batched product of a `[50000, 64, 7]` block with the `[50000, 7, 7]` matrix blocks, contracting the last
    axis of both: entry `(n, μ, j)` is `Σ_k l(n, μ, k) · r(n, j, k)`. -/
theorem dot7_apply (l : S50000x64x7.Idx → EReal) (r : S50000x7x7.Idx → EReal) (j : S50000x64x7.Idx) :
    Host.dotGeneral (F := Ideal) (φ₁ := .f32) (φ₂ := .f32) dot_S50000x64x7_S50000x7x7_S50000x64x7_2_2_1_1_0_0 none l r j
      = ∑ k : Fin 7, l (ix3 (n0 := 50000) (n1 := 64) (n2 := 7) (j 0) (j 1) k)
          * r (ix3 (n0 := 50000) (n1 := 7) (n2 := 7) (j 0) (j 2) k) := by
  show FloatOps.dotGeneral (F := Ideal) (φ₁ := .f32) (φ₂ := .f32) dot_S50000x64x7_S50000x7x7_S50000x64x7_2_2_1_1_0_0 none .single l r j = _
  rw [Ideal.dotGeneral_apply, ← Equiv.sum_comp (contrEquiv1 dot_S50000x64x7_S50000x7x7_S50000x64x7_2_2_1_1_0_0 7 rfl rfl).symm]
  refine Finset.sum_congr rfl fun k _ => ?_
  have hk := contrEquiv1_symm_val dot_S50000x64x7_S50000x7x7_S50000x64x7_2_2_1_1_0_0 7 rfl rfl k
  have el : dot_S50000x64x7_S50000x7x7_S50000x64x7_2_2_1_1_0_0.lhsIdx j ((contrEquiv1 dot_S50000x64x7_S50000x7x7_S50000x64x7_2_2_1_1_0_0 7 rfl rfl).symm k)
      = ix3 (n0 := 50000) (n1 := 64) (n2 := 7) (j 0) (j 1) k := funext fun a => Fin.ext (by
    match a with
    | ⟨0, _⟩ => exact lhs7_0 _ _
    | ⟨1, _⟩ => exact lhs7_1 _ _
    | ⟨2, _⟩ => exact (lhs7_2 _ _).trans hk)
  have er : dot_S50000x64x7_S50000x7x7_S50000x64x7_2_2_1_1_0_0.rhsIdx j ((contrEquiv1 dot_S50000x64x7_S50000x7x7_S50000x64x7_2_2_1_1_0_0 7 rfl rfl).symm k)
      = ix3 (n0 := 50000) (n1 := 7) (n2 := 7) (j 0) (j 2) k := funext fun a => Fin.ext (by
    match a with
    | ⟨0, _⟩ => exact rhs7_0 _ _
    | ⟨1, _⟩ => exact rhs7_1 _ _
    | ⟨2, _⟩ => exact (rhs7_2 _ _).trans hk)
  rw [el, er]

end Layout

/-! ## The reference, from its four mixes -/

section Ref

variable (x0 : (⟨S50000x1024, .f32⟩ : BufTy).Contents (Elt Ideal)) (x2 : (⟨S50000x16x16, .f32⟩ : BufTy).Contents (Elt Ideal))
  (x3 : (⟨S256x256, .f32⟩ : BufTy).Contents (Elt Ideal)) (x4 : (⟨S256, .f32⟩ : BufTy).Contents (Elt Ideal))
  (x5 : (⟨S192x192, .f32⟩ : BufTy).Contents (Elt Ideal)) (x6 : (⟨S128x128, .f32⟩ : BufTy).Contents (Elt Ideal))
  (x7 : (⟨S64x64, .f32⟩ : BufTy).Contents (Elt Ideal))
variable
  (h26 : ∀ i : S50000x256.Idx, Vals.v26 (F := Ideal) x0 x2 x3 x4 x5 x6 x7 i
    = Spec.ym0 (fun k => at2 x0 (i 0).val k) (fun a a' => at3 x2 (i 0).val a a') (at2 x3) (at1 x4) (i 1).val)
  (h44 : ∀ i : S50000x2x192.Idx, Vals.v44 (F := Ideal) x0 x2 x3 x4 x5 x6 x7 i
    = if (i 1).val = 0 then Spec.ymm (fun k => at2 x0 (i 0).val k) (fun a a' => at3 x2 (i 0).val a a') (at2 x5) (at2 x6) (at2 x7) 1 (i 2).val
      else Spec.ypm (fun k => at2 x0 (i 0).val k) (fun a a' => at3 x2 (i 0).val a a') (at2 x5) (at2 x6) (at2 x7) 1 (i 2).val)
  (h58 : ∀ i : S50000x2x128.Idx, Vals.v58 (F := Ideal) x0 x2 x3 x4 x5 x6 x7 i
    = if (i 1).val = 0 then Spec.ymm (fun k => at2 x0 (i 0).val k) (fun a a' => at3 x2 (i 0).val a a') (at2 x5) (at2 x6) (at2 x7) 2 (i 2).val
      else Spec.ypm (fun k => at2 x0 (i 0).val k) (fun a a' => at3 x2 (i 0).val a a') (at2 x5) (at2 x6) (at2 x7) 2 (i 2).val)
  (h66 : ∀ i : S50000x2x64.Idx, Vals.v66 (F := Ideal) x0 x2 x3 x4 x5 x6 x7 i
    = if (i 1).val = 0 then Spec.ymm (fun k => at2 x0 (i 0).val k) (fun a a' => at3 x2 (i 0).val a a') (at2 x5) (at2 x6) (at2 x7) 3 (i 2).val
      else Spec.ypm (fun k => at2 x0 (i 0).val k) (fun a a' => at3 x2 (i 0).val a a') (at2 x5) (at2 x6) (at2 x7) 3 (i 2).val)
include h26 h44 h58 h66

/-! ### The mixes at an index given by its coordinates -/

theorem src26 (q : S50000x256.Idx) (n o : ℕ) (h0 : (q 0).val = n) (h1 : (q 1).val = o) :
    Vals.v26 (F := Ideal) x0 x2 x3 x4 x5 x6 x7 q = Spec.ym0 (fun k => at2 x0 n k) (fun a a' => at3 x2 n a a') (at2 x3) (at1 x4) o := by
  subst h0 h1
  exact h26 q

theorem src44m (q : S50000x2x192.Idx) (n o : ℕ) (h0 : (q 0).val = n) (h1 : (q 1).val = 0) (h2 : (q 2).val = o) :
    Vals.v44 (F := Ideal) x0 x2 x3 x4 x5 x6 x7 q = Spec.ymm (fun k => at2 x0 n k) (fun a a' => at3 x2 n a a') (at2 x5) (at2 x6) (at2 x7) 1 o := by
  subst h0 h2
  rw [h44 q, if_pos h1]

theorem src44p (q : S50000x2x192.Idx) (n o : ℕ) (h0 : (q 0).val = n) (h1 : (q 1).val = 1) (h2 : (q 2).val = o) :
    Vals.v44 (F := Ideal) x0 x2 x3 x4 x5 x6 x7 q = Spec.ypm (fun k => at2 x0 n k) (fun a a' => at3 x2 n a a') (at2 x5) (at2 x6) (at2 x7) 1 o := by
  subst h0 h2
  rw [h44 q, if_neg (by omega)]

theorem src58m (q : S50000x2x128.Idx) (n o : ℕ) (h0 : (q 0).val = n) (h1 : (q 1).val = 0) (h2 : (q 2).val = o) :
    Vals.v58 (F := Ideal) x0 x2 x3 x4 x5 x6 x7 q = Spec.ymm (fun k => at2 x0 n k) (fun a a' => at3 x2 n a a') (at2 x5) (at2 x6) (at2 x7) 2 o := by
  subst h0 h2
  rw [h58 q, if_pos h1]

theorem src58p (q : S50000x2x128.Idx) (n o : ℕ) (h0 : (q 0).val = n) (h1 : (q 1).val = 1) (h2 : (q 2).val = o) :
    Vals.v58 (F := Ideal) x0 x2 x3 x4 x5 x6 x7 q = Spec.ypm (fun k => at2 x0 n k) (fun a a' => at3 x2 n a a') (at2 x5) (at2 x6) (at2 x7) 2 o := by
  subst h0 h2
  rw [h58 q, if_neg (by omega)]

theorem src66m (q : S50000x2x64.Idx) (n o : ℕ) (h0 : (q 0).val = n) (h1 : (q 1).val = 0) (h2 : (q 2).val = o) :
    Vals.v66 (F := Ideal) x0 x2 x3 x4 x5 x6 x7 q = Spec.ymm (fun k => at2 x0 n k) (fun a a' => at3 x2 n a a') (at2 x5) (at2 x6) (at2 x7) 3 o := by
  subst h0 h2
  rw [h66 q, if_pos h1]

theorem src66p (q : S50000x2x64.Idx) (n o : ℕ) (h0 : (q 0).val = n) (h1 : (q 1).val = 1) (h2 : (q 2).val = o) :
    Vals.v66 (F := Ideal) x0 x2 x3 x4 x5 x6 x7 q = Spec.ypm (fun k => at2 x0 n k) (fun a a' => at3 x2 n a a') (at2 x5) (at2 x6) (at2 x7) 3 o := by
  subst h0 h2
  rw [h66 q, if_neg (by omega)]

/-! ### Degree 0: columns 0‥63 of the order-0 mix -/

theorem v69_row (i : S50000x64.Idx) (n μ : ℕ) (hn : (i 0).val = n) (hμ : (i 1).val = μ) :
    Vals.v69 (F := Ideal) x0 x2 x3 x4 x5 x6 x7 i = Spec.ym0 (fun k => at2 x0 n k) (fun a a' => at3 x2 n a a') (at2 x3) (at1 x4) μ := by
  have h0 : (i 0).val < 50000 := (i 0).isLt
  have h1 : (i 1).val < 64 := (i 1).isLt
  refine Eq.trans (unit_apply (Vals.v68 (F := Ideal) x0 x2 x3 x4 x5 x6 x7) _ i) ?_
  refine Eq.trans (piece2_apply (Vals.v26 (F := Ideal) x0 x2 x3 x4 x5 x6 x7) 0 _ _ _
    (ix2 (n0 := 50000) (n1 := 256) ⟨(i 0).val, h0⟩ ⟨0 + (i 1).val, by omega⟩) rfl rfl) ?_
  exact src26 x0 x2 x3 x4 x5 x6 x7 h26 h44 h58 h66 _ n μ hn (by show 0 + (i 1).val = μ; omega)

/-! ### Degree 1: 3 pieces, the 3 × 3 block from row and column 1 -/

theorem p75 (p : S50000x64x1.Idx) (n μ : ℕ) (hn : (p 0).val = n) (hμ : (p 1).val = μ) :
    Vals.v75 (F := Ideal) x0 x2 x3 x4 x5 x6 x7 p = Spec.ymm (fun k => at2 x0 n k) (fun a a' => at3 x2 n a a') (at2 x5) (at2 x6) (at2 x7) 1 μ := by
  have h0 : (p 0).val < 50000 := (p 0).isLt
  have h1 : (p 1).val < 64 := (p 1).isLt
  refine Eq.trans (piece3_apply (Vals.v44 (F := Ideal) x0 x2 x3 x4 x5 x6 x7) 0 0 _ _ _ p
    (ix3 (n0 := 50000) (n1 := 2) (n2 := 192) ⟨(p 0).val, h0⟩ ⟨0, by omega⟩ ⟨0 + (p 1).val, by omega⟩) rfl rfl rfl) ?_
  exact src44m x0 x2 x3 x4 x5 x6 x7 h26 h44 h58 h66 _ n μ hn rfl (by show 0 + (p 1).val = μ; omega)

theorem p76 (p : S50000x64x1.Idx) (n μ : ℕ) (hn : (p 0).val = n) (hμ : (p 1).val = μ) :
    Vals.v76 (F := Ideal) x0 x2 x3 x4 x5 x6 x7 p = Spec.ym0 (fun k => at2 x0 n k) (fun a a' => at3 x2 n a a') (at2 x3) (at1 x4) (64 + μ) := by
  have h0 : (p 0).val < 50000 := (p 0).isLt
  have h1 : (p 1).val < 64 := (p 1).isLt
  refine Eq.trans (piece2_apply (Vals.v26 (F := Ideal) x0 x2 x3 x4 x5 x6 x7) 64 _ _ p
    (ix2 (n0 := 50000) (n1 := 256) ⟨(p 0).val, h0⟩ ⟨64 + (p 1).val, by omega⟩) rfl rfl) ?_
  exact src26 x0 x2 x3 x4 x5 x6 x7 h26 h44 h58 h66 _ n (64 + μ) hn (by show 64 + (p 1).val = 64 + μ; omega)

theorem p77 (p : S50000x64x1.Idx) (n μ : ℕ) (hn : (p 0).val = n) (hμ : (p 1).val = μ) :
    Vals.v77 (F := Ideal) x0 x2 x3 x4 x5 x6 x7 p = Spec.ypm (fun k => at2 x0 n k) (fun a a' => at3 x2 n a a') (at2 x5) (at2 x6) (at2 x7) 1 μ := by
  have h0 : (p 0).val < 50000 := (p 0).isLt
  have h1 : (p 1).val < 64 := (p 1).isLt
  refine Eq.trans (piece3_apply (Vals.v44 (F := Ideal) x0 x2 x3 x4 x5 x6 x7) 1 0 _ _ _ p
    (ix3 (n0 := 50000) (n1 := 2) (n2 := 192) ⟨(p 0).val, h0⟩ ⟨1, by omega⟩ ⟨0 + (p 1).val, by omega⟩) rfl rfl rfl) ?_
  exact src44p x0 x2 x3 x4 x5 x6 x7 h26 h44 h58 h66 _ n μ hn rfl (by show 0 + (p 1).val = μ; omega)

/-- The regrouped block of degree 1 at `(n, μ, c)`. -/
theorem v78_C (j : S50000x64x3.Idx) :
    Vals.v78 (F := Ideal) x0 x2 x3 x4 x5 x6 x7 j
      = Spec.C (fun k => at2 x0 (j 0).val k) (fun a a' => at3 x2 (j 0).val a a') (at2 x3) (at1 x4) (at2 x5) (at2 x6) (at2 x7) 1 (j 2).val (j 1).val := by
  have h2 : (j 2).val < 3 := (j 2).isLt
  obtain h | h | h : (j 2).val = 0 ∨ (j 2).val = 1 ∨ (j 2).val = 2 := by omega
  · exact Eq.trans (cat_last _ _ j 0 (Vals.v75 (F := Ideal) x0 x2 x3 x4 x5 x6 x7) (by rfl) (by rfl) h)
      (Eq.trans (p75 x0 x2 x3 x4 x5 x6 x7 h26 h44 h58 h66 (ix3 (n0 := 50000) (n1 := 64) (n2 := 1) (j 0) (j 1) ⟨0, Nat.one_pos⟩) (j 0).val (j 1).val rfl rfl)
        (by rw [h, C_1_0]))
  · exact Eq.trans (cat_last _ _ j 1 (Vals.v76 (F := Ideal) x0 x2 x3 x4 x5 x6 x7) (by rfl) (by rfl) h)
      (Eq.trans (p76 x0 x2 x3 x4 x5 x6 x7 h26 h44 h58 h66 (ix3 (n0 := 50000) (n1 := 64) (n2 := 1) (j 0) (j 1) ⟨0, Nat.one_pos⟩) (j 0).val (j 1).val rfl rfl)
        (by rw [h, C_1_1]))
  · exact Eq.trans (cat_last _ _ j 2 (Vals.v77 (F := Ideal) x0 x2 x3 x4 x5 x6 x7) (by rfl) (by rfl) h)
      (Eq.trans (p77 x0 x2 x3 x4 x5 x6 x7 h26 h44 h58 h66 (ix3 (n0 := 50000) (n1 := 64) (n2 := 1) (j 0) (j 1) ⟨0, Nat.one_pos⟩) (j 0).val (j 1).val rfl rfl)
        (by rw [h, C_1_2]))

/-- The matrix block of degree 1: rows and columns from 1. -/
theorem m79 (i : S50000x3x3.Idx) :
    Vals.v79 (F := Ideal) x0 x2 x3 x4 x5 x6 x7 i = at3 x2 (i 0).val (1 + (i 1).val) (1 + (i 2).val) := by
  have h1 : (i 1).val < 3 := (i 1).isLt
  have h2 : (i 2).val < 3 := (i 2).isLt
  refine Eq.trans (extractStridedSlice_apply ![0, 1, 1] x2 _ i
    (ix3 (n0 := 50000) (n1 := 16) (n2 := 16) (i 0) ⟨1 + (i 1).val, by omega⟩ ⟨1 + (i 2).val, by omega⟩) (fun a => ?_)) ?_
  · match a with
    | ⟨0, _⟩ => show (i 0).val = 0 + (i 0).val; omega
    | ⟨1, _⟩ => show 1 + (i 1).val = 1 + (i 1).val; rfl
    | ⟨2, _⟩ => show 1 + (i 2).val = 1 + (i 2).val; rfl
  · exact at3_ix x2 _ _ _

/-- The block of degree 1 rotated back, at `(n, μ, j)`. -/
theorem v80_row (j : S50000x64x3.Idx) (n μ c : ℕ) (hn : (j 0).val = n) (hμ : (j 1).val = μ) (hc : (j 2).val = c) :
    Vals.v80 (F := Ideal) x0 x2 x3 x4 x5 x6 x7 j
      = Spec.out (fun k => at2 x0 n k) (fun a a' => at3 x2 n a a') (at2 x3) (at1 x4) (at2 x5) (at2 x6) (at2 x7) 1 μ c := by
  subst hn hμ hc
  refine Eq.trans (dot3_apply (Vals.v78 (F := Ideal) x0 x2 x3 x4 x5 x6 x7) (Vals.v79 (F := Ideal) x0 x2 x3 x4 x5 x6 x7) j) ?_
  rw [out_1]
  refine Finset.sum_congr rfl fun k _ => ?_
  rw [v78_C x0 x2 x3 x4 x5 x6 x7 h26 h44 h58 h66, m79 x0 x2 x3 x4 x5 x6 x7 h26 h44 h58 h66]

/-- Degree 1 of the result: column `q` of its 192 is channel `q / 3`, component `q % 3`. -/
theorem v81_row (i : S50000x192.Idx) (n q : ℕ) (hn : (i 0).val = n) (hq : (i 1).val = q) :
    Vals.v81 (F := Ideal) x0 x2 x3 x4 x5 x6 x7 i
      = Spec.out (fun k => at2 x0 n k) (fun a a' => at3 x2 n a a') (at2 x3) (at1 x4) (at2 x5) (at2 x6) (at2 x7) 1 (q / 3) (q % 3) := by
  have h0 : (i 0).val < 50000 := (i 0).isLt
  have h1 : (i 1).val < 192 := (i 1).isLt
  refine Eq.trans (shapeCast_apply (Vals.v80 (F := Ideal) x0 x2 x3 x4 x5 x6 x7) _ i
    (ix3 (n0 := 50000) (n1 := 64) (n2 := 3) (i 0) ⟨(i 1).val / 3, by omega⟩ ⟨(i 1).val % 3, by omega⟩) ?_) ?_
  · rw [Shape.rowMajor_val_three, Shape.rowMajor_val_two]
    show ((i 0).val * 64 + (i 1).val / 3) * 3 + (i 1).val % 3 = (i 0).val * 192 + (i 1).val
    omega
  · exact v80_row x0 x2 x3 x4 x5 x6 x7 h26 h44 h58 h66 _ n (q / 3) (q % 3) hn (by show (i 1).val / 3 = q / 3; rw [hq])
      (by show (i 1).val % 3 = q % 3; rw [hq])

/-! ### Degree 2: 5 pieces, the 5 × 5 block from row and column 4 -/

theorem p91 (p : S50000x64x1.Idx) (n μ : ℕ) (hn : (p 0).val = n) (hμ : (p 1).val = μ) :
    Vals.v91 (F := Ideal) x0 x2 x3 x4 x5 x6 x7 p = Spec.ymm (fun k => at2 x0 n k) (fun a a' => at3 x2 n a a') (at2 x5) (at2 x6) (at2 x7) 2 μ := by
  have h0 : (p 0).val < 50000 := (p 0).isLt
  have h1 : (p 1).val < 64 := (p 1).isLt
  refine Eq.trans (piece3_apply (Vals.v58 (F := Ideal) x0 x2 x3 x4 x5 x6 x7) 0 0 _ _ _ p
    (ix3 (n0 := 50000) (n1 := 2) (n2 := 128) ⟨(p 0).val, h0⟩ ⟨0, by omega⟩ ⟨0 + (p 1).val, by omega⟩) rfl rfl rfl) ?_
  exact src58m x0 x2 x3 x4 x5 x6 x7 h26 h44 h58 h66 _ n μ hn rfl (by show 0 + (p 1).val = μ; omega)

theorem p92 (p : S50000x64x1.Idx) (n μ : ℕ) (hn : (p 0).val = n) (hμ : (p 1).val = μ) :
    Vals.v92 (F := Ideal) x0 x2 x3 x4 x5 x6 x7 p = Spec.ymm (fun k => at2 x0 n k) (fun a a' => at3 x2 n a a') (at2 x5) (at2 x6) (at2 x7) 1 (64 + μ) := by
  have h0 : (p 0).val < 50000 := (p 0).isLt
  have h1 : (p 1).val < 64 := (p 1).isLt
  refine Eq.trans (piece3_apply (Vals.v44 (F := Ideal) x0 x2 x3 x4 x5 x6 x7) 0 64 _ _ _ p
    (ix3 (n0 := 50000) (n1 := 2) (n2 := 192) ⟨(p 0).val, h0⟩ ⟨0, by omega⟩ ⟨64 + (p 1).val, by omega⟩) rfl rfl rfl) ?_
  exact src44m x0 x2 x3 x4 x5 x6 x7 h26 h44 h58 h66 _ n (64 + μ) hn rfl (by show 64 + (p 1).val = 64 + μ; omega)

theorem p93 (p : S50000x64x1.Idx) (n μ : ℕ) (hn : (p 0).val = n) (hμ : (p 1).val = μ) :
    Vals.v93 (F := Ideal) x0 x2 x3 x4 x5 x6 x7 p = Spec.ym0 (fun k => at2 x0 n k) (fun a a' => at3 x2 n a a') (at2 x3) (at1 x4) (128 + μ) := by
  have h0 : (p 0).val < 50000 := (p 0).isLt
  have h1 : (p 1).val < 64 := (p 1).isLt
  refine Eq.trans (piece2_apply (Vals.v26 (F := Ideal) x0 x2 x3 x4 x5 x6 x7) 128 _ _ p
    (ix2 (n0 := 50000) (n1 := 256) ⟨(p 0).val, h0⟩ ⟨128 + (p 1).val, by omega⟩) rfl rfl) ?_
  exact src26 x0 x2 x3 x4 x5 x6 x7 h26 h44 h58 h66 _ n (128 + μ) hn (by show 128 + (p 1).val = 128 + μ; omega)

theorem p94 (p : S50000x64x1.Idx) (n μ : ℕ) (hn : (p 0).val = n) (hμ : (p 1).val = μ) :
    Vals.v94 (F := Ideal) x0 x2 x3 x4 x5 x6 x7 p = Spec.ypm (fun k => at2 x0 n k) (fun a a' => at3 x2 n a a') (at2 x5) (at2 x6) (at2 x7) 1 (64 + μ) := by
  have h0 : (p 0).val < 50000 := (p 0).isLt
  have h1 : (p 1).val < 64 := (p 1).isLt
  refine Eq.trans (piece3_apply (Vals.v44 (F := Ideal) x0 x2 x3 x4 x5 x6 x7) 1 64 _ _ _ p
    (ix3 (n0 := 50000) (n1 := 2) (n2 := 192) ⟨(p 0).val, h0⟩ ⟨1, by omega⟩ ⟨64 + (p 1).val, by omega⟩) rfl rfl rfl) ?_
  exact src44p x0 x2 x3 x4 x5 x6 x7 h26 h44 h58 h66 _ n (64 + μ) hn rfl (by show 64 + (p 1).val = 64 + μ; omega)

theorem p95 (p : S50000x64x1.Idx) (n μ : ℕ) (hn : (p 0).val = n) (hμ : (p 1).val = μ) :
    Vals.v95 (F := Ideal) x0 x2 x3 x4 x5 x6 x7 p = Spec.ypm (fun k => at2 x0 n k) (fun a a' => at3 x2 n a a') (at2 x5) (at2 x6) (at2 x7) 2 μ := by
  have h0 : (p 0).val < 50000 := (p 0).isLt
  have h1 : (p 1).val < 64 := (p 1).isLt
  refine Eq.trans (piece3_apply (Vals.v58 (F := Ideal) x0 x2 x3 x4 x5 x6 x7) 1 0 _ _ _ p
    (ix3 (n0 := 50000) (n1 := 2) (n2 := 128) ⟨(p 0).val, h0⟩ ⟨1, by omega⟩ ⟨0 + (p 1).val, by omega⟩) rfl rfl rfl) ?_
  exact src58p x0 x2 x3 x4 x5 x6 x7 h26 h44 h58 h66 _ n μ hn rfl (by show 0 + (p 1).val = μ; omega)

/-- The regrouped block of degree 2 at `(n, μ, c)`. -/
theorem v96_C (j : S50000x64x5.Idx) :
    Vals.v96 (F := Ideal) x0 x2 x3 x4 x5 x6 x7 j
      = Spec.C (fun k => at2 x0 (j 0).val k) (fun a a' => at3 x2 (j 0).val a a') (at2 x3) (at1 x4) (at2 x5) (at2 x6) (at2 x7) 2 (j 2).val (j 1).val := by
  have h2 : (j 2).val < 5 := (j 2).isLt
  obtain h | h | h | h | h : (j 2).val = 0 ∨ (j 2).val = 1 ∨ (j 2).val = 2 ∨ (j 2).val = 3 ∨ (j 2).val = 4 := by omega
  · exact Eq.trans (cat_last _ _ j 0 (Vals.v91 (F := Ideal) x0 x2 x3 x4 x5 x6 x7) (by rfl) (by rfl) h)
      (Eq.trans (p91 x0 x2 x3 x4 x5 x6 x7 h26 h44 h58 h66 (ix3 (n0 := 50000) (n1 := 64) (n2 := 1) (j 0) (j 1) ⟨0, Nat.one_pos⟩) (j 0).val (j 1).val rfl rfl)
        (by rw [h, C_2_0]))
  · exact Eq.trans (cat_last _ _ j 1 (Vals.v92 (F := Ideal) x0 x2 x3 x4 x5 x6 x7) (by rfl) (by rfl) h)
      (Eq.trans (p92 x0 x2 x3 x4 x5 x6 x7 h26 h44 h58 h66 (ix3 (n0 := 50000) (n1 := 64) (n2 := 1) (j 0) (j 1) ⟨0, Nat.one_pos⟩) (j 0).val (j 1).val rfl rfl)
        (by rw [h, C_2_1]))
  · exact Eq.trans (cat_last _ _ j 2 (Vals.v93 (F := Ideal) x0 x2 x3 x4 x5 x6 x7) (by rfl) (by rfl) h)
      (Eq.trans (p93 x0 x2 x3 x4 x5 x6 x7 h26 h44 h58 h66 (ix3 (n0 := 50000) (n1 := 64) (n2 := 1) (j 0) (j 1) ⟨0, Nat.one_pos⟩) (j 0).val (j 1).val rfl rfl)
        (by rw [h, C_2_2]))
  · exact Eq.trans (cat_last _ _ j 3 (Vals.v94 (F := Ideal) x0 x2 x3 x4 x5 x6 x7) (by rfl) (by rfl) h)
      (Eq.trans (p94 x0 x2 x3 x4 x5 x6 x7 h26 h44 h58 h66 (ix3 (n0 := 50000) (n1 := 64) (n2 := 1) (j 0) (j 1) ⟨0, Nat.one_pos⟩) (j 0).val (j 1).val rfl rfl)
        (by rw [h, C_2_3]))
  · exact Eq.trans (cat_last _ _ j 4 (Vals.v95 (F := Ideal) x0 x2 x3 x4 x5 x6 x7) (by rfl) (by rfl) h)
      (Eq.trans (p95 x0 x2 x3 x4 x5 x6 x7 h26 h44 h58 h66 (ix3 (n0 := 50000) (n1 := 64) (n2 := 1) (j 0) (j 1) ⟨0, Nat.one_pos⟩) (j 0).val (j 1).val rfl rfl)
        (by rw [h, C_2_4]))

/-- The matrix block of degree 2: rows and columns from 4. -/
theorem m97 (i : S50000x5x5.Idx) :
    Vals.v97 (F := Ideal) x0 x2 x3 x4 x5 x6 x7 i = at3 x2 (i 0).val (4 + (i 1).val) (4 + (i 2).val) := by
  have h1 : (i 1).val < 5 := (i 1).isLt
  have h2 : (i 2).val < 5 := (i 2).isLt
  refine Eq.trans (extractStridedSlice_apply ![0, 4, 4] x2 _ i
    (ix3 (n0 := 50000) (n1 := 16) (n2 := 16) (i 0) ⟨4 + (i 1).val, by omega⟩ ⟨4 + (i 2).val, by omega⟩) (fun a => ?_)) ?_
  · match a with
    | ⟨0, _⟩ => show (i 0).val = 0 + (i 0).val; omega
    | ⟨1, _⟩ => show 4 + (i 1).val = 4 + (i 1).val; rfl
    | ⟨2, _⟩ => show 4 + (i 2).val = 4 + (i 2).val; rfl
  · exact at3_ix x2 _ _ _

/-- The block of degree 2 rotated back, at `(n, μ, j)`. -/
theorem v98_row (j : S50000x64x5.Idx) (n μ c : ℕ) (hn : (j 0).val = n) (hμ : (j 1).val = μ) (hc : (j 2).val = c) :
    Vals.v98 (F := Ideal) x0 x2 x3 x4 x5 x6 x7 j
      = Spec.out (fun k => at2 x0 n k) (fun a a' => at3 x2 n a a') (at2 x3) (at1 x4) (at2 x5) (at2 x6) (at2 x7) 2 μ c := by
  subst hn hμ hc
  refine Eq.trans (dot5_apply (Vals.v96 (F := Ideal) x0 x2 x3 x4 x5 x6 x7) (Vals.v97 (F := Ideal) x0 x2 x3 x4 x5 x6 x7) j) ?_
  rw [out_2]
  refine Finset.sum_congr rfl fun k _ => ?_
  rw [v96_C x0 x2 x3 x4 x5 x6 x7 h26 h44 h58 h66, m97 x0 x2 x3 x4 x5 x6 x7 h26 h44 h58 h66]

/-- Degree 2 of the result: column `q` of its 320 is channel `q / 5`, component `q % 5`. -/
theorem v99_row (i : S50000x320.Idx) (n q : ℕ) (hn : (i 0).val = n) (hq : (i 1).val = q) :
    Vals.v99 (F := Ideal) x0 x2 x3 x4 x5 x6 x7 i
      = Spec.out (fun k => at2 x0 n k) (fun a a' => at3 x2 n a a') (at2 x3) (at1 x4) (at2 x5) (at2 x6) (at2 x7) 2 (q / 5) (q % 5) := by
  have h0 : (i 0).val < 50000 := (i 0).isLt
  have h1 : (i 1).val < 320 := (i 1).isLt
  refine Eq.trans (shapeCast_apply (Vals.v98 (F := Ideal) x0 x2 x3 x4 x5 x6 x7) _ i
    (ix3 (n0 := 50000) (n1 := 64) (n2 := 5) (i 0) ⟨(i 1).val / 5, by omega⟩ ⟨(i 1).val % 5, by omega⟩) ?_) ?_
  · rw [Shape.rowMajor_val_three, Shape.rowMajor_val_two]
    show ((i 0).val * 64 + (i 1).val / 5) * 5 + (i 1).val % 5 = (i 0).val * 320 + (i 1).val
    omega
  · exact v98_row x0 x2 x3 x4 x5 x6 x7 h26 h44 h58 h66 _ n (q / 5) (q % 5) hn (by show (i 1).val / 5 = q / 5; rw [hq])
      (by show (i 1).val % 5 = q % 5; rw [hq])

/-! ### Degree 3: 7 pieces, the 7 × 7 block from row and column 9 -/

theorem p113 (p : S50000x64x1.Idx) (n μ : ℕ) (hn : (p 0).val = n) (hμ : (p 1).val = μ) :
    Vals.v113 (F := Ideal) x0 x2 x3 x4 x5 x6 x7 p = Spec.ymm (fun k => at2 x0 n k) (fun a a' => at3 x2 n a a') (at2 x5) (at2 x6) (at2 x7) 3 μ := by
  have h0 : (p 0).val < 50000 := (p 0).isLt
  have h1 : (p 1).val < 64 := (p 1).isLt
  refine Eq.trans (piece3_apply (Vals.v66 (F := Ideal) x0 x2 x3 x4 x5 x6 x7) 0 0 _ _ _ p
    (ix3 (n0 := 50000) (n1 := 2) (n2 := 64) ⟨(p 0).val, h0⟩ ⟨0, by omega⟩ ⟨0 + (p 1).val, by omega⟩) rfl rfl rfl) ?_
  exact src66m x0 x2 x3 x4 x5 x6 x7 h26 h44 h58 h66 _ n μ hn rfl (by show 0 + (p 1).val = μ; omega)

theorem p114 (p : S50000x64x1.Idx) (n μ : ℕ) (hn : (p 0).val = n) (hμ : (p 1).val = μ) :
    Vals.v114 (F := Ideal) x0 x2 x3 x4 x5 x6 x7 p = Spec.ymm (fun k => at2 x0 n k) (fun a a' => at3 x2 n a a') (at2 x5) (at2 x6) (at2 x7) 2 (64 + μ) := by
  have h0 : (p 0).val < 50000 := (p 0).isLt
  have h1 : (p 1).val < 64 := (p 1).isLt
  refine Eq.trans (piece3_apply (Vals.v58 (F := Ideal) x0 x2 x3 x4 x5 x6 x7) 0 64 _ _ _ p
    (ix3 (n0 := 50000) (n1 := 2) (n2 := 128) ⟨(p 0).val, h0⟩ ⟨0, by omega⟩ ⟨64 + (p 1).val, by omega⟩) rfl rfl rfl) ?_
  exact src58m x0 x2 x3 x4 x5 x6 x7 h26 h44 h58 h66 _ n (64 + μ) hn rfl (by show 64 + (p 1).val = 64 + μ; omega)

theorem p115 (p : S50000x64x1.Idx) (n μ : ℕ) (hn : (p 0).val = n) (hμ : (p 1).val = μ) :
    Vals.v115 (F := Ideal) x0 x2 x3 x4 x5 x6 x7 p = Spec.ymm (fun k => at2 x0 n k) (fun a a' => at3 x2 n a a') (at2 x5) (at2 x6) (at2 x7) 1 (128 + μ) := by
  have h0 : (p 0).val < 50000 := (p 0).isLt
  have h1 : (p 1).val < 64 := (p 1).isLt
  refine Eq.trans (piece3_apply (Vals.v44 (F := Ideal) x0 x2 x3 x4 x5 x6 x7) 0 128 _ _ _ p
    (ix3 (n0 := 50000) (n1 := 2) (n2 := 192) ⟨(p 0).val, h0⟩ ⟨0, by omega⟩ ⟨128 + (p 1).val, by omega⟩) rfl rfl rfl) ?_
  exact src44m x0 x2 x3 x4 x5 x6 x7 h26 h44 h58 h66 _ n (128 + μ) hn rfl (by show 128 + (p 1).val = 128 + μ; omega)

theorem p116 (p : S50000x64x1.Idx) (n μ : ℕ) (hn : (p 0).val = n) (hμ : (p 1).val = μ) :
    Vals.v116 (F := Ideal) x0 x2 x3 x4 x5 x6 x7 p = Spec.ym0 (fun k => at2 x0 n k) (fun a a' => at3 x2 n a a') (at2 x3) (at1 x4) (192 + μ) := by
  have h0 : (p 0).val < 50000 := (p 0).isLt
  have h1 : (p 1).val < 64 := (p 1).isLt
  refine Eq.trans (piece2_apply (Vals.v26 (F := Ideal) x0 x2 x3 x4 x5 x6 x7) 192 _ _ p
    (ix2 (n0 := 50000) (n1 := 256) ⟨(p 0).val, h0⟩ ⟨192 + (p 1).val, by omega⟩) rfl rfl) ?_
  exact src26 x0 x2 x3 x4 x5 x6 x7 h26 h44 h58 h66 _ n (192 + μ) hn (by show 192 + (p 1).val = 192 + μ; omega)

theorem p117 (p : S50000x64x1.Idx) (n μ : ℕ) (hn : (p 0).val = n) (hμ : (p 1).val = μ) :
    Vals.v117 (F := Ideal) x0 x2 x3 x4 x5 x6 x7 p = Spec.ypm (fun k => at2 x0 n k) (fun a a' => at3 x2 n a a') (at2 x5) (at2 x6) (at2 x7) 1 (128 + μ) := by
  have h0 : (p 0).val < 50000 := (p 0).isLt
  have h1 : (p 1).val < 64 := (p 1).isLt
  refine Eq.trans (piece3_apply (Vals.v44 (F := Ideal) x0 x2 x3 x4 x5 x6 x7) 1 128 _ _ _ p
    (ix3 (n0 := 50000) (n1 := 2) (n2 := 192) ⟨(p 0).val, h0⟩ ⟨1, by omega⟩ ⟨128 + (p 1).val, by omega⟩) rfl rfl rfl) ?_
  exact src44p x0 x2 x3 x4 x5 x6 x7 h26 h44 h58 h66 _ n (128 + μ) hn rfl (by show 128 + (p 1).val = 128 + μ; omega)

theorem p118 (p : S50000x64x1.Idx) (n μ : ℕ) (hn : (p 0).val = n) (hμ : (p 1).val = μ) :
    Vals.v118 (F := Ideal) x0 x2 x3 x4 x5 x6 x7 p = Spec.ypm (fun k => at2 x0 n k) (fun a a' => at3 x2 n a a') (at2 x5) (at2 x6) (at2 x7) 2 (64 + μ) := by
  have h0 : (p 0).val < 50000 := (p 0).isLt
  have h1 : (p 1).val < 64 := (p 1).isLt
  refine Eq.trans (piece3_apply (Vals.v58 (F := Ideal) x0 x2 x3 x4 x5 x6 x7) 1 64 _ _ _ p
    (ix3 (n0 := 50000) (n1 := 2) (n2 := 128) ⟨(p 0).val, h0⟩ ⟨1, by omega⟩ ⟨64 + (p 1).val, by omega⟩) rfl rfl rfl) ?_
  exact src58p x0 x2 x3 x4 x5 x6 x7 h26 h44 h58 h66 _ n (64 + μ) hn rfl (by show 64 + (p 1).val = 64 + μ; omega)

theorem p119 (p : S50000x64x1.Idx) (n μ : ℕ) (hn : (p 0).val = n) (hμ : (p 1).val = μ) :
    Vals.v119 (F := Ideal) x0 x2 x3 x4 x5 x6 x7 p = Spec.ypm (fun k => at2 x0 n k) (fun a a' => at3 x2 n a a') (at2 x5) (at2 x6) (at2 x7) 3 μ := by
  have h0 : (p 0).val < 50000 := (p 0).isLt
  have h1 : (p 1).val < 64 := (p 1).isLt
  refine Eq.trans (piece3_apply (Vals.v66 (F := Ideal) x0 x2 x3 x4 x5 x6 x7) 1 0 _ _ _ p
    (ix3 (n0 := 50000) (n1 := 2) (n2 := 64) ⟨(p 0).val, h0⟩ ⟨1, by omega⟩ ⟨0 + (p 1).val, by omega⟩) rfl rfl rfl) ?_
  exact src66p x0 x2 x3 x4 x5 x6 x7 h26 h44 h58 h66 _ n μ hn rfl (by show 0 + (p 1).val = μ; omega)

/-- The regrouped block of degree 3 at `(n, μ, c)`. -/
theorem v120_C (j : S50000x64x7.Idx) :
    Vals.v120 (F := Ideal) x0 x2 x3 x4 x5 x6 x7 j
      = Spec.C (fun k => at2 x0 (j 0).val k) (fun a a' => at3 x2 (j 0).val a a') (at2 x3) (at1 x4) (at2 x5) (at2 x6) (at2 x7) 3 (j 2).val (j 1).val := by
  have h2 : (j 2).val < 7 := (j 2).isLt
  obtain h | h | h | h | h | h | h : (j 2).val = 0 ∨ (j 2).val = 1 ∨ (j 2).val = 2 ∨ (j 2).val = 3 ∨ (j 2).val = 4 ∨ (j 2).val = 5 ∨ (j 2).val = 6 := by omega
  · exact Eq.trans (cat_last _ _ j 0 (Vals.v113 (F := Ideal) x0 x2 x3 x4 x5 x6 x7) (by rfl) (by rfl) h)
      (Eq.trans (p113 x0 x2 x3 x4 x5 x6 x7 h26 h44 h58 h66 (ix3 (n0 := 50000) (n1 := 64) (n2 := 1) (j 0) (j 1) ⟨0, Nat.one_pos⟩) (j 0).val (j 1).val rfl rfl)
        (by rw [h, C_3_0]))
  · exact Eq.trans (cat_last _ _ j 1 (Vals.v114 (F := Ideal) x0 x2 x3 x4 x5 x6 x7) (by rfl) (by rfl) h)
      (Eq.trans (p114 x0 x2 x3 x4 x5 x6 x7 h26 h44 h58 h66 (ix3 (n0 := 50000) (n1 := 64) (n2 := 1) (j 0) (j 1) ⟨0, Nat.one_pos⟩) (j 0).val (j 1).val rfl rfl)
        (by rw [h, C_3_1]))
  · exact Eq.trans (cat_last _ _ j 2 (Vals.v115 (F := Ideal) x0 x2 x3 x4 x5 x6 x7) (by rfl) (by rfl) h)
      (Eq.trans (p115 x0 x2 x3 x4 x5 x6 x7 h26 h44 h58 h66 (ix3 (n0 := 50000) (n1 := 64) (n2 := 1) (j 0) (j 1) ⟨0, Nat.one_pos⟩) (j 0).val (j 1).val rfl rfl)
        (by rw [h, C_3_2]))
  · exact Eq.trans (cat_last _ _ j 3 (Vals.v116 (F := Ideal) x0 x2 x3 x4 x5 x6 x7) (by rfl) (by rfl) h)
      (Eq.trans (p116 x0 x2 x3 x4 x5 x6 x7 h26 h44 h58 h66 (ix3 (n0 := 50000) (n1 := 64) (n2 := 1) (j 0) (j 1) ⟨0, Nat.one_pos⟩) (j 0).val (j 1).val rfl rfl)
        (by rw [h, C_3_3]))
  · exact Eq.trans (cat_last _ _ j 4 (Vals.v117 (F := Ideal) x0 x2 x3 x4 x5 x6 x7) (by rfl) (by rfl) h)
      (Eq.trans (p117 x0 x2 x3 x4 x5 x6 x7 h26 h44 h58 h66 (ix3 (n0 := 50000) (n1 := 64) (n2 := 1) (j 0) (j 1) ⟨0, Nat.one_pos⟩) (j 0).val (j 1).val rfl rfl)
        (by rw [h, C_3_4]))
  · exact Eq.trans (cat_last _ _ j 5 (Vals.v118 (F := Ideal) x0 x2 x3 x4 x5 x6 x7) (by rfl) (by rfl) h)
      (Eq.trans (p118 x0 x2 x3 x4 x5 x6 x7 h26 h44 h58 h66 (ix3 (n0 := 50000) (n1 := 64) (n2 := 1) (j 0) (j 1) ⟨0, Nat.one_pos⟩) (j 0).val (j 1).val rfl rfl)
        (by rw [h, C_3_5]))
  · exact Eq.trans (cat_last _ _ j 6 (Vals.v119 (F := Ideal) x0 x2 x3 x4 x5 x6 x7) (by rfl) (by rfl) h)
      (Eq.trans (p119 x0 x2 x3 x4 x5 x6 x7 h26 h44 h58 h66 (ix3 (n0 := 50000) (n1 := 64) (n2 := 1) (j 0) (j 1) ⟨0, Nat.one_pos⟩) (j 0).val (j 1).val rfl rfl)
        (by rw [h, C_3_6]))

/-- The matrix block of degree 3: rows and columns from 9. -/
theorem m121 (i : S50000x7x7.Idx) :
    Vals.v121 (F := Ideal) x0 x2 x3 x4 x5 x6 x7 i = at3 x2 (i 0).val (9 + (i 1).val) (9 + (i 2).val) := by
  have h1 : (i 1).val < 7 := (i 1).isLt
  have h2 : (i 2).val < 7 := (i 2).isLt
  refine Eq.trans (extractStridedSlice_apply ![0, 9, 9] x2 _ i
    (ix3 (n0 := 50000) (n1 := 16) (n2 := 16) (i 0) ⟨9 + (i 1).val, by omega⟩ ⟨9 + (i 2).val, by omega⟩) (fun a => ?_)) ?_
  · match a with
    | ⟨0, _⟩ => show (i 0).val = 0 + (i 0).val; omega
    | ⟨1, _⟩ => show 9 + (i 1).val = 9 + (i 1).val; rfl
    | ⟨2, _⟩ => show 9 + (i 2).val = 9 + (i 2).val; rfl
  · exact at3_ix x2 _ _ _

/-- The block of degree 3 rotated back, at `(n, μ, j)`. -/
theorem v122_row (j : S50000x64x7.Idx) (n μ c : ℕ) (hn : (j 0).val = n) (hμ : (j 1).val = μ) (hc : (j 2).val = c) :
    Vals.v122 (F := Ideal) x0 x2 x3 x4 x5 x6 x7 j
      = Spec.out (fun k => at2 x0 n k) (fun a a' => at3 x2 n a a') (at2 x3) (at1 x4) (at2 x5) (at2 x6) (at2 x7) 3 μ c := by
  subst hn hμ hc
  refine Eq.trans (dot7_apply (Vals.v120 (F := Ideal) x0 x2 x3 x4 x5 x6 x7) (Vals.v121 (F := Ideal) x0 x2 x3 x4 x5 x6 x7) j) ?_
  rw [out_3]
  refine Finset.sum_congr rfl fun k _ => ?_
  rw [v120_C x0 x2 x3 x4 x5 x6 x7 h26 h44 h58 h66, m121 x0 x2 x3 x4 x5 x6 x7 h26 h44 h58 h66]

/-- Degree 3 of the result: column `q` of its 448 is channel `q / 7`, component `q % 7`. -/
theorem v123_row (i : S50000x448.Idx) (n q : ℕ) (hn : (i 0).val = n) (hq : (i 1).val = q) :
    Vals.v123 (F := Ideal) x0 x2 x3 x4 x5 x6 x7 i
      = Spec.out (fun k => at2 x0 n k) (fun a a' => at3 x2 n a a') (at2 x3) (at1 x4) (at2 x5) (at2 x6) (at2 x7) 3 (q / 7) (q % 7) := by
  have h0 : (i 0).val < 50000 := (i 0).isLt
  have h1 : (i 1).val < 448 := (i 1).isLt
  refine Eq.trans (shapeCast_apply (Vals.v122 (F := Ideal) x0 x2 x3 x4 x5 x6 x7) _ i
    (ix3 (n0 := 50000) (n1 := 64) (n2 := 7) (i 0) ⟨(i 1).val / 7, by omega⟩ ⟨(i 1).val % 7, by omega⟩) ?_) ?_
  · rw [Shape.rowMajor_val_three, Shape.rowMajor_val_two]
    show ((i 0).val * 64 + (i 1).val / 7) * 7 + (i 1).val % 7 = (i 0).val * 448 + (i 1).val
    omega
  · exact v122_row x0 x2 x3 x4 x5 x6 x7 h26 h44 h58 h66 _ n (q / 7) (q % 7) hn (by show (i 1).val / 7 = q / 7; rw [hq])
      (by show (i 1).val % 7 = q % 7; rw [hq])

/-! ### The four degrees side by side -/

/-- The reference's result at an index is the specification's. -/
theorem v124_row (i : S50000x1024.Idx) :
    Vals.v124 (F := Ideal) x0 x2 x3 x4 x5 x6 x7 i = Spec.Gfull x0 x2 x3 x4 x5 x6 x7 (i 0).val (i 1).val := by
  have h0 : (i 0).val < 50000 := (i 0).isLt
  have h1 : (i 1).val < 1024 := (i 1).isLt
  unfold Spec.Gfull Spec.G
  by_cases c0 : (i 1).val < 64
  · rw [if_pos c0, out_0]
    refine Eq.trans (cat_piece (t := S50000x1024) 1 _ _ i 0 S50000x64 (Vals.v69 (F := Ideal) x0 x2 x3 x4 x5 x6 x7) (by rfl) (by rfl) 0 (by rfl)
      (ix2 (n0 := 50000) (n1 := 64) (i 0) ⟨(i 1).val, c0⟩) (fun b hb => ?_) ?_) ?_
    · match b, hb with
      | ⟨0, _⟩, _ => rfl
      | ⟨1, _⟩, hb => exact absurd (Fin.ext rfl) hb
    · show 0 + (i 1).val = (i 1).val
      omega
    · exact v69_row x0 x2 x3 x4 x5 x6 x7 h26 h44 h58 h66 _ (i 0).val (i 1).val rfl rfl
  · rw [if_neg c0]
    by_cases c1 : (i 1).val < 256
    · rw [if_pos c1]
      refine Eq.trans (cat_piece (t := S50000x1024) 1 _ _ i 1 S50000x192 (Vals.v81 (F := Ideal) x0 x2 x3 x4 x5 x6 x7) (by rfl) (by rfl) 64 (by rfl)
        (ix2 (n0 := 50000) (n1 := 192) (i 0) ⟨(i 1).val - 64, by omega⟩) (fun b hb => ?_) ?_) ?_
      · match b, hb with
        | ⟨0, _⟩, _ => rfl
        | ⟨1, _⟩, hb => exact absurd (Fin.ext rfl) hb
      · show 64 + ((i 1).val - 64) = (i 1).val
        omega
      · exact v81_row x0 x2 x3 x4 x5 x6 x7 h26 h44 h58 h66 _ (i 0).val ((i 1).val - 64) rfl rfl
    · rw [if_neg c1]
      by_cases c2 : (i 1).val < 576
      · rw [if_pos c2]
        refine Eq.trans (cat_piece (t := S50000x1024) 1 _ _ i 2 S50000x320 (Vals.v99 (F := Ideal) x0 x2 x3 x4 x5 x6 x7) (by rfl) (by rfl) 256 (by rfl)
          (ix2 (n0 := 50000) (n1 := 320) (i 0) ⟨(i 1).val - 256, by omega⟩) (fun b hb => ?_) ?_) ?_
        · match b, hb with
          | ⟨0, _⟩, _ => rfl
          | ⟨1, _⟩, hb => exact absurd (Fin.ext rfl) hb
        · show 256 + ((i 1).val - 256) = (i 1).val
          omega
        · exact v99_row x0 x2 x3 x4 x5 x6 x7 h26 h44 h58 h66 _ (i 0).val ((i 1).val - 256) rfl rfl
      · rw [if_neg c2]
        refine Eq.trans (cat_piece (t := S50000x1024) 1 _ _ i 3 S50000x448 (Vals.v123 (F := Ideal) x0 x2 x3 x4 x5 x6 x7) (by rfl) (by rfl) 576 (by rfl)
          (ix2 (n0 := 50000) (n1 := 448) (i 0) ⟨(i 1).val - 576, by omega⟩) (fun b hb => ?_) ?_) ?_
        · match b, hb with
          | ⟨0, _⟩, _ => rfl
          | ⟨1, _⟩, hb => exact absurd (Fin.ext rfl) hb
        · show 576 + ((i 1).val - 576) = (i 1).val
          omega
        · exact v123_row x0 x2 x3 x4 x5 x6 x7 h26 h44 h58 h66 _ (i 0).val ((i 1).val - 576) rfl rfl

end Ref

end Cert.ReferenceIdeal.Out

end
-- ==== Proof.RefValue.lean ====
/-
  The reference program's result is the specification.

  Every weakly fair execution of the reference terminates with its result buffer at the last operation's value of the
  seven arrays it reads, and its arguments as launched. Over the extended reals that value, read at an index, is the
  specification's `Gfull`: the forward half gives the four mixes of each row (the order-0 mix and the order ∓1, ∓2, ∓3
  mixes), and the second half regroups them by degree, rotates back and lays the degrees side by side.
-/
import proofs.«104001_j24927990186029_2_alg».proof.Proof.RefRun
import proofs.«104001_j24927990186029_2_alg».proof.Proof.RefMix
import proofs.«104001_j24927990186029_2_alg».proof.Proof.RefOut

noncomputable section

namespace Cert.ReferenceIdeal.RefValue

open Cert.Spec Cert.ReferenceIdeal Idealize.ShloMosaic Idealize.ShloMosaic.TcCoe Idealize.SL.Sem Idealize.ShloMosaic.StableHlo

/-- The last operation's value is the specification at every index. -/
theorem v124_eq (x0 : (⟨S50000x1024, .f32⟩ : BufTy).Contents (Elt Ideal)) (x2 : (⟨S50000x16x16, .f32⟩ : BufTy).Contents (Elt Ideal))
    (x3 : (⟨S256x256, .f32⟩ : BufTy).Contents (Elt Ideal)) (x4 : (⟨S256, .f32⟩ : BufTy).Contents (Elt Ideal))
    (x5 : (⟨S192x192, .f32⟩ : BufTy).Contents (Elt Ideal)) (x6 : (⟨S128x128, .f32⟩ : BufTy).Contents (Elt Ideal))
    (x7 : (⟨S64x64, .f32⟩ : BufTy).Contents (Elt Ideal)) :
    Vals.v124 (F := Ideal) x0 x2 x3 x4 x5 x6 x7
      = fun i : S50000x1024.Idx => Spec.Gfull x0 x2 x3 x4 x5 x6 x7 (i 0).val (i 1).val :=
  funext fun i => Out.v124_row x0 x2 x3 x4 x5 x6 x7 (Mix.v26_row x0 x2 x3 x4 x5 x6 x7) (Mix.v44_row x0 x2 x3 x4 x5 x6 x7)
    (Mix.v58_row x0 x2 x3 x4 x5 x6 x7) (Mix.v66_row x0 x2 x3 x4 x5 x6 x7) i

/-- The reference runs, ends with the specification in its result buffer and leaves its arguments as launched. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v124)
        = (fun i : S50000x1024.Idx => Spec.Gfull (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (v124_eq _ _ _ _ _ _ _), (h c).2⟩) (Run.run m ρ)

/-- The reference runs and leaves its arguments as launched. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => (h c).2) (Run.run m ρ)

end Cert.ReferenceIdeal.RefValue

end
-- ==== Proof.lean ====
/-
  The certificate: a Pallas kernel for an SO(2)-equivariant channel mixing against its plain reference.

  Both programs take 50000 rows of 1024 features (64 channels of each degree 0..3, degree `l` with `2 l + 1` components),
  a 16 × 16 block-diagonal rotation matrix per row, and four mixing matrices with a bias. Per row: rotate each degree's
  components by its block of the matrix; mix, across channels and degrees, the components of equal order `m` (order 0
  through `W_m0` plus the bias, orders `∓m` through `W_m`); regroup by degree and rotate back by the transposed block.
  The kernel works on 125 blocks of 400 rows, on component-major slabs the host lays out before the call and
  re-interleaves after it, and unrolls every rotation as products of 64-wide columns; the reference uses batched
  contractions. Over the extended reals the two compute, for every row and column, the same nested sums of the same
  products in the same order — `Spec.Gfull` — so no algebraic law beyond that of the index arithmetic is used, and the
  precondition is never opened.

  The three frames: each program terminates without a fault with its eight arguments unchanged — the two kernel
  programs by the pipeline's frame theorem around the one call (the body run symbolically once, at a generic point), the
  reference as a straight line of 125 array operations. The idealization rewrote nothing, so the kernel's idealized
  program is its own text read over the extended reals.
-/
import proofs.«104001_j24927990186029_2_alg».proof.Defs
import proofs.«104001_j24927990186029_2_alg».proof.Proof.Gen.Kernel
import proofs.«104001_j24927990186029_2_alg».proof.Proof.Gen.KernelIdeal
import proofs.«104001_j24927990186029_2_alg».proof.Proof.Gen.ReferenceIdeal
import proofs.«104001_j24927990186029_2_alg».proof.Proof.Gen.Pre_finite_inputs
import proofs.«104001_j24927990186029_2_alg».proof.Proof.FrameBits
import proofs.«104001_j24927990186029_2_alg».proof.Proof.FrameIdeal
import proofs.«104001_j24927990186029_2_alg».proof.Proof.KernelRun
import proofs.«104001_j24927990186029_2_alg».proof.Proof.RefValue

noncomputable section

namespace Cert.Proof

open Idealize.ShloMosaic Idealize.ShloMosaic.TcCoe Idealize.SL.Sem

/-- The word-level kernel program runs to the end and leaves its arguments unchanged. -/
theorem frame_kernel : Cert.frame_Kernel (hKernel := Cert.Kernel.Gen.facts) (hPre_finite_inputs := Cert.Pre_finite_inputs.Gen.facts) :=
  fun m ρ _ => Cert.Kernel.Frame.frame (F := Bits) m ρ

/-- So does the kernel program read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Frame.frame m ρ

/-- And the reference. -/
theorem frame_referenceIdeal : Cert.frame_ReferenceIdeal (hReferenceIdeal := Cert.ReferenceIdeal.Gen.facts) (hPre_finite_inputs := Cert.Pre_finite_inputs.Gen.facts) :=
  fun m ρ _ => Cert.ReferenceIdeal.RefValue.frame m ρ

/-- The idealization rewrote no operation. -/
theorem preserves : Cert.preserves_Kernel_KernelIdeal := trivial

/-- From memories agreeing on the arguments both programs end with the specification of those arguments in their
    result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Value.run_G m ρ, ?_⟩
  refine (θ_run Cert.ReferenceIdeal.defs _ _).mono (fun r h c => ⟨(h c).1.trans ?_, (h c).2⟩)
    (Cert.ReferenceIdeal.RefValue.run_G m' ρ')
  obtain ⟨a0, -, a2, a3, a4, a5, a6, a7⟩ := hagree c
  rw [a0, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
